-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1024x100000 : Shape := ⟨2, ![1024, 100000]⟩
abbrev S1024 : Shape := ⟨1, ![1024]⟩
abbrev S100000 : Shape := ⟨1, ![100000]⟩
abbrev S_ : Shape := ⟨0, ![]⟩

class Facts : Prop where
  bcast_S_S1024x100000 : S_.BroadcastsInDim S1024x100000 (![] : Fin 0 → Fin S1024x100000.rank)
  reducesTo_S1024x100000_S_d0_1 : S1024x100000.ReducesTo [0, 1] S_
  h_S_ : 0 < S_.numel
  bcast_S_S1024 : S_.BroadcastsInDim S1024 (![] : Fin 0 → Fin S1024.rank)
  reducesTo_S1024_S_d0 : S1024.ReducesTo [0] S_
  bcast_S_S100000 : S_.BroadcastsInDim S100000 (![] : Fin 0 → Fin S100000.rank)
  reducesTo_S100000_S_d0 : S100000.ReducesTo [0] S_

variable [Facts]

def fn_part1 {F : FTy → Type} [FloatOps F] (main_v10 : IVec S_ 1) (main_v15 : IVec S100000 1) (main_c_5 : IVec S_ 1) : IVec S_ 1 :=
  let main_v16 : IVec S_ 1 := (fun x v => Host.reduce IntOp.andi x v reducesTo_S100000_S_d0 h_S_) main_v15 main_c_5
  let main_v17 : IVec S_ 1 := andi main_v10 main_v16
  main_v17

def fn {F : FTy → Type} [FloatOps F] (main_arg0 : FVec F S1024x100000 .f32) (main_arg1 : IVec S1024 32) (main_arg2 : IVec S100000 32) : IVec S_ 1 :=
  let main_v0 : FVec F S1024x100000 .f32 := Host.absf main_arg0
  let main_cst : FVec F S_ .f32 := constant S_ .f32 0x7F800000#32
  let main_v1 : FVec F S1024x100000 .f32 := broadcastInDim S1024x100000 ![] bcast_S_S1024x100000 main_cst
  let main_v2 : IVec S1024x100000 1 := cmpf .olt main_v0 main_v1
  let main_c : IVec S_ 1 := constantI S_ 1 1#1
  let main_v3 : IVec S_ 1 := (fun x v => Host.reduce IntOp.andi x v reducesTo_S1024x100000_S_d0_1 h_S_) main_v2 main_c
  let main_c_0 : IVec S_ 32 := constantI S_ 32 0#32
  let main_v4 : IVec S1024 32 := broadcastInDim S1024 ![] bcast_S_S1024 main_c_0
  let main_v5 : IVec S1024 1 := cmpi .sge main_arg1 main_v4
  let main_c_1 : IVec S_ 32 := constantI S_ 32 99999#32
  let main_v6 : IVec S1024 32 := broadcastInDim S1024 ![] bcast_S_S1024 main_c_1
  let main_v7 : IVec S1024 1 := cmpi .sle main_arg1 main_v6
  let main_v8 : IVec S1024 1 := andi main_v5 main_v7
  let main_c_2 : IVec S_ 1 := constantI S_ 1 1#1
  let main_v9 : IVec S_ 1 := (fun x v => Host.reduce IntOp.andi x v reducesTo_S1024_S_d0 h_S_) main_v8 main_c_2
  let main_v10 : IVec S_ 1 := andi main_v3 main_v9
  let main_c_3 : IVec S_ 32 := constantI S_ 32 0#32
  let main_v11 : IVec S100000 32 := broadcastInDim S100000 ![] bcast_S_S100000 main_c_3
  let main_v12 : IVec S100000 1 := cmpi .sge main_arg2 main_v11
  let main_c_4 : IVec S_ 32 := constantI S_ 32 999#32
  let main_v13 : IVec S100000 32 := broadcastInDim S100000 ![] bcast_S_S100000 main_c_4
  let main_v14 : IVec S100000 1 := cmpi .sle main_arg2 main_v13
  let main_v15 : IVec S100000 1 := andi main_v12 main_v14
  let main_c_5 : IVec S_ 1 := constantI S_ 1 1#1
  fn_part1 (F := F) main_v10 main_v15 main_c_5
-- ==== Kernel.lean ====
abbrev S1024x100000 : Shape := ⟨2, ![1024, 100000]⟩
abbrev S1024 : Shape := ⟨1, ![1024]⟩
abbrev S100000 : Shape := ⟨1, ![100000]⟩
abbrev S32 : Shape := ⟨1, ![32]⟩
abbrev S_ : Shape := ⟨0, ![]⟩
abbrev S100000x1024 : Shape := ⟨2, ![100000, 1024]⟩
abbrev S100000x1 : Shape := ⟨2, ![100000, 1]⟩
abbrev S1x1024 : Shape := ⟨2, ![1, 1024]⟩
abbrev S1x1 : Shape := ⟨2, ![1, 1]⟩
abbrev S2000x1024 : Shape := ⟨2, ![2000, 1024]⟩
abbrev S2000x1 : Shape := ⟨2, ![2000, 1]⟩
abbrev S1x1x1024 : Shape := ⟨3, ![1, 1, 1024]⟩
abbrev S1 : Shape := ⟨1, ![1]⟩
abbrev S1x1x1 : Shape := ⟨3, ![1, 1, 1]⟩

abbrev nBuf : Table → Nat
  | .hbm => 10
  | .local .tc .vmem => 8
  | .local .tc .smem => 1
  | .local .scVector .vmem => 2
  | _ => 0

abbrev bufTy : (tb : Table) → Fin (nBuf tb) → BufTy
  | .hbm, ⟨0, _⟩ => ⟨S1024x100000, .f32⟩
  | .hbm, ⟨1, _⟩ => ⟨S1024, .i32⟩
  | .hbm, ⟨2, _⟩ => ⟨S100000, .i32⟩
  | .hbm, ⟨3, _⟩ => ⟨S1024, .i32⟩
  | .hbm, ⟨4, _⟩ => ⟨S100000x1024, .f32⟩
  | .hbm, ⟨5, _⟩ => ⟨S100000x1, .i32⟩
  | .hbm, ⟨6, _⟩ => ⟨S1x1024, .i32⟩
  | .hbm, ⟨7, _⟩ => ⟨S1x1024, .i32⟩
  | .hbm, ⟨8, _⟩ => ⟨S1x1, .f32⟩
  | .hbm, ⟨9, _⟩ => ⟨S_, .f32⟩
  | .local .tc .vmem, ⟨0, _⟩ => ⟨S2000x1024, .f32⟩
  | .local .tc .vmem, ⟨1, _⟩ => ⟨S2000x1024, .f32⟩
  | .local .tc .vmem, ⟨2, _⟩ => ⟨S2000x1, .i32⟩
  | .local .tc .vmem, ⟨3, _⟩ => ⟨S2000x1, .i32⟩
  | .local .tc .vmem, ⟨4, _⟩ => ⟨S1x1024, .i32⟩
  | .local .tc .vmem, ⟨5, _⟩ => ⟨S1x1024, .i32⟩
  | .local .tc .vmem, ⟨6, _⟩ => ⟨S1x1024, .f32⟩
  | .local .tc .vmem, ⟨7, _⟩ => ⟨S1x1024, .f32⟩
  | .local .tc .smem, ⟨0, _⟩ => ⟨S1x1, .f32⟩
  | .local .scVector .vmem, ⟨0, _⟩ => ⟨S32, .i32⟩
  | .local .scVector .vmem, ⟨1, _⟩ => ⟨S32, .i32⟩
  | _, _ => ⟨S1024x100000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_arg1_scv : Ref sig .scVector := ⟨.hbm, 1, rfl⟩
abbrev main_arg2_scv : Ref sig .scVector := ⟨.hbm, 2, rfl⟩
abbrev main_v0_scv : Ref sig .scVector := ⟨.hbm, 3, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_scratch0 : Ref sig .tc := ⟨.vmem, 6, rfl⟩
abbrev cc1_scratch1 : Ref sig .tc := ⟨.vmem, 7, rfl⟩
abbrev cc1_stg4_0 : Ref sig .tc := ⟨.smem, 0, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem3_0 : DmaSem sig := 8
abbrev cc1_sem4_0 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
abbrev grid1 : Pipeline.Grid := ⟨1, ![50], ![false]⟩

def k1_cond2 (i : grid1.Coords) : BitVec 1 :=
  let arg0 : BitVec 32 := BitVec.ofNat 32 (i 0).val
  let c49_i32 : BitVec 32 := 49#32
  let v40 : BitVec 1 := Scalar.cmpi .eq arg0 c49_i32
  let v41 : BitVec 32 := Scalar.extui v40
  let c0_i32_19 : BitVec 32 := 0#32
  let v42 : BitVec 1 := Scalar.cmpi .ne v41 c0_i32_19
  v42

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1024 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .smem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S100000_S100000_0 : ∀ a, (![0] : Fin 1 → Nat) a + S100000.size a ≤ S100000.size a
  gathers_S100000_S32 : S100000.Gathers 0 S32
  transposes_S1024x100000_S100000x1024_1_0 : S1024x100000.Transposes [1, 0] S100000x1024
  shapeCasts_S100000_S100000x1 : S100000.ShapeCasts S100000x1
  shapeCasts_S1024_S1x1024 : S1024.ShapeCasts S1x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S2000x1024_S2000x1024_0_0 : ∀ a, (![0, 0] : Fin 2 → Nat) a + S2000x1024.size a ≤ S2000x1024.size a
  h_S2000x1024 : 0 < S2000x1024.numel
  shapeCasts_S2000x1024_S2000x1024 : S2000x1024.ShapeCasts S2000x1024
  iota_S2000x1_d0_w32 : S2000x1.Iotas .tc 32 [0]
  broadcasts_S2000x1_S2000x1024 : S2000x1.Broadcasts S2000x1024
  broadcasts_S1x1024_S2000x1024 : S1x1024.Broadcasts S2000x1024
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  reduces_S2000x1024_S1024 : S2000x1024.Reduces [0] S1024
  shapeCasts_S1x1024_S1x1x1024 : S1x1024.ShapeCasts S1x1x1024
  reduces_S1x1x1024_S1 : S1x1x1024.Reduces [1, 2] S1
  shapeCasts_S1_S1x1x1 : S1.ShapeCasts S1x1x1
  inpos_S1x1x1_p0_0_0 : ∀ a, (![0, 0, 0] : Fin 3 → Nat) a < S1x1x1.size a
  inb_S1x1_S1x1_0_0 : ∀ a, (![0, 0] : Fin 2 → Nat) a + S1x1.size a ≤ S1x1.size a
  numel1_S1x1 : S1x1.numel = 1
  shapeCasts_S1x1_S_ : S1x1.ShapeCasts S_
  hcc0_scratch2 : 0 + S_.numel ≤ 10
  hcc0_scoped0 : 1 + S_.numel ≤ 10
  hcc0_scoped1 : 2 + S_.numel ≤ 10
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S32.size a ≤ S1024.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x1024.size a ≤ S100000x1024.size a
  hwx1_0 : ∀ i : grid1.Coords, EltTy.bits .f32 = 32 ∨ (Rect.block (s := S100000x1024) S2000x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .i32 = 32 ∨ (Rect.block (s := S100000x1) S2000x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .i32 = 32 ∨ (Rect.block (s := S1x1024) S1x1024.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .i32 = 32 ∨ (Rect.block (s := S1x1024) S1x1024.size (cc1_transform_3 i) (hinb1_3 i)).WholeWords (EltTy.packing .i32)
  hstage1_4 : ∀ j, (stage1_4 j).IsWhole
  nbuf1_4 : grid1.bufCount reads1_4 false = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)

variable [Facts₀]

abbrev cc0_scratch2 : DmaSems sig S_ := SemArray.consecutive 0 S_ hcc0_scratch2
abbrev cc0_scoped0 : DmaSems sig S_ := SemArray.consecutive 1 S_ hcc0_scoped0
abbrev cc0_scoped1 : DmaSems sig S_ := SemArray.consecutive 2 S_ hcc0_scoped1

abbrev win1_0 : Pipeline.Window sig grid1 :=
  Pipeline.Window.ofSpec (Memref.whole main_v1) S2000x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x1.size cc1_transform_4 reads1_4 true false 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S1024x100000 : Shape := ⟨2, ![1024, 100000]⟩
abbrev S1024 : Shape := ⟨1, ![1024]⟩
abbrev S100000 : Shape := ⟨1, ![100000]⟩
abbrev S_ : Shape := ⟨0, ![]⟩
abbrev S1024x1 : Shape := ⟨2, ![1024, 1]⟩
abbrev S1 : Shape := ⟨1, ![1]⟩
abbrev S1x1 : Shape := ⟨2, ![1, 1]⟩
abbrev S1x100000 : Shape := ⟨2, ![1, 100000]⟩
abbrev S1024x2 : Shape := ⟨2, ![1024, 2]⟩

abbrev nBuf : Space → Nat
  | .hbm => 81
  | .vmem => 0
  | .smem => 0
  | _ => 0

abbrev bufTy : (tb : Table) → Fin (tcTables nBuf tb) → BufTy
  | .hbm, ⟨0, _⟩ => ⟨S1024x100000, .f32⟩
  | .hbm, ⟨1, _⟩ => ⟨S1024, .i32⟩
  | .hbm, ⟨2, _⟩ => ⟨S100000, .i32⟩
  | .hbm, ⟨3, _⟩ => ⟨S1024x100000, .f32⟩
  | .hbm, ⟨4, _⟩ => ⟨S_, .i32⟩
  | .hbm, ⟨5, _⟩ => ⟨S1024, .i32⟩
  | .hbm, ⟨6, _⟩ => ⟨S1024, .i1⟩
  | .hbm, ⟨7, _⟩ => ⟨S_, .i32⟩
  | .hbm, ⟨8, _⟩ => ⟨S1024, .i32⟩
  | .hbm, ⟨9, _⟩ => ⟨S1024, .i32⟩
  | .hbm, ⟨10, _⟩ => ⟨S1024, .i32⟩
  | .hbm, ⟨11, _⟩ => ⟨S1024x1, .i32⟩
  | .hbm, ⟨12, _⟩ => ⟨S1, .i32⟩
  | .hbm, ⟨13, _⟩ => ⟨S_, .i32⟩
  | .hbm, ⟨14, _⟩ => ⟨S1024x1, .i32⟩
  | .hbm, ⟨15, _⟩ => ⟨S1024x1, .i1⟩
  | .hbm, ⟨16, _⟩ => ⟨S1x1, .i32⟩
  | .hbm, ⟨17, _⟩ => ⟨S1024x1, .i32⟩
  | .hbm, ⟨18, _⟩ => ⟨S1024x1, .i1⟩
  | .hbm, ⟨19, _⟩ => ⟨S1024x1, .i1⟩
  | .hbm, ⟨20, _⟩ => ⟨S_, .i1⟩
  | .hbm, ⟨21, _⟩ => ⟨S1024, .i1⟩
  | .hbm, ⟨22, _⟩ => ⟨S1024, .i32⟩
  | .hbm, ⟨23, _⟩ => ⟨S_, .i32⟩
  | .hbm, ⟨24, _⟩ => ⟨S1024, .i32⟩
  | .hbm, ⟨25, _⟩ => ⟨S1024, .i32⟩
  | .hbm, ⟨26, _⟩ => ⟨S1024x1, .i32⟩
  | .hbm, ⟨27, _⟩ => ⟨S1x100000, .i32⟩
  | .hbm, ⟨28, _⟩ => ⟨S1024x100000, .i32⟩
  | .hbm, ⟨29, _⟩ => ⟨S1024x100000, .i32⟩
  | .hbm, ⟨30, _⟩ => ⟨S1024x100000, .i1⟩
  | .hbm, ⟨31, _⟩ => ⟨S1024, .i32⟩
  | .hbm, ⟨32, _⟩ => ⟨S_, .i32⟩
  | .hbm, ⟨33, _⟩ => ⟨S1024, .i32⟩
  | .hbm, ⟨34, _⟩ => ⟨S1024, .i1⟩
  | .hbm, ⟨35, _⟩ => ⟨S_, .i32⟩
  | .hbm, ⟨36, _⟩ => ⟨S1024, .i32⟩
  | .hbm, ⟨37, _⟩ => ⟨S1024, .i32⟩
  | .hbm, ⟨38, _⟩ => ⟨S1024, .i32⟩
  | .hbm, ⟨39, _⟩ => ⟨S_, .i32⟩
  | .hbm, ⟨40, _⟩ => ⟨S1024, .i32⟩
  | .hbm, ⟨41, _⟩ => ⟨S1024, .i1⟩
  | .hbm, ⟨42, _⟩ => ⟨S_, .i32⟩
  | .hbm, ⟨43, _⟩ => ⟨S1024, .i32⟩
  | .hbm, ⟨44, _⟩ => ⟨S1024, .i32⟩
  | .hbm, ⟨45, _⟩ => ⟨S1024, .i32⟩
  | .hbm, ⟨46, _⟩ => ⟨S1024x1, .i32⟩
  | .hbm, ⟨47, _⟩ => ⟨S1024x1, .i32⟩
  | .hbm, ⟨48, _⟩ => ⟨S1024x2, .i32⟩
  | .hbm, ⟨49, _⟩ => ⟨S_, .f32⟩
  | .hbm, ⟨50, _⟩ => ⟨S1024, .f32⟩
  | .hbm, ⟨51, _⟩ => ⟨S1024x100000, .f32⟩
  | .hbm, ⟨52, _⟩ => ⟨S1024x100000, .f32⟩
  | .hbm, ⟨53, _⟩ => ⟨S1024x100000, .f32⟩
  | .hbm, ⟨54, _⟩ => ⟨S_, .f32⟩
  | .hbm, ⟨55, _⟩ => ⟨S1024, .f32⟩
  | .hbm, ⟨56, _⟩ => ⟨S_, .f32⟩
  | .hbm, ⟨57, _⟩ => ⟨S1024, .f32⟩
  | .hbm, ⟨58, _⟩ => ⟨S1024, .f32⟩
  | .hbm, ⟨59, _⟩ => ⟨S_, .f32⟩
  | .hbm, ⟨60, _⟩ => ⟨S1024, .f32⟩
  | .hbm, ⟨61, _⟩ => ⟨S1024, .f32⟩
  | .hbm, ⟨62, _⟩ => ⟨S1024, .f32⟩
  | .hbm, ⟨63, _⟩ => ⟨S1024, .f32⟩
  | .hbm, ⟨64, _⟩ => ⟨S_, .f32⟩
  | .hbm, ⟨65, _⟩ => ⟨S1024, .f32⟩
  | .hbm, ⟨66, _⟩ => ⟨S1024, .i1⟩
  | .hbm, ⟨67, _⟩ => ⟨S_, .f32⟩
  | .hbm, ⟨68, _⟩ => ⟨S_, .f32⟩
  | .hbm, ⟨69, _⟩ => ⟨S1024, .f32⟩
  | .hbm, ⟨70, _⟩ => ⟨S1024, .f32⟩
  | .hbm, ⟨71, _⟩ => ⟨S1024, .f32⟩
  | .hbm, ⟨72, _⟩ => ⟨S_, .f32⟩
  | .hbm, ⟨73, _⟩ => ⟨S_, .f32⟩
  | .hbm, ⟨74, _⟩ => ⟨S1024, .f32⟩
  | .hbm, ⟨75, _⟩ => ⟨S1024, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | _, _ => ⟨S1024x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_c_4 : Ref sig .tc := ⟨.hbm, 23, rfl⟩
abbrev main_call0_v14 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_c : Ref sig .tc := ⟨.hbm, 32, rfl⟩
abbrev main_v8 : Ref sig .tc := ⟨.hbm, 33, rfl⟩
abbrev main_v9 : Ref sig .tc := ⟨.hbm, 34, rfl⟩
abbrev main_c_0 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_c_1 : Ref sig .tc := ⟨.hbm, 39, rfl⟩
abbrev main_v13 : Ref sig .tc := ⟨.hbm, 40, rfl⟩
abbrev main_v14 : Ref sig .tc := ⟨.hbm, 41, rfl⟩
abbrev main_c_2 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_cst : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_cst_3 : Ref sig .tc := ⟨.hbm, 54, rfl⟩
abbrev main_v25 : Ref sig .tc := ⟨.hbm, 55, rfl⟩
abbrev main_cst_4 : Ref sig .tc := ⟨.hbm, 56, rfl⟩
abbrev main_v26 : Ref sig .tc := ⟨.hbm, 57, rfl⟩
abbrev main_v27 : Ref sig .tc := ⟨.hbm, 58, rfl⟩
abbrev main_cst_5 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_cst_6 : Ref sig .tc := ⟨.hbm, 64, rfl⟩
abbrev main_v32 : Ref sig .tc := ⟨.hbm, 65, rfl⟩
abbrev main_v33 : Ref sig .tc := ⟨.hbm, 66, rfl⟩
abbrev main_cst_7 : Ref sig .tc := ⟨.hbm, 67, rfl⟩
abbrev main_call1_v0 : Ref sig .tc := ⟨.hbm, 68, rfl⟩
abbrev main_call1_v1 : Ref sig .tc := ⟨.hbm, 69, rfl⟩
abbrev main_v34 : Ref sig .tc := ⟨.hbm, 70, rfl⟩
abbrev main_v35 : Ref sig .tc := ⟨.hbm, 71, rfl⟩
abbrev main_cst_8 : Ref sig .tc := ⟨.hbm, 72, rfl⟩
abbrev main_call2_v0 : Ref sig .tc := ⟨.hbm, 73, rfl⟩
abbrev main_call2_v1 : Ref sig .tc := ⟨.hbm, 74, rfl⟩
abbrev main_v36 : Ref sig .tc := ⟨.hbm, 75, rfl⟩
abbrev main_cst_9 : Ref sig .tc := ⟨.hbm, 76, rfl⟩
abbrev main_v37 : Ref sig .tc := ⟨.hbm, 77, rfl⟩
abbrev main_v38 : Ref sig .tc := ⟨.hbm, 78, rfl⟩
abbrev main_cst_10 : Ref sig .tc := ⟨.hbm, 79, rfl⟩
abbrev main_v39 : Ref sig .tc := ⟨.hbm, 80, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  reducesTo_S1024x1_S1024_d1 : S1024x1.ReducesTo [1] S1024
  h_S_ : 0 < S_.numel
  shapeCasts_S1024_S1024x1 : S1024.ShapeCasts S1024x1
  bcast_S100000_S1x100000_1 : S100000.BroadcastsInDim S1x100000 (![1] : Fin 1 → Fin S1x100000.rank)
  bcast_S1024x1_S1024x100000_0_1 : S1024x1.BroadcastsInDim S1024x100000 (![0, 1] : Fin 2 → Fin S1024x100000.rank)
  bcast_S1x100000_S1024x100000_0_1 : S1x100000.BroadcastsInDim S1024x100000 (![0, 1] : Fin 2 → Fin S1024x100000.rank)
  concatenates_S1024x1_S1024x1_S1024x2_d1 : Shape.Concatenates [S1024x1, S1024x1] S1024x2 1
  reducesTo_S1024x100000_S1024_d1 : S1024x100000.ReducesTo [1] S1024
  reducesTo_S1024_S_d0 : S1024.ReducesTo [0] S_
  gather_S100000_S1024x1_S1024_n_0_n_n_0_1_1_wf : GatherDims.WF S100000 S1024x1 S1024 [] [0] [] [0] [] 1 ![1]
  scatter_S1024x100000_S1024x2_S1024_n_01_01_1_wf : ScatterDims.WF S1024x100000 S1024x2 S1024 [] [0, 1] [0, 1] 1

variable [Facts₀]

def gather_S100000_S1024x1_S1024_n_0_n_n_0_1_1 : GatherDims S100000 S1024x1 S1024 where
  offsetDims := []
  collapsedSliceDims := [0]
  operandBatchingDims := []
  startIndicesBatchingDims := []
  startIndexMap := [0]
  indexVectorDim := 1
  sliceSizes := ![1]
  wf := gather_S100000_S1024x1_S1024_n_0_n_n_0_1_1_wf
def scatter_S1024x100000_S1024x2_S1024_n_01_01_1 : ScatterDims S1024x100000 S1024x2 S1024 where
  updateWindowDims := []
  insertedWindowDims := [0, 1]
  scatterDimsToOperandDims := [0, 1]
  indexVectorDim := 1
  wf := scatter_S1024x100000_S1024x2_S1024_n_01_01_1_wf

class Facts : Prop extends Facts₀ where

variable [Facts]
-- ==== Proof.KI.Common.lean ====
/-
  Shared definitions for the kernel program read at any float instance: the launch configuration of its one
  SparseCore call, the ghost-state algebra (the launch handshakes' rounds, the TensorCore pipeline's staging
  cells' rounds, the transfers' counters), and what the call's handshakes carry.

  The SparseCore call gathers y = labels[indexes]: the 1024 indices are cut into 32 chunks of 32, chunk
  w = 2 s + c going to vector subcore s of SparseCore c. A task is handed its chunk of the index array and of
  the result array outright and a read share of the whole label table; it hands back the same, the result
  chunk holding, entry by entry, the label its index names.
-/
import proofs.«211976_g36739150250640_fold_wed_m_914_8_alg».proof.Defs
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Tactic
import Idealize.ShloMosaic.Lib.ValueIdx
import proofs.«211976_g36739150250640_fold_wed_m_914_8_alg».proof.Proof.Gen.KernelIdeal
import proofs.«211976_g36739150250640_fold_wed_m_914_8_alg».proof.Proof.Gen.KernelIdeal.Skeleton
import proofs.«211976_g36739150250640_fold_wed_m_914_8_alg».proof.Proof.Gen.KernelIdeal.Launch
import proofs.«211976_g36739150250640_fold_wed_m_914_8_alg».proof.Proof.Gen.KernelIdeal.Points

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP [FloatOps F] : Labels := Pipeline.Sig Λ₀ (Fin 1) fun p => (pcfgs (F := F) p).Adm
abbrev K [FloatOps F] : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero [FloatOps F] : (K (F := F)).nCore 0 = 2 := rfl
theorem nSub_zero [FloatOps F] : (K (F := F)).nSub 0 = 16 := rfl

theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds: the left factor. -/
abbrev EH : Emb UH (MT nD τ sig (HIx 1) (Elt F) ℕ UU ℕ) := embL
/-- The pipeline's staging cells' rounds: the left factor of the right factor; the counters are found by instance. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP 𝕄).LandsIn (upEmb : UEmb _ 𝕄) := by unfold EP; infer_instance

/-! ## The arrays and the chunks -/

variable (m : (ℓ : Loc nD τ sig) → Buf (Elt F) ℓ) (ρ : Dev nD → PrngReg)

/-- The scores, the indices, the labels (the arguments); the gathered labels (the call's result). -/
abbrev xLoc (d : Dev nD) : Loc nD τ sig := (SparseCore.T d).loc main_arg0
abbrev iLoc (d : Dev nD) : Loc nD τ sig := (SparseCore.T d).loc main_arg1
abbrev lLoc (d : Dev nD) : Loc nD τ sig := (SparseCore.T d).loc main_arg2
abbrev yLoc (d : Dev nD) : Loc nD τ sig := (SparseCore.T d).loc main_v0

theorem hdiv32 : 32 ∣ S1024.size 0 := ⟨32, rfl⟩
/-- Chunk `w` of a 1024-vector: the indices 32 w … 32 w + 31. -/
abbrev chunk (w : Fin 32) : Rect S1024 := Rect.part (s := S1024) (a₀ := 0) hdiv32 w
abbrev chunkSet (w : Fin 32) : Finset S1024.Idx := ((Memref.whole main_v0_scv : Memref sig .scVector .hbm S1024 .i32).view.slice (chunk w)).set

/-- The chunk of vector subcore `s` of SparseCore `c`. -/
def wOf (c : Fin 2) (s : Fin 16) : Fin 32 := ⟨2 * s.val + c.val, by omega⟩

/-- The label an index word names (zero for a word that names no column). -/
def labelAt (lab : S100000.Idx → BitVec 32) (v : BitVec 32) : BitVec 32 :=
  if h : v.toNat < 100000 then lab (ValueIdx.ix1 ⟨v.toNat, h⟩) else 0

/-- The gathered array: entry `j` is the label the `j`-th index names. -/
def gathered (d : Dev nD) : Buf (Elt F) (yLoc d) := fun j => labelAt (m (lLoc d)) (m (iLoc d) j)

/-- What the proof asks of the launch memory: every index names a column. -/
def PreOK : Prop := ∀ (d : Dev nD) (j : S1024.Idx), (m (iLoc d) j).toNat < 100000

/-! ## What the handshakes carry -/

/-- The read share of the label table that goes to chunk `w`'s task. -/
abbrev lShare (w : Fin 32) : PosShare TreeShare := Transfers.shareTok fullShare 32 w

/-- A task's operands: its chunk of the indices and of the result outright, a read share of the labels. -/
def goRes (d : Dev nD) (w : Fin 32) : sProp 𝕄 :=
  iprop((iLoc d ↦[chunkSet w]{fullShare} m (iLoc d)) ∗ (lLoc d ↦{lShare w} m (lLoc d)) ∗ (yLoc d ↦[chunkSet w]{fullShare} m (yLoc d)))
/-- A task's results: the same, the result chunk at the gathered labels. -/
def tdRes (d : Dev nD) (w : Fin 32) : sProp 𝕄 :=
  iprop((iLoc d ↦[chunkSet w]{fullShare} m (iLoc d)) ∗ (lLoc d ↦{lShare w} m (lLoc d)) ∗ (yLoc d ↦[chunkSet w]{fullShare} gathered m d))

variable [FloatOps F]

/-- The one call: each SparseCore takes its sixteen tasks' operands and brings back their results. -/
def P : (K (F := F)).Pay (nD := nD) (Val := Elt F) (Name := ℕ) (U := UU) where
  st := fun q d c => match q with | 0 => bigSep Finset.univ fun s : Fin 16 => goRes m d (wOf (Fin.cast nCore_zero c) s)
  dn := fun q d c => match q with | 0 => bigSep Finset.univ fun s : Fin 16 => tdRes m d (wOf (Fin.cast nCore_zero c) s)
  go := fun q d c s => match q with | 0 => goRes m d (wOf (Fin.cast nCore_zero c) (Fin.cast nSub_zero s))
  td := fun q d c s => match q with | 0 => tdRes m d (wOf (Fin.cast nCore_zero c) (Fin.cast nSub_zero s))
  x := fun _ _ => iprop(emp)

instance P_storable : (P (F := F) m).IsStorable where
  st q d c := match q with | 0 => by unfold P goRes; infer_instance
  dn q d c := match q with | 0 => by unfold P tdRes; infer_instance
  go q d c s := match q with | 0 => by unfold P goRes; infer_instance
  td q d c s := match q with | 0 => by unfold P tdRes; infer_instance

end Cert.Proof.KI

end
-- ==== Proof.KI.TcRun.lean ====
import proofs.«211976_g36739150250640_fold_wed_m_914_8_alg».proof.Proof.KI.Common
import Idealize.ShloMosaic.Lib.Pipeline.FrameBody
import Idealize.ShloMosaic.Lib.Ring
import Idealize.ShloMosaic.Lib.Pipeline.Value

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! # The TensorCore kernel's body, run once per control case

The body at grid point k loads block k of the transposed scores (2000 × 1024) and of the label column, the
row of gathered labels and the row of target indices, and adds to two carried accumulators (1 × 1024 each):
to the first the column sums of the masked exponentials over the rows whose label equals the column's gathered
label, to the second the column sums of all masked exponentials. At the first point both accumulators are
first reset to zero; at the last point the quotient row, its logarithms and the final scalar are formed and
stored in the one-word result. Three cases of the two conditionals occur on the grid of 50 points. -/

/-- The condition of the first conditional (reset the accumulators), from the grid coordinates. -/
abbrev cond1 (i : grid1.Coords) : Prop := (Scalar.cmpi .ne (Scalar.extui (Scalar.cmpi .eq (BitVec.ofNat 32 (i 0).val) 0#32)) 0#32) = 1#1

/-- It holds at the first point only; the second conditional's (form the result) at the last only. -/
theorem hcond1 : ∀ t : Fin cfg1.N, cond1 (grid1.coords t) ↔ t.val = 0 :=
  (by decide +kernel : ∀ t : Fin grid1.N, cond1 (grid1.coords t) ↔ t.val = 0)
theorem hcond2 : ∀ t : Fin cfg1.N, k1_cond2 (grid1.coords t) = 1#1 ↔ t.val = 49 :=
  (by decide +kernel : ∀ t : Fin grid1.N, k1_cond2 (grid1.coords t) = 1#1 ↔ t.val = 49)

/-- One point's step of the first accumulator: the old row plus the label-matched column sums of the block. -/
def stepP (i : grid1.Coords) (x1 : Vec F S2000x1024 .f32) (x2 : Vec F S2000x1 .i32) (x3 x4 : Vec F S1x1024 .i32) (xP : Vec F S1x1024 .f32) :
    Vec F S1x1024 .f32 := k1_pay6 i x1 x4 x2 x3 xP
/-- One point's step of the second accumulator: the old row plus the column sums of the block. -/
def stepZ (i : grid1.Coords) (x1 : Vec F S2000x1024 .f32) (x4 : Vec F S1x1024 .i32) (xZ : Vec F S1x1024 .f32) : Vec F S1x1024 .f32 :=
  k1_pay1 xZ (k1_pay7 i x1 x4)
/-- The accumulators' reset value. -/
def zeroP : Vec F S1x1024 .f32 := k1_pay3 (F := F)
def zeroZ : Vec F S1x1024 .f32 := k1_pay4 (F := F)
/-- The result word formed at the last point from the two accumulators. -/
def finish (xP xZ : Vec F S1x1024 .f32) : Vec F S1x1 .f32 := fun _ => k1_pay2 xP xZ

theorem hz2 : (![0, 0] : Fin 2 → ℕ) = fun _ => 0 := by funext a; fin_cases a <;> rfl

set_option maxHeartbeats 1000000 in
/-- A middle point: neither conditional taken. -/
theorem runB (c : Dev nD) (i : grid1.Coords)
    (arg1 : Memref sig .tc .vmem S2000x1024 .f32) (harg1 : arg1.IsWhole) (arg2 : Memref sig .tc .vmem S2000x1 .i32) (harg2 : arg2.IsWhole)
    (arg3 : Memref sig .tc .vmem S1x1024 .i32) (harg3 : arg3.IsWhole) (arg4 : Memref sig .tc .vmem S1x1024 .i32) (harg4 : arg4.IsWhole)
    (arg5 : Memref sig .tc .smem S1x1 .f32) (harg5 : arg5.IsWhole)
    (arg6 : Memref sig .tc .vmem S1x1024 .f32) (harg6 : arg6.IsWhole) (arg7 : Memref sig .tc .vmem S1x1024 .f32) (harg7 : arg7.IsWhole)
    (hc1 : ¬ cond1 i) (hc2 : ¬ k1_cond2 i = 1#1)
    (x1 : Vec F S2000x1024 .f32) (x2 : Vec F S2000x1 .i32) (x3 : Vec F S1x1024 .i32) (x4 : Vec F S1x1024 .i32)
    (x5 : Vec F S1x1 .f32) (xP : Vec F S1x1024 .f32) (xZ : Vec F S1x1024 .f32) (E : Set ℕ) (Kk : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ owns (c : Thread nD τ) arg6 fullShare xP ∗ owns (c : Thread nD τ) arg7 fullShare xZ
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (stepP i x1 x2 x3 x4 xP) ∗ owns (c : Thread nD τ) arg7 fullShare (stepZ i x1 x4 xZ)) -∗ Kk ⟨⟩))
      ⊢ wp frame (wpE (defs₀ (F := F)) Variants.none c none) E (cc1_body i arg1 harg1 arg2 harg2 arg3 harg3 arg4 harg4 arg5 harg5 arg6 harg6 arg7 harg7) Kk := by
  simp only [cc1_body_eq_skeleton]; unfold cc1_body_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  sl_exec (disch := first | exact hc1 | exact hc2)
  sl_step
  iapply Hk
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]
  · iexists _; isplitr; swap; · iexact H6
    ipureintro
    rw [View.read_writes_eq_canon _ _ _ (fun y => ⟨_, List.mem_singleton_self _, View.mem_set_unit_zero hz2 inb_S1x1024_S1x1024_0_0 y⟩), View.canon_unit_zero hz2]
    simp only [View.readAt_eq_ld, harg1.read_unread, harg2.read_unread, harg3.read_unread, harg4.read_unread, harg6.read_unread,
      View.ld_unit_zero (S := S2000x1024) hz2, View.ld_unit_zero (S := S1x1024) hz2, View.ld_unit_zero (S := S2000x1) hz2]
    rfl
  · iexists _; isplitr; swap; · iexact H7
    ipureintro
    rw [View.read_writes_eq_canon _ _ _ (fun y => ⟨_, List.mem_singleton_self _, View.mem_set_unit_zero hz2 inb_S1x1024_S1x1024_0_0 y⟩), View.canon_unit_zero hz2]
    simp only [View.readAt_eq_ld, harg1.read_unread, harg4.read_unread, harg7.read_unread,
      View.ld_unit_zero (S := S2000x1024) hz2, View.ld_unit_zero (S := S1x1024) hz2]
    rfl

set_option maxHeartbeats 1000000 in
/-- The first point: the accumulators reset, then stepped. -/
theorem runA (c : Dev nD) (i : grid1.Coords)
    (arg1 : Memref sig .tc .vmem S2000x1024 .f32) (harg1 : arg1.IsWhole) (arg2 : Memref sig .tc .vmem S2000x1 .i32) (harg2 : arg2.IsWhole)
    (arg3 : Memref sig .tc .vmem S1x1024 .i32) (harg3 : arg3.IsWhole) (arg4 : Memref sig .tc .vmem S1x1024 .i32) (harg4 : arg4.IsWhole)
    (arg5 : Memref sig .tc .smem S1x1 .f32) (harg5 : arg5.IsWhole)
    (arg6 : Memref sig .tc .vmem S1x1024 .f32) (harg6 : arg6.IsWhole) (arg7 : Memref sig .tc .vmem S1x1024 .f32) (harg7 : arg7.IsWhole)
    (hc1 : cond1 i) (hc2 : ¬ k1_cond2 i = 1#1)
    (x1 : Vec F S2000x1024 .f32) (x2 : Vec F S2000x1 .i32) (x3 : Vec F S1x1024 .i32) (x4 : Vec F S1x1024 .i32)
    (x5 : Vec F S1x1 .f32) (xP : Vec F S1x1024 .f32) (xZ : Vec F S1x1024 .f32) (E : Set ℕ) (Kk : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ owns (c : Thread nD τ) arg6 fullShare xP ∗ owns (c : Thread nD τ) arg7 fullShare xZ
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (stepP i x1 x2 x3 x4 zeroP) ∗ owns (c : Thread nD τ) arg7 fullShare (stepZ i x1 x4 zeroZ)) -∗ Kk ⟨⟩))
      ⊢ wp frame (wpE (defs₀ (F := F)) Variants.none c none) E (cc1_body i arg1 harg1 arg2 harg2 arg3 harg3 arg4 harg4 arg5 harg5 arg6 harg6 arg7 harg7) Kk := by
  simp only [cc1_body_eq_skeleton]; unfold cc1_body_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  sl_exec (disch := first | exact hc1 | exact hc2)
  sl_step
  iapply Hk
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]
  · iexists _; isplitr; swap; · iexact H6
    ipureintro
    sl_unfold_words
    rw [View.read_writes_eq_canon _ _ _ (fun y => ⟨_, List.mem_cons_self, View.mem_set_unit_zero hz2 inb_S1x1024_S1x1024_0_0 y⟩), View.canon_cons_unit_zero hz2]
    simp only [View.readAt_eq_ld, harg1.read_unread, harg2.read_unread, harg3.read_unread, harg4.read_unread, harg6.read_unread,
      View.ld_unit_zero (S := S2000x1024) hz2, View.ld_unit_zero (S := S1x1024) hz2, View.ld_unit_zero (S := S2000x1) hz2,
      View.readCov_unit_zero (S := S1x1024) _ hz2]
    rfl
  · iexists _; isplitr; swap; · iexact H7
    ipureintro
    sl_unfold_words
    rw [View.read_writes_eq_canon _ _ _ (fun y => ⟨_, List.mem_cons_self, View.mem_set_unit_zero hz2 inb_S1x1024_S1x1024_0_0 y⟩), View.canon_cons_unit_zero hz2]
    simp only [View.readAt_eq_ld, harg1.read_unread, harg4.read_unread, harg7.read_unread,
      View.ld_unit_zero (S := S2000x1024) hz2, View.ld_unit_zero (S := S1x1024) hz2, View.readCov_unit_zero (S := S1x1024) _ hz2]
    rfl

set_option maxHeartbeats 1000000 in
/-- The last point: the accumulators stepped, then the result word formed from them and stored. -/
theorem runC (c : Dev nD) (i : grid1.Coords)
    (arg1 : Memref sig .tc .vmem S2000x1024 .f32) (harg1 : arg1.IsWhole) (arg2 : Memref sig .tc .vmem S2000x1 .i32) (harg2 : arg2.IsWhole)
    (arg3 : Memref sig .tc .vmem S1x1024 .i32) (harg3 : arg3.IsWhole) (arg4 : Memref sig .tc .vmem S1x1024 .i32) (harg4 : arg4.IsWhole)
    (arg5 : Memref sig .tc .smem S1x1 .f32) (harg5 : arg5.IsWhole)
    (arg6 : Memref sig .tc .vmem S1x1024 .f32) (harg6 : arg6.IsWhole) (arg7 : Memref sig .tc .vmem S1x1024 .f32) (harg7 : arg7.IsWhole)
    (hc1 : ¬ cond1 i) (hc2 : k1_cond2 i = 1#1)
    (x1 : Vec F S2000x1024 .f32) (x2 : Vec F S2000x1 .i32) (x3 : Vec F S1x1024 .i32) (x4 : Vec F S1x1024 .i32)
    (x5 : Vec F S1x1 .f32) (xP : Vec F S1x1024 .f32) (xZ : Vec F S1x1024 .f32) (E : Set ℕ) (Kk : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ owns (c : Thread nD τ) arg6 fullShare xP ∗ owns (c : Thread nD τ) arg7 fullShare xZ
        ∗ (iprop(owns (c : Thread nD τ) arg1 fullShare x1 ∗ owns (c : Thread nD τ) arg2 fullShare x2 ∗ owns (c : Thread nD τ) arg3 fullShare x3
            ∗ owns (c : Thread nD τ) arg4 fullShare x4
            ∗ owns (c : Thread nD τ) arg5 fullShare (finish (stepP i x1 x2 x3 x4 xP) (stepZ i x1 x4 xZ))
            ∗ owns (c : Thread nD τ) arg6 fullShare (stepP i x1 x2 x3 x4 xP) ∗ owns (c : Thread nD τ) arg7 fullShare (stepZ i x1 x4 xZ)) -∗ Kk ⟨⟩))
      ⊢ wp frame (wpE (defs₀ (F := F)) Variants.none c none) E (cc1_body i arg1 harg1 arg2 harg2 arg3 harg3 arg4 harg4 arg5 harg5 arg6 harg6 arg7 harg7) Kk := by
  simp only [cc1_body_eq_skeleton]; unfold cc1_body_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  sl_exec (disch := first | exact hc1 | exact hc2)
  sl_step
  iapply Hk
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]
  · iexists _; isplitr; swap; · iexact H5
    ipureintro
    sl_unfold_words
    rw [View.read_writes_eq_canon _ _ _ (fun y => ⟨_, List.mem_singleton_self _, View.mem_set_unit_zero hz2 inb_S1x1_S1x1_0_0 y⟩), View.canon_unit_zero hz2]
    simp only [View.readAt_eq_ld, harg1.read_unread, harg2.read_unread, harg3.read_unread, harg4.read_unread, harg6.read_unread, harg7.read_unread,
      View.ld_unit_zero (S := S2000x1024) hz2, View.ld_unit_zero (S := S1x1024) hz2, View.ld_unit_zero (S := S2000x1) hz2,
      View.readCov_unit_zero (S := S1x1024) _ hz2]
    rfl
  isplitl [H6]
  · iexists _; isplitr; swap; · iexact H6
    ipureintro
    sl_unfold_words
    rw [View.read_writes_eq_canon _ _ _ (fun y => ⟨_, List.mem_singleton_self _, View.mem_set_unit_zero hz2 inb_S1x1024_S1x1024_0_0 y⟩), View.canon_unit_zero hz2]
    simp only [View.readAt_eq_ld, harg1.read_unread, harg2.read_unread, harg3.read_unread, harg4.read_unread, harg6.read_unread,
      View.ld_unit_zero (S := S2000x1024) hz2, View.ld_unit_zero (S := S1x1024) hz2, View.ld_unit_zero (S := S2000x1) hz2]
    rfl
  · iexists _; isplitr; swap; · iexact H7
    ipureintro
    sl_unfold_words
    rw [View.read_writes_eq_canon _ _ _ (fun y => ⟨_, List.mem_singleton_self _, View.mem_set_unit_zero hz2 inb_S1x1024_S1x1024_0_0 y⟩), View.canon_unit_zero hz2]
    simp only [View.readAt_eq_ld, harg1.read_unread, harg4.read_unread, harg7.read_unread,
      View.ld_unit_zero (S := S2000x1024) hz2, View.ld_unit_zero (S := S1x1024) hz2]
    rfl

end Cert.Proof.KI

end
-- ==== Proof.KI.TcData.lean ====
import proofs.«211976_g36739150250640_fold_wed_m_914_8_alg».proof.Proof.KI.TcRun
import Idealize.ShloMosaic.Lib.Pipeline.FrameBody
import Idealize.ShloMosaic.Lib.Ring
import Idealize.ShloMosaic.Lib.Pipeline.Value

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! # The TensorCore pipeline's proof data

The arrays as the region finds them are a parameter `V`. Each input window holds its block at every point;
the two accumulators are carried in the pipeline's invariant: before point 0 at anything, after point n at
the n-fold step of the reset value over blocks 0 … n. The one-word result window is idle except at the last
point, where it is left at the word formed from the two accumulators and written back. -/

abbrev adm : (p : Fin 1) → (pcfgs (F := F) p).Adm := fun p => (cfgs p).toPCfg_adm

abbrev sP : Memref sig .tc .vmem S1x1024 .f32 := Memref.whole cc1_scratch0
abbrev sZ : Memref sig .tc .vmem S1x1024 .f32 := Memref.whole cc1_scratch1

theorem h49 : 49 < cfg1.N := by decide

section Data

variable (c : Dev nD) (V : (b : Ref sig .tc) → Buf (Elt F) ((c : Thread nD τ).loc b))

/-- Window `w`'s block at point `t`, read off its array as the region finds it. -/
def iblk (w : Fin cfg1.W) (t : Fin cfg1.N) : ((cfg1.win w).xblock (cfg1.grid.coords t)).Idx → Elt F (cfg1.win w).elt :=
  ((cfg1.win w).blk t).view.read (Elt F) (V (Pipeline.arrRef spec1 w))

/-- The first accumulator after point `n`. -/
def accP : (n : ℕ) → n < cfg1.N → Vec F S1x1024 .f32
  | 0, h => stepP (grid1.coords ⟨0, h⟩) (iblk c V 0 ⟨0, h⟩) (iblk c V 1 ⟨0, h⟩) (iblk c V 2 ⟨0, h⟩) (iblk c V 3 ⟨0, h⟩) zeroP
  | n + 1, h => stepP (grid1.coords ⟨n + 1, h⟩) (iblk c V 0 ⟨n + 1, h⟩) (iblk c V 1 ⟨n + 1, h⟩) (iblk c V 2 ⟨n + 1, h⟩) (iblk c V 3 ⟨n + 1, h⟩)
      (accP n (Nat.lt_of_succ_lt h))

/-- The second accumulator after point `n`. -/
def accZ : (n : ℕ) → n < cfg1.N → Vec F S1x1024 .f32
  | 0, h => stepZ (grid1.coords ⟨0, h⟩) (iblk c V 0 ⟨0, h⟩) (iblk c V 3 ⟨0, h⟩) zeroZ
  | n + 1, h => stepZ (grid1.coords ⟨n + 1, h⟩) (iblk c V 0 ⟨n + 1, h⟩) (iblk c V 3 ⟨n + 1, h⟩) (accZ n (Nat.lt_of_succ_lt h))

/-- The result word: formed from the accumulators after the last point. -/
def outWord : Vec F S1x1 .f32 := finish (accP c V 49 h49) (accZ c V 49 h49)

/-- The invariant: the two accumulators, at anything before the first point, at their values after point `n`. -/
def ΦS : Fin (cfg1.N + 1) → sProp 𝕄
  | ⟨0, _⟩ => iprop((∃ X, owns (c : Thread nD τ) sP fullShare X) ∗ (∃ X, owns (c : Thread nD τ) sZ fullShare X))
  | ⟨n + 1, h⟩ => iprop(owns (c : Thread nD τ) sP fullShare (accP c V n (Nat.lt_of_succ_lt_succ h))
      ∗ owns (c : Thread nD τ) sZ fullShare (accZ c V n (Nat.lt_of_succ_lt_succ h)))

/-- The proof data of the one pipeline on core `c`: the core owes nothing throughout, and the pairs its waits have
    recorded stay at or below the level the launch's handshakes left them at. -/
def dat : Dat τ (Elt F) (HIx 1) ℕ UU ℕ cfg1 c where
  A w := V (Pipeline.arrRef spec1 w)
  after w t := match w with
    | ⟨0, _⟩ => iblk c V 0 t
    | ⟨1, _⟩ => iblk c V 1 t
    | ⟨2, _⟩ => iblk c V 2 t
    | ⟨3, _⟩ => iblk c V 3 t
    | ⟨4, _⟩ => outWord c V
  Φ := ΦS c V
  q _ := fullShare
  owed _ := 0
  recorded _ := {p | (K (F := F)).lev ((c : Thread nD τ), p.1) p.2 ≤ 8}

theorem A_eq (w : Fin cfg1.W) : (dat c V).A w = V (Pipeline.arrRef spec1 w) := by dsimp only [dat]
theorem after1_0 (t : Fin cfg1.N) : (dat c V).after 0 t = iblk c V 0 t := by dsimp only [dat]
theorem after1_1 (t : Fin cfg1.N) : (dat c V).after 1 t = iblk c V 1 t := by dsimp only [dat]
theorem after1_2 (t : Fin cfg1.N) : (dat c V).after 2 t = iblk c V 2 t := by dsimp only [dat]
theorem after1_3 (t : Fin cfg1.N) : (dat c V).after 3 t = iblk c V 3 t := by dsimp only [dat]
theorem after1_4 (t : Fin cfg1.N) : (dat c V).after 4 t = outWord c V := by dsimp only [dat]

/-- Each input's current staging buffer holds its block at every point, fetched there or not. -/
theorem before1_0 (t : Fin cfg1.N) (d) : (dat c V).before 0 t d = iblk c V 0 t :=
  ((dat c V).before_in_eq_fetched 0 rfl (fun _ => rfl) (fun _ _ _ => rfl)
    (fun t => by rw [after1_0]; unfold Dat.blockOf iblk; rw [A_eq]; try rfl) t d).trans
    (by unfold Dat.fetched Dat.blockOf iblk; rw [A_eq]; try rfl)
theorem before1_1 (t : Fin cfg1.N) (d) : (dat c V).before 1 t d = iblk c V 1 t :=
  ((dat c V).before_in_eq_fetched 1 rfl (fun _ => rfl) (fun _ _ _ => rfl)
    (fun t => by rw [after1_1]; unfold Dat.blockOf iblk; rw [A_eq]; try rfl) t d).trans
    (by unfold Dat.fetched Dat.blockOf iblk; rw [A_eq]; try rfl)
theorem before1_2 (t : Fin cfg1.N) (d) : (dat c V).before 2 t d = iblk c V 2 t :=
  ((dat c V).before_in_eq_fetched 2 rfl (fun _ => rfl) (fun _ _ _ => rfl)
    (fun t => by rw [after1_2]; unfold Dat.blockOf iblk; rw [A_eq]; try rfl) t d).trans
    (by unfold Dat.fetched Dat.blockOf iblk; rw [A_eq]; try rfl)
theorem before1_3 (t : Fin cfg1.N) (d) : (dat c V).before 3 t d = iblk c V 3 t :=
  ((dat c V).before_in_eq_fetched 3 rfl (fun _ => rfl) (fun _ _ _ => rfl)
    (fun t => by rw [after1_3]; unfold Dat.blockOf iblk; rw [A_eq]; try rfl) t d).trans
    (by unfold Dat.fetched Dat.blockOf iblk; rw [A_eq]; try rfl)

end Data

end Cert.Proof.KI

end
-- ==== Proof.KI.TcBody.lean ====
import proofs.«211976_g36739150250640_fold_wed_m_914_8_alg».proof.Proof.KI.TcData
import Idealize.ShloMosaic.Lib.Pipeline.FrameBody
import Idealize.ShloMosaic.Lib.Ring
import Idealize.ShloMosaic.Lib.Pipeline.Value

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

section Body

variable (c : Dev nD) (V : (b : Ref sig .tc) → Buf (Elt F) ((c : Thread nD τ).loc b))

/-- The index the pipeline's own waits are recorded at. -/
abbrev ι₀ : HIx 1 := none

theorem accP_zero (h : 0 < cfg1.N) : accP c V 0 h
    = stepP (grid1.coords ⟨0, h⟩) (iblk c V 0 ⟨0, h⟩) (iblk c V 1 ⟨0, h⟩) (iblk c V 2 ⟨0, h⟩) (iblk c V 3 ⟨0, h⟩) zeroP := rfl
theorem accP_succ (n : ℕ) (h : n + 1 < cfg1.N) : accP c V (n + 1) h
    = stepP (grid1.coords ⟨n + 1, h⟩) (iblk c V 0 ⟨n + 1, h⟩) (iblk c V 1 ⟨n + 1, h⟩) (iblk c V 2 ⟨n + 1, h⟩) (iblk c V 3 ⟨n + 1, h⟩)
        (accP c V n (Nat.lt_of_succ_lt h)) := rfl
theorem accZ_zero (h : 0 < cfg1.N) : accZ c V 0 h = stepZ (grid1.coords ⟨0, h⟩) (iblk c V 0 ⟨0, h⟩) (iblk c V 3 ⟨0, h⟩) zeroZ := rfl
theorem accZ_succ (n : ℕ) (h : n + 1 < cfg1.N) : accZ c V (n + 1) h
    = stepZ (grid1.coords ⟨n + 1, h⟩) (iblk c V 0 ⟨n + 1, h⟩) (iblk c V 3 ⟨n + 1, h⟩) (accZ c V n (Nat.lt_of_succ_lt h)) := rfl

/-- The result window's post: as found at a point idle for it that does not write it back, else as left. -/
def pick (idle flush : Bool) (X Y : sProp 𝕄) : sProp 𝕄 :=
  match idle with
  | true => (match flush with
      | false => X
      | true => Y)
  | false => Y
theorem pick_idle (X Y : sProp 𝕄) : pick true false X Y = X := rfl
theorem pick_live (fl : Bool) (X Y : sProp 𝕄) : pick false fl X Y = Y := rfl

/-- What the body is called with at point `t`, the windows one by one, -/
def bodyPre (t : Fin cfg1.N) : sProp 𝕄 :=
  iprop((dat c V).Φ t.castSucc ∗ (dat c V).owesAt ι₀ t.castSucc
    ∗ (∃ d, owns (c : Thread nD τ) (st1_0 t) fullShare ((dat c V).before 0 t d))
    ∗ (∃ d, owns (c : Thread nD τ) (st1_1 t) fullShare ((dat c V).before 1 t d))
    ∗ (∃ d, owns (c : Thread nD τ) (st1_2 t) fullShare ((dat c V).before 2 t d))
    ∗ (∃ d, owns (c : Thread nD τ) (st1_3 t) fullShare ((dat c V).before 3 t d))
    ∗ (∃ d, owns (c : Thread nD τ) (st1_4 t) fullShare ((dat c V).before 4 t d)))

/-- and what it returns: the result window as it was found at the points where the body stores nothing into it. -/
def bodyPost (t : Fin cfg1.N) : sProp 𝕄 :=
  iprop((dat c V).Φ t.succ ∗ (dat c V).owesAt ι₀ t.succ
    ∗ owns (c : Thread nD τ) (st1_0 t) fullShare ((dat c V).after 0 t)
    ∗ owns (c : Thread nD τ) (st1_1 t) fullShare ((dat c V).after 1 t)
    ∗ owns (c : Thread nD τ) (st1_2 t) fullShare ((dat c V).after 2 t)
    ∗ owns (c : Thread nD τ) (st1_3 t) fullShare ((dat c V).after 3 t)
    ∗ pick (cfg1.idle 4 (cfg1.grid.coords t)) ((cfg1.win 4).flush t)
        (iprop(∃ d, owns (c : Thread nD τ) (st1_4 t) fullShare ((dat c V).before 4 t d)))
        (owns (c : Thread nD τ) (st1_4 t) fullShare ((dat c V).after 4 t)))

theorem idle4_eq (i : grid1.Coords) : idle1 4 i = !(k1_cond2 i == 1#1) := rfl

set_option maxHeartbeats 1000000 in
/-- The body at any point: the inputs' buffers hold their blocks; the point's place on the grid says which case
    it is in; the accumulators come from the invariant and go back to it stepped. -/
theorem sound_body (t : Fin cfg1.N) :
    bodyPre c V t ⊢ wp frame (wpE (defs₀ (F := F)) Variants.none c none) Set.univ (bodyAt1 t) (fun _ => bodyPost c V t) := by
  unfold bodyPre bodyPost bodyAt1
  simp only [before1_0, before1_1, before1_2, before1_3]
  rw [show (dat c V).owesAt ι₀ t.succ = (dat c V).owesAt ι₀ t.castSucc from rfl, after1_0, after1_1, after1_2, after1_3, after1_4]
  have hN : t.val < 50 := lt_of_lt_of_eq t.isLt (show cfg1.N = 50 from N_1)
  obtain ⟨n, hn⟩ := t
  rcases n with _ | n
  · -- the first point
    have hc1 : cond1 (grid1.coords ⟨0, hn⟩) := (hcond1 ⟨0, hn⟩).mpr rfl
    have hc2 : ¬ k1_cond2 (grid1.coords ⟨0, hn⟩) = 1#1 := fun h => by have := (hcond2 ⟨0, hn⟩).mp h; simp at this
    have hidle : idle1 4 (grid1.coords ⟨0, hn⟩) = true := by
      rw [idle4_eq, Bool.not_eq_true', beq_eq_false_iff_ne]; exact hc2
    have hflush : (win1 4).flush ⟨0, hn⟩ = false := Bool.eq_false_iff.mpr fun h => by have := (flush1_4 _).mp h; simp at this
    rw [hidle, hflush, pick_idle]
    rw [show (dat c V).Φ (Fin.castSucc ⟨0, hn⟩) = iprop((∃ X, owns (c : Thread nD τ) sP fullShare X) ∗ (∃ X, owns (c : Thread nD τ) sZ fullShare X)) from rfl,
      show (dat c V).Φ (Fin.succ ⟨0, hn⟩) = iprop(owns (c : Thread nD τ) sP fullShare (accP c V 0 hn) ∗ owns (c : Thread nD τ) sZ fullShare (accZ c V 0 hn)) from rfl,
      accP_zero, accZ_zero]
    iintro ⟨⟨⟨%XP, HP⟩, ⟨%XZ, HZ⟩⟩, Ho, ⟨%d0, H0⟩, ⟨%d1, H1⟩, ⟨%d2, H2⟩, ⟨%d3, H3⟩, ⟨%d4, H4⟩⟩
    iapply (runA c (grid1.coords ⟨0, hn⟩) (st1_0 ⟨0, hn⟩) (hstage1_0 ((cfg1.slots ⟨0, hn⟩ 0).cast nbuf1_0)) (st1_1 ⟨0, hn⟩) (hstage1_1 ((cfg1.slots ⟨0, hn⟩ 1).cast nbuf1_1))
      (st1_2 ⟨0, hn⟩) (hstage1_2 ((cfg1.slots ⟨0, hn⟩ 2).cast nbuf1_2)) (st1_3 ⟨0, hn⟩) (hstage1_3 ((cfg1.slots ⟨0, hn⟩ 3).cast nbuf1_3))
      (st1_4 ⟨0, hn⟩) (hstage1_4 ((cfg1.slots ⟨0, hn⟩ 4).cast nbuf1_4)) sP (Memref.isWhole_whole _) sZ (Memref.isWhole_whole _) hc1 hc2
      (iblk c V 0 ⟨0, hn⟩) (iblk c V 1 ⟨0, hn⟩) (iblk c V 2 ⟨0, hn⟩) (iblk c V 3 ⟨0, hn⟩) ((dat c V).before 4 ⟨0, hn⟩ d4) XP XZ Set.univ _)
    isplitl [H0]; · iexact H0
    isplitl [H1]; · iexact H1
    isplitl [H2]; · iexact H2
    isplitl [H3]; · iexact H3
    isplitl [H4]; · iexact H4
    isplitl [HP]; · iexact HP
    isplitl [HZ]; · iexact HZ
    iintro ⟨H0, H1, H2, H3, H4, HP, HZ⟩
    isplitl [HP HZ]; · isplitl [HP]; · iexact HP
                       iexact HZ
    isplitl [Ho]; · iexact Ho
    isplitl [H0]; · iexact H0
    isplitl [H1]; · iexact H1
    isplitl [H2]; · iexact H2
    isplitl [H3]; · iexact H3
    iexists d4; iexact H4
  · have hN' : n + 1 < 50 := hN
    have hc1 : ¬ cond1 (grid1.coords ⟨n + 1, hn⟩) := fun h => by have := (hcond1 ⟨n + 1, hn⟩).mp h; simp at this
    rw [show (dat c V).Φ (Fin.castSucc ⟨n + 1, hn⟩) = iprop(owns (c : Thread nD τ) sP fullShare (accP c V n (Nat.lt_of_succ_lt hn))
          ∗ owns (c : Thread nD τ) sZ fullShare (accZ c V n (Nat.lt_of_succ_lt hn))) from rfl,
      show (dat c V).Φ (Fin.succ ⟨n + 1, hn⟩) = iprop(owns (c : Thread nD τ) sP fullShare (accP c V (n + 1) hn) ∗ owns (c : Thread nD τ) sZ fullShare (accZ c V (n + 1) hn)) from rfl,
      accP_succ, accZ_succ]
    by_cases hl : n + 1 = 49
    · -- the last point
      have hc2 : k1_cond2 (grid1.coords ⟨n + 1, hn⟩) = 1#1 := (hcond2 ⟨n + 1, hn⟩).mpr hl
      have hidle : idle1 4 (grid1.coords ⟨n + 1, hn⟩) = false := by
        rw [idle4_eq, hc2]; rfl
      rw [hidle, pick_live]
      have hout : outWord c V = finish
          (stepP (grid1.coords ⟨n + 1, hn⟩) (iblk c V 0 ⟨n + 1, hn⟩) (iblk c V 1 ⟨n + 1, hn⟩) (iblk c V 2 ⟨n + 1, hn⟩) (iblk c V 3 ⟨n + 1, hn⟩) (accP c V n (Nat.lt_of_succ_lt hn)))
          (stepZ (grid1.coords ⟨n + 1, hn⟩) (iblk c V 0 ⟨n + 1, hn⟩) (iblk c V 3 ⟨n + 1, hn⟩) (accZ c V n (Nat.lt_of_succ_lt hn))) := by
        obtain rfl : n = 48 := by omega
        rfl
      rw [hout]
      iintro ⟨⟨HP, HZ⟩, Ho, ⟨%d0, H0⟩, ⟨%d1, H1⟩, ⟨%d2, H2⟩, ⟨%d3, H3⟩, ⟨%d4, H4⟩⟩
      iapply (runC c (grid1.coords ⟨n + 1, hn⟩) (st1_0 ⟨n + 1, hn⟩) (hstage1_0 ((cfg1.slots ⟨n + 1, hn⟩ 0).cast nbuf1_0)) (st1_1 ⟨n + 1, hn⟩) (hstage1_1 ((cfg1.slots ⟨n + 1, hn⟩ 1).cast nbuf1_1))
      (st1_2 ⟨n + 1, hn⟩) (hstage1_2 ((cfg1.slots ⟨n + 1, hn⟩ 2).cast nbuf1_2)) (st1_3 ⟨n + 1, hn⟩) (hstage1_3 ((cfg1.slots ⟨n + 1, hn⟩ 3).cast nbuf1_3))
      (st1_4 ⟨n + 1, hn⟩) (hstage1_4 ((cfg1.slots ⟨n + 1, hn⟩ 4).cast nbuf1_4)) sP (Memref.isWhole_whole _) sZ (Memref.isWhole_whole _) hc1 hc2
        (iblk c V 0 ⟨n + 1, hn⟩) (iblk c V 1 ⟨n + 1, hn⟩) (iblk c V 2 ⟨n + 1, hn⟩) (iblk c V 3 ⟨n + 1, hn⟩) ((dat c V).before 4 ⟨n + 1, hn⟩ d4)
        (accP c V n (Nat.lt_of_succ_lt hn)) (accZ c V n (Nat.lt_of_succ_lt hn)) Set.univ _)
      isplitl [H0]; · iexact H0
      isplitl [H1]; · iexact H1
      isplitl [H2]; · iexact H2
      isplitl [H3]; · iexact H3
      isplitl [H4]; · iexact H4
      isplitl [HP]; · iexact HP
      isplitl [HZ]; · iexact HZ
      iintro ⟨H0, H1, H2, H3, H4, HP, HZ⟩
      isplitl [HP HZ]; · isplitl [HP]; · iexact HP
                         iexact HZ
      isplitl [Ho]; · iexact Ho
      isplitl [H0]; · iexact H0
      isplitl [H1]; · iexact H1
      isplitl [H2]; · iexact H2
      isplitl [H3]; · iexact H3
      iexact H4
    · -- a middle point
      have hc2 : ¬ k1_cond2 (grid1.coords ⟨n + 1, hn⟩) = 1#1 := fun h => hl ((hcond2 ⟨n + 1, hn⟩).mp h)
      have hidle : idle1 4 (grid1.coords ⟨n + 1, hn⟩) = true := by
        rw [idle4_eq, Bool.not_eq_true', beq_eq_false_iff_ne]; exact hc2
      have hflush : (win1 4).flush ⟨n + 1, hn⟩ = false := Bool.eq_false_iff.mpr fun h => by
        have := (flush1_4 _).mp h; dsimp only at this; omega
      rw [hidle, hflush, pick_idle]
      iintro ⟨⟨HP, HZ⟩, Ho, ⟨%d0, H0⟩, ⟨%d1, H1⟩, ⟨%d2, H2⟩, ⟨%d3, H3⟩, ⟨%d4, H4⟩⟩
      iapply (runB c (grid1.coords ⟨n + 1, hn⟩) (st1_0 ⟨n + 1, hn⟩) (hstage1_0 ((cfg1.slots ⟨n + 1, hn⟩ 0).cast nbuf1_0)) (st1_1 ⟨n + 1, hn⟩) (hstage1_1 ((cfg1.slots ⟨n + 1, hn⟩ 1).cast nbuf1_1))
      (st1_2 ⟨n + 1, hn⟩) (hstage1_2 ((cfg1.slots ⟨n + 1, hn⟩ 2).cast nbuf1_2)) (st1_3 ⟨n + 1, hn⟩) (hstage1_3 ((cfg1.slots ⟨n + 1, hn⟩ 3).cast nbuf1_3))
      (st1_4 ⟨n + 1, hn⟩) (hstage1_4 ((cfg1.slots ⟨n + 1, hn⟩ 4).cast nbuf1_4)) sP (Memref.isWhole_whole _) sZ (Memref.isWhole_whole _) hc1 hc2
        (iblk c V 0 ⟨n + 1, hn⟩) (iblk c V 1 ⟨n + 1, hn⟩) (iblk c V 2 ⟨n + 1, hn⟩) (iblk c V 3 ⟨n + 1, hn⟩) ((dat c V).before 4 ⟨n + 1, hn⟩ d4)
        (accP c V n (Nat.lt_of_succ_lt hn)) (accZ c V n (Nat.lt_of_succ_lt hn)) Set.univ _)
      isplitl [H0]; · iexact H0
      isplitl [H1]; · iexact H1
      isplitl [H2]; · iexact H2
      isplitl [H3]; · iexact H3
      isplitl [H4]; · iexact H4
      isplitl [HP]; · iexact HP
      isplitl [HZ]; · iexact HZ
      iintro ⟨H0, H1, H2, H3, H4, HP, HZ⟩
      isplitl [HP HZ]; · isplitl [HP]; · iexact HP
                         iexact HZ
      isplitl [Ho]; · iexact Ho
      isplitl [H0]; · iexact H0
      isplitl [H1]; · iexact H1
      isplitl [H2]; · iexact H2
      isplitl [H3]; · iexact H3
      iexists d4; iexact H4

/-- The library's body obligation, at every point. -/
theorem body_obligation : BodyObligation (dat (F := F) c V) (defs₀ (F := F)) Variants.none ι₀ Set.univ := fun t => by
  rw [bigSep_W1, bigSep_W1]
  exact sound_body c V t

end Body

end Cert.Proof.KI

end
-- ==== Proof.KI.ScTile.lean ====
/-
  The body obligation of the program's one SparseCore kernel, as one vector subcore's task: the task copies its
  chunk of the index array into its first scratch, gathers the label table at those thirty-two offsets into its
  second scratch, and copies that scratch out to its chunk of the result. Each transfer is waited for before the
  next is issued, so the three semaphores' counters are at zero between them. The value: entry `k` of the chunk
  written is the label table read at the word entry `k` of the index chunk holds, which is the gathered array at
  index `32 w + k`.
-/
import proofs.«211976_g36739150250640_fold_wed_m_914_8_alg».proof.Proof.KI.Common

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-! ## The task's memrefs, spelt as the body table passes them and as the body slices them -/

local notation "iW" => (Memref.whole main_arg1_scv : Memref sig Kind.scVector Space.hbm S1024 EltTy.i32)
local notation "lW" => (Memref.whole main_arg2_scv : Memref sig Kind.scVector Space.hbm S100000 EltTy.i32)
local notation "yW" => (Memref.whole main_v0_scv : Memref sig Kind.scVector Space.hbm S1024 EltTy.i32)
local notation "aW" => (Memref.whole cc0_scratch0 : Memref sig Kind.scVector Space.vmem S32 EltTy.i32)
local notation "bW" => (Memref.whole cc0_scratch1 : Memref sig Kind.scVector Space.vmem S32 EltTy.i32)

namespace ScTile

section Tile

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- The chunk of the task at grid point `L`. -/
abbrev wL (L : grid0.Coords) : Fin 32 := wOf (Fin.cast bound_zero (L 0)) (Fin.cast bound_one (L 1))

/-- The chunk's rectangle as the body computes it, -/
abbrev ckR (L : grid0.Coords) : Rect S1024 := Rect.unit (s := S1024) (k0_off1 L) S32.size (k0_off1_inb L)
/-- the index chunk and the result chunk as the body slices them, -/
abbrev iCk (L : grid0.Coords) : Memref sig .scVector .hbm S32 .i32 := (iW).slice (ckR L) (fun _ => rfl)
abbrev yCk (L : grid0.Coords) : Memref sig .scVector .hbm S32 .i32 := (yW).slice (ckR L) (fun _ => rfl)
/-- and the label table as the gather names it. -/
abbrev lAll : Memref sig .scVector .hbm S100000 .i32 := (lW).slice (Rect.unit (s := S100000) ![0] S100000.size inb_S100000_S100000_0) (fun _ => rfl)

abbrev gA (d : Dev nD) (c : Fin τ.nSC) (i : Fin τ.nSub) : GSem nD τ sig := (V d c i, .dma cc0_scoped0.sem)
abbrev gG (d : Dev nD) (c : Fin τ.nSC) (i : Fin τ.nSub) : GSem nD τ sig := (V d c i, .dma cc0_scratch2.sem)
abbrev gB (d : Dev nD) (c : Fin τ.nSC) (i : Fin τ.nSub) : GSem nD τ sig := (V d c i, .dma cc0_scoped1.sem)

/-- The three DMA semaphores the task names are among its own scoped cells. -/
theorem ownSems0_V :
    (ownSems0 (V d (cV L) (jV L)) : sProp 𝕄)
      = iprop(semVal (gA d (cV L) (jV L)) 0 ∗ semVal (gG d (cV L) (jV L)) 0 ∗ semVal (gB d (cV L) (jV L)) 0
          ∗ bigSep ((((ownCells (V d (cV L) (jV L))).erase (gA d (cV L) (jV L))).erase (gG d (cV L) (jV L))).erase (gB d (cV L) (jV L)))
              fun g => semVal g 0) := by
  unfold SparseCore.Cfg.ownSems0
  rw [SparseCore.bigSep_erase' ((mem_ownCells (g := gA d (cV L) (jV L))).mpr ⟨rfl, by
      show (SemLoc.dma cc0_scoped0.sem : SemLoc sig).isScoped .scVector = true; decide⟩),
    SparseCore.bigSep_erase' (Finset.mem_erase.mpr ⟨by simp [gA, gG]; decide, (mem_ownCells (g := gG d (cV L) (jV L))).mpr ⟨rfl, by
      show (SemLoc.dma cc0_scratch2.sem : SemLoc sig).isScoped .scVector = true; decide⟩⟩),
    SparseCore.bigSep_erase' (Finset.mem_erase.mpr ⟨by simp [gG, gB]; decide, Finset.mem_erase.mpr ⟨by simp [gA, gB]; decide,
      (mem_ownCells (g := gB d (cV L) (jV L))).mpr ⟨rfl, by show (SemLoc.dma cc0_scoped1.sem : SemLoc sig).isScoped .scVector = true; decide⟩⟩⟩)]

/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The chunk as the body computes it is the chunk the launch hands over -/

theorem ckR_eq : ckR L = chunk (wL L) := by
  unfold ckR chunk Rect.part Rect.block
  congr 1 <;> funext a
  · rw [k0_off1_eq]
    match a with
    | 0 =>
      show 64 * (L 1).val + 32 * (L 0).val = (2 * (L 1).val + (L 0).val) * (1024 / 32)
      omega
  · match a with
    | 0 => simp [Shape.partSize]

theorem set_iCk : (iCk L).view.set = chunkSet (wL L) := by
  show ((iW).view.slice (ckR L)).set = ((yW).view.slice (chunk (wL L))).set
  exact ckR_eq L ▸ rfl
theorem set_yCk : (yCk L).view.set = chunkSet (wL L) := by
  show ((yW).view.slice (ckR L)).set = ((yW).view.slice (chunk (wL L))).set
  exact ckR_eq L ▸ rfl

theorem pts_iCk (f : Buf (Elt F) (iLoc d)) :
    ((iCk L).view.loc (V d (cV L) (jV L)) ↦[(iCk L).view.set]{fullShare} f : sProp 𝕄) = iLoc d ↦[chunkSet (wL L)]{fullShare} f := by
  rw [set_iCk]
theorem pts_yCk (f : Buf (Elt F) (yLoc d)) :
    ((yCk L).view.loc (V d (cV L) (jV L)) ↦[(yCk L).view.set]{fullShare} f : sProp 𝕄) = yLoc d ↦[chunkSet (wL L)]{fullShare} f := by
  rw [set_yCk]
theorem pts_l (q : PosShare TreeShare) (f : Buf (Elt F) (lLoc d)) :
    ((lAll).view.loc (V d (cV L) (jV L)) ↦{q} f : sProp 𝕄) = lLoc d ↦{q} f := rfl
theorem pts_a (f : Buf (Elt F) ((V d (cV L) (jV L)).loc cc0_scratch0)) :
    ((aW).view.loc (V d (cV L) (jV L)) ↦{fullShare} f : sProp 𝕄) = (V d (cV L) (jV L)).loc cc0_scratch0 ↦{fullShare} f := rfl
theorem pts_b (f : Buf (Elt F) ((V d (cV L) (jV L)).loc cc0_scratch1)) :
    ((bW).view.loc (V d (cV L) (jV L)) ↦{fullShare} f : sProp 𝕄) = (V d (cV L) (jV L)).loc cc0_scratch1 ↦{fullShare} f := rfl

/-! ## The value: what the three transfers leave in the chunk of the result -/

/-- Row-major position in a rank-one shape is the one coordinate. -/
theorem rowMajor_rank1 {n : ℕ} (x : (⟨1, ![n]⟩ : Shape).Idx) : ((⟨1, ![n]⟩ : Shape).rowMajor x).val = (x 0).val := by
  show (Shape.rowMajorPi (⟨1, ![n]⟩ : Shape).size x).val = _
  rw [Shape.rowMajorPi_succ_val]
  have h := (Shape.rowMajorPi (fun a : Fin 0 => (⟨1, ![n]⟩ : Shape).size a.succ) (fun a => x a.succ)).isLt
  simp at h ⊢
  omega

theorem rowMajor_symm_rank1 {n : ℕ} (x : (⟨1, ![n]⟩ : Shape).Idx) (k : Fin (⟨1, ![n]⟩ : Shape).numel) (hk : k.val = (x 0).val) :
    (⟨1, ![n]⟩ : Shape).rowMajor.symm k = x := by
  rw [Equiv.symm_apply_eq]; apply Fin.ext; rw [hk]; exact (rowMajor_rank1 x).symm

/-- A buffer read through a view after one write of the view's whole shape reads the payload. -/
theorem read_writes_whole {sig' : RefSig} {κ : Kind} {sp : Space} {s : Shape} {e : EltTy} {Val : EltTy → Type}
    (v : View sig' κ sp s e) (f : v.ty.Contents Val) (w : (Rect.whole s).shape.Idx → Val e) (x : s.Idx) :
    v.read Val (v.writes Val f [⟨Rect.whole s, w⟩]) x = w x := by
  have h := View.read_writes_cons_emb v f (Rect.whole s) w [] x
  rwa [Rect.emb_whole_apply] at h

/-- What the gather delivers at entry `x`: the label table at the word entry `x` of the index chunk holds. -/
theorem gather_value (fa : Buf (Elt F) ((V d (cV L) (jV L)).loc cc0_scratch0))
    (hn : S32.numel = S32.size gathers_S100000_S32.axis')
    (hin' : ∀ x, ((aW).view.read (Elt F) ((aW).view.write (Elt F) fa (ReadAs.same.apply ((iCk L).view.read (Elt F) (m (iLoc d)))) Finset.univ) x).toNat < S100000.size gathers_S100000_S32.axis)
    (x : S32.Idx) :
    SparseCore.gatherPayload gathers_S100000_S32 ((lAll).view.read (Elt F) (m (lLoc d)))
        (SparseCore.rows ((aW).view.read (Elt F) ((aW).view.write (Elt F) fa (ReadAs.same.apply ((iCk L).view.read (Elt F) (m (iLoc d)))) Finset.univ)) hn hin') x
      = labelAt (m (lLoc d)) (m (iLoc d) ((iCk L).view.emb x)) := by
  have hidx : ∀ y, (aW).view.read (Elt F) ((aW).view.write (Elt F) fa (ReadAs.same.apply ((iCk L).view.read (Elt F) (m (iLoc d)))) Finset.univ) y
      = m (iLoc d) ((iCk L).view.emb y) := fun y => by
    rw [View.read_write_univ]
    exact (View.read_apply _ _).trans (cast_eq _ _)
  have hlt : (m (iLoc d) ((iCk L).view.emb x)).toNat < 100000 := by
    have h := hin' x
    rw [hidx] at h
    exact h
  unfold SparseCore.gatherPayload labelAt
  rw [dif_pos hlt]
  refine ((View.read_apply _ _).trans (cast_eq _ _)).trans (congrArg (m (lLoc d)) ?_)
  funext a
  match a with
  | ⟨0, _⟩ =>
    apply Fin.ext
    show 0 + 1 * ((aW).view.read (Elt F) ((aW).view.write (Elt F) fa (ReadAs.same.apply ((iCk L).view.read (Elt F) (m (iLoc d)))) Finset.univ)
        (S32.rowMajor.symm (Fin.cast hn.symm (x gathers_S100000_S32.axis')))).toNat = (m (iLoc d) ((iCk L).view.emb x)).toNat
    have hr := rowMajor_symm_rank1 x (Fin.cast hn.symm (x gathers_S100000_S32.axis')) rfl
    rw [hr, hidx]
    omega

/-- On the task's chunk the result, after the copy-out of the gathered scratch, is the gathered array. -/
theorem chunk_value (fa : Buf (Elt F) ((V d (cV L) (jV L)).loc cc0_scratch0)) (fb : Buf (Elt F) ((V d (cV L) (jV L)).loc cc0_scratch1))
    (hn : S32.numel = S32.size gathers_S100000_S32.axis')
    (hin' : ∀ x, ((aW).view.read (Elt F) ((aW).view.write (Elt F) fa (ReadAs.same.apply ((iCk L).view.read (Elt F) (m (iLoc d)))) Finset.univ) x).toNat < S100000.size gathers_S100000_S32.axis) :
    ∀ j ∈ chunkSet (wL L),
      ((yCk L).view.writes (Elt F) (m (yLoc d)) [⟨Rect.whole S32,
        ReadAs.same.apply ((bW).view.read (Elt F) ((bW).view.writes (Elt F) fb [⟨Rect.whole S32,
          SparseCore.gatherPayload gathers_S100000_S32 ((lAll).view.read (Elt F) (m (lLoc d)))
            (SparseCore.rows ((aW).view.read (Elt F) ((aW).view.write (Elt F) fa (ReadAs.same.apply ((iCk L).view.read (Elt F) (m (iLoc d)))) Finset.univ)) hn hin')⟩]))⟩]) j
      = gathered m d j := by
  intro j hj
  have hj' : j ∈ (yCk L).view.set := by rw [set_yCk]; exact hj
  obtain ⟨x, -, rfl⟩ := Finset.mem_map.mp hj'
  refine (((View.read_apply _ _).trans (cast_eq _ _)).symm.trans (read_writes_whole (yCk L).view (m (yLoc d)) _ x)).trans ?_
  rw [ReadAs.apply_same]
  exact (read_writes_whole (bW).view fb _ x).trans ((gather_value m d L fa hn hin' x).trans rfl)

variable [FloatOps F]

theorem tile_body (hpre : PreOK m) (O : CellTallies nD τ sig (HIx 1)) (W : Waits sig (HIx 1)) (hO : ∀ g, O g none = 0) :
    iprop(levAts (K (F := F)).L (K (F := F)).lev ∗ emp ∗ goRes m d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_body L iW (Memref.isWhole_whole _) lW (Memref.isWhole_whole _) yW (Memref.isWhole_whole _)
            aW (Memref.isWhole_whole _) bW (Memref.isWhole_whole _) cc0_scratch2 cc0_scoped0 cc0_scoped1)
          fun _ => iprop(tdRes m d (wL L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_body_eq_skeleton]; unfold cc0_body_skel
  rw [(K (F := F)).scopedBufs_V facts d (cV L) (jV L), SparseCore.Cfg.scopedSems0_V (Val := Elt F) d (cV L) (jV L), ownSems0_V, ownBufs_V]
  unfold goRes
  iintro ⟨#Hlv, -, ⟨Hi, Hl, Hy⟩, ⟨⟨%fa, Ha⟩, ⟨%fb, Hb⟩, Hbufs⟩, ⟨HsA, HsG, HsB, Hsems⟩, HO⟩
  ihave Hmw := ((K (F := F)).mayWaits_none (thr := V d (cV L) (jV L)) hO) $$ Hlv
  ihave Hi' := (Entails.of_eq (pts_iCk (F := F) d L _).symm) $$ Hi
  ihave Hy' := (Entails.of_eq (pts_yCk (F := F) d L _).symm) $$ Hy
  ihave Hl' := (Entails.of_eq (pts_l (F := F) d L _ _).symm) $$ Hl
  ihave Ha' := (Entails.of_eq (pts_a (F := F) d L _).symm) $$ Ha
  ihave Hb' := (Entails.of_eq (pts_b (F := F) d L _).symm) $$ Hb
  have hin : ∀ (g : Buf (Elt F) ((aW).view.loc (V d (cV L) (jV L)))) (x : S32.Idx),
      ((aW).view.read (Elt F) ((aW).view.write (Elt F) g (ReadAs.same.apply ((iCk L).view.read (Elt F) (m (iLoc d)))) Finset.univ) x).toNat < 100000 := by
    intro g x
    have h1 : (aW).view.write (Elt F) g (ReadAs.same.apply ((iCk L).view.read (Elt F) (m (iLoc d)))) Finset.univ
        = ReadAs.same.apply ((iCk L).view.read (Elt F) (m (iLoc d))) := View.write_whole_univ _ _ _
    rw [h1]
    exact ((congrArg BitVec.toNat ((View.read_apply _ _).trans (cast_eq _ _))).trans_lt (hpre d _))
  sl_exec
  sl_step
  unfold tdRes
  isplitl [Hi' Hl' Hy']
  · isplitl [Hi']; · iapply (Entails.of_eq (pts_iCk (F := F) d L _)); iexact Hi'
    isplitl [Hl']; · iapply (Entails.of_eq (pts_l (F := F) d L _ _)); iexact Hl'
    iapply (Entails.of_eq ((pts_yCk (F := F) d L _).trans (pointsTo_congr (chunk_value m d L fa fb rfl (hin fa))))); iexact Hy'
  isplitl [Ha' Hb' Hbufs]
  · isplitl [Ha']; · iexists _; iapply (Entails.of_eq (pts_a (F := F) d L _)); iexact Ha'
    isplitl [Hb']; · iexists _; iapply (Entails.of_eq (pts_b (F := F) d L _)); iexact Hb'
    iexact Hbufs
  isplitl [HsA HsG HsB Hsems]
  · isplitl [HsA]; · iexact HsA
    isplitl [HsG]; · iexact HsG
    isplitl [HsB]; · iexact HsB
    iexact Hsems
  iexists (insert (SemLoc.dma cc0_scoped1.sem, (default : HIx 1)) (insert (SemLoc.dma cc0_scratch2.sem, (default : HIx 1)) (insert (SemLoc.dma cc0_scoped0.sem, (default : HIx 1)) W))); isplitr
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact .inl hp
  · iexact HO

end Tile

/-! ## The launch theorem's obligation -/

variable [FloatOps F]

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_body (coordsV c s)
          iW (Memref.isWhole_whole _) lW (Memref.isWhole_whole _) yW (Memref.isWhole_whole _)
          aW (Memref.isWhole_whole _) bW (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end ScTile

variable [FloatOps F]

open ScTile in
/-- The kernel's body obligation: the task of vector subcore `i` of SparseCore `c` takes its operands to its results,
    the result chunk at the gathered array. -/
theorem tileObl (hpre : PreOK m) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hpre O W hO).trans (wp_mono frame _ _ fun _ => obl_post)

end Cert.Proof.KI

end
-- ==== Proof.LibDeal.lean ====
/-
  Dealing the 489 blocks of a flat array to the 32 tiles.

  Tile `w` takes the blocks `w, w + 32, …, w + 32·15` that are below 488, and one tile `tw` takes block 488 besides:
  every block is taken exactly once, so a separating conjunction over the blocks is one over the tiles of one over
  each tile's blocks.
-/
import Idealize.SL.ProofMode.BigOp
import Idealize.ShloMosaic.Lib.SparseCore.Cells

noncomputable section

namespace Cert.Deal

open Idealize.SL Idealize.SL.RA Idealize.SL.BI
open scoped Idealize.SL.BI
open Idealize.SL.BI.BIBase Idealize.SL.BI.Laws Idealize.SL.ProofMode

variable {M : Type} [URA M]

/-- The block tile `w` takes at its `k`-th turn (read modulo 489 so that the function is total). -/
def enc (wk : Fin 32 × Fin 16) : Fin 489 := ⟨(wk.1.val + 32 * wk.2.val) % 489, Nat.mod_lt _ (by decide)⟩

/-- The turns that name a block below 488. -/
abbrev live (wk : Fin 32 × Fin 16) : Prop := wk.1.val + 32 * wk.2.val < 488

theorem enc_val {wk : Fin 32 × Fin 16} (h : live wk) : (enc wk).val = wk.1.val + 32 * wk.2.val :=
  Nat.mod_eq_of_lt (by unfold live at h; omega)

theorem enc_injOn : Set.InjOn enc ((Finset.univ.filter live : Finset (Fin 32 × Fin 16)) : Set (Fin 32 × Fin 16)) := by
  intro a ha b hb e
  have ha' : live a := (Finset.mem_filter.mp (Finset.mem_coe.mp ha)).2
  have hb' : live b := (Finset.mem_filter.mp (Finset.mem_coe.mp hb)).2
  have e' : a.1.val + 32 * a.2.val = b.1.val + 32 * b.2.val := by rw [← enc_val ha', ← enc_val hb', e]
  have h1 := a.1.isLt; have h2 := b.1.isLt
  exact Prod.ext (Fin.ext (by omega)) (Fin.ext (by omega))

theorem last_not_mem : (⟨488, by decide⟩ : Fin 489) ∉ (Finset.univ.filter live).image enc := by
  intro h
  obtain ⟨wk, hwk, e⟩ := Finset.mem_image.mp h
  have hl : live wk := (Finset.mem_filter.mp hwk).2
  have := congrArg Fin.val e
  rw [enc_val hl] at this
  unfold live at hl; simp only at this; omega

theorem univ_eq : (Finset.univ : Finset (Fin 489)) = insert ⟨488, by decide⟩ ((Finset.univ.filter live).image enc) := by
  ext b
  simp only [Finset.mem_univ, Finset.mem_insert, Finset.mem_image, Finset.mem_filter, true_and, true_iff]
  by_cases hb : b.val = 488
  · exact Or.inl (Fin.ext hb)
  · right
    have hlt : b.val < 488 := by have := b.isLt; omega
    refine ⟨(⟨b.val % 32, Nat.mod_lt _ (by decide)⟩, ⟨b.val / 32, by omega⟩), ?_, ?_⟩
    · show b.val % 32 + 32 * (b.val / 32) < 488; omega
    · apply Fin.ext
      show (b.val % 32 + 32 * (b.val / 32)) % 489 = b.val
      rw [Nat.mod_eq_of_lt (by omega)]; omega

/-- A separating conjunction over the 489 blocks, dealt to the 32 tiles. -/
theorem bigSep_deal (Φ : Fin 489 → sProp M) (tw : Fin 32) :
    bigSep (Finset.univ : Finset (Fin 489)) Φ
      = bigSep (Finset.univ : Finset (Fin 32)) fun w => iprop((bigSep Finset.univ fun k : Fin 16 =>
            if h : w.val + 32 * k.val < 488 then Φ ⟨w.val + 32 * k.val, by omega⟩ else iprop(emp))
          ∗ (if w.val = tw.val then Φ ⟨488, by decide⟩ else iprop(emp))) := by
  classical
  rw [bigSep_sep']
  have hB : (bigSep (Finset.univ : Finset (Fin 32)) fun w => if w.val = tw.val then Φ ⟨488, by decide⟩ else iprop(emp)) = Φ ⟨488, by decide⟩ := by
    show (bigSep (Finset.univ : Finset (Fin 32)) fun w => if w.val = tw.val then Φ ⟨488, by decide⟩ else (BI.emp : sProp M)) = _
    rw [← bigSep_filter, show (Finset.univ.filter fun w : Fin 32 => w.val = tw.val) = {tw} from by
      ext w; simp only [Finset.mem_filter, Finset.mem_univ, true_and, Finset.mem_singleton]; exact ⟨fun h => Fin.ext h, fun h => h ▸ rfl⟩,
      bigSep_singleton]
  have hA : (bigSep (Finset.univ : Finset (Fin 32)) fun w => bigSep Finset.univ fun k : Fin 16 =>
        if h : w.val + 32 * k.val < 488 then Φ ⟨w.val + 32 * k.val, by omega⟩ else iprop(emp))
      = bigSep ((Finset.univ.filter live).image enc) Φ := by
    rw [bigSep_image_of_injOn enc_injOn, bigSep_filter, bigSep_univ_prod]
    refine bigSep_congr fun w _ => bigSep_congr fun k _ => ?_
    by_cases h : w.val + 32 * k.val < 488
    · rw [dif_pos h, if_pos (show live (w, k) from h)]
      exact congrArg Φ (Fin.ext (enc_val (wk := (w, k)) h).symm)
    · rw [dif_neg h, if_neg (show ¬ live (w, k) from h)]; rfl
  rw [hA, hB, univ_eq, bigSep_insert last_not_mem]
  exact BI.equiv_iff.mp ⟨Idealize.SL.BI.sep_comm, Idealize.SL.BI.sep_comm⟩

/-- Tile numbers and (core, subcore) pairs: tile `2·i + c` is subcore `i` of core `c`. -/
def tileEquiv : Fin 2 × Fin 16 ≃ Fin 32 where
  toFun ci := ⟨2 * ci.2.val + ci.1.val, by have := ci.1.isLt; have := ci.2.isLt; omega⟩
  invFun w := (⟨w.val % 2, Nat.mod_lt _ (by decide)⟩, ⟨w.val / 2, by have := w.isLt; omega⟩)
  left_inv ci := by
    have h1 := ci.1.isLt; have h2 := ci.2.isLt
    exact Prod.ext (Fin.ext (by show (2 * ci.2.val + ci.1.val) % 2 = ci.1.val; omega)) (Fin.ext (by show (2 * ci.2.val + ci.1.val) / 2 = ci.2.val; omega))
  right_inv w := Fin.ext (by show 2 * (w.val / 2) + w.val % 2 = w.val; omega)

/-- A separating conjunction over the 32 tiles, core by core and subcore by subcore. -/
theorem bigSep_tiles (Φ : Fin 32 → sProp M) :
    bigSep (Finset.univ : Finset (Fin 32)) Φ
      = bigSep (Finset.univ : Finset (Fin 2)) fun c => bigSep (Finset.univ : Finset (Fin 16)) fun i =>
          Φ ⟨2 * i.val + c.val, by have := c.isLt; have := i.isLt; omega⟩ := by
  rw [bigSep_univ_equiv tileEquiv Φ, bigSep_univ_prod]; rfl

end Cert.Deal

end
-- ==== Proof.KI.LaunchDefs.lean ====
/-
  The launch's data: the TensorCore's ten unscoped arrays through @main — at the launch contents, after the
  SparseCore call (the gathered labels in place), after the four layout operations before the region (the scores
  transposed, the labels as a column, the gathered labels and the indices as rows), after the region (the result word
  in place) and after the last reshape —, the pipeline's proof data at the region's entry contents, and how the index
  array, the label table and the result array are dealt to the thirty-two tasks and gathered back.
-/
import proofs.«211976_g36739150250640_fold_wed_m_914_8_alg».proof.Proof.KI.TcBody
import proofs.«211976_g36739150250640_fold_wed_m_914_8_alg».proof.Proof.KI.ScTile
import proofs.«211976_g36739150250640_fold_wed_m_914_8_alg».proof.Proof.LibDeal

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Pipeline (Dat BodyObligation cellOf)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The ten arrays -/

abbrev x' : DevRef τ sig := Proc.devRef .tc (main_arg0 : Ref sig .tc)
abbrev i' : DevRef τ sig := Proc.devRef .tc (main_arg1 : Ref sig .tc)
abbrev l' : DevRef τ sig := Proc.devRef .tc (main_arg2 : Ref sig .tc)
abbrev y' : DevRef τ sig := Proc.devRef .tc (main_v0 : Ref sig .tc)
abbrev a1' : DevRef τ sig := Proc.devRef .tc (main_v1 : Ref sig .tc)
abbrev a2' : DevRef τ sig := Proc.devRef .tc (main_v2 : Ref sig .tc)
abbrev a3' : DevRef τ sig := Proc.devRef .tc (main_v3 : Ref sig .tc)
abbrev a4' : DevRef τ sig := Proc.devRef .tc (main_v4 : Ref sig .tc)
abbrev a5' : DevRef τ sig := Proc.devRef .tc (main_v5 : Ref sig .tc)
abbrev r' : DevRef τ sig := Proc.devRef .tc (main_v6 : Ref sig .tc)

abbrev S10 : Finset (DevRef τ sig) := {x', i', l', y', a1', a2', a3', a4', a5', r'}

/-- A buffer of device `d`'s TensorCore, whole, at the full share. -/
abbrev pl (d : Dev nD) (b : Ref sig .tc) (f : b.ty.Contents (Elt F)) : sProp 𝕄 := ((SparseCore.T d).loc b) ↦{fullShare} f

/-- The ten, one by one, at contents `W`. -/
def ten (d : Dev nD) (W : (b : Ref sig .tc) → b.ty.Contents (Elt F)) : sProp 𝕄 :=
  iprop(pl d main_arg0 (W main_arg0) ∗ pl d main_arg1 (W main_arg1) ∗ pl d main_arg2 (W main_arg2) ∗ pl d main_v0 (W main_v0)
    ∗ pl d main_v1 (W main_v1) ∗ pl d main_v2 (W main_v2) ∗ pl d main_v3 (W main_v3) ∗ pl d main_v4 (W main_v4)
    ∗ pl d main_v5 (W main_v5) ∗ pl d main_v6 (W main_v6))

omit [FloatOps F] in
theorem held_S10 (d : Dev nD) (W : Valuation τ sig (Elt F)) :
    (held (T d) S10 W : sProp 𝕄) = ten d (fun b => W (Proc.devRef .tc b)) := by
  unfold held S10 ten
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = ten d W := by
  unfold unscopedBufs ten
  rw [show (Finset.univ.filter fun b : Ref sig .tc => ¬ b.isScoped) = {main_arg0, main_arg1, main_arg2, main_v0, main_v1, main_v2, main_v3, main_v4, main_v5, main_v6} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-! ## The contents through @main -/

/-- At launch. -/
def V0 (d : Dev nD) : Valuation τ sig (Elt F) := fun b => m (d, b)
/-- After the SparseCore call: the gathered labels in place. -/
def V1 (d : Dev nD) : Valuation τ sig (Elt F) := Function.update (V0 m d) y' (gathered m d)

abbrev opT : HloOp τ sig (Elt F) :=
  StableHlo.unary main_arg0 main_v1 ((transpose S100000x1024 [1, 0] · transposes_S1024x100000_S100000x1024_1_0) : (⟨S1024x100000, .f32⟩ : BufTy).Contents (Elt F) → (⟨S100000x1024, .f32⟩ : BufTy).Contents (Elt F))
abbrev opR2 : HloOp τ sig (Elt F) := StableHlo.reshape main_arg2 main_v2 rfl shapeCasts_S100000_S100000x1
abbrev opR3 : HloOp τ sig (Elt F) := StableHlo.reshape main_v0 main_v3 rfl shapeCasts_S1024_S1x1024
abbrev opR4 : HloOp τ sig (Elt F) := StableHlo.reshape main_arg1 main_v4 rfl shapeCasts_S1024_S1x1024
abbrev opR6 : HloOp τ sig (Elt F) := StableHlo.reshape main_v5 main_v6 rfl shapeCasts_S1x1_S_

/-- At the region's entry: after the transpose and the three reshapes. -/
def VR (d : Dev nD) : Valuation τ sig (Elt F) :=
  (opR4 (F := F)).result ((opR3 (F := F)).result ((opR2 (F := F)).result ((opT (F := F)).result (V1 m d))))
/-- The same, as the pipeline's proof data takes it. -/
def Vc (d : Dev nD) : (b : Ref sig .tc) → Buf (Elt F) ((d : Thread nD τ).loc b) := fun b => VR m d (Proc.devRef .tc b)

/-- The proof data of the one pipeline, at the region's entry contents. -/
def pdats : (p : Fin 1) → (c : Dev nD) → Dat τ (Elt F) (HIx 1) ℕ UU ℕ (Pipeline.pin (pcfgs (F := F)) adm p) c
  | 0 => fun c => dat c (Vc m c)

/-- After the region: the result word written back. -/
def VX (d : Dev nD) : Valuation τ sig (Elt F) := Function.update (VR m d) a5' ((pdats m 0 d).arrAt 4 cfg1.N)
/-- At the end: the word as a scalar. -/
def VF (d : Dev nD) : Valuation τ sig (Elt F) := (opR6 (F := F)).result (VX m d)

/-! ## Dealing the arrays to the tasks -/

omit [FloatOps F] in
theorem chunkSet_eq (w : Fin 32) : chunkSet w = (chunk w).set := by
  show ((View.whole (main_v0_scv : Ref sig .scVector)).slice (chunk w)).set = _
  rw [View.set_slice]; exact Finset.map_refl
omit [FloatOps F] in
theorem chunks_disjoint : ∀ i ∈ (Finset.univ : Finset (Fin 32)), ∀ j ∈ (Finset.univ : Finset (Fin 32)), i ≠ j → Disjoint (chunkSet i) (chunkSet j) :=
  fun i _ j _ h => by rw [chunkSet_eq, chunkSet_eq]; exact Rect.part_disjoint hdiv32 h
omit [FloatOps F] in
theorem chunks_cover : (Finset.univ : Finset (Fin 32)).biUnion chunkSet = Finset.univ :=
  (Finset.biUnion_congr rfl fun i _ => chunkSet_eq i).trans (Rect.biUnion_part hdiv32)

omit [FloatOps F] in
theorem iPts_chunks (d : Dev nD) (f : Buf (Elt F) (iLoc d)) :
    (iLoc d ↦{fullShare} f : sProp 𝕄) = bigSep Finset.univ fun w : Fin 32 => iLoc d ↦[chunkSet w]{fullShare} f := by
  rw [← pointsTo_biUnion Finset.univ (ℓ := iLoc d) chunkSet chunks_disjoint, chunks_cover]; try rfl
omit [FloatOps F] in
theorem yPts_chunks (d : Dev nD) (f : Buf (Elt F) (yLoc d)) :
    (yLoc d ↦{fullShare} f : sProp 𝕄) = bigSep Finset.univ fun w : Fin 32 => yLoc d ↦[chunkSet w]{fullShare} f := by
  rw [← pointsTo_biUnion Finset.univ (ℓ := yLoc d) chunkSet chunks_disjoint, chunks_cover]; try rfl

omit [FloatOps F] in
/-- A family over the thirty-two chunks, SparseCore by SparseCore and task by task. -/
theorem bigSep_chunks (Φ : Fin 32 → sProp 𝕄) :
    bigSep (Finset.univ : Finset (Fin 32)) Φ = bigSep (Finset.univ : Finset (Fin 2)) fun c => bigSep (Finset.univ : Finset (Fin 16)) fun s => Φ (wOf c s) :=
  Cert.Deal.bigSep_tiles Φ

end Cert.Proof.KI

end
-- ==== Proof.KI.LaunchRegion.lean ====
/-
  The TensorCore region as a segment of @main: entered from the ten arrays at the region's entry contents and the
  TensorCore owing nothing, left with the result word written back; the two accumulators are the pipeline's invariant.
-/
import proofs.«211976_g36739150250640_fold_wed_m_914_8_alg».proof.Proof.KI.LaunchDefs

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Pipeline (Dat BodyObligation cellOf)

variable {F : FTy → Type} [FloatOps F]

local notation "𝕄" => MT nD τ sig (HIx 1) (Elt F) ℕ UU ℕ

variable (m : (ℓ : Loc nD τ sig) → Buf (Elt F) ℓ) (ρ : Dev nD → PrngReg)

/-- The TensorCore owing nothing, the pairs its waits have recorded at or below the first call's band of levels. -/
def OW (c : Dev nD) : sProp 𝕄 :=
  iprop(∃ W, ⌜(K (F := F)).WBelow (T c) W 8⌝ ∗ owes (T c) (0 : CellTallies nD τ sig (HIx 1)) W)

/-- The region's five arrays at contents `Fa`. -/
theorem arrays_eq (c : Dev nD) (Fa) :
    ((pdats (F := F) m 0 c).arrays Fa : sProp 𝕄)
      = iprop(pl c main_v1 (Fa 0) ∗ pl c main_v2 (Fa 1) ∗ pl c main_v3 (Fa 2) ∗ pl c main_v4 (Fa 3) ∗ pl c main_v5 (Fa 4)) := by
  rw [Pipeline.arrays_eq (Pipeline.pin (pcfgs (F := F)) adm) (pdats m) 0 c launch1.arr_whole ((pdats m 0 c).share_full fun _ => rfl) Fa, bigSep_W1]

/-- An input array reaches the region's exit as it entered. -/
theorem arrAt_in0 (c : Dev nD) : (pdats (F := F) m 0 c).arrAt 0 (Pipeline.pin (pcfgs (F := F)) adm 0).N = Vc m c main_v1 :=
  (dat (F := F) c (Vc m c)).arrAt_in 0 rfl _
theorem arrAt_in1 (c : Dev nD) : (pdats (F := F) m 0 c).arrAt 1 (Pipeline.pin (pcfgs (F := F)) adm 0).N = Vc m c main_v2 :=
  (dat (F := F) c (Vc m c)).arrAt_in 1 rfl _
theorem arrAt_in2 (c : Dev nD) : (pdats (F := F) m 0 c).arrAt 2 (Pipeline.pin (pcfgs (F := F)) adm 0).N = Vc m c main_v3 :=
  (dat (F := F) c (Vc m c)).arrAt_in 2 rfl _
theorem arrAt_in3 (c : Dev nD) : (pdats (F := F) m 0 c).arrAt 3 (Pipeline.pin (pcfgs (F := F)) adm 0).N = Vc m c main_v4 :=
  (dat (F := F) c (Vc m c)).arrAt_in 3 rfl _

theorem VX_a5 (c : Dev nD) : VX m c a5' = (pdats (F := F) m 0 c).arrAt 4 cfg1.N := Function.update_self ..
theorem VX_of_ne (c : Dev nD) (b : Ref sig .tc) (h : (Proc.devRef .tc b : DevRef τ sig) ≠ a5') : VX m c (Proc.devRef .tc b) = Vc m c b :=
  Function.update_of_ne h ..

/-- THE REGION: the five arrays into the pipeline, the five other unscoped buffers bypassing, the accumulators in the
    invariant, the core owing nothing throughout. -/
def reg : Pipeline.RegionSeg (pcfgs (F := F)) adm (pdats m) ι₀ defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation c (Vc m c)).loose
  hwaits c := (show _ ⊢ (iprop(emp) : sProp 𝕄) from by iintro -; iempintro).trans
    (Pipeline.cellsWaits_of_owed_zero (Pipeline.pin (pcfgs (F := F)) adm) (pdats m) ι₀ 0 c fun _ => rfl)
  pre c := iprop(unscopedBufs c (Vc m c) ∗ OW c)
  post c := iprop(held (T c) S10 (VX m c) ∗ OW c)
  X _ := iprop(emp)
  Y _ := iprop(emp)
  Z c := Pipeline.unscopedRest (Ix := HIx 1) (Name := ℕ) (U := UU) (Lvl := ℕ) spec1 c (Vc m c)
  hentry c := by
    rw [Pipeline.ownSems0_none]
    have hsplit := Pipeline.arrays_of_unscopedBufs (pcfgs (F := F)) adm (pdats m) launch1.win launch1.arr_whole c
      ((pdats m 0 c).share_full fun _ => rfl) (Vc m c) fun _ => rfl
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold OW
      icases HO with ⟨%W, %hW, HO⟩
      unfold Pipeline.Dat.owesAt Pipeline.owesWithin
      iexists W; isplitr; · ipureintro; exact fun p hp => Or.inl (hW p hp)
      iexact HO
    isplitr; · iempintro
    iexact Hr
  hin c := by
    rw [scopedRest1_eq]
    show _ ⊢ iprop((∃ X, owns (c : Thread nD τ) sP fullShare X) ∗ (∃ X, owns (c : Thread nD τ) sZ fullShare X))
    simp only [owns_whole]
    iintro ⟨-, -, H⟩
    iexact H
  hout c := by
    rw [Pipeline.ownSems0_none, scopedRest1_eq]
    show iprop(owns (c : Thread nD τ) sP fullShare (accP c (Vc m c) 49 h49) ∗ owns (c : Thread nD τ) sZ fullShare (accZ c (Vc m c) 49 h49)) ⊢ _
    rw [owns_whole, owns_whole]
    iintro ⟨HP, HZ⟩
    isplitr; · iempintro
    isplitr; · iempintro
    isplitl [HP]; · iexists _; iexact HP
    iexists _; iexact HZ
  hexit c := by
    rw [arrays_eq, unscopedRest1_eq, held_S10]; unfold ten; dsimp only
    rw [arrAt_in0, arrAt_in1, arrAt_in2, arrAt_in3, VX_a5,
      VX_of_ne m c main_arg0 (by decide), VX_of_ne m c main_arg1 (by decide), VX_of_ne m c main_arg2 (by decide), VX_of_ne m c main_v0 (by decide),
      VX_of_ne m c main_v1 (by decide), VX_of_ne m c main_v2 (by decide), VX_of_ne m c main_v3 (by decide), VX_of_ne m c main_v4 (by decide),
      VX_of_ne m c main_v6 (by decide)]
    iintro ⟨⟨H1, H2, H3, H4, H5⟩, HO, -, ⟨Hx, Hi, Hl, Hy, Hr⟩⟩
    imodintro
    isplitr [HO]
    · isplitl [Hx]; · iexact Hx
      isplitl [Hi]; · iexact Hi
      isplitl [Hl]; · iexact Hl
      isplitl [Hy]; · iexact Hy
      isplitl [H1]; · iexact H1
      isplitl [H2]; · iexact H2
      isplitl [H3]; · iexact H3
      isplitl [H4]; · iexact H4
      isplitl [H5]; · iexact H5
      iexact Hr
    · unfold Pipeline.Dat.owesAt Pipeline.owesWithin OW
      icases HO with ⟨%W, %hW, HO⟩
      iexists W; isplitr; swap; · iexact HO
      ipureintro
      intro p hp
      rcases hW hp with h | ⟨w, s, rfl⟩
      · exact h
      · show (K (F := F)).lev _ none ≤ 8
        rw [SparseCore.Cfg.lev_none]; omega

end Cert.Proof.KI

end
-- ==== Proof.KI.LaunchDeal.lean ====
/-
  How the SparseCore call's operands are made from the three arrays and its results give them back: the index array
  and the result array cut into their thirty-two chunks, the label table into thirty-two read shares and a remainder
  the TensorCore keeps; the result chunks, each at the one gathered array, join into that array whole.
-/
import proofs.«211976_g36739150250640_fold_wed_m_914_8_alg».proof.Proof.KI.LaunchDefs

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Pipeline (Dat BodyObligation cellOf)

variable {F : FTy → Type} [FloatOps F]

local notation "𝕄" => MT nD τ sig (HIx 1) (Elt F) ℕ UU ℕ

variable (m : (ℓ : Loc nD τ sig) → Buf (Elt F) ℓ) (ρ : Dev nD → PrngReg)

/-- The label table's share the TensorCore keeps during the call. -/
abbrev lRest : PosShare TreeShare := Transfers.shareDrop fullShare 32

theorem st_eq (d : Dev nD) :
    (bigSep Finset.univ fun c : Fin ((K (F := F)).nCore 0) => (P m).st 0 d c) = bigSep (Finset.univ : Finset (Fin 32)) (goRes m d) := by
  rw [bigSep_chunks]
  exact bigSep_congr fun c _ => rfl
theorem dn_eq (d : Dev nD) :
    (bigSep Finset.univ fun c : Fin ((K (F := F)).nCore 0) => (P m).dn 0 d c) = bigSep (Finset.univ : Finset (Fin 32)) (tdRes m d) := by
  rw [bigSep_chunks]
  exact bigSep_congr fun c _ => rfl

omit [FloatOps F] in
theorem goRes_all (d : Dev nD) :
    bigSep (Finset.univ : Finset (Fin 32)) (goRes m d)
      = iprop((iLoc d ↦{fullShare} m (iLoc d)) ∗ (bigSep Finset.univ fun w : Fin 32 => lLoc d ↦{lShare w} m (lLoc d)) ∗ (yLoc d ↦{fullShare} m (yLoc d))) := by
  unfold goRes
  rw [bigSep_sep', bigSep_sep', ← iPts_chunks, ← yPts_chunks]
omit [FloatOps F] in
theorem tdRes_all (d : Dev nD) :
    bigSep (Finset.univ : Finset (Fin 32)) (tdRes m d)
      = iprop((iLoc d ↦{fullShare} m (iLoc d)) ∗ (bigSep Finset.univ fun w : Fin 32 => lLoc d ↦{lShare w} m (lLoc d)) ∗ (yLoc d ↦{fullShare} gathered m d)) := by
  unfold tdRes
  rw [bigSep_sep', bigSep_sep', ← iPts_chunks, ← yPts_chunks]

/-- The three arrays whole make the call's operands, a share of the label table left over. -/
theorem deal_go (d : Dev nD) :
    iprop((iLoc d ↦{fullShare} m (iLoc d)) ∗ (lLoc d ↦{fullShare} m (lLoc d)) ∗ (yLoc d ↦{fullShare} m (yLoc d)))
      ⊢ iprop((bigSep Finset.univ fun c : Fin ((K (F := F)).nCore 0) => (P m).st 0 d c) ∗ (lLoc d ↦{lRest} m (lLoc d))) := by
  rw [st_eq, goRes_all]
  iintro ⟨Hi, Hl, Hy⟩
  ihave H := (Transfers.pointsTo_toks_split (ℓ := lLoc d) (S := Finset.univ) (f := m (lLoc d)) fullShare 32) $$ Hl
  icases H with ⟨Hr, Hs⟩
  isplitr [Hr]
  · isplitl [Hi]; · iexact Hi
    isplitl [Hs]; · iexact Hs
    iexact Hy
  · iexact Hr

/-- The call's results and the share left over give the three arrays back whole, the result array gathered. -/
theorem deal_td (d : Dev nD) :
    iprop((bigSep Finset.univ fun c : Fin ((K (F := F)).nCore 0) => (P m).dn 0 d c) ∗ (lLoc d ↦{lRest} m (lLoc d)))
      ⊢ iprop((iLoc d ↦{fullShare} m (iLoc d)) ∗ (lLoc d ↦{fullShare} m (lLoc d)) ∗ (yLoc d ↦{fullShare} gathered m d)) := by
  rw [dn_eq, tdRes_all]
  iintro ⟨⟨Hi, Hs, Hy⟩, Hr⟩
  isplitl [Hi]; · iexact Hi
  isplitr [Hy]
  · iapply (Transfers.pointsTo_toks_join (ℓ := lLoc d) (S := Finset.univ) (f := m (lLoc d)) fullShare 32)
    isplitl [Hr]; · iexact Hr
    iexact Hs
  · iexact Hy

end Cert.Proof.KI

end
-- ==== Proof.KI.Launch.lean ====
/-
  The launch: the ghost state's launch element, @main on the TensorCore (the SparseCore call, the four layout operations,
  the TensorCore region, the last reshape), and the program's run with every array it ends with named.
-/
import proofs.«211976_g36739150250640_fold_wed_m_914_8_alg».proof.Proof.KI.LaunchRegion
import proofs.«211976_g36739150250640_fold_wed_m_914_8_alg».proof.Proof.KI.LaunchDeal

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Pipeline (Dat BodyObligation cellOf)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch element -/

/-- The handshakes' rounds at the launch's cells, the pipeline's rounds at its staging cells, no counters yet. -/
def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), (1 : Counters)))

/-- What @main's proof starts from besides what the launch deals: the pipeline's ghost state on the device. -/
def G (d : Dev nD) : sProp 𝕄 :=
  iprop(Pipeline.cellsGhost (Pipeline.pin (pcfgs (F := F)) adm) EP 0 d ∗ Pipeline.toksInit (Pipeline.pin (pcfgs (F := F)) adm) EP 0 d)

omit [FloatOps F] in
theorem bigSep_emp' {I : Type} (s : Finset I) : (bigSep s fun _ => iprop(emp)) = (iprop(emp) : sProp 𝕄) := bigSep_emp_const s

theorem EP_eq : (EP : Emb UP 𝕄) = (Emb.inl : Emb UP (UP × Counters)).trans embR := rfl

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H2 := (own_pair_emb embR _ _) $$ HR
  icases H2 with ⟨HP, -⟩
  rw [← EP_eq]
  imod (Pipeline.fund_ghost (Pipeline.pin (pcfgs (F := F)) adm) EP cellOf_inj) $$ HP with ⟨Hg, Ht⟩
  imodintro
  isplitl [HH]; · iexact HH
  have e1 : (bigSep Finset.univ fun c : Dev nD => bigSep Finset.univ fun p : Fin 1 => (Pipeline.cellsGhost (Pipeline.pin (pcfgs (F := F)) adm) EP p c : sProp 𝕄))
      = bigSep Finset.univ fun c : Dev nD => Pipeline.cellsGhost (Pipeline.pin (pcfgs (F := F)) adm) EP 0 c :=
    bigSep_congr fun c _ => bigSep_univ_of_subsingleton (0 : Fin 1)
  have e2 : (bigSep Finset.univ fun c : Dev nD => bigSep Finset.univ fun p : Fin 1 => (Pipeline.toksInit (Pipeline.pin (pcfgs (F := F)) adm) EP p c : sProp 𝕄))
      = bigSep Finset.univ fun c : Dev nD => Pipeline.toksInit (Pipeline.pin (pcfgs (F := F)) adm) EP 0 c :=
    bigSep_congr fun c _ => bigSep_univ_of_subsingleton (0 : Fin 1)
  isplitl [Hg Ht]
  · unfold G
    rw [bigSep_sep', ← e1, ← e2]
    isplitl [Hg]
    · iexact Hg
    · iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

theorem V1_here (d : Dev nD) : V1 m d y' = gathered m d := Function.update_self ..
theorem V1_away (d : Dev nD) (b : DevRef τ sig) (h : b ≠ y') : V1 m d b = m (d, b) := Function.update_of_ne h ..

/-- The ten arrays after the SparseCore call. -/
theorem ten_V1 (d : Dev nD) : ten d (fun b => V1 m d (Proc.devRef .tc b))
    = iprop(pl d main_arg0 (m (xLoc d)) ∗ pl d main_arg1 (m (iLoc d)) ∗ pl d main_arg2 (m (lLoc d)) ∗ pl d main_v0 (gathered m d)
      ∗ pl d main_v1 (m ((SparseCore.T d).loc main_v1)) ∗ pl d main_v2 (m ((SparseCore.T d).loc main_v2)) ∗ pl d main_v3 (m ((SparseCore.T d).loc main_v3))
      ∗ pl d main_v4 (m ((SparseCore.T d).loc main_v4)) ∗ pl d main_v5 (m ((SparseCore.T d).loc main_v5)) ∗ pl d main_v6 (m ((SparseCore.T d).loc main_v6))) := by
  unfold ten; dsimp only
  rw [V1_here, V1_away m d x' (by decide), V1_away m d i' (by decide), V1_away m d l' (by decide), V1_away m d a1' (by decide), V1_away m d a2' (by decide),
    V1_away m d a3' (by decide), V1_away m d a4' (by decide), V1_away m d a5' (by decide), V1_away m d r' (by decide)]

/-- What @main leaves the claim: the ten arrays at their final contents. -/
abbrev FIN (d : Dev nD) : sProp 𝕄 := held (T d) S10 (VF m d)

/-- The ten arrays at the region's entry, as the region's record takes them. -/
theorem held_VR (d : Dev nD) : (held (T d) S10 (VR m d) : sProp 𝕄) = unscopedBufs d (Vc m d) := by
  rw [held_S10, unscopedBufs_eq]; rfl

theorem hT : (opT (F := F)).bufs ⊆ S10 := show ({x', a1'} : Finset (DevRef τ sig)) ⊆ S10 by decide
theorem hR2 : (opR2 (F := F)).bufs ⊆ S10 := show ({l', a2'} : Finset (DevRef τ sig)) ⊆ S10 by decide
theorem hR3 : (opR3 (F := F)).bufs ⊆ S10 := show ({y', a3'} : Finset (DevRef τ sig)) ⊆ S10 by decide
theorem hR4 : (opR4 (F := F)).bufs ⊆ S10 := show ({i', a4'} : Finset (DevRef τ sig)) ⊆ S10 by decide
theorem hR6 : (opR6 (F := F)).bufs ⊆ S10 := show ({a5', r'} : Finset (DevRef τ sig)) ⊆ S10 by decide

/-- After the one call the TensorCore owes nothing more. -/
theorem Otc_one (d : Dev nD) : (K (F := F)).Otc d 1 = 0 := (K (F := F)).Otc_end d (le_refl 1)

theorem reg_pre (d : Dev nD) : (reg (F := F) m).pre d = iprop(unscopedBufs d (Vc m d) ∗ OW d) := rfl
theorem reg_post (d : Dev nD) : (reg (F := F) m).post d = iprop(held (T d) S10 (VX m d) ∗ OW d) := rfl

set_option maxHeartbeats 1000000 in
/-- @main on device `d`'s TensorCore. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, Hten, -, -⟩, HG⟩
  unfold ten
  icases Hten with ⟨Hx, Hi, Hl, Hy, H1, H2, H3, H4, H5, Hr⟩
  -- the SparseCore call: the indices, the labels and the result array dealt to the tasks and gathered back
  ihave Hd := (deal_go m d) $$ [Hi Hl Hy]
  · isplitl [Hi]; · iexact Hi
    isplitl [Hl]; · iexact Hl
    iexact Hy
  icases Hd with ⟨Hst0, Hlr⟩
  iapply ((K (F := F)).wp_run (D (F := F)) 𝒱 (EH := EH) (P := P m) κ d 0) $$ [Hst Hst0 Hb Hx H1 H2 H3 H4 H5 Hr Hlr HG]
  isplitr; · iexact Hctx
  isplitl [Hst]; · iexact Hst
  isplitl [Hst0]; · iexact Hst0
  iintro ⟨Hst, Hdn⟩
  ihave Hd := (deal_td m d) $$ [Hdn Hlr]
  · isplitl [Hdn]; · iexact Hdn
    iexact Hlr
  icases Hd with ⟨Hi, Hl, Hy⟩
  ihave Hheld := (Entails.of_eq ((held_S10 (F := F) d (V1 m d)).trans (ten_V1 m d)).symm) $$ [Hx Hi Hl Hy H1 H2 H3 H4 H5 Hr]
  · isplitl [Hx]; · iexact Hx
    isplitl [Hi]; · iexact Hi
    isplitl [Hl]; · iexact Hl
    isplitl [Hy]; · iexact Hy
    isplitl [H1]; · iexact H1
    isplitl [H2]; · iexact H2
    isplitl [H3]; · iexact H3
    isplitl [H4]; · iexact H4
    isplitl [H5]; · iexact H5
    iexact Hr
  -- the transpose and the three reshapes
  iapply (wp_hlo_within 𝒱 (SparseCore.T d) none Set.univ (op := opT (F := F)) (S := S10) hT (V := V1 m d)) $$ [Hb Hheld]
  · isplitl [Hb]; · iexact Hb
    iexact Hheld
  iintro ⟨Hb, Hheld⟩
  rw [wp_ret]; imodintro
  iapply (wp_hlo_within 𝒱 (SparseCore.T d) none Set.univ (op := opR2 (F := F)) (S := S10) hR2 (V := (opT (F := F)).result (V1 m d))) $$ [Hb Hheld]
  · isplitl [Hb]; · iexact Hb
    iexact Hheld
  iintro ⟨Hb, Hheld⟩
  rw [wp_ret]; imodintro
  iapply (wp_hlo_within 𝒱 (SparseCore.T d) none Set.univ (op := opR3 (F := F)) (S := S10) hR3 (V := (opR2 (F := F)).result ((opT (F := F)).result (V1 m d)))) $$ [Hb Hheld]
  · isplitl [Hb]; · iexact Hb
    iexact Hheld
  iintro ⟨Hb, Hheld⟩
  rw [wp_ret]; imodintro
  iapply (wp_hlo_within 𝒱 (SparseCore.T d) none Set.univ (op := opR4 (F := F)) (S := S10) hR4 (V := (opR3 (F := F)).result ((opR2 (F := F)).result ((opT (F := F)).result (V1 m d))))) $$ [Hb Hheld]
  · isplitl [Hb]; · iexact Hb
    iexact Hheld
  iintro ⟨Hb, Hheld⟩
  rw [wp_ret]; imodintro
  have hE : (held (T d) S10 ((opR4 (F := F)).result ((opR3 (F := F)).result ((opR2 (F := F)).result ((opT (F := F)).result (V1 m d))))) : sProp 𝕄)
      = unscopedBufs d (Vc m d) := held_VR m d
  ihave Hub := (Entails.of_eq hE) $$ Hheld
  -- the core's owes out of its handshake state, for the region
  unfold SparseCore.Cfg.tcSt
  icases Hst with ⟨⟨%W, %hW, HO⟩, Hrest⟩
  rw [show ((0 : Fin 1).val + 1) = 1 from rfl, Otc_one]
  have hW8 : (K (F := F)).WBelow (SparseCore.T d) W 8 := hW
  ihave Hlev := (SparseCore.Cfg.ctx_levAts κ) $$ Hctx
  unfold G
  icases HG with ⟨Hcg, Hti⟩
  -- the region: its one custom call, lifted from the pipeline's own labels
  iapply ((K (F := F)).wp_liftProg (D (F := F)) 𝒱 (SparseCore.T d) Set.univ none (Prog.lift (.customCall (Pipeline.entry 0) ())) _)
  ihave Hpre := (Entails.of_eq (reg_pre m d).symm) $$ [Hub HO]
  · isplitl [Hub]; · iexact Hub
    unfold OW; iexists W; isplitr; · ipureintro; exact hW8
    iexact HO
  iapply ((reg m).wp (pcfgs (F := F)) adm (pdats m) ι₀ cellOf_inj EP defs₀ 𝒱₀ (K (F := F)).L (K (F := F)).lev d none (fun u h => nomatch h) (fun x => Prog.ret x) _) $$ [Hb Hpre Hlev Hcg Hti Hrest]
  isplitr [Hb Hpre Hlev Hcg Hti]
  swap
  · isplitl [Hb]; · iexact Hb
    isplitl [Hpre]; · iexact Hpre
    isplitl [Hlev]; · iexact Hlev
    isplitl [Hcg]; · iexact Hcg
    iexact Hti
  iintro ⟨Hb, Hpost⟩
  ihave Hp := (Entails.of_eq (reg_post m d)) $$ Hpost
  icases Hp with ⟨Hheld, HOW⟩
  rw [wp_ret]; imodintro
  -- the last reshape
  iapply (wp_hlo_within 𝒱 (SparseCore.T d) none Set.univ (op := opR6 (F := F)) (S := S10) hR6 (V := VX m d)) $$ [Hb Hheld]
  · isplitl [Hb]; · iexact Hb
    iexact Hheld
  iintro ⟨Hb, Hheld⟩
  rw [wp_ret]; imodintro; imodintro
  isplitl [HOW Hrest]
  · isplitl [HOW]
    · unfold OW; iexact HOW
    iexact Hrest
  iexact Hheld

/-! ## The split of a SparseCore's operands among its tasks -/

/-- A SparseCore's operands ARE its sixteen tasks' operands, its results their results. -/
theorem vecSplit : (K (F := F)).VecSplit' (P m) 0 := by
  intro d c
  show (bigSep Finset.univ fun s : Fin 16 => goRes m d (wOf (Fin.cast nCore_zero c) s))
    ⊢ |={Set.univ}=> iprop((bigSep Finset.univ fun s : Fin 16 => goRes m d (wOf (Fin.cast nCore_zero c) s))
      ∗ ((bigSep Finset.univ fun s : Fin 16 => tdRes m d (wOf (Fin.cast nCore_zero c) s))
          -∗ bigSep Finset.univ fun s : Fin 16 => tdRes m d (wOf (Fin.cast nCore_zero c) s)))
  iintro H; imodintro
  isplitl [H]; · iexact H
  iintro H; iexact H

/-! ## Reading the claim off the final state -/

/-- What a final state holds on device `d`: the result scalar and the three arguments at their final contents. -/
def fq (d : Dev nD) (s' : Phys nD τ sig (Elt F)) : Prop :=
  s'.mem.mem ((SparseCore.T d).loc main_v6) = VF m d r' ∧ s'.mem.mem (xLoc d) = VF m d x'
    ∧ s'.mem.mem (iLoc d) = VF m d i' ∧ s'.mem.mem (lLoc d) = VF m d l'

theorem hfin (d : Dev nD) (s' : Phys nD τ sig (Elt F)) : iprop(FIN m d ∗ SI s') ⊢ (⌜fq m d s'⌝ : sProp 𝕄) := by
  unfold FIN; rw [held_S10]; unfold ten; dsimp only
  iintro ⟨⟨Hx, Hi, Hl, -, -, -, -, -, -, Hr⟩, HSI⟩
  ihave H := (persistent_entails_right (SI_pointsTo_agree (st := s') (ℓ := xLoc d) (I := Finset.univ) (q := fullShare) (f := VF m d x'))) $$ [HSI Hx]
  · isplitl [HSI] <;> iassumption
  icases H with ⟨%h1, HSI, -⟩
  ihave H := (persistent_entails_right (SI_pointsTo_agree (st := s') (ℓ := iLoc d) (I := Finset.univ) (q := fullShare) (f := VF m d i'))) $$ [HSI Hi]
  · isplitl [HSI] <;> iassumption
  icases H with ⟨%h2, HSI, -⟩
  ihave H := (persistent_entails_right (SI_pointsTo_agree (st := s') (ℓ := lLoc d) (I := Finset.univ) (q := fullShare) (f := VF m d l'))) $$ [HSI Hl]
  · isplitl [HSI] <;> iassumption
  icases H with ⟨%h3, HSI, -⟩
  ihave H := (SI_pointsTo_agree (st := s') (ℓ := (SparseCore.T d).loc main_v6) (I := Finset.univ) (q := fullShare) (f := VF m d r')) $$ [HSI Hr]
  · isplitl [HSI] <;> iassumption
  icases H with %h4
  ipureintro
  exact ⟨funext fun i => h4 i (Finset.mem_univ i), funext fun i => h1 i (Finset.mem_univ i), funext fun i => h2 i (Finset.mem_univ i),
    funext fun i => h3 i (Finset.mem_univ i)⟩

/-! ## The program's run -/

/-- Every final state: the result scalar and the three arguments at the contents @main's proof computes. -/
def QC : PUnit × MemSt nD τ sig (Elt F) → Prop := fun r => ∀ c : Dev nD,
  r.2.mem ((SparseCore.T c).loc main_v6) = VF m c r' ∧ r.2.mem (xLoc c) = VF m c x' ∧ r.2.mem (iLoc c) = VF m c i' ∧ r.2.mem (lLoc c) = VF m c l'

/-- From any memory whose index words name columns, with every semaphore at zero: every weakly fair execution of the
    device's thirty-five threads terminates, nothing faulting, and every final state is as `QC` says. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hpre)
    (fun q _ => match q with | 0 => SparseCore.Cfg.VecSplit.of_plain (vecSplit m))
    m ρ main (fun d => G (F := F) d) (FIN m) (u₀ (F := F)) (sep_elim_left.trans (hu₀ m)) (hmain m ρ) (fq m) (hfin m) (QC m) (fun _ h => h)

end Cert.Proof.KI

end
-- ==== Proof.KI.LaunchValue.lean ====
/-
  The TensorCore's arrays through @main, read at an index.

  Before the region @main lays its arguments out for the pipeline: the scores transposed, so that entry (j, i) of
  the new array is the score of row i in column j; the labels as a column and the gathered labels and the indices
  as rows, each entry the vector's entry with the unit coordinate dropped. None of these operations, nor the
  region, nor the last reshape writes an argument. The region's one-word result array is written back once, at the
  last grid point, as a single block that is the whole array, so after the region it holds the word formed from
  the two accumulators; the last reshape reads that word as a scalar.
-/
import proofs.«211976_g36739150250640_fold_wed_m_914_8_alg».proof.Proof.KI.LaunchDefs
import Idealize.ShloMosaic.Lib.ValueLayout
import Idealize.ShloMosaic.Lib.Pipeline.Value

noncomputable section

namespace Cert.Proof.KI

open Cert.KernelIdeal Cert.KernelIdeal.Gen

open Idealize.ShloMosaic Idealize.ShloMosaic.TcCoe Idealize.ShloMosaic.Tactic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Pipeline (Dat BodyObligation cellOf)

variable {F : FTy → Type} [FloatOps F]

variable (m : (ℓ : Loc nD τ sig) → Buf (Elt F) ℓ)

/-- Reads a layout operation's result: at its own result buffer its function's value at the operand's contents, at
    any other buffer what was there (the two buffers told apart as references). -/
macro "hlo_results" : tactic =>
  `(tactic| repeat (first
      | rw [StableHlo.unary_result] | rw [StableHlo.reshape_result]
      | (rw [StableHlo.unary_result_ne]; rotate_left; decide)
      | (rw [StableHlo.reshape_result_ne]; rotate_left; decide)))

/-! ## The contents after the SparseCore call -/

/-- Every array but the gathered labels is as at launch. -/
theorem V1_of_ne (d : Dev nD) {b : Ref sig .tc} (h : b ≠ main_v0) : V1 m d (Proc.devRef .tc b) = m (d, Proc.devRef .tc b) := by
  unfold V1 V0
  exact Function.update_of_ne (StableHlo.devRef_ne_of_ne h) _ _

/-- The gathered labels are in place. -/
theorem V1_y (d : Dev nD) : V1 m d y' = gathered m d := by
  unfold V1
  exact Function.update_self _ _ _

/-- A vector recast as a column reads its entry, whatever the unit coordinate. -/
theorem col_cast_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-! ## The four arrays the region reads -/

/-- The scores transposed: entry (j, i) is the score of row i in column j. -/
theorem Vc_v1 (d : Dev nD) (j : Fin 100000) (i : Fin 1024) :
    Vc m d main_v1 (ValueIdx.ix2 j i) = m (xLoc d) (ValueIdx.ix2 i j) := by
  unfold Vc VR
  hlo_results
  rw [V1_of_ne m d (by decide)]
  exact transpose_ix2_apply (a := 1024) (b := 100000) _ _ j i

/-- The labels as a column. -/
theorem Vc_v2 (d : Dev nD) (j : Fin 100000) :
    Vc m d main_v2 (ValueIdx.ix2 j (0 : Fin 1)) = m (lLoc d) (ValueIdx.ix1 j) := by
  unfold Vc VR
  hlo_results
  rw [V1_of_ne m d (by decide)]
  exact col_cast_apply (a := 100000) _ _ j 0

/-- The gathered labels as a row. -/
theorem Vc_v3 (d : Dev nD) (i : Fin 1024) :
    Vc m d main_v3 (ValueIdx.ix2 (0 : Fin 1) i) = gathered m d (ValueIdx.ix1 i) := by
  unfold Vc VR
  hlo_results
  rw [V1_y]
  exact shapeCast_a_1a_apply (a := 1024) _ _ 0 i

/-- The indices as a row. -/
theorem Vc_v4 (d : Dev nD) (i : Fin 1024) :
    Vc m d main_v4 (ValueIdx.ix2 (0 : Fin 1) i) = m (iLoc d) (ValueIdx.ix1 i) := by
  unfold Vc VR
  hlo_results
  rw [V1_of_ne m d (by decide)]
  exact shapeCast_a_1a_apply (a := 1024) _ _ 0 i

/-! ## The arguments at the end -/

/-- An array that neither the layout operations, nor the region, nor the last reshape writes, and that is not the
    gathered labels, ends as at launch. -/
theorem VF_of_arg (d : Dev nD) {b : Ref sig .tc} (h1 : b ≠ main_v1) (h2 : b ≠ main_v2) (h3 : b ≠ main_v3) (h4 : b ≠ main_v4)
    (h5 : b ≠ main_v5) (h6 : b ≠ main_v6) (h0 : b ≠ main_v0) : VF m d (Proc.devRef .tc b) = m (d, Proc.devRef .tc b) := by
  unfold VF VX
  rw [StableHlo.reshape_result_ne _ _ _ _ _ _ _ h6]
  refine (Function.update_of_ne (StableHlo.devRef_ne_of_ne h5) _ _).trans ?_
  unfold VR
  rw [StableHlo.reshape_result_ne _ _ _ _ _ _ _ h4, StableHlo.reshape_result_ne _ _ _ _ _ _ _ h3,
    StableHlo.reshape_result_ne _ _ _ _ _ _ _ h2, StableHlo.unary_result_ne _ _ _ _ _ _ h1]
  exact V1_of_ne m d h0

theorem VF_x (d : Dev nD) : VF m d x' = m (xLoc d) :=
  VF_of_arg m d (by decide) (by decide) (by decide) (by decide) (by decide) (by decide) (by decide)
theorem VF_i (d : Dev nD) : VF m d i' = m (iLoc d) :=
  VF_of_arg m d (by decide) (by decide) (by decide) (by decide) (by decide) (by decide) (by decide)
theorem VF_l (d : Dev nD) : VF m d l' = m (lLoc d) :=
  VF_of_arg m d (by decide) (by decide) (by decide) (by decide) (by decide) (by decide) (by decide)

/-! ## The result word -/

/-- The last grid point, the one that writes the result back. -/
abbrev tLast : Fin cfg1.N := ⟨49, h49⟩

/-- The result window's block index is (0, 0) at every point: its offsets are zero. -/
theorem out_off (t : Fin cfg1.N) : (fun a => win1_4.index t a * main_v5.ty.shape.size a) = fun _ => 0 :=
  funext fun a => by fin_cases a <;> rfl

/-- A point that writes the result back is the last one. -/
theorem eq_tLast (t : Fin cfg1.N) (hf : (cfg1.win 4).flush t = true) : t = tLast := by
  have h := (flush1_4 t).mp hf
  have hlt : t.val < 50 := t.isLt
  exact Fin.ext (by show t.val = 49; omega)

/-- The one write-back writes the word formed from the accumulators: the window's one block, read through zero
    offsets, is the whole one-word array. -/
theorem flushed_out (d : Dev nD) (t : Fin cfg1.N) (hf : (cfg1.win 4).flush t = true) :
    (dat d (Vc m d)).flushed 4 t = ((cfg1.win 4).blk t).view.read (Elt F) (outWord d (Vc m d)) := by
  obtain rfl := eq_tLast t hf
  show (cfg1.win 4).cut (grid1.coords tLast) ((dat d (Vc m d)).after 4 tLast) = _
  rw [after1_4]
  exact (Memref.read_access_unit_zero (Elt F) main_v5 (out_off tLast) (fun a => by rw [congrFun (out_off tLast) a]; simp)
    (outWord d (Vc m d))).symm

/-- THE RESULT ARRAY AFTER THE REGION holds the word formed from the two accumulators after the last point. -/
theorem arrAt_out (d : Dev nD) : (pdats m 0 d).arrAt 4 cfg1.N = outWord d (Vc m d) :=
  (dat d (Vc m d)).arrAt_eq_of_cover 4 (outWord d (Vc m d)) (flushed_out m d) fun i =>
    ⟨tLast, (flush1_4 tLast).mpr rfl, by
      show i ∈ ((View.whole main_v5).slice (win1_4.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win1_4.index tLast 0 * win1_4.size 0 ≤ (i 0 : Nat) ∧ (i 0 : Nat) < win1_4.index tLast 0 * win1_4.size 0 + win1_4.xsize (grid1.coords tLast) 0
        rw [show win1_4.index tLast 0 * win1_4.size 0 = 0 from rfl, show win1_4.xsize (grid1.coords tLast) 0 = 1 from rfl]; omega
      | ⟨1, _⟩ =>
        show win1_4.index tLast 1 * win1_4.size 1 ≤ (i 1 : Nat) ∧ (i 1 : Nat) < win1_4.index tLast 1 * win1_4.size 1 + win1_4.xsize (grid1.coords tLast) 1
        rw [show win1_4.index tLast 1 * win1_4.size 1 = 0 from rfl, show win1_4.xsize (grid1.coords tLast) 1 = 1 from rfl]; omega⟩

/-- The scalar shape's row-major position is zero. -/
theorem rowMajor_scalar (u : S_.Idx) : (S_.rowMajor u).val = 0 := by
  have h := (S_.rowMajor u).isLt
  have hn : S_.numel = 1 := rfl
  omega

/-- THE RESULT AT THE END: the word of the one-word array, as a scalar. -/
theorem VF_r (d : Dev nD) : VF m d r' = fun _ => outWord d (Vc m d) (ValueIdx.ix2 (0 : Fin 1) (0 : Fin 1)) := by
  unfold VF
  rw [StableHlo.reshape_result]
  funext u
  have hX : VX m d a5' = outWord d (Vc m d) := by
    unfold VX
    exact (Function.update_self _ _ _).trans (arrAt_out m d)
  show shapeCast S_ (VX m d a5') shapeCasts_S1x1_S_ u = _
  rw [hX]
  exact shapeCast_apply (s := S1x1) (t := S_) _ _ u (ValueIdx.ix2 (0 : Fin 1) (0 : Fin 1)) (by
    rw [Shape.rowMajor_val_two, rowMajor_scalar]
    rfl)

end Cert.Proof.KI

end
-- ==== Proof.Spec.lean ====
/-
  The function both programs compute, over the extended reals.

  For a batch of 1024 rows of 100000 scores x, a target column idx i per row and a label per column:
  every score is exponentiated, the entry in the row's own target column is replaced by zero, and per
  row two sums are taken over the columns: z, the sum of all remaining exponentials, and p, the sum over
  the columns whose label equals the label of the row's target column. The row contributes log (p / z)
  when that quotient is not zero and nothing otherwise; the result is minus the sum of the rows'
  contributions, divided by the batch size 1024.
-/
import Idealize.ShloMosaic.PureOps.Ideal
import Idealize.ShloMosaic.Lib.ValueIdx

noncomputable section

namespace Cert.Spec

open Idealize.ShloMosaic

/-- The exponential of the score at row `i`, column `j`, zero in the row's own target column. -/
def e (x : Fin 1024 → Fin 100000 → EReal) (idx : Fin 1024 → ℕ) (i : Fin 1024) (j : Fin 100000) : EReal :=
  if j.val = idx i then 0 else Ideal.exp (x i j)

/-- The label of the row's target column (zero if the target names no column). -/
def yOf (lab : Fin 100000 → BitVec 32) (idx : Fin 1024 → ℕ) (i : Fin 1024) : BitVec 32 :=
  if h : idx i < 100000 then lab ⟨idx i, h⟩ else 0

/-- Row `i`'s sum over all columns. -/
def z (x : Fin 1024 → Fin 100000 → EReal) (idx : Fin 1024 → ℕ) (i : Fin 1024) : EReal :=
  ∑ j : Fin 100000, e x idx i j

/-- Row `i`'s sum over the columns labelled as `y i`. -/
def p (x : Fin 1024 → Fin 100000 → EReal) (idx : Fin 1024 → ℕ) (lab : Fin 100000 → BitVec 32)
    (y : Fin 1024 → BitVec 32) (i : Fin 1024) : EReal :=
  ∑ j : Fin 100000, if lab j = y i then e x idx i j else 0

/-- One row's contribution: the logarithm of the quotient where the quotient is not zero. -/
def rowTerm (p z : EReal) : EReal :=
  if Ideal.div p z ≠ 0 then Ideal.log (Ideal.div p z) else 0

/-- Minus the sum of the rows' contributions, over the batch size (the word of 1024.0). -/
def loss (p z : Fin 1024 → EReal) : EReal :=
  Ideal.div (0 - ∑ i : Fin 1024, rowTerm (p i) (z i)) (Ideal.ofBits .f32 0x44800000#32)

/-- The whole function of the three arguments. -/
def result (x : Fin 1024 → Fin 100000 → EReal) (idx : Fin 1024 → ℕ) (lab : Fin 100000 → BitVec 32) : EReal :=
  loss (p x idx lab (yOf lab idx)) (z x idx)

end Cert.Spec

end
-- ==== Proof.LibRowReduce.lean ====
/-
  Reductions of a one-row matrix along its row, and of a matrix along its columns, read at an index over the extended
  reals: the inserted coordinate of the reduced axis is the summation (or fold) variable, the kept coordinate stays.

  * a `[1, n]` array reduced along axis 1 into `[1]`: the fold or sum runs over `k : Fin n` of the entries `(0, k)`;
  * an `[m, n]` array reduced along axis 0 into `[n]`: the sum at `j` runs over `k : Fin m` of the entries `(k, j)`.
-/
import Idealize.ShloMosaic.PureOps.Ideal.Laws
import Idealize.ShloMosaic.Lib.ValueIdx

namespace Cert.Head.RowReduce

open Idealize.ShloMosaic Idealize.ShloMosaic.ValueIdx

variable {φ : FTy}

/-- Reducing `[1, n]` along axis 1: coordinate `k` inserted at the one reduced index is `(0, k)`. -/
theorem lift_row {n : ℕ} (h : Shape.Reduces ⟨2, ![1, n]⟩ [1] ⟨1, ![1]⟩) (j : (⟨1, ![1]⟩ : Shape).Idx) (k : Fin n) :
    h.lift j k = ix2 (0 : Fin 1) k := by
  funext a
  apply Fin.ext
  match a with
  | ⟨0, _⟩ =>
    have hj : (j 0).val < 1 := (j 0).isLt
    show (j 0).val = 0
    omega
  | ⟨1, _⟩ => rfl

/-- Reducing `[m, n]` along axis 0: coordinate `k` inserted at the reduced index `j` is `(k, j)`. -/
theorem lift_col {m n : ℕ} (h : Shape.Reduces ⟨2, ![m, n]⟩ [0] ⟨1, ![n]⟩) (j : (⟨1, ![n]⟩ : Shape).Idx) (k : Fin m) :
    h.lift j k = ix2 k (j 0) := by
  funext a
  apply Fin.ext
  match a with
  | ⟨0, _⟩ => rfl
  | ⟨1, _⟩ => rfl

/-- A row's maximum as the kernel takes it: the fold of `max` from the accumulator over the row's entries. -/
theorem rowMax_apply {n : ℕ} (L : FVec Ideal ⟨2, ![1, n]⟩ φ) (acc : BitVec φ.bits)
    (h : Shape.Reduces ⟨2, ![1, n]⟩ [1] ⟨1, ![1]⟩) (hφ : FKind.Formats φ) (hacc : acc = FKind.maximumf.neutral φ hφ)
    (j : (⟨1, ![1]⟩ : Shape).Idx) :
    multiReduction .maximumf [1] ⟨1, ![1]⟩ L acc h hφ hacc j
      = (Finset.univ : Finset (Fin n)).fold max (FloatOps.ofBits φ acc) (fun k => L (ix2 (0 : Fin 1) k)) := by
  rw [Ideal.multiReduction_maximumf_single]
  have e : (L ∘ h.lift j) = fun k : Fin n => L (ix2 (0 : Fin 1) k) := funext fun k => congrArg L (lift_row h j k)
  rw [e]
  rfl

/-- A row's sum as the kernel takes it. -/
theorem rowSum_apply {n : ℕ} (L : FVec Ideal ⟨2, ![1, n]⟩ φ) (acc : BitVec φ.bits)
    (h : Shape.Reduces ⟨2, ![1, n]⟩ [1] ⟨1, ![1]⟩) (hφ : FKind.Formats φ) (hacc : acc = FKind.add.neutral φ hφ)
    (j : (⟨1, ![1]⟩ : Shape).Idx) :
    multiReduction .add [1] ⟨1, ![1]⟩ L acc h hφ hacc j = ∑ k : Fin n, L (ix2 (0 : Fin 1) k) := by
  rw [Ideal.multiReduction_add_single]
  exact Finset.sum_congr rfl fun k _ => congrArg L (lift_row h j k)

/-- The column sums of a matrix as the kernel takes them. -/
theorem colSum_apply {m n : ℕ} (X : FVec Ideal ⟨2, ![m, n]⟩ φ) (acc : BitVec φ.bits)
    (h : Shape.Reduces ⟨2, ![m, n]⟩ [0] ⟨1, ![n]⟩) (hφ : FKind.Formats φ) (hacc : acc = FKind.add.neutral φ hφ)
    (j : Fin n) :
    multiReduction .add [0] ⟨1, ![n]⟩ X acc h hφ hacc (ix1 j) = ∑ k : Fin m, X (ix2 k j) := by
  rw [Ideal.multiReduction_add_single]
  exact Finset.sum_congr rfl fun k _ => congrArg X (lift_col h (ix1 j) k)

/-- The host's maximum of a row from an initial value: the same fold. -/
theorem hostRowMax_apply {n : ℕ} {u : Shape} (L : (⟨2, ![1, n]⟩ : Shape).Idx → EReal) (init : u.Idx → EReal)
    (h' : Shape.ReducesTo ⟨2, ![1, n]⟩ [1] ⟨1, ![1]⟩) (h : Shape.Reduces ⟨2, ![1, n]⟩ [1] ⟨1, ![1]⟩) (hu : 0 < u.numel)
    (j : (⟨1, ![1]⟩ : Shape).Idx) :
    Host.reduce (max : EReal → EReal → EReal) L init h' hu j
      = (Finset.univ : Finset (Fin n)).fold max (init (Shape.Idx.first hu)) (fun k => L (ix2 (0 : Fin 1) k)) := by
  rw [Host.reduce_eq_fold_single (max : EReal → EReal → EReal) L init h' h hu j]
  have e : (L ∘ h.lift j) = fun k : Fin n => L (ix2 (0 : Fin 1) k) := funext fun k => congrArg L (lift_row h j k)
  rw [e]
  rfl

/-- The host's sum of a row from an initial value. -/
theorem hostRowSum_apply {n : ℕ} (L : (⟨2, ![1, n]⟩ : Shape).Idx → EReal) (init : EReal)
    (h' : Shape.ReducesTo ⟨2, ![1, n]⟩ [1] ⟨1, ![1]⟩) (h : Shape.Reduces ⟨2, ![1, n]⟩ [1] ⟨1, ![1]⟩)
    (j : (⟨1, ![1]⟩ : Shape).Idx) :
    Ideal.hostReduceAdd h' L init j = init + ∑ k : Fin n, L (ix2 (0 : Fin 1) k) := by
  rw [Ideal.hostReduceAdd_single h' h]
  exact congrArg (init + ·) (Finset.sum_congr rfl fun k _ => congrArg L (lift_row h j k))

end Cert.Head.RowReduce
-- ==== Proof.LibColumn.lean ====
/-
  Column layouts read at an index given by coordinates.

  A row statistic kept as a column (`keepdims`) passes through two layout steps: a vector of length `a` is
  recast as an `[a, 1]` column, and the column is broadcast along the rows of an `[a, b]` array. Read at
  `(p, c)` both are the statistic of row `p`.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KI.TcValStep.lean ====
/-
  One grid point's step of the two accumulators, read at a column.

  At a point with grid coordinate i the body holds a block x1 of 2000 rows of the transposed scores, the rows'
  labels x2 (a column), the gathered labels x3 and the target words x4 (rows of 1024). Local row r has the row
  word  r + i * 2000  (32-bit words). The masked exponential at (r, k) is exp (x1 (r, k)) unless the row word is
  column k's target word, where it is 0. The second accumulator gains, at column k, the sum over the 2000 rows of
  the masked exponentials; the first gains the same sum restricted to the rows whose label is column k's
  gathered label. Both reset values are the zero row.
-/
import proofs.«211976_g36739150250640_fold_wed_m_914_8_alg».proof.Proof.KI.TcRun
import proofs.«211976_g36739150250640_fold_wed_m_914_8_alg».proof.Proof.LibRowReduce
import proofs.«211976_g36739150250640_fold_wed_m_914_8_alg».proof.Proof.LibColumn
import Idealize.ShloMosaic.Lib.ValueLayout
import Idealize.ShloMosaic.PureOps.Ideal.Laws

set_option maxRecDepth 16384

noncomputable section

namespace Cert.Proof.KI

open Cert.KernelIdeal Cert.KernelIdeal.Gen
open Idealize.ShloMosaic Idealize.ShloMosaic.TcCoe Idealize.ShloMosaic.ValueIdx

/-- The row word of local row `r` at a point whose first grid coordinate is `i 0`. -/
def rowWord (i : grid1.Coords) (r : Fin 2000) : BitVec 32 :=
  BitVec.ofNat 32 r.val + BitVec.ofNat 32 (i 0).val * 2000#32

/-- A select on "the two words differ" is the `if` on their inequality. -/
theorem select_cmpi_ne {α : Type} (a b : BitVec 32) (u v : α) :
    Scalar.select (IntOp.cmpi .ne a b) u v = if a ≠ b then u else v := by
  unfold Scalar.select IntOp.cmpi
  by_cases h : a = b
  · subst h; simp
  · have hb : (a != b) = true := by simpa [bne_iff_ne] using h
    simp [hb, h]

/-- A select on "the two words agree" is the `if` on their equality. -/
theorem select_cmpi_eq {α : Type} (a b : BitVec 32) (u v : α) :
    Scalar.select (IntOp.cmpi .eq a b) u v = if a = b then u else v := by
  unfold Scalar.select IntOp.cmpi
  by_cases h : a = b
  · subst h; simp
  · have hb : (a == b) = false := by simpa using h
    simp [hb, h]

/-- The masked exponential over variables: rows numbered from the word `t32`, compared with the row of words `x4`. -/
theorem maskedExp_apply (t32 : BitVec 32) (x1 : FVec Ideal S2000x1024 .f32) (x4 : IVec S1x1024 32)
    (hi : S2000x1.Iotas .tc 32 [0]) (hb1 : S2000x1.Broadcasts S2000x1024) (hb2 : S1x1024.Broadcasts S2000x1024)
    (r : Fin 2000) (k : Fin 1024) :
    select (cmpi .ne (broadcastTo S2000x1024 (addi (iota .tc S2000x1 32 [0] hi) (broadcast S2000x1 t32)) hb1)
        (broadcastTo S2000x1024 x4 hb2)) (exp x1) (broadcast S2000x1024 (Scalar.ofBits (F := Ideal) .f32 0x00000000#32)) (ix2 r k)
      = if BitVec.ofNat 32 r.val + t32 ≠ x4 (ix2 (0 : Fin 1) k) then Ideal.exp (x1 (ix2 r k)) else 0 := by
  show Scalar.select (IntOp.cmpi .ne (broadcastTo S2000x1024 (addi (iota .tc S2000x1 32 [0] hi) (broadcast S2000x1 t32)) hb1 (ix2 r k))
      (broadcastTo S2000x1024 x4 hb2 (ix2 r k))) (Ideal.exp (x1 (ix2 r k))) (Ideal.ofBits .f32 0x00000000#32) = _
  rw [Cert.LibColumn.broadcastTo_a1_ab_apply _ hb1 r k, broadcastTo_1b_ab_apply x4 hb2 r k, Ideal.ofBits_zero_f32]
  show Scalar.select (IntOp.cmpi .ne (iota .tc S2000x1 32 [0] hi (ix2 r (0 : Fin 1)) + t32) (x4 (ix2 (0 : Fin 1) k)))
      (Ideal.exp (x1 (ix2 r k))) 0 = _
  rw [iota_single_apply]
  exact select_cmpi_ne _ _ _ _

/-- The masked exponential of the body at `(r, k)`. -/
theorem pay5_apply (i : grid1.Coords) (x1 : Vec Ideal S2000x1024 .f32) (x4 : Vec Ideal S1x1024 .i32) (r : Fin 2000) (k : Fin 1024) :
    k1_pay5 (F := Ideal) i x1 x4 (ix2 r k)
      = if rowWord i r ≠ x4 (ix2 (0 : Fin 1) k) then Ideal.exp (x1 (ix2 r k)) else 0 := by
  unfold k1_pay5 rowWord
  simp only [shapeCast_self]
  exact maskedExp_apply _ x1 x4 _ _ _ r k

/-- The label test over variables: the rows' label column against the row of gathered labels. -/
theorem labelMask_apply (x2 : IVec S2000x1 32) (x3 : IVec S1x1024 32) (E : FVec Ideal S2000x1024 .f32)
    (hb1 : S2000x1.Broadcasts S2000x1024) (hb2 : S1x1024.Broadcasts S2000x1024) (r : Fin 2000) (k : Fin 1024) :
    select (cmpi .eq (broadcastTo S2000x1024 x2 hb1) (broadcastTo S2000x1024 x3 hb2)) E
        (broadcast S2000x1024 (Scalar.ofBits (F := Ideal) .f32 0x00000000#32)) (ix2 r k)
      = if x2 (ix2 r (0 : Fin 1)) = x3 (ix2 (0 : Fin 1) k) then E (ix2 r k) else 0 := by
  show Scalar.select (IntOp.cmpi .eq (broadcastTo S2000x1024 x2 hb1 (ix2 r k)) (broadcastTo S2000x1024 x3 hb2 (ix2 r k)))
      (E (ix2 r k)) (Ideal.ofBits .f32 0x00000000#32) = _
  rw [Cert.LibColumn.broadcastTo_a1_ab_apply x2 hb1 r k, broadcastTo_1b_ab_apply x3 hb2 r k, Ideal.ofBits_zero_f32]
  exact select_cmpi_eq _ _ _ _

/-- The second accumulator's step at column `k`: the old entry plus the column's sum of masked exponentials. -/
theorem stepZ_apply (i : grid1.Coords) (x1 : Vec Ideal S2000x1024 .f32) (x4 : Vec Ideal S1x1024 .i32) (xZ : Vec Ideal S1x1024 .f32)
    (k : Fin 1024) :
    stepZ (F := Ideal) i x1 x4 xZ (ix2 (0 : Fin 1) k)
      = xZ (ix2 (0 : Fin 1) k) + ∑ r : Fin 2000, k1_pay5 (F := Ideal) i x1 x4 (ix2 r k) := by
  unfold stepZ k1_pay1 k1_pay7
  simp only [shapeCast_self]
  show xZ (ix2 (0 : Fin 1) k) + shapeCast S1x1024 (multiReduction .add [0] S1024 (k1_pay5 (F := Ideal) i x1 x4) 0x00000000#32 _ _ _) _ (ix2 (0 : Fin 1) k) = _
  rw [shapeCast_a_1a_apply]
  exact congrArg (xZ (ix2 (0 : Fin 1) k) + ·) (Cert.Head.RowReduce.colSum_apply (k1_pay5 (F := Ideal) i x1 x4) 0x00000000#32 _ _ _ k)

/-- The first accumulator's step at column `k`: the old entry plus the same sum over the rows labelled as the column. -/
theorem stepP_apply (i : grid1.Coords) (x1 : Vec Ideal S2000x1024 .f32) (x2 : Vec Ideal S2000x1 .i32) (x3 x4 : Vec Ideal S1x1024 .i32)
    (xP : Vec Ideal S1x1024 .f32) (k : Fin 1024) :
    stepP (F := Ideal) i x1 x2 x3 x4 xP (ix2 (0 : Fin 1) k)
      = xP (ix2 (0 : Fin 1) k)
        + ∑ r : Fin 2000, if x2 (ix2 r (0 : Fin 1)) = x3 (ix2 (0 : Fin 1) k) then k1_pay5 (F := Ideal) i x1 x4 (ix2 r k) else 0 := by
  unfold stepP k1_pay6
  simp only [shapeCast_self]
  show xP (ix2 (0 : Fin 1) k) + shapeCast S1x1024 (multiReduction .add [0] S1024
      (select (cmpi .eq (broadcastTo S2000x1024 x2 _) (broadcastTo S2000x1024 x3 _)) (k1_pay5 (F := Ideal) i x1 x4)
        (broadcast S2000x1024 (Scalar.ofBits (F := Ideal) .f32 0x00000000#32))) 0x00000000#32 _ _ _) _ (ix2 (0 : Fin 1) k) = _
  rw [shapeCast_a_1a_apply]
  refine congrArg (xP (ix2 (0 : Fin 1) k) + ·) ?_
  refine (Cert.Head.RowReduce.colSum_apply _ 0x00000000#32 _ _ _ k).trans ?_
  exact Finset.sum_congr rfl fun r _ => labelMask_apply x2 x3 _ _ _ r k

/-- The reset values are the zero row. -/
theorem zeroP_apply (k : Fin 1024) : zeroP (F := Ideal) (ix2 (0 : Fin 1) k) = 0 := by
  unfold zeroP k1_pay3
  simp only [shapeCast_self]
  exact Ideal.ofBits_zero_f32
theorem zeroZ_apply (k : Fin 1024) : zeroZ (F := Ideal) (ix2 (0 : Fin 1) k) = 0 := by
  unfold zeroZ k1_pay4
  simp only [shapeCast_self]
  exact Ideal.ofBits_zero_f32

end Cert.Proof.KI

end
-- ==== Proof.KI.TcValWord.lean ====
/-
  Row numbers as 32-bit words. The row word of local row r of block t is  r + t * 2000  computed on 32-bit words;
  with t < 50 and r < 2000 the number 2000 t + r is below 100000, far below 2^32, so nothing wraps: the word
  equals another word exactly when the number equals that word's value.
-/
import Mathlib.Data.BitVec
import Mathlib.Tactic.Ring

namespace Cert.Proof.KI

/-- A number below 2^32, as a word, is a given word exactly when it is that word's value. -/
theorem ofNat_eq_iff (n : ℕ) (hn : n < 2 ^ 32) (w : BitVec 32) : BitVec.ofNat 32 n = w ↔ n = w.toNat := by
  constructor
  · rintro rfl
    rw [BitVec.toNat_ofNat, Nat.mod_eq_of_lt hn]
  · intro h
    apply BitVec.eq_of_toNat_eq
    rw [BitVec.toNat_ofNat, Nat.mod_eq_of_lt hn, h]

/-- The row word does not wrap. -/
theorem rowWord_eq_ofNat (t r : ℕ) (ht : t < 50) (hr : r < 2000) :
    BitVec.ofNat 32 r + BitVec.ofNat 32 t * 2000#32 = BitVec.ofNat 32 (2000 * t + r) := by
  apply BitVec.eq_of_toNat_eq
  simp only [BitVec.toNat_add, BitVec.toNat_mul, BitVec.toNat_ofNat]
  omega

/-- The row word is a given word exactly when the row number is that word's value. -/
theorem rowWord_eq_iff (t r : ℕ) (ht : t < 50) (hr : r < 2000) (w : BitVec 32) :
    BitVec.ofNat 32 r + BitVec.ofNat 32 t * 2000#32 = w ↔ 2000 * t + r = w.toNat := by
  rw [rowWord_eq_ofNat t r ht hr]
  exact ofNat_eq_iff _ (by omega) w

end Cert.Proof.KI
-- ==== Proof.KI.TcValBlock.lean ====
/-
  The input windows' blocks read off the arrays.

  Window 0 cuts the transposed scores (100000 rows of 1024) into 50 blocks of 2000 rows, window 1 the label column
  likewise; at point t each holds block t, so local row r of the block is row 2000 t + r of the array. Windows 2
  and 3 (the gathered labels and the target words, one row of 1024 each) have a single block, the whole row, at
  every point. The grid has one axis, and the point's coordinate on it is the point's number.
-/
import proofs.«211976_g36739150250640_fold_wed_m_914_8_alg».proof.Proof.KI.TcData
import Idealize.ShloMosaic.Lib.ValueIdx

set_option maxRecDepth 16384

noncomputable section

namespace Cert.Proof.KI

open Cert.KernelIdeal Cert.KernelIdeal.Gen
open Idealize.ShloMosaic Idealize.ShloMosaic.TcCoe Idealize.ShloMosaic.ValueIdx

/-- The grid's one coordinate at point `t` is `t`. -/
theorem coords_val : ∀ t : Fin cfg1.N, (grid1.coords t 0).val = t.val :=
  (by decide +kernel : ∀ t : Fin grid1.N, (grid1.coords t 0).val = t.val)

/-- The windows' index maps over the grid: windows 0 and 1 are at block `t` of the rows, windows 2 and 3 at their one block. -/
theorem blk_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

theorem point_lt (t : Fin cfg1.N) : t.val < 50 := t.isLt

section Blocks

variable (c : Dev nD) (V : (b : Ref sig .tc) → Buf (Elt Ideal) ((c : Thread nD τ).loc b))

/-- The scores' block at point `t`, local entry `(r, k)`: row `2000 t + r`, column `k` of the transposed scores. -/
theorem iblk0_apply (t : Fin cfg1.N) (r : Fin 2000) (k : Fin 1024) (hlt : 2000 * t.val + r.val < 100000) :
    (iblk (F := Ideal) c V 0 t : Vec Ideal S2000x1024 .f32) (ix2 r k) = V main_v1 (ix2 (⟨2000 * t.val + r.val, hlt⟩ : Fin 100000) k) := by
  obtain ⟨e0, e1, -⟩ := blk_facts t
  show V main_v1 (((cfg1.win 0).blk t).view.emb (ix2 r k)) = _
  refine congrArg (V main_v1) (funext fun a => Fin.ext ?_)
  match a with
  | ⟨0, _⟩ => show win1_0.index t (0 : Fin 2) * 2000 + 1 * r.val = 2000 * t.val + r.val; omega
  | ⟨1, _⟩ => show win1_0.index t (1 : Fin 2) * 1024 + 1 * k.val = k.val; omega

/-- The label column's block at point `t`, local row `r`: the label of row `2000 t + r`. -/
theorem iblk1_apply (t : Fin cfg1.N) (r : Fin 2000) (hlt : 2000 * t.val + r.val < 100000) :
    (iblk (F := Ideal) c V 1 t : Vec Ideal S2000x1 .i32) (ix2 r (0 : Fin 1)) = V main_v2 (ix2 (⟨2000 * t.val + r.val, hlt⟩ : Fin 100000) (0 : Fin 1)) := by
  obtain ⟨-, -, e0, e1, -⟩ := blk_facts t
  show V main_v2 (((cfg1.win 1).blk t).view.emb (ix2 r (0 : Fin 1))) = _
  refine congrArg (V main_v2) (funext fun a => Fin.ext ?_)
  match a with
  | ⟨0, _⟩ => show win1_1.index t (0 : Fin 2) * 2000 + 1 * r.val = 2000 * t.val + r.val; omega
  | ⟨1, _⟩ => show win1_1.index t (1 : Fin 2) * 1 + 1 * 0 = 0; omega

/-- The gathered labels' one block is the whole row. -/
theorem iblk2_apply (t : Fin cfg1.N) (k : Fin 1024) :
    (iblk (F := Ideal) c V 2 t : Vec Ideal S1x1024 .i32) (ix2 (0 : Fin 1) k) = V main_v3 (ix2 (0 : Fin 1) k) := by
  obtain ⟨-, -, -, -, e0, e1, -⟩ := blk_facts t
  show V main_v3 (((cfg1.win 2).blk t).view.emb (ix2 (0 : Fin 1) k)) = _
  refine congrArg (V main_v3) (funext fun a => Fin.ext ?_)
  match a with
  | ⟨0, _⟩ => show win1_2.index t (0 : Fin 2) * 1 + 1 * 0 = 0; omega
  | ⟨1, _⟩ => show win1_2.index t (1 : Fin 2) * 1024 + 1 * k.val = k.val; omega

/-- The target words' one block is the whole row. -/
theorem iblk3_apply (t : Fin cfg1.N) (k : Fin 1024) :
    (iblk (F := Ideal) c V 3 t : Vec Ideal S1x1024 .i32) (ix2 (0 : Fin 1) k) = V main_v4 (ix2 (0 : Fin 1) k) := by
  obtain ⟨-, -, -, -, -, -, e0, e1⟩ := blk_facts t
  show V main_v4 (((cfg1.win 3).blk t).view.emb (ix2 (0 : Fin 1) k)) = _
  refine congrArg (V main_v4) (funext fun a => Fin.ext ?_)
  match a with
  | ⟨0, _⟩ => show win1_3.index t (0 : Fin 2) * 1 + 1 * 0 = 0; omega
  | ⟨1, _⟩ => show win1_3.index t (1 : Fin 2) * 1024 + 1 * k.val = k.val; omega

end Blocks

end Cert.Proof.KI

end
-- ==== Proof.KI.TcValAcc.lean ====
/-
  The two accumulators after each grid point, by induction on the point.

  Write e k j for the masked exponential of row k of the scores at column j (zero in the row's own target column)
  and, past the array's 100000 columns, zero. Point t's block holds columns 2000 t … 2000 t + 1999 of every row, so
  the point adds, to entry k of the second accumulator, the sum of e k j over those columns, and to entry k of the
  first the same sum restricted to the columns whose label is the row's gathered label. Starting from the zero row
  at point 0, after point n the entries are the sums over the columns below 2000 (n + 1); after the last point,
  n = 49, these are the sums over all 100000 columns: the specification's z and p.
-/
import proofs.«211976_g36739150250640_fold_wed_m_914_8_alg».proof.Proof.KI.TcValStep
import proofs.«211976_g36739150250640_fold_wed_m_914_8_alg».proof.Proof.KI.TcValWord
import proofs.«211976_g36739150250640_fold_wed_m_914_8_alg».proof.Proof.KI.TcValBlock
import proofs.«211976_g36739150250640_fold_wed_m_914_8_alg».proof.Proof.Spec

set_option maxRecDepth 16384

noncomputable section

namespace Cert.Proof.KI

open Cert.KernelIdeal Cert.KernelIdeal.Gen
open Idealize.ShloMosaic Idealize.ShloMosaic.TcCoe Idealize.ShloMosaic.ValueIdx

/-- The masked exponential of row `k` at column `j`, as a function of every natural: zero past the array. -/
def eN (x : Fin 1024 → Fin 100000 → EReal) (idx : Fin 1024 → ℕ) (k : Fin 1024) (j : ℕ) : EReal :=
  if h : j < 100000 then Cert.Spec.e x idx k ⟨j, h⟩ else 0

/-- The same, kept only where column `j`'s label is row `k`'s gathered label. -/
def pN (x : Fin 1024 → Fin 100000 → EReal) (idx : Fin 1024 → ℕ) (lab : Fin 100000 → BitVec 32) (y : Fin 1024 → BitVec 32)
    (k : Fin 1024) (j : ℕ) : EReal :=
  if h : j < 100000 then (if lab ⟨j, h⟩ = y k then Cert.Spec.e x idx k ⟨j, h⟩ else 0) else 0

/-- The body's masked exponential at local entry `(r, k)` of point `t`'s blocks is `e k (2000 t + r)`. -/
theorem pay5_blk (c : Dev nD) (V : (b : Ref sig .tc) → Buf (Elt Ideal) ((c : Thread nD τ).loc b)) (x : Fin 1024 → Fin 100000 → EReal) (idxw : Fin 1024 → BitVec 32)
    (h1 : ∀ (j : Fin 100000) (i : Fin 1024), V main_v1 (ix2 j i) = x i j) (h4 : ∀ i : Fin 1024, V main_v4 (ix2 (0 : Fin 1) i) = idxw i)
    (t : Fin cfg1.N) (r : Fin 2000) (k : Fin 1024) :
    k1_pay5 (F := Ideal) (grid1.coords t) (iblk (F := Ideal) c V 0 t) (iblk (F := Ideal) c V 3 t) (ix2 r k)
      = eN x (fun i => (idxw i).toNat) k (2000 * t.val + r.val) := by
  have ht : t.val < 50 := point_lt t
  have hr : r.val < 2000 := r.isLt
  have hlt : 2000 * t.val + r.val < 100000 := by omega
  have e3 : (iblk (F := Ideal) c V 3 t : Vec Ideal S1x1024 .i32) (ix2 (0 : Fin 1) k) = idxw k := (iblk3_apply c V t k).trans (h4 k)
  have e0 : (iblk (F := Ideal) c V 0 t : Vec Ideal S2000x1024 .f32) (ix2 r k) = x k ⟨2000 * t.val + r.val, hlt⟩ :=
    (iblk0_apply c V t r k hlt).trans (h1 _ k)
  have hw : rowWord (grid1.coords t) r = idxw k ↔ 2000 * t.val + r.val = (idxw k).toNat := by
    unfold rowWord
    rw [coords_val t]
    exact rowWord_eq_iff t.val r.val ht hr (idxw k)
  refine (pay5_apply (grid1.coords t) (iblk (F := Ideal) c V 0 t) (iblk (F := Ideal) c V 3 t) r k).trans ?_
  rw [e3, e0]
  unfold eN
  rw [dif_pos hlt]
  unfold Cert.Spec.e
  show (if rowWord (grid1.coords t) r ≠ idxw k then Ideal.exp (x k ⟨2000 * t.val + r.val, hlt⟩) else 0)
    = if 2000 * t.val + r.val = (idxw k).toNat then 0 else Ideal.exp (x k ⟨2000 * t.val + r.val, hlt⟩)
  by_cases hq : 2000 * t.val + r.val = (idxw k).toNat
  · rw [if_neg (not_not.mpr (hw.mpr hq)), if_pos hq]
  · rw [if_pos (fun h => hq (hw.mp h)), if_neg hq]

/-- Point `t`'s step of the second accumulator at column `k`. -/
theorem pointZ (c : Dev nD) (V : (b : Ref sig .tc) → Buf (Elt Ideal) ((c : Thread nD τ).loc b)) (x : Fin 1024 → Fin 100000 → EReal) (idxw : Fin 1024 → BitVec 32)
    (h1 : ∀ (j : Fin 100000) (i : Fin 1024), V main_v1 (ix2 j i) = x i j) (h4 : ∀ i : Fin 1024, V main_v4 (ix2 (0 : Fin 1) i) = idxw i)
    (t : Fin cfg1.N) (acc : Vec Ideal S1x1024 .f32) (k : Fin 1024) :
    stepZ (F := Ideal) (grid1.coords t) (iblk (F := Ideal) c V 0 t) (iblk (F := Ideal) c V 3 t) acc (ix2 (0 : Fin 1) k)
      = acc (ix2 (0 : Fin 1) k) + ∑ r ∈ Finset.range 2000, eN x (fun i => (idxw i).toNat) k (2000 * t.val + r) := by
  refine (stepZ_apply (grid1.coords t) (iblk (F := Ideal) c V 0 t) (iblk (F := Ideal) c V 3 t) acc k).trans ?_
  refine congrArg (acc (ix2 (0 : Fin 1) k) + ·) ?_
  rw [Finset.sum_range]
  exact Finset.sum_congr rfl fun r _ => pay5_blk c V x idxw h1 h4 t r k

/-- Point `t`'s step of the first accumulator at column `k`. -/
theorem pointP (c : Dev nD) (V : (b : Ref sig .tc) → Buf (Elt Ideal) ((c : Thread nD τ).loc b)) (x : Fin 1024 → Fin 100000 → EReal) (idxw : Fin 1024 → BitVec 32) (lab : Fin 100000 → BitVec 32) (y : Fin 1024 → BitVec 32)
    (h1 : ∀ (j : Fin 100000) (i : Fin 1024), V main_v1 (ix2 j i) = x i j) (h2 : ∀ j : Fin 100000, V main_v2 (ix2 j (0 : Fin 1)) = lab j)
    (h3 : ∀ i : Fin 1024, V main_v3 (ix2 (0 : Fin 1) i) = y i) (h4 : ∀ i : Fin 1024, V main_v4 (ix2 (0 : Fin 1) i) = idxw i)
    (t : Fin cfg1.N) (acc : Vec Ideal S1x1024 .f32) (k : Fin 1024) :
    stepP (F := Ideal) (grid1.coords t) (iblk (F := Ideal) c V 0 t) (iblk (F := Ideal) c V 1 t) (iblk (F := Ideal) c V 2 t)
        (iblk (F := Ideal) c V 3 t) acc (ix2 (0 : Fin 1) k)
      = acc (ix2 (0 : Fin 1) k) + ∑ r ∈ Finset.range 2000, pN x (fun i => (idxw i).toNat) lab y k (2000 * t.val + r) := by
  refine (stepP_apply (grid1.coords t) (iblk (F := Ideal) c V 0 t) (iblk (F := Ideal) c V 1 t) (iblk (F := Ideal) c V 2 t)
    (iblk (F := Ideal) c V 3 t) acc k).trans ?_
  refine congrArg (acc (ix2 (0 : Fin 1) k) + ·) ?_
  rw [Finset.sum_range]
  refine Finset.sum_congr rfl fun r _ => ?_
  have ht : t.val < 50 := point_lt t
  have hr : r.val < 2000 := r.isLt
  have hlt : 2000 * t.val + r.val < 100000 := by omega
  have e1 : (iblk (F := Ideal) c V 1 t : Vec Ideal S2000x1 .i32) (ix2 r (0 : Fin 1)) = lab ⟨2000 * t.val + r.val, hlt⟩ :=
    (iblk1_apply c V t r hlt).trans (h2 _)
  have e2 : (iblk (F := Ideal) c V 2 t : Vec Ideal S1x1024 .i32) (ix2 (0 : Fin 1) k) = y k := (iblk2_apply c V t k).trans (h3 k)
  rw [e1, e2, pay5_blk c V x idxw h1 h4 t r k]
  unfold pN eN
  rw [dif_pos hlt, dif_pos hlt]

/-- After point `n` the second accumulator's entry `k` is the sum of `e k j` over the columns below `2000 (n + 1)`. -/
theorem accZ_apply (c : Dev nD) (V : (b : Ref sig .tc) → Buf (Elt Ideal) ((c : Thread nD τ).loc b)) (x : Fin 1024 → Fin 100000 → EReal) (idxw : Fin 1024 → BitVec 32)
    (h1 : ∀ (j : Fin 100000) (i : Fin 1024), V main_v1 (ix2 j i) = x i j) (h4 : ∀ i : Fin 1024, V main_v4 (ix2 (0 : Fin 1) i) = idxw i)
    (n : ℕ) (h : n < cfg1.N) (k : Fin 1024) :
    accZ (F := Ideal) c V n h (ix2 (0 : Fin 1) k) = ∑ j ∈ Finset.range (2000 * (n + 1)), eN x (fun i => (idxw i).toNat) k j := by
  induction n with
  | zero =>
    rw [accZ]
    refine (pointZ c V x idxw h1 h4 ⟨0, h⟩ (zeroZ (F := Ideal)) k).trans ?_
    rw [zeroZ_apply, zero_add]
    exact Finset.sum_congr rfl fun r _ => congrArg (eN x (fun i => (idxw i).toNat) k) (by show 2000 * 0 + r = r; omega)
  | succ n ih =>
    rw [accZ]
    refine (pointZ c V x idxw h1 h4 ⟨n + 1, h⟩ (accZ (F := Ideal) c V n (Nat.lt_of_succ_lt h)) k).trans ?_
    rw [ih (Nat.lt_of_succ_lt h), show 2000 * (n + 1 + 1) = 2000 * (n + 1) + 2000 by ring, Finset.sum_range_add]

/-- After point `n` the first accumulator's entry `k` is the same sum over the columns labelled as row `k`. -/
theorem accP_apply (c : Dev nD) (V : (b : Ref sig .tc) → Buf (Elt Ideal) ((c : Thread nD τ).loc b)) (x : Fin 1024 → Fin 100000 → EReal) (idxw : Fin 1024 → BitVec 32) (lab : Fin 100000 → BitVec 32) (y : Fin 1024 → BitVec 32)
    (h1 : ∀ (j : Fin 100000) (i : Fin 1024), V main_v1 (ix2 j i) = x i j) (h2 : ∀ j : Fin 100000, V main_v2 (ix2 j (0 : Fin 1)) = lab j)
    (h3 : ∀ i : Fin 1024, V main_v3 (ix2 (0 : Fin 1) i) = y i) (h4 : ∀ i : Fin 1024, V main_v4 (ix2 (0 : Fin 1) i) = idxw i)
    (n : ℕ) (h : n < cfg1.N) (k : Fin 1024) :
    accP (F := Ideal) c V n h (ix2 (0 : Fin 1) k) = ∑ j ∈ Finset.range (2000 * (n + 1)), pN x (fun i => (idxw i).toNat) lab y k j := by
  induction n with
  | zero =>
    rw [accP]
    refine (pointP c V x idxw lab y h1 h2 h3 h4 ⟨0, h⟩ (zeroP (F := Ideal)) k).trans ?_
    rw [zeroP_apply, zero_add]
    exact Finset.sum_congr rfl fun r _ => congrArg (pN x (fun i => (idxw i).toNat) lab y k) (by show 2000 * 0 + r = r; omega)
  | succ n ih =>
    rw [accP]
    refine (pointP c V x idxw lab y h1 h2 h3 h4 ⟨n + 1, h⟩ (accP (F := Ideal) c V n (Nat.lt_of_succ_lt h)) k).trans ?_
    rw [ih (Nat.lt_of_succ_lt h), show 2000 * (n + 1 + 1) = 2000 * (n + 1) + 2000 by ring, Finset.sum_range_add]

/-- After the last point the second accumulator is the specification's `z`. -/
theorem accZ_last (c : Dev nD) (V : (b : Ref sig .tc) → Buf (Elt Ideal) ((c : Thread nD τ).loc b)) (x : Fin 1024 → Fin 100000 → EReal) (idxw : Fin 1024 → BitVec 32)
    (h1 : ∀ (j : Fin 100000) (i : Fin 1024), V main_v1 (ix2 j i) = x i j) (h4 : ∀ i : Fin 1024, V main_v4 (ix2 (0 : Fin 1) i) = idxw i)
    (k : Fin 1024) :
    accZ (F := Ideal) c V 49 h49 (ix2 (0 : Fin 1) k) = Cert.Spec.z x (fun i => (idxw i).toNat) k := by
  rw [accZ_apply c V x idxw h1 h4 49 h49 k]
  unfold Cert.Spec.z
  rw [show 2000 * (49 + 1) = 100000 by norm_num, Finset.sum_range]
  refine Finset.sum_congr rfl fun j _ => ?_
  unfold eN
  rw [dif_pos j.isLt]

/-- After the last point the first accumulator is the specification's `p`. -/
theorem accP_last (c : Dev nD) (V : (b : Ref sig .tc) → Buf (Elt Ideal) ((c : Thread nD τ).loc b)) (x : Fin 1024 → Fin 100000 → EReal) (idxw : Fin 1024 → BitVec 32) (lab : Fin 100000 → BitVec 32) (y : Fin 1024 → BitVec 32)
    (h1 : ∀ (j : Fin 100000) (i : Fin 1024), V main_v1 (ix2 j i) = x i j) (h2 : ∀ j : Fin 100000, V main_v2 (ix2 j (0 : Fin 1)) = lab j)
    (h3 : ∀ i : Fin 1024, V main_v3 (ix2 (0 : Fin 1) i) = y i) (h4 : ∀ i : Fin 1024, V main_v4 (ix2 (0 : Fin 1) i) = idxw i)
    (k : Fin 1024) :
    accP (F := Ideal) c V 49 h49 (ix2 (0 : Fin 1) k) = Cert.Spec.p x (fun i => (idxw i).toNat) lab y k := by
  rw [accP_apply c V x idxw lab y h1 h2 h3 h4 49 h49 k]
  unfold Cert.Spec.p
  rw [show 2000 * (49 + 1) = 100000 by norm_num, Finset.sum_range]
  refine Finset.sum_congr rfl fun j _ => ?_
  unfold pN
  rw [dif_pos j.isLt]

end Cert.Proof.KI

end
-- ==== Proof.KI.TcValFinish.lean ====
/-
  The result word formed at the last grid point, as the specification's loss.

  From the two accumulated rows P and Z (1024 entries each) the body forms, per column k, the quotient
  q k = P k / Z k, keeps log (q k) where q k is not zero and 0 elsewhere, adds these 1024 terms up, negates the
  sum and divides by the word of 1024.0. The sum is taken by recasting the row as a [1, 1, 1024] array and
  reducing its two last axes into a one-entry vector: the total sum over an index set that is the range of the
  last coordinate.
-/
import proofs.«211976_g36739150250640_fold_wed_m_914_8_alg».proof.Proof.KI.TcRun
import proofs.«211976_g36739150250640_fold_wed_m_914_8_alg».proof.Proof.Spec
import Idealize.ShloMosaic.Lib.ValueLayout
import Idealize.ShloMosaic.PureOps.Ideal.Laws

set_option maxRecDepth 16384

noncomputable section

namespace Cert.Proof.KI

open Cert.KernelIdeal Cert.KernelIdeal.Gen
open Idealize.ShloMosaic Idealize.ShloMosaic.TcCoe Idealize.ShloMosaic.ValueIdx

/-- The indices of a [1, 1, n] array are the values of its last coordinate. -/
def idx11n (n : ℕ) : Fin n ≃ (⟨3, ![1, 1, n]⟩ : Shape).Idx where
  toFun k := ix3 (0 : Fin 1) (0 : Fin 1) k
  invFun i := i 2
  left_inv k := rfl
  right_inv i := by
    funext a
    apply Fin.ext
    match a with
    | ⟨0, _⟩ =>
      have h : (i 0).val < 1 := (i 0).isLt
      show 0 = (i 0).val
      omega
    | ⟨1, _⟩ =>
      have h : (i 1).val < 1 := (i 1).isLt
      show 0 = (i 1).val
      omega
    | ⟨2, _⟩ => rfl

/-- A sum over a [1, 1, n] array is the sum over its last coordinate. -/
theorem sum_idx11n {n : ℕ} (f : (⟨3, ![1, 1, n]⟩ : Shape).Idx → EReal) :
    ∑ i, f i = ∑ k : Fin n, f (ix3 (0 : Fin 1) (0 : Fin 1) k) :=
  ((idx11n n).sum_comp f).symm

/-- The row recast as [1, 1, 1024], reduced along its two last axes and read at its one entry: the row's sum. -/
theorem rowTotal_apply (v : FVec Ideal S1x1024 .f32) (h1 : S1x1024.ShapeCasts S1x1x1024) (h2 : S1x1x1024.Reduces [1, 2] S1)
    (h3 : S1.ShapeCasts S1x1x1) (h4 : ∀ a, (![0, 0, 0] : Fin 3 → ℕ) a < S1x1x1.size a)
    (hφ : FKind.Formats .f32) (hacc : (0x00000000#32 : BitVec 32) = FKind.add.neutral .f32 hφ) :
    extractAt ![0, 0, 0] (shapeCast S1x1x1 (multiReduction (F := Ideal) .add [1, 2] S1 (shapeCast S1x1x1024 v h1) 0x00000000#32 h2 hφ hacc) h3) h4
      = ∑ k : Fin 1024, v (ix2 (0 : Fin 1) k) := by
  show multiReduction (F := Ideal) .add [1, 2] S1 (shapeCast S1x1x1024 v h1) 0x00000000#32 h2 hφ hacc (Shape.reshapeEquiv h3 _) = _
  rw [Ideal.multiReduction_add_total _ _ h2 (fun b => by match b with | ⟨0, _⟩ => rfl) hφ hacc, sum_idx11n]
  exact Finset.sum_congr rfl fun k _ => shapeCast_ab_1ab_apply v h1 (0 : Fin 1) (0 : Fin 1) k

/-- One column's term: the two selects on "the quotient is not zero" around the logarithm. -/
theorem rowTerm_select (q : EReal) :
    Scalar.select (Ideal.cmp .one q (Ideal.ofBits .f32 0x00000000#32))
        (Ideal.log (Scalar.select (Ideal.cmp .one q (Ideal.ofBits .f32 0x00000000#32)) q (Ideal.ofBits .f32 0x3F800000#32)))
        (Ideal.ofBits .f32 0x00000000#32)
      = if q ≠ 0 then Ideal.log q else 0 := by
  rw [Ideal.ofBits_zero_f32]
  unfold Scalar.select Ideal.cmp
  by_cases h : q = 0
  · simp [h]
  · simp [h]

/-- THE RESULT WORD is the loss of the two accumulated rows. -/
theorem finish_eq (xP xZ : Vec Ideal S1x1024 .f32) :
    finish (F := Ideal) xP xZ
      = fun _ => Cert.Spec.loss (fun k => xP (ix2 (0 : Fin 1) k)) (fun k => xZ (ix2 (0 : Fin 1) k)) := by
  funext j0
  unfold finish k1_pay2
  show Ideal.div (Ideal.ofBits .f32 0x00000000#32 - extractAt (s := S1x1x1) ![0, 0, 0] _ _) (Ideal.ofBits .f32 0x44800000#32) = _
  refine (congrArg (fun s => Ideal.div (Ideal.ofBits .f32 0x00000000#32 - s) (Ideal.ofBits .f32 0x44800000#32))
    (rowTotal_apply _ _ _ _ _ _ _)).trans ?_
  refine (congrArg (fun s => Ideal.div (Ideal.ofBits .f32 0x00000000#32 - s) (Ideal.ofBits .f32 0x44800000#32))
    (Finset.sum_congr rfl fun k _ => rowTerm_select (Ideal.div (xP (ix2 (0 : Fin 1) k)) (xZ (ix2 (0 : Fin 1) k))))).trans ?_
  rw [Ideal.ofBits_zero_f32]
  rfl

end Cert.Proof.KI

end
-- ==== Proof.KI.TcValue.lean ====
/-
  The value of the TensorCore kernel's result word.

  With the arrays as the region finds them holding the transposed scores x, the label column, the row of gathered
  labels y and the row of target words, the two accumulators after the last grid point are the specification's
  p and z of those data, and the word formed from them is the specification's loss of the two.
-/
import proofs.«211976_g36739150250640_fold_wed_m_914_8_alg».proof.Proof.KI.TcData
import proofs.«211976_g36739150250640_fold_wed_m_914_8_alg».proof.Proof.KI.TcValAcc
import proofs.«211976_g36739150250640_fold_wed_m_914_8_alg».proof.Proof.KI.TcValFinish
import proofs.«211976_g36739150250640_fold_wed_m_914_8_alg».proof.Proof.Spec

set_option maxRecDepth 16384

noncomputable section

namespace Cert.Proof.KI

open Cert.KernelIdeal Cert.KernelIdeal.Gen
open Idealize.ShloMosaic Idealize.ShloMosaic.TcCoe Idealize.ShloMosaic.ValueIdx

/-- THE RESULT WORD: the loss of the label-matched sums and the full sums of the masked exponentials. -/
theorem outWord_eq (c : Dev nD) (V : (b : Ref sig .tc) → Buf (Elt Ideal) ((c : Thread nD τ).loc b))
    (x : Fin 1024 → Fin 100000 → EReal) (idxw : Fin 1024 → BitVec 32) (lab : Fin 100000 → BitVec 32) (y : Fin 1024 → BitVec 32)
    (hx : ∀ i j, ∃ r : ℝ, x i j = (r : EReal))
    (h1 : ∀ (j : Fin 100000) (i : Fin 1024), V main_v1 (ValueIdx.ix2 j i) = x i j)
    (h2 : ∀ j : Fin 100000, V main_v2 (ValueIdx.ix2 j (0 : Fin 1)) = lab j)
    (h3 : ∀ i : Fin 1024, V main_v3 (ValueIdx.ix2 (0 : Fin 1) i) = y i)
    (h4 : ∀ i : Fin 1024, V main_v4 (ValueIdx.ix2 (0 : Fin 1) i) = idxw i) :
    outWord (F := Ideal) c V
      = fun _ => Cert.Spec.loss (Cert.Spec.p x (fun i => (idxw i).toNat) lab y) (Cert.Spec.z x (fun i => (idxw i).toNat)) := by
  have hp : (fun k : Fin 1024 => accP (F := Ideal) c V 49 h49 (ix2 (0 : Fin 1) k)) = Cert.Spec.p x (fun i => (idxw i).toNat) lab y :=
    funext fun k => accP_last c V x idxw lab y h1 h2 h3 h4 k
  have hz : (fun k : Fin 1024 => accZ (F := Ideal) c V 49 h49 (ix2 (0 : Fin 1) k)) = Cert.Spec.z x (fun i => (idxw i).toNat) :=
    funext fun k => accZ_last c V x idxw h1 h4 k
  unfold outWord
  refine (finish_eq (accP (F := Ideal) c V 49 h49) (accZ (F := Ideal) c V 49 h49)).trans ?_
  rw [hp, hz]

end Cert.Proof.KI

end
-- ==== Proof.KI.KernelValue.lean ====
/-
  The kernel program's result at the extended reals is the specification's.

  After the last reshape the result buffer holds, at its one index, the word the region formed from the two
  accumulators. That word is the specification's loss of the row sums p and z taken over the arrays the region
  reads; read through the layout operations those arrays are the scores (transposed back), the labels, the
  indices and the gathered labels. The gathered label of row i is the label its index names, zero where the
  index names no column: the specification's label of the target column, by the same case distinction. So the
  word is the specification's result of the three arguments.
-/
import proofs.«211976_g36739150250640_fold_wed_m_914_8_alg».proof.Proof.KI.LaunchValue
import proofs.«211976_g36739150250640_fold_wed_m_914_8_alg».proof.Proof.Spec
import proofs.«211976_g36739150250640_fold_wed_m_914_8_alg».proof.Proof.KI.TcValue

noncomputable section

namespace Cert.Proof.KI

open Cert.KernelIdeal Cert.KernelIdeal.Gen

open Idealize.ShloMosaic Idealize.ShloMosaic.TcCoe Idealize.ShloMosaic.ValueIdx
open Idealize.SL.Sem

/-- The gathered label of row i is the specification's label of row i's target column: the label the index names,
    zero where it names no column. -/
theorem gathered_eq_yOf (m : (ℓ : Loc nD τ sig) → Buf (Elt Ideal) ℓ) (d : Dev nD) :
    (fun i : Fin 1024 => gathered m d (ValueIdx.ix1 i))
      = Cert.Spec.yOf (fun j => m (lLoc d) (ValueIdx.ix1 j)) (fun i => (m (iLoc d) (ValueIdx.ix1 i)).toNat) :=
  funext fun i => by
    unfold gathered labelAt Cert.Spec.yOf
    rfl

/-- THE KERNEL PROGRAM'S RESULT IS THE SPECIFICATION'S, for real scores (and indices that name columns). -/
theorem kernel_result (m : (ℓ : Loc nD τ sig) → Buf (Elt Ideal) ℓ) (d : Dev nD)
    (hx : ∀ i, ∃ r : ℝ, m (xLoc d) i = (r : EReal)) (hidx : ∀ j, (m (iLoc d) j).toNat < 100000) :
    VF (F := Ideal) m d r' = fun _ => Cert.Spec.result (fun i j => m (xLoc d) (ValueIdx.ix2 i j))
      (fun i => (m (iLoc d) (ValueIdx.ix1 i)).toNat) (fun j => m (lLoc d) (ValueIdx.ix1 j)) := by
  rw [VF_r, outWord_eq d (Vc m d) (fun i j => m (xLoc d) (ValueIdx.ix2 i j)) (fun i => m (iLoc d) (ValueIdx.ix1 i))
    (fun j => m (lLoc d) (ValueIdx.ix1 j)) (fun i => gathered m d (ValueIdx.ix1 i)) (fun i j => hx (ValueIdx.ix2 i j))
    (Vc_v1 m d) (Vc_v2 m d) (Vc_v3 m d) (Vc_v4 m d), gathered_eq_yOf m d]
  rfl

end Cert.Proof.KI

end
-- ==== Proof.KB.Common.lean ====
/-
  Shared definitions for the kernel program read at any float instance: the launch configuration of its one
  SparseCore call, the ghost-state algebra (the launch handshakes' rounds, the TensorCore pipeline's staging
  cells' rounds, the transfers' counters), and what the call's handshakes carry.

  The SparseCore call gathers y = labels[indexes]: the 1024 indices are cut into 32 chunks of 32, chunk
  w = 2 s + c going to vector subcore s of SparseCore c. A task is handed its chunk of the index array and of
  the result array outright and a read share of the whole label table; it hands back the same, the result
  chunk holding, entry by entry, the label its index names.
-/
import proofs.«211976_g36739150250640_fold_wed_m_914_8_alg».proof.Defs
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Tactic
import Idealize.ShloMosaic.Lib.ValueIdx
import proofs.«211976_g36739150250640_fold_wed_m_914_8_alg».proof.Proof.Gen.Kernel
import proofs.«211976_g36739150250640_fold_wed_m_914_8_alg».proof.Proof.Gen.Kernel.Skeleton
import proofs.«211976_g36739150250640_fold_wed_m_914_8_alg».proof.Proof.Gen.Kernel.Launch
import proofs.«211976_g36739150250640_fold_wed_m_914_8_alg».proof.Proof.Gen.Kernel.Points

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP [FloatOps F] : Labels := Pipeline.Sig Λ₀ (Fin 1) fun p => (pcfgs (F := F) p).Adm
abbrev K [FloatOps F] : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero [FloatOps F] : (K (F := F)).nCore 0 = 2 := rfl
theorem nSub_zero [FloatOps F] : (K (F := F)).nSub 0 = 16 := rfl

theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds: the left factor. -/
abbrev EH : Emb UH (MT nD τ sig (HIx 1) (Elt F) ℕ UU ℕ) := embL
/-- The pipeline's staging cells' rounds: the left factor of the right factor; the counters are found by instance. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP 𝕄).LandsIn (upEmb : UEmb _ 𝕄) := by unfold EP; infer_instance

/-! ## The arrays and the chunks -/

variable (m : (ℓ : Loc nD τ sig) → Buf (Elt F) ℓ) (ρ : Dev nD → PrngReg)

/-- The scores, the indices, the labels (the arguments); the gathered labels (the call's result). -/
abbrev xLoc (d : Dev nD) : Loc nD τ sig := (SparseCore.T d).loc main_arg0
abbrev iLoc (d : Dev nD) : Loc nD τ sig := (SparseCore.T d).loc main_arg1
abbrev lLoc (d : Dev nD) : Loc nD τ sig := (SparseCore.T d).loc main_arg2
abbrev yLoc (d : Dev nD) : Loc nD τ sig := (SparseCore.T d).loc main_v0

theorem hdiv32 : 32 ∣ S1024.size 0 := ⟨32, rfl⟩
/-- Chunk `w` of a 1024-vector: the indices 32 w … 32 w + 31. -/
abbrev chunk (w : Fin 32) : Rect S1024 := Rect.part (s := S1024) (a₀ := 0) hdiv32 w
abbrev chunkSet (w : Fin 32) : Finset S1024.Idx := ((Memref.whole main_v0_scv : Memref sig .scVector .hbm S1024 .i32).view.slice (chunk w)).set

/-- The chunk of vector subcore `s` of SparseCore `c`. -/
def wOf (c : Fin 2) (s : Fin 16) : Fin 32 := ⟨2 * s.val + c.val, by omega⟩

/-- The label an index word names (zero for a word that names no column). -/
def labelAt (lab : S100000.Idx → BitVec 32) (v : BitVec 32) : BitVec 32 :=
  if h : v.toNat < 100000 then lab (ValueIdx.ix1 ⟨v.toNat, h⟩) else 0

/-- The gathered array: entry `j` is the label the `j`-th index names. -/
def gathered (d : Dev nD) : Buf (Elt F) (yLoc d) := fun j => labelAt (m (lLoc d)) (m (iLoc d) j)

/-- What the proof asks of the launch memory: every index names a column. -/
def PreOK : Prop := ∀ (d : Dev nD) (j : S1024.Idx), (m (iLoc d) j).toNat < 100000

/-! ## What the handshakes carry -/

/-- The read share of the label table that goes to chunk `w`'s task. -/
abbrev lShare (w : Fin 32) : PosShare TreeShare := Transfers.shareTok fullShare 32 w

/-- A task's operands: its chunk of the indices and of the result outright, a read share of the labels. -/
def goRes (d : Dev nD) (w : Fin 32) : sProp 𝕄 :=
  iprop((iLoc d ↦[chunkSet w]{fullShare} m (iLoc d)) ∗ (lLoc d ↦{lShare w} m (lLoc d)) ∗ (yLoc d ↦[chunkSet w]{fullShare} m (yLoc d)))
/-- A task's results: the same, the result chunk at the gathered labels. -/
def tdRes (d : Dev nD) (w : Fin 32) : sProp 𝕄 :=
  iprop((iLoc d ↦[chunkSet w]{fullShare} m (iLoc d)) ∗ (lLoc d ↦{lShare w} m (lLoc d)) ∗ (yLoc d ↦[chunkSet w]{fullShare} gathered m d))

variable [FloatOps F]

/-- The one call: each SparseCore takes its sixteen tasks' operands and brings back their results. -/
def P : (K (F := F)).Pay (nD := nD) (Val := Elt F) (Name := ℕ) (U := UU) where
  st := fun q d c => match q with | 0 => bigSep Finset.univ fun s : Fin 16 => goRes m d (wOf (Fin.cast nCore_zero c) s)
  dn := fun q d c => match q with | 0 => bigSep Finset.univ fun s : Fin 16 => tdRes m d (wOf (Fin.cast nCore_zero c) s)
  go := fun q d c s => match q with | 0 => goRes m d (wOf (Fin.cast nCore_zero c) (Fin.cast nSub_zero s))
  td := fun q d c s => match q with | 0 => tdRes m d (wOf (Fin.cast nCore_zero c) (Fin.cast nSub_zero s))
  x := fun _ _ => iprop(emp)

instance P_storable : (P (F := F) m).IsStorable where
  st q d c := match q with | 0 => by unfold P goRes; infer_instance
  dn q d c := match q with | 0 => by unfold P tdRes; infer_instance
  go q d c s := match q with | 0 => by unfold P goRes; infer_instance
  td q d c s := match q with | 0 => by unfold P tdRes; infer_instance

end Cert.Proof.KB

end
-- ==== Proof.KB.TcRun.lean ====
import proofs.«211976_g36739150250640_fold_wed_m_914_8_alg».proof.Proof.KB.Common
import Idealize.ShloMosaic.Lib.Pipeline.FrameBody
import Idealize.ShloMosaic.Lib.Ring
import Idealize.ShloMosaic.Lib.Pipeline.Value

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! # The TensorCore kernel's body, run once per control case

The body at grid point k loads block k of the transposed scores (2000 × 1024) and of the label column, the
row of gathered labels and the row of target indices, and adds to two carried accumulators (1 × 1024 each):
to the first the column sums of the masked exponentials over the rows whose label equals the column's gathered
label, to the second the column sums of all masked exponentials. At the first point both accumulators are
first reset to zero; at the last point the quotient row, its logarithms and the final scalar are formed and
stored in the one-word result. Three cases of the two conditionals occur on the grid of 50 points. -/

/-- The condition of the first conditional (reset the accumulators), from the grid coordinates. -/
abbrev cond1 (i : grid1.Coords) : Prop := (Scalar.cmpi .ne (Scalar.extui (Scalar.cmpi .eq (BitVec.ofNat 32 (i 0).val) 0#32)) 0#32) = 1#1

/-- It holds at the first point only; the second conditional's (form the result) at the last only. -/
theorem hcond1 : ∀ t : Fin cfg1.N, cond1 (grid1.coords t) ↔ t.val = 0 :=
  (by decide +kernel : ∀ t : Fin grid1.N, cond1 (grid1.coords t) ↔ t.val = 0)
theorem hcond2 : ∀ t : Fin cfg1.N, k1_cond2 (grid1.coords t) = 1#1 ↔ t.val = 49 :=
  (by decide +kernel : ∀ t : Fin grid1.N, k1_cond2 (grid1.coords t) = 1#1 ↔ t.val = 49)

/-- One point's step of the first accumulator: the old row plus the label-matched column sums of the block. -/
def stepP (i : grid1.Coords) (x1 : Vec F S2000x1024 .f32) (x2 : Vec F S2000x1 .i32) (x3 x4 : Vec F S1x1024 .i32) (xP : Vec F S1x1024 .f32) :
    Vec F S1x1024 .f32 := k1_pay6 i x1 x4 x2 x3 xP
/-- One point's step of the second accumulator: the old row plus the column sums of the block. -/
def stepZ (i : grid1.Coords) (x1 : Vec F S2000x1024 .f32) (x4 : Vec F S1x1024 .i32) (xZ : Vec F S1x1024 .f32) : Vec F S1x1024 .f32 :=
  k1_pay1 xZ (k1_pay7 i x1 x4)
/-- The accumulators' reset value. -/
def zeroP : Vec F S1x1024 .f32 := k1_pay3 (F := F)
def zeroZ : Vec F S1x1024 .f32 := k1_pay4 (F := F)
/-- The result word formed at the last point from the two accumulators. -/
def finish (xP xZ : Vec F S1x1024 .f32) : Vec F S1x1 .f32 := fun _ => k1_pay2 xP xZ

theorem hz2 : (![0, 0] : Fin 2 → ℕ) = fun _ => 0 := by funext a; fin_cases a <;> rfl

set_option maxHeartbeats 1000000 in
/-- A middle point: neither conditional taken. -/
theorem runB (c : Dev nD) (i : grid1.Coords)
    (arg1 : Memref sig .tc .vmem S2000x1024 .f32) (harg1 : arg1.IsWhole) (arg2 : Memref sig .tc .vmem S2000x1 .i32) (harg2 : arg2.IsWhole)
    (arg3 : Memref sig .tc .vmem S1x1024 .i32) (harg3 : arg3.IsWhole) (arg4 : Memref sig .tc .vmem S1x1024 .i32) (harg4 : arg4.IsWhole)
    (arg5 : Memref sig .tc .smem S1x1 .f32) (harg5 : arg5.IsWhole)
    (arg6 : Memref sig .tc .vmem S1x1024 .f32) (harg6 : arg6.IsWhole) (arg7 : Memref sig .tc .vmem S1x1024 .f32) (harg7 : arg7.IsWhole)
    (hc1 : ¬ cond1 i) (hc2 : ¬ k1_cond2 i = 1#1)
    (x1 : Vec F S2000x1024 .f32) (x2 : Vec F S2000x1 .i32) (x3 : Vec F S1x1024 .i32) (x4 : Vec F S1x1024 .i32)
    (x5 : Vec F S1x1 .f32) (xP : Vec F S1x1024 .f32) (xZ : Vec F S1x1024 .f32) (E : Set ℕ) (Kk : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ owns (c : Thread nD τ) arg6 fullShare xP ∗ owns (c : Thread nD τ) arg7 fullShare xZ
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (stepP i x1 x2 x3 x4 xP) ∗ owns (c : Thread nD τ) arg7 fullShare (stepZ i x1 x4 xZ)) -∗ Kk ⟨⟩))
      ⊢ wp frame (wpE (defs₀ (F := F)) Variants.none c none) E (cc1_body i arg1 harg1 arg2 harg2 arg3 harg3 arg4 harg4 arg5 harg5 arg6 harg6 arg7 harg7) Kk := by
  simp only [cc1_body_eq_skeleton]; unfold cc1_body_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  sl_exec (disch := first | exact hc1 | exact hc2)
  sl_step
  iapply Hk
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]
  · iexists _; isplitr; swap; · iexact H6
    ipureintro
    rw [View.read_writes_eq_canon _ _ _ (fun y => ⟨_, List.mem_singleton_self _, View.mem_set_unit_zero hz2 inb_S1x1024_S1x1024_0_0 y⟩), View.canon_unit_zero hz2]
    simp only [View.readAt_eq_ld, harg1.read_unread, harg2.read_unread, harg3.read_unread, harg4.read_unread, harg6.read_unread,
      View.ld_unit_zero (S := S2000x1024) hz2, View.ld_unit_zero (S := S1x1024) hz2, View.ld_unit_zero (S := S2000x1) hz2]
    rfl
  · iexists _; isplitr; swap; · iexact H7
    ipureintro
    rw [View.read_writes_eq_canon _ _ _ (fun y => ⟨_, List.mem_singleton_self _, View.mem_set_unit_zero hz2 inb_S1x1024_S1x1024_0_0 y⟩), View.canon_unit_zero hz2]
    simp only [View.readAt_eq_ld, harg1.read_unread, harg4.read_unread, harg7.read_unread,
      View.ld_unit_zero (S := S2000x1024) hz2, View.ld_unit_zero (S := S1x1024) hz2]
    rfl

set_option maxHeartbeats 1000000 in
/-- The first point: the accumulators reset, then stepped. -/
theorem runA (c : Dev nD) (i : grid1.Coords)
    (arg1 : Memref sig .tc .vmem S2000x1024 .f32) (harg1 : arg1.IsWhole) (arg2 : Memref sig .tc .vmem S2000x1 .i32) (harg2 : arg2.IsWhole)
    (arg3 : Memref sig .tc .vmem S1x1024 .i32) (harg3 : arg3.IsWhole) (arg4 : Memref sig .tc .vmem S1x1024 .i32) (harg4 : arg4.IsWhole)
    (arg5 : Memref sig .tc .smem S1x1 .f32) (harg5 : arg5.IsWhole)
    (arg6 : Memref sig .tc .vmem S1x1024 .f32) (harg6 : arg6.IsWhole) (arg7 : Memref sig .tc .vmem S1x1024 .f32) (harg7 : arg7.IsWhole)
    (hc1 : cond1 i) (hc2 : ¬ k1_cond2 i = 1#1)
    (x1 : Vec F S2000x1024 .f32) (x2 : Vec F S2000x1 .i32) (x3 : Vec F S1x1024 .i32) (x4 : Vec F S1x1024 .i32)
    (x5 : Vec F S1x1 .f32) (xP : Vec F S1x1024 .f32) (xZ : Vec F S1x1024 .f32) (E : Set ℕ) (Kk : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ owns (c : Thread nD τ) arg6 fullShare xP ∗ owns (c : Thread nD τ) arg7 fullShare xZ
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (stepP i x1 x2 x3 x4 zeroP) ∗ owns (c : Thread nD τ) arg7 fullShare (stepZ i x1 x4 zeroZ)) -∗ Kk ⟨⟩))
      ⊢ wp frame (wpE (defs₀ (F := F)) Variants.none c none) E (cc1_body i arg1 harg1 arg2 harg2 arg3 harg3 arg4 harg4 arg5 harg5 arg6 harg6 arg7 harg7) Kk := by
  simp only [cc1_body_eq_skeleton]; unfold cc1_body_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  sl_exec (disch := first | exact hc1 | exact hc2)
  sl_step
  iapply Hk
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]
  · iexists _; isplitr; swap; · iexact H6
    ipureintro
    sl_unfold_words
    rw [View.read_writes_eq_canon _ _ _ (fun y => ⟨_, List.mem_cons_self, View.mem_set_unit_zero hz2 inb_S1x1024_S1x1024_0_0 y⟩), View.canon_cons_unit_zero hz2]
    simp only [View.readAt_eq_ld, harg1.read_unread, harg2.read_unread, harg3.read_unread, harg4.read_unread, harg6.read_unread,
      View.ld_unit_zero (S := S2000x1024) hz2, View.ld_unit_zero (S := S1x1024) hz2, View.ld_unit_zero (S := S2000x1) hz2,
      View.readCov_unit_zero (S := S1x1024) _ hz2]
    rfl
  · iexists _; isplitr; swap; · iexact H7
    ipureintro
    sl_unfold_words
    rw [View.read_writes_eq_canon _ _ _ (fun y => ⟨_, List.mem_cons_self, View.mem_set_unit_zero hz2 inb_S1x1024_S1x1024_0_0 y⟩), View.canon_cons_unit_zero hz2]
    simp only [View.readAt_eq_ld, harg1.read_unread, harg4.read_unread, harg7.read_unread,
      View.ld_unit_zero (S := S2000x1024) hz2, View.ld_unit_zero (S := S1x1024) hz2, View.readCov_unit_zero (S := S1x1024) _ hz2]
    rfl

set_option maxHeartbeats 1000000 in
/-- The last point: the accumulators stepped, then the result word formed from them and stored. -/
theorem runC (c : Dev nD) (i : grid1.Coords)
    (arg1 : Memref sig .tc .vmem S2000x1024 .f32) (harg1 : arg1.IsWhole) (arg2 : Memref sig .tc .vmem S2000x1 .i32) (harg2 : arg2.IsWhole)
    (arg3 : Memref sig .tc .vmem S1x1024 .i32) (harg3 : arg3.IsWhole) (arg4 : Memref sig .tc .vmem S1x1024 .i32) (harg4 : arg4.IsWhole)
    (arg5 : Memref sig .tc .smem S1x1 .f32) (harg5 : arg5.IsWhole)
    (arg6 : Memref sig .tc .vmem S1x1024 .f32) (harg6 : arg6.IsWhole) (arg7 : Memref sig .tc .vmem S1x1024 .f32) (harg7 : arg7.IsWhole)
    (hc1 : ¬ cond1 i) (hc2 : k1_cond2 i = 1#1)
    (x1 : Vec F S2000x1024 .f32) (x2 : Vec F S2000x1 .i32) (x3 : Vec F S1x1024 .i32) (x4 : Vec F S1x1024 .i32)
    (x5 : Vec F S1x1 .f32) (xP : Vec F S1x1024 .f32) (xZ : Vec F S1x1024 .f32) (E : Set ℕ) (Kk : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ owns (c : Thread nD τ) arg6 fullShare xP ∗ owns (c : Thread nD τ) arg7 fullShare xZ
        ∗ (iprop(owns (c : Thread nD τ) arg1 fullShare x1 ∗ owns (c : Thread nD τ) arg2 fullShare x2 ∗ owns (c : Thread nD τ) arg3 fullShare x3
            ∗ owns (c : Thread nD τ) arg4 fullShare x4
            ∗ owns (c : Thread nD τ) arg5 fullShare (finish (stepP i x1 x2 x3 x4 xP) (stepZ i x1 x4 xZ))
            ∗ owns (c : Thread nD τ) arg6 fullShare (stepP i x1 x2 x3 x4 xP) ∗ owns (c : Thread nD τ) arg7 fullShare (stepZ i x1 x4 xZ)) -∗ Kk ⟨⟩))
      ⊢ wp frame (wpE (defs₀ (F := F)) Variants.none c none) E (cc1_body i arg1 harg1 arg2 harg2 arg3 harg3 arg4 harg4 arg5 harg5 arg6 harg6 arg7 harg7) Kk := by
  simp only [cc1_body_eq_skeleton]; unfold cc1_body_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  sl_exec (disch := first | exact hc1 | exact hc2)
  sl_step
  iapply Hk
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]
  · iexists _; isplitr; swap; · iexact H5
    ipureintro
    sl_unfold_words
    rw [View.read_writes_eq_canon _ _ _ (fun y => ⟨_, List.mem_singleton_self _, View.mem_set_unit_zero hz2 inb_S1x1_S1x1_0_0 y⟩), View.canon_unit_zero hz2]
    simp only [View.readAt_eq_ld, harg1.read_unread, harg2.read_unread, harg3.read_unread, harg4.read_unread, harg6.read_unread, harg7.read_unread,
      View.ld_unit_zero (S := S2000x1024) hz2, View.ld_unit_zero (S := S1x1024) hz2, View.ld_unit_zero (S := S2000x1) hz2,
      View.readCov_unit_zero (S := S1x1024) _ hz2]
    rfl
  isplitl [H6]
  · iexists _; isplitr; swap; · iexact H6
    ipureintro
    sl_unfold_words
    rw [View.read_writes_eq_canon _ _ _ (fun y => ⟨_, List.mem_singleton_self _, View.mem_set_unit_zero hz2 inb_S1x1024_S1x1024_0_0 y⟩), View.canon_unit_zero hz2]
    simp only [View.readAt_eq_ld, harg1.read_unread, harg2.read_unread, harg3.read_unread, harg4.read_unread, harg6.read_unread,
      View.ld_unit_zero (S := S2000x1024) hz2, View.ld_unit_zero (S := S1x1024) hz2, View.ld_unit_zero (S := S2000x1) hz2]
    rfl
  · iexists _; isplitr; swap; · iexact H7
    ipureintro
    sl_unfold_words
    rw [View.read_writes_eq_canon _ _ _ (fun y => ⟨_, List.mem_singleton_self _, View.mem_set_unit_zero hz2 inb_S1x1024_S1x1024_0_0 y⟩), View.canon_unit_zero hz2]
    simp only [View.readAt_eq_ld, harg1.read_unread, harg4.read_unread, harg7.read_unread,
      View.ld_unit_zero (S := S2000x1024) hz2, View.ld_unit_zero (S := S1x1024) hz2]
    rfl

end Cert.Proof.KB

end
-- ==== Proof.KB.TcData.lean ====
import proofs.«211976_g36739150250640_fold_wed_m_914_8_alg».proof.Proof.KB.TcRun
import Idealize.ShloMosaic.Lib.Pipeline.FrameBody
import Idealize.ShloMosaic.Lib.Ring
import Idealize.ShloMosaic.Lib.Pipeline.Value

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! # The TensorCore pipeline's proof data

The arrays as the region finds them are a parameter `V`. Each input window holds its block at every point;
the two accumulators are carried in the pipeline's invariant: before point 0 at anything, after point n at
the n-fold step of the reset value over blocks 0 … n. The one-word result window is idle except at the last
point, where it is left at the word formed from the two accumulators and written back. -/

abbrev adm : (p : Fin 1) → (pcfgs (F := F) p).Adm := fun p => (cfgs p).toPCfg_adm

abbrev sP : Memref sig .tc .vmem S1x1024 .f32 := Memref.whole cc1_scratch0
abbrev sZ : Memref sig .tc .vmem S1x1024 .f32 := Memref.whole cc1_scratch1

theorem h49 : 49 < cfg1.N := by decide

section Data

variable (c : Dev nD) (V : (b : Ref sig .tc) → Buf (Elt F) ((c : Thread nD τ).loc b))

/-- Window `w`'s block at point `t`, read off its array as the region finds it. -/
def iblk (w : Fin cfg1.W) (t : Fin cfg1.N) : ((cfg1.win w).xblock (cfg1.grid.coords t)).Idx → Elt F (cfg1.win w).elt :=
  ((cfg1.win w).blk t).view.read (Elt F) (V (Pipeline.arrRef spec1 w))

/-- The first accumulator after point `n`. -/
def accP : (n : ℕ) → n < cfg1.N → Vec F S1x1024 .f32
  | 0, h => stepP (grid1.coords ⟨0, h⟩) (iblk c V 0 ⟨0, h⟩) (iblk c V 1 ⟨0, h⟩) (iblk c V 2 ⟨0, h⟩) (iblk c V 3 ⟨0, h⟩) zeroP
  | n + 1, h => stepP (grid1.coords ⟨n + 1, h⟩) (iblk c V 0 ⟨n + 1, h⟩) (iblk c V 1 ⟨n + 1, h⟩) (iblk c V 2 ⟨n + 1, h⟩) (iblk c V 3 ⟨n + 1, h⟩)
      (accP n (Nat.lt_of_succ_lt h))

/-- The second accumulator after point `n`. -/
def accZ : (n : ℕ) → n < cfg1.N → Vec F S1x1024 .f32
  | 0, h => stepZ (grid1.coords ⟨0, h⟩) (iblk c V 0 ⟨0, h⟩) (iblk c V 3 ⟨0, h⟩) zeroZ
  | n + 1, h => stepZ (grid1.coords ⟨n + 1, h⟩) (iblk c V 0 ⟨n + 1, h⟩) (iblk c V 3 ⟨n + 1, h⟩) (accZ n (Nat.lt_of_succ_lt h))

/-- The result word: formed from the accumulators after the last point. -/
def outWord : Vec F S1x1 .f32 := finish (accP c V 49 h49) (accZ c V 49 h49)

/-- The invariant: the two accumulators, at anything before the first point, at their values after point `n`. -/
def ΦS : Fin (cfg1.N + 1) → sProp 𝕄
  | ⟨0, _⟩ => iprop((∃ X, owns (c : Thread nD τ) sP fullShare X) ∗ (∃ X, owns (c : Thread nD τ) sZ fullShare X))
  | ⟨n + 1, h⟩ => iprop(owns (c : Thread nD τ) sP fullShare (accP c V n (Nat.lt_of_succ_lt_succ h))
      ∗ owns (c : Thread nD τ) sZ fullShare (accZ c V n (Nat.lt_of_succ_lt_succ h)))

/-- The proof data of the one pipeline on core `c`: the core owes nothing throughout, and the pairs its waits have
    recorded stay at or below the level the launch's handshakes left them at. -/
def dat : Dat τ (Elt F) (HIx 1) ℕ UU ℕ cfg1 c where
  A w := V (Pipeline.arrRef spec1 w)
  after w t := match w with
    | ⟨0, _⟩ => iblk c V 0 t
    | ⟨1, _⟩ => iblk c V 1 t
    | ⟨2, _⟩ => iblk c V 2 t
    | ⟨3, _⟩ => iblk c V 3 t
    | ⟨4, _⟩ => outWord c V
  Φ := ΦS c V
  q _ := fullShare
  owed _ := 0
  recorded _ := {p | (K (F := F)).lev ((c : Thread nD τ), p.1) p.2 ≤ 8}

theorem A_eq (w : Fin cfg1.W) : (dat c V).A w = V (Pipeline.arrRef spec1 w) := by dsimp only [dat]
theorem after1_0 (t : Fin cfg1.N) : (dat c V).after 0 t = iblk c V 0 t := by dsimp only [dat]
theorem after1_1 (t : Fin cfg1.N) : (dat c V).after 1 t = iblk c V 1 t := by dsimp only [dat]
theorem after1_2 (t : Fin cfg1.N) : (dat c V).after 2 t = iblk c V 2 t := by dsimp only [dat]
theorem after1_3 (t : Fin cfg1.N) : (dat c V).after 3 t = iblk c V 3 t := by dsimp only [dat]
theorem after1_4 (t : Fin cfg1.N) : (dat c V).after 4 t = outWord c V := by dsimp only [dat]

/-- Each input's current staging buffer holds its block at every point, fetched there or not. -/
theorem before1_0 (t : Fin cfg1.N) (d) : (dat c V).before 0 t d = iblk c V 0 t :=
  ((dat c V).before_in_eq_fetched 0 rfl (fun _ => rfl) (fun _ _ _ => rfl)
    (fun t => by rw [after1_0]; unfold Dat.blockOf iblk; rw [A_eq]; try rfl) t d).trans
    (by unfold Dat.fetched Dat.blockOf iblk; rw [A_eq]; try rfl)
theorem before1_1 (t : Fin cfg1.N) (d) : (dat c V).before 1 t d = iblk c V 1 t :=
  ((dat c V).before_in_eq_fetched 1 rfl (fun _ => rfl) (fun _ _ _ => rfl)
    (fun t => by rw [after1_1]; unfold Dat.blockOf iblk; rw [A_eq]; try rfl) t d).trans
    (by unfold Dat.fetched Dat.blockOf iblk; rw [A_eq]; try rfl)
theorem before1_2 (t : Fin cfg1.N) (d) : (dat c V).before 2 t d = iblk c V 2 t :=
  ((dat c V).before_in_eq_fetched 2 rfl (fun _ => rfl) (fun _ _ _ => rfl)
    (fun t => by rw [after1_2]; unfold Dat.blockOf iblk; rw [A_eq]; try rfl) t d).trans
    (by unfold Dat.fetched Dat.blockOf iblk; rw [A_eq]; try rfl)
theorem before1_3 (t : Fin cfg1.N) (d) : (dat c V).before 3 t d = iblk c V 3 t :=
  ((dat c V).before_in_eq_fetched 3 rfl (fun _ => rfl) (fun _ _ _ => rfl)
    (fun t => by rw [after1_3]; unfold Dat.blockOf iblk; rw [A_eq]; try rfl) t d).trans
    (by unfold Dat.fetched Dat.blockOf iblk; rw [A_eq]; try rfl)

end Data

end Cert.Proof.KB

end
-- ==== Proof.KB.TcBody.lean ====
import proofs.«211976_g36739150250640_fold_wed_m_914_8_alg».proof.Proof.KB.TcData
import Idealize.ShloMosaic.Lib.Pipeline.FrameBody
import Idealize.ShloMosaic.Lib.Ring
import Idealize.ShloMosaic.Lib.Pipeline.Value

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

section Body

variable (c : Dev nD) (V : (b : Ref sig .tc) → Buf (Elt F) ((c : Thread nD τ).loc b))

/-- The index the pipeline's own waits are recorded at. -/
abbrev ι₀ : HIx 1 := none

theorem accP_zero (h : 0 < cfg1.N) : accP c V 0 h
    = stepP (grid1.coords ⟨0, h⟩) (iblk c V 0 ⟨0, h⟩) (iblk c V 1 ⟨0, h⟩) (iblk c V 2 ⟨0, h⟩) (iblk c V 3 ⟨0, h⟩) zeroP := rfl
theorem accP_succ (n : ℕ) (h : n + 1 < cfg1.N) : accP c V (n + 1) h
    = stepP (grid1.coords ⟨n + 1, h⟩) (iblk c V 0 ⟨n + 1, h⟩) (iblk c V 1 ⟨n + 1, h⟩) (iblk c V 2 ⟨n + 1, h⟩) (iblk c V 3 ⟨n + 1, h⟩)
        (accP c V n (Nat.lt_of_succ_lt h)) := rfl
theorem accZ_zero (h : 0 < cfg1.N) : accZ c V 0 h = stepZ (grid1.coords ⟨0, h⟩) (iblk c V 0 ⟨0, h⟩) (iblk c V 3 ⟨0, h⟩) zeroZ := rfl
theorem accZ_succ (n : ℕ) (h : n + 1 < cfg1.N) : accZ c V (n + 1) h
    = stepZ (grid1.coords ⟨n + 1, h⟩) (iblk c V 0 ⟨n + 1, h⟩) (iblk c V 3 ⟨n + 1, h⟩) (accZ c V n (Nat.lt_of_succ_lt h)) := rfl

/-- The result window's post: as found at a point idle for it that does not write it back, else as left. -/
def pick (idle flush : Bool) (X Y : sProp 𝕄) : sProp 𝕄 :=
  match idle with
  | true => (match flush with
      | false => X
      | true => Y)
  | false => Y
theorem pick_idle (X Y : sProp 𝕄) : pick true false X Y = X := rfl
theorem pick_live (fl : Bool) (X Y : sProp 𝕄) : pick false fl X Y = Y := rfl

/-- What the body is called with at point `t`, the windows one by one, -/
def bodyPre (t : Fin cfg1.N) : sProp 𝕄 :=
  iprop((dat c V).Φ t.castSucc ∗ (dat c V).owesAt ι₀ t.castSucc
    ∗ (∃ d, owns (c : Thread nD τ) (st1_0 t) fullShare ((dat c V).before 0 t d))
    ∗ (∃ d, owns (c : Thread nD τ) (st1_1 t) fullShare ((dat c V).before 1 t d))
    ∗ (∃ d, owns (c : Thread nD τ) (st1_2 t) fullShare ((dat c V).before 2 t d))
    ∗ (∃ d, owns (c : Thread nD τ) (st1_3 t) fullShare ((dat c V).before 3 t d))
    ∗ (∃ d, owns (c : Thread nD τ) (st1_4 t) fullShare ((dat c V).before 4 t d)))

/-- and what it returns: the result window as it was found at the points where the body stores nothing into it. -/
def bodyPost (t : Fin cfg1.N) : sProp 𝕄 :=
  iprop((dat c V).Φ t.succ ∗ (dat c V).owesAt ι₀ t.succ
    ∗ owns (c : Thread nD τ) (st1_0 t) fullShare ((dat c V).after 0 t)
    ∗ owns (c : Thread nD τ) (st1_1 t) fullShare ((dat c V).after 1 t)
    ∗ owns (c : Thread nD τ) (st1_2 t) fullShare ((dat c V).after 2 t)
    ∗ owns (c : Thread nD τ) (st1_3 t) fullShare ((dat c V).after 3 t)
    ∗ pick (cfg1.idle 4 (cfg1.grid.coords t)) ((cfg1.win 4).flush t)
        (iprop(∃ d, owns (c : Thread nD τ) (st1_4 t) fullShare ((dat c V).before 4 t d)))
        (owns (c : Thread nD τ) (st1_4 t) fullShare ((dat c V).after 4 t)))

theorem idle4_eq (i : grid1.Coords) : idle1 4 i = !(k1_cond2 i == 1#1) := rfl

set_option maxHeartbeats 1000000 in
/-- The body at any point: the inputs' buffers hold their blocks; the point's place on the grid says which case
    it is in; the accumulators come from the invariant and go back to it stepped. -/
theorem sound_body (t : Fin cfg1.N) :
    bodyPre c V t ⊢ wp frame (wpE (defs₀ (F := F)) Variants.none c none) Set.univ (bodyAt1 t) (fun _ => bodyPost c V t) := by
  unfold bodyPre bodyPost bodyAt1
  simp only [before1_0, before1_1, before1_2, before1_3]
  rw [show (dat c V).owesAt ι₀ t.succ = (dat c V).owesAt ι₀ t.castSucc from rfl, after1_0, after1_1, after1_2, after1_3, after1_4]
  have hN : t.val < 50 := lt_of_lt_of_eq t.isLt (show cfg1.N = 50 from N_1)
  obtain ⟨n, hn⟩ := t
  rcases n with _ | n
  · -- the first point
    have hc1 : cond1 (grid1.coords ⟨0, hn⟩) := (hcond1 ⟨0, hn⟩).mpr rfl
    have hc2 : ¬ k1_cond2 (grid1.coords ⟨0, hn⟩) = 1#1 := fun h => by have := (hcond2 ⟨0, hn⟩).mp h; simp at this
    have hidle : idle1 4 (grid1.coords ⟨0, hn⟩) = true := by
      rw [idle4_eq, Bool.not_eq_true', beq_eq_false_iff_ne]; exact hc2
    have hflush : (win1 4).flush ⟨0, hn⟩ = false := Bool.eq_false_iff.mpr fun h => by have := (flush1_4 _).mp h; simp at this
    rw [hidle, hflush, pick_idle]
    rw [show (dat c V).Φ (Fin.castSucc ⟨0, hn⟩) = iprop((∃ X, owns (c : Thread nD τ) sP fullShare X) ∗ (∃ X, owns (c : Thread nD τ) sZ fullShare X)) from rfl,
      show (dat c V).Φ (Fin.succ ⟨0, hn⟩) = iprop(owns (c : Thread nD τ) sP fullShare (accP c V 0 hn) ∗ owns (c : Thread nD τ) sZ fullShare (accZ c V 0 hn)) from rfl,
      accP_zero, accZ_zero]
    iintro ⟨⟨⟨%XP, HP⟩, ⟨%XZ, HZ⟩⟩, Ho, ⟨%d0, H0⟩, ⟨%d1, H1⟩, ⟨%d2, H2⟩, ⟨%d3, H3⟩, ⟨%d4, H4⟩⟩
    iapply (runA c (grid1.coords ⟨0, hn⟩) (st1_0 ⟨0, hn⟩) (hstage1_0 ((cfg1.slots ⟨0, hn⟩ 0).cast nbuf1_0)) (st1_1 ⟨0, hn⟩) (hstage1_1 ((cfg1.slots ⟨0, hn⟩ 1).cast nbuf1_1))
      (st1_2 ⟨0, hn⟩) (hstage1_2 ((cfg1.slots ⟨0, hn⟩ 2).cast nbuf1_2)) (st1_3 ⟨0, hn⟩) (hstage1_3 ((cfg1.slots ⟨0, hn⟩ 3).cast nbuf1_3))
      (st1_4 ⟨0, hn⟩) (hstage1_4 ((cfg1.slots ⟨0, hn⟩ 4).cast nbuf1_4)) sP (Memref.isWhole_whole _) sZ (Memref.isWhole_whole _) hc1 hc2
      (iblk c V 0 ⟨0, hn⟩) (iblk c V 1 ⟨0, hn⟩) (iblk c V 2 ⟨0, hn⟩) (iblk c V 3 ⟨0, hn⟩) ((dat c V).before 4 ⟨0, hn⟩ d4) XP XZ Set.univ _)
    isplitl [H0]; · iexact H0
    isplitl [H1]; · iexact H1
    isplitl [H2]; · iexact H2
    isplitl [H3]; · iexact H3
    isplitl [H4]; · iexact H4
    isplitl [HP]; · iexact HP
    isplitl [HZ]; · iexact HZ
    iintro ⟨H0, H1, H2, H3, H4, HP, HZ⟩
    isplitl [HP HZ]; · isplitl [HP]; · iexact HP
                       iexact HZ
    isplitl [Ho]; · iexact Ho
    isplitl [H0]; · iexact H0
    isplitl [H1]; · iexact H1
    isplitl [H2]; · iexact H2
    isplitl [H3]; · iexact H3
    iexists d4; iexact H4
  · have hN' : n + 1 < 50 := hN
    have hc1 : ¬ cond1 (grid1.coords ⟨n + 1, hn⟩) := fun h => by have := (hcond1 ⟨n + 1, hn⟩).mp h; simp at this
    rw [show (dat c V).Φ (Fin.castSucc ⟨n + 1, hn⟩) = iprop(owns (c : Thread nD τ) sP fullShare (accP c V n (Nat.lt_of_succ_lt hn))
          ∗ owns (c : Thread nD τ) sZ fullShare (accZ c V n (Nat.lt_of_succ_lt hn))) from rfl,
      show (dat c V).Φ (Fin.succ ⟨n + 1, hn⟩) = iprop(owns (c : Thread nD τ) sP fullShare (accP c V (n + 1) hn) ∗ owns (c : Thread nD τ) sZ fullShare (accZ c V (n + 1) hn)) from rfl,
      accP_succ, accZ_succ]
    by_cases hl : n + 1 = 49
    · -- the last point
      have hc2 : k1_cond2 (grid1.coords ⟨n + 1, hn⟩) = 1#1 := (hcond2 ⟨n + 1, hn⟩).mpr hl
      have hidle : idle1 4 (grid1.coords ⟨n + 1, hn⟩) = false := by
        rw [idle4_eq, hc2]; rfl
      rw [hidle, pick_live]
      have hout : outWord c V = finish
          (stepP (grid1.coords ⟨n + 1, hn⟩) (iblk c V 0 ⟨n + 1, hn⟩) (iblk c V 1 ⟨n + 1, hn⟩) (iblk c V 2 ⟨n + 1, hn⟩) (iblk c V 3 ⟨n + 1, hn⟩) (accP c V n (Nat.lt_of_succ_lt hn)))
          (stepZ (grid1.coords ⟨n + 1, hn⟩) (iblk c V 0 ⟨n + 1, hn⟩) (iblk c V 3 ⟨n + 1, hn⟩) (accZ c V n (Nat.lt_of_succ_lt hn))) := by
        obtain rfl : n = 48 := by omega
        rfl
      rw [hout]
      iintro ⟨⟨HP, HZ⟩, Ho, ⟨%d0, H0⟩, ⟨%d1, H1⟩, ⟨%d2, H2⟩, ⟨%d3, H3⟩, ⟨%d4, H4⟩⟩
      iapply (runC c (grid1.coords ⟨n + 1, hn⟩) (st1_0 ⟨n + 1, hn⟩) (hstage1_0 ((cfg1.slots ⟨n + 1, hn⟩ 0).cast nbuf1_0)) (st1_1 ⟨n + 1, hn⟩) (hstage1_1 ((cfg1.slots ⟨n + 1, hn⟩ 1).cast nbuf1_1))
      (st1_2 ⟨n + 1, hn⟩) (hstage1_2 ((cfg1.slots ⟨n + 1, hn⟩ 2).cast nbuf1_2)) (st1_3 ⟨n + 1, hn⟩) (hstage1_3 ((cfg1.slots ⟨n + 1, hn⟩ 3).cast nbuf1_3))
      (st1_4 ⟨n + 1, hn⟩) (hstage1_4 ((cfg1.slots ⟨n + 1, hn⟩ 4).cast nbuf1_4)) sP (Memref.isWhole_whole _) sZ (Memref.isWhole_whole _) hc1 hc2
        (iblk c V 0 ⟨n + 1, hn⟩) (iblk c V 1 ⟨n + 1, hn⟩) (iblk c V 2 ⟨n + 1, hn⟩) (iblk c V 3 ⟨n + 1, hn⟩) ((dat c V).before 4 ⟨n + 1, hn⟩ d4)
        (accP c V n (Nat.lt_of_succ_lt hn)) (accZ c V n (Nat.lt_of_succ_lt hn)) Set.univ _)
      isplitl [H0]; · iexact H0
      isplitl [H1]; · iexact H1
      isplitl [H2]; · iexact H2
      isplitl [H3]; · iexact H3
      isplitl [H4]; · iexact H4
      isplitl [HP]; · iexact HP
      isplitl [HZ]; · iexact HZ
      iintro ⟨H0, H1, H2, H3, H4, HP, HZ⟩
      isplitl [HP HZ]; · isplitl [HP]; · iexact HP
                         iexact HZ
      isplitl [Ho]; · iexact Ho
      isplitl [H0]; · iexact H0
      isplitl [H1]; · iexact H1
      isplitl [H2]; · iexact H2
      isplitl [H3]; · iexact H3
      iexact H4
    · -- a middle point
      have hc2 : ¬ k1_cond2 (grid1.coords ⟨n + 1, hn⟩) = 1#1 := fun h => hl ((hcond2 ⟨n + 1, hn⟩).mp h)
      have hidle : idle1 4 (grid1.coords ⟨n + 1, hn⟩) = true := by
        rw [idle4_eq, Bool.not_eq_true', beq_eq_false_iff_ne]; exact hc2
      have hflush : (win1 4).flush ⟨n + 1, hn⟩ = false := Bool.eq_false_iff.mpr fun h => by
        have := (flush1_4 _).mp h; dsimp only at this; omega
      rw [hidle, hflush, pick_idle]
      iintro ⟨⟨HP, HZ⟩, Ho, ⟨%d0, H0⟩, ⟨%d1, H1⟩, ⟨%d2, H2⟩, ⟨%d3, H3⟩, ⟨%d4, H4⟩⟩
      iapply (runB c (grid1.coords ⟨n + 1, hn⟩) (st1_0 ⟨n + 1, hn⟩) (hstage1_0 ((cfg1.slots ⟨n + 1, hn⟩ 0).cast nbuf1_0)) (st1_1 ⟨n + 1, hn⟩) (hstage1_1 ((cfg1.slots ⟨n + 1, hn⟩ 1).cast nbuf1_1))
      (st1_2 ⟨n + 1, hn⟩) (hstage1_2 ((cfg1.slots ⟨n + 1, hn⟩ 2).cast nbuf1_2)) (st1_3 ⟨n + 1, hn⟩) (hstage1_3 ((cfg1.slots ⟨n + 1, hn⟩ 3).cast nbuf1_3))
      (st1_4 ⟨n + 1, hn⟩) (hstage1_4 ((cfg1.slots ⟨n + 1, hn⟩ 4).cast nbuf1_4)) sP (Memref.isWhole_whole _) sZ (Memref.isWhole_whole _) hc1 hc2
        (iblk c V 0 ⟨n + 1, hn⟩) (iblk c V 1 ⟨n + 1, hn⟩) (iblk c V 2 ⟨n + 1, hn⟩) (iblk c V 3 ⟨n + 1, hn⟩) ((dat c V).before 4 ⟨n + 1, hn⟩ d4)
        (accP c V n (Nat.lt_of_succ_lt hn)) (accZ c V n (Nat.lt_of_succ_lt hn)) Set.univ _)
      isplitl [H0]; · iexact H0
      isplitl [H1]; · iexact H1
      isplitl [H2]; · iexact H2
      isplitl [H3]; · iexact H3
      isplitl [H4]; · iexact H4
      isplitl [HP]; · iexact HP
      isplitl [HZ]; · iexact HZ
      iintro ⟨H0, H1, H2, H3, H4, HP, HZ⟩
      isplitl [HP HZ]; · isplitl [HP]; · iexact HP
                         iexact HZ
      isplitl [Ho]; · iexact Ho
      isplitl [H0]; · iexact H0
      isplitl [H1]; · iexact H1
      isplitl [H2]; · iexact H2
      isplitl [H3]; · iexact H3
      iexists d4; iexact H4

/-- The library's body obligation, at every point. -/
theorem body_obligation : BodyObligation (dat (F := F) c V) (defs₀ (F := F)) Variants.none ι₀ Set.univ := fun t => by
  rw [bigSep_W1, bigSep_W1]
  exact sound_body c V t

end Body

end Cert.Proof.KB

end
-- ==== Proof.KB.ScTile.lean ====
/-
  The body obligation of the program's one SparseCore kernel, as one vector subcore's task: the task copies its
  chunk of the index array into its first scratch, gathers the label table at those thirty-two offsets into its
  second scratch, and copies that scratch out to its chunk of the result. Each transfer is waited for before the
  next is issued, so the three semaphores' counters are at zero between them. The value: entry `k` of the chunk
  written is the label table read at the word entry `k` of the index chunk holds, which is the gathered array at
  index `32 w + k`.
-/
import proofs.«211976_g36739150250640_fold_wed_m_914_8_alg».proof.Proof.KB.Common

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-! ## The task's memrefs, spelt as the body table passes them and as the body slices them -/

local notation "iW" => (Memref.whole main_arg1_scv : Memref sig Kind.scVector Space.hbm S1024 EltTy.i32)
local notation "lW" => (Memref.whole main_arg2_scv : Memref sig Kind.scVector Space.hbm S100000 EltTy.i32)
local notation "yW" => (Memref.whole main_v0_scv : Memref sig Kind.scVector Space.hbm S1024 EltTy.i32)
local notation "aW" => (Memref.whole cc0_scratch0 : Memref sig Kind.scVector Space.vmem S32 EltTy.i32)
local notation "bW" => (Memref.whole cc0_scratch1 : Memref sig Kind.scVector Space.vmem S32 EltTy.i32)

namespace ScTile

section Tile

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- The chunk of the task at grid point `L`. -/
abbrev wL (L : grid0.Coords) : Fin 32 := wOf (Fin.cast bound_zero (L 0)) (Fin.cast bound_one (L 1))

/-- The chunk's rectangle as the body computes it, -/
abbrev ckR (L : grid0.Coords) : Rect S1024 := Rect.unit (s := S1024) (k0_off1 L) S32.size (k0_off1_inb L)
/-- the index chunk and the result chunk as the body slices them, -/
abbrev iCk (L : grid0.Coords) : Memref sig .scVector .hbm S32 .i32 := (iW).slice (ckR L) (fun _ => rfl)
abbrev yCk (L : grid0.Coords) : Memref sig .scVector .hbm S32 .i32 := (yW).slice (ckR L) (fun _ => rfl)
/-- and the label table as the gather names it. -/
abbrev lAll : Memref sig .scVector .hbm S100000 .i32 := (lW).slice (Rect.unit (s := S100000) ![0] S100000.size inb_S100000_S100000_0) (fun _ => rfl)

abbrev gA (d : Dev nD) (c : Fin τ.nSC) (i : Fin τ.nSub) : GSem nD τ sig := (V d c i, .dma cc0_scoped0.sem)
abbrev gG (d : Dev nD) (c : Fin τ.nSC) (i : Fin τ.nSub) : GSem nD τ sig := (V d c i, .dma cc0_scratch2.sem)
abbrev gB (d : Dev nD) (c : Fin τ.nSC) (i : Fin τ.nSub) : GSem nD τ sig := (V d c i, .dma cc0_scoped1.sem)

/-- The three DMA semaphores the task names are among its own scoped cells. -/
theorem ownSems0_V :
    (ownSems0 (V d (cV L) (jV L)) : sProp 𝕄)
      = iprop(semVal (gA d (cV L) (jV L)) 0 ∗ semVal (gG d (cV L) (jV L)) 0 ∗ semVal (gB d (cV L) (jV L)) 0
          ∗ bigSep ((((ownCells (V d (cV L) (jV L))).erase (gA d (cV L) (jV L))).erase (gG d (cV L) (jV L))).erase (gB d (cV L) (jV L)))
              fun g => semVal g 0) := by
  unfold SparseCore.Cfg.ownSems0
  rw [SparseCore.bigSep_erase' ((mem_ownCells (g := gA d (cV L) (jV L))).mpr ⟨rfl, by
      show (SemLoc.dma cc0_scoped0.sem : SemLoc sig).isScoped .scVector = true; decide⟩),
    SparseCore.bigSep_erase' (Finset.mem_erase.mpr ⟨by simp [gA, gG]; decide, (mem_ownCells (g := gG d (cV L) (jV L))).mpr ⟨rfl, by
      show (SemLoc.dma cc0_scratch2.sem : SemLoc sig).isScoped .scVector = true; decide⟩⟩),
    SparseCore.bigSep_erase' (Finset.mem_erase.mpr ⟨by simp [gG, gB]; decide, Finset.mem_erase.mpr ⟨by simp [gA, gB]; decide,
      (mem_ownCells (g := gB d (cV L) (jV L))).mpr ⟨rfl, by show (SemLoc.dma cc0_scoped1.sem : SemLoc sig).isScoped .scVector = true; decide⟩⟩⟩)]

/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The chunk as the body computes it is the chunk the launch hands over -/

theorem ckR_eq : ckR L = chunk (wL L) := by
  unfold ckR chunk Rect.part Rect.block
  congr 1 <;> funext a
  · rw [k0_off1_eq]
    match a with
    | 0 =>
      show 64 * (L 1).val + 32 * (L 0).val = (2 * (L 1).val + (L 0).val) * (1024 / 32)
      omega
  · match a with
    | 0 => simp [Shape.partSize]

theorem set_iCk : (iCk L).view.set = chunkSet (wL L) := by
  show ((iW).view.slice (ckR L)).set = ((yW).view.slice (chunk (wL L))).set
  exact ckR_eq L ▸ rfl
theorem set_yCk : (yCk L).view.set = chunkSet (wL L) := by
  show ((yW).view.slice (ckR L)).set = ((yW).view.slice (chunk (wL L))).set
  exact ckR_eq L ▸ rfl

theorem pts_iCk (f : Buf (Elt F) (iLoc d)) :
    ((iCk L).view.loc (V d (cV L) (jV L)) ↦[(iCk L).view.set]{fullShare} f : sProp 𝕄) = iLoc d ↦[chunkSet (wL L)]{fullShare} f := by
  rw [set_iCk]
theorem pts_yCk (f : Buf (Elt F) (yLoc d)) :
    ((yCk L).view.loc (V d (cV L) (jV L)) ↦[(yCk L).view.set]{fullShare} f : sProp 𝕄) = yLoc d ↦[chunkSet (wL L)]{fullShare} f := by
  rw [set_yCk]
theorem pts_l (q : PosShare TreeShare) (f : Buf (Elt F) (lLoc d)) :
    ((lAll).view.loc (V d (cV L) (jV L)) ↦{q} f : sProp 𝕄) = lLoc d ↦{q} f := rfl
theorem pts_a (f : Buf (Elt F) ((V d (cV L) (jV L)).loc cc0_scratch0)) :
    ((aW).view.loc (V d (cV L) (jV L)) ↦{fullShare} f : sProp 𝕄) = (V d (cV L) (jV L)).loc cc0_scratch0 ↦{fullShare} f := rfl
theorem pts_b (f : Buf (Elt F) ((V d (cV L) (jV L)).loc cc0_scratch1)) :
    ((bW).view.loc (V d (cV L) (jV L)) ↦{fullShare} f : sProp 𝕄) = (V d (cV L) (jV L)).loc cc0_scratch1 ↦{fullShare} f := rfl

/-! ## The value: what the three transfers leave in the chunk of the result -/

/-- Row-major position in a rank-one shape is the one coordinate. -/
theorem rowMajor_rank1 {n : ℕ} (x : (⟨1, ![n]⟩ : Shape).Idx) : ((⟨1, ![n]⟩ : Shape).rowMajor x).val = (x 0).val := by
  show (Shape.rowMajorPi (⟨1, ![n]⟩ : Shape).size x).val = _
  rw [Shape.rowMajorPi_succ_val]
  have h := (Shape.rowMajorPi (fun a : Fin 0 => (⟨1, ![n]⟩ : Shape).size a.succ) (fun a => x a.succ)).isLt
  simp at h ⊢
  omega

theorem rowMajor_symm_rank1 {n : ℕ} (x : (⟨1, ![n]⟩ : Shape).Idx) (k : Fin (⟨1, ![n]⟩ : Shape).numel) (hk : k.val = (x 0).val) :
    (⟨1, ![n]⟩ : Shape).rowMajor.symm k = x := by
  rw [Equiv.symm_apply_eq]; apply Fin.ext; rw [hk]; exact (rowMajor_rank1 x).symm

/-- A buffer read through a view after one write of the view's whole shape reads the payload. -/
theorem read_writes_whole {sig' : RefSig} {κ : Kind} {sp : Space} {s : Shape} {e : EltTy} {Val : EltTy → Type}
    (v : View sig' κ sp s e) (f : v.ty.Contents Val) (w : (Rect.whole s).shape.Idx → Val e) (x : s.Idx) :
    v.read Val (v.writes Val f [⟨Rect.whole s, w⟩]) x = w x := by
  have h := View.read_writes_cons_emb v f (Rect.whole s) w [] x
  rwa [Rect.emb_whole_apply] at h

/-- What the gather delivers at entry `x`: the label table at the word entry `x` of the index chunk holds. -/
theorem gather_value (fa : Buf (Elt F) ((V d (cV L) (jV L)).loc cc0_scratch0))
    (hn : S32.numel = S32.size gathers_S100000_S32.axis')
    (hin' : ∀ x, ((aW).view.read (Elt F) ((aW).view.write (Elt F) fa (ReadAs.same.apply ((iCk L).view.read (Elt F) (m (iLoc d)))) Finset.univ) x).toNat < S100000.size gathers_S100000_S32.axis)
    (x : S32.Idx) :
    SparseCore.gatherPayload gathers_S100000_S32 ((lAll).view.read (Elt F) (m (lLoc d)))
        (SparseCore.rows ((aW).view.read (Elt F) ((aW).view.write (Elt F) fa (ReadAs.same.apply ((iCk L).view.read (Elt F) (m (iLoc d)))) Finset.univ)) hn hin') x
      = labelAt (m (lLoc d)) (m (iLoc d) ((iCk L).view.emb x)) := by
  have hidx : ∀ y, (aW).view.read (Elt F) ((aW).view.write (Elt F) fa (ReadAs.same.apply ((iCk L).view.read (Elt F) (m (iLoc d)))) Finset.univ) y
      = m (iLoc d) ((iCk L).view.emb y) := fun y => by
    rw [View.read_write_univ]
    exact (View.read_apply _ _).trans (cast_eq _ _)
  have hlt : (m (iLoc d) ((iCk L).view.emb x)).toNat < 100000 := by
    have h := hin' x
    rw [hidx] at h
    exact h
  unfold SparseCore.gatherPayload labelAt
  rw [dif_pos hlt]
  refine ((View.read_apply _ _).trans (cast_eq _ _)).trans (congrArg (m (lLoc d)) ?_)
  funext a
  match a with
  | ⟨0, _⟩ =>
    apply Fin.ext
    show 0 + 1 * ((aW).view.read (Elt F) ((aW).view.write (Elt F) fa (ReadAs.same.apply ((iCk L).view.read (Elt F) (m (iLoc d)))) Finset.univ)
        (S32.rowMajor.symm (Fin.cast hn.symm (x gathers_S100000_S32.axis')))).toNat = (m (iLoc d) ((iCk L).view.emb x)).toNat
    have hr := rowMajor_symm_rank1 x (Fin.cast hn.symm (x gathers_S100000_S32.axis')) rfl
    rw [hr, hidx]
    omega

/-- On the task's chunk the result, after the copy-out of the gathered scratch, is the gathered array. -/
theorem chunk_value (fa : Buf (Elt F) ((V d (cV L) (jV L)).loc cc0_scratch0)) (fb : Buf (Elt F) ((V d (cV L) (jV L)).loc cc0_scratch1))
    (hn : S32.numel = S32.size gathers_S100000_S32.axis')
    (hin' : ∀ x, ((aW).view.read (Elt F) ((aW).view.write (Elt F) fa (ReadAs.same.apply ((iCk L).view.read (Elt F) (m (iLoc d)))) Finset.univ) x).toNat < S100000.size gathers_S100000_S32.axis) :
    ∀ j ∈ chunkSet (wL L),
      ((yCk L).view.writes (Elt F) (m (yLoc d)) [⟨Rect.whole S32,
        ReadAs.same.apply ((bW).view.read (Elt F) ((bW).view.writes (Elt F) fb [⟨Rect.whole S32,
          SparseCore.gatherPayload gathers_S100000_S32 ((lAll).view.read (Elt F) (m (lLoc d)))
            (SparseCore.rows ((aW).view.read (Elt F) ((aW).view.write (Elt F) fa (ReadAs.same.apply ((iCk L).view.read (Elt F) (m (iLoc d)))) Finset.univ)) hn hin')⟩]))⟩]) j
      = gathered m d j := by
  intro j hj
  have hj' : j ∈ (yCk L).view.set := by rw [set_yCk]; exact hj
  obtain ⟨x, -, rfl⟩ := Finset.mem_map.mp hj'
  refine (((View.read_apply _ _).trans (cast_eq _ _)).symm.trans (read_writes_whole (yCk L).view (m (yLoc d)) _ x)).trans ?_
  rw [ReadAs.apply_same]
  exact (read_writes_whole (bW).view fb _ x).trans ((gather_value m d L fa hn hin' x).trans rfl)

variable [FloatOps F]

theorem tile_body (hpre : PreOK m) (O : CellTallies nD τ sig (HIx 1)) (W : Waits sig (HIx 1)) (hO : ∀ g, O g none = 0) :
    iprop(levAts (K (F := F)).L (K (F := F)).lev ∗ emp ∗ goRes m d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_body L iW (Memref.isWhole_whole _) lW (Memref.isWhole_whole _) yW (Memref.isWhole_whole _)
            aW (Memref.isWhole_whole _) bW (Memref.isWhole_whole _) cc0_scratch2 cc0_scoped0 cc0_scoped1)
          fun _ => iprop(tdRes m d (wL L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_body_eq_skeleton]; unfold cc0_body_skel
  rw [(K (F := F)).scopedBufs_V facts d (cV L) (jV L), SparseCore.Cfg.scopedSems0_V (Val := Elt F) d (cV L) (jV L), ownSems0_V, ownBufs_V]
  unfold goRes
  iintro ⟨#Hlv, -, ⟨Hi, Hl, Hy⟩, ⟨⟨%fa, Ha⟩, ⟨%fb, Hb⟩, Hbufs⟩, ⟨HsA, HsG, HsB, Hsems⟩, HO⟩
  ihave Hmw := ((K (F := F)).mayWaits_none (thr := V d (cV L) (jV L)) hO) $$ Hlv
  ihave Hi' := (Entails.of_eq (pts_iCk (F := F) d L _).symm) $$ Hi
  ihave Hy' := (Entails.of_eq (pts_yCk (F := F) d L _).symm) $$ Hy
  ihave Hl' := (Entails.of_eq (pts_l (F := F) d L _ _).symm) $$ Hl
  ihave Ha' := (Entails.of_eq (pts_a (F := F) d L _).symm) $$ Ha
  ihave Hb' := (Entails.of_eq (pts_b (F := F) d L _).symm) $$ Hb
  have hin : ∀ (g : Buf (Elt F) ((aW).view.loc (V d (cV L) (jV L)))) (x : S32.Idx),
      ((aW).view.read (Elt F) ((aW).view.write (Elt F) g (ReadAs.same.apply ((iCk L).view.read (Elt F) (m (iLoc d)))) Finset.univ) x).toNat < 100000 := by
    intro g x
    have h1 : (aW).view.write (Elt F) g (ReadAs.same.apply ((iCk L).view.read (Elt F) (m (iLoc d)))) Finset.univ
        = ReadAs.same.apply ((iCk L).view.read (Elt F) (m (iLoc d))) := View.write_whole_univ _ _ _
    rw [h1]
    exact ((congrArg BitVec.toNat ((View.read_apply _ _).trans (cast_eq _ _))).trans_lt (hpre d _))
  sl_exec
  sl_step
  unfold tdRes
  isplitl [Hi' Hl' Hy']
  · isplitl [Hi']; · iapply (Entails.of_eq (pts_iCk (F := F) d L _)); iexact Hi'
    isplitl [Hl']; · iapply (Entails.of_eq (pts_l (F := F) d L _ _)); iexact Hl'
    iapply (Entails.of_eq ((pts_yCk (F := F) d L _).trans (pointsTo_congr (chunk_value m d L fa fb rfl (hin fa))))); iexact Hy'
  isplitl [Ha' Hb' Hbufs]
  · isplitl [Ha']; · iexists _; iapply (Entails.of_eq (pts_a (F := F) d L _)); iexact Ha'
    isplitl [Hb']; · iexists _; iapply (Entails.of_eq (pts_b (F := F) d L _)); iexact Hb'
    iexact Hbufs
  isplitl [HsA HsG HsB Hsems]
  · isplitl [HsA]; · iexact HsA
    isplitl [HsG]; · iexact HsG
    isplitl [HsB]; · iexact HsB
    iexact Hsems
  iexists (insert (SemLoc.dma cc0_scoped1.sem, (default : HIx 1)) (insert (SemLoc.dma cc0_scratch2.sem, (default : HIx 1)) (insert (SemLoc.dma cc0_scoped0.sem, (default : HIx 1)) W))); isplitr
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact .inl hp
  · iexact HO

end Tile

/-! ## The launch theorem's obligation -/

variable [FloatOps F]

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_body (coordsV c s)
          iW (Memref.isWhole_whole _) lW (Memref.isWhole_whole _) yW (Memref.isWhole_whole _)
          aW (Memref.isWhole_whole _) bW (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end ScTile

variable [FloatOps F]

open ScTile in
/-- The kernel's body obligation: the task of vector subcore `i` of SparseCore `c` takes its operands to its results,
    the result chunk at the gathered array. -/
theorem tileObl (hpre : PreOK m) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hpre O W hO).trans (wp_mono frame _ _ fun _ => obl_post)

end Cert.Proof.KB

end
-- ==== Proof.KB.LaunchDefs.lean ====
/-
  The launch's data: the TensorCore's ten unscoped arrays through @main — at the launch contents, after the
  SparseCore call (the gathered labels in place), after the four layout operations before the region (the scores
  transposed, the labels as a column, the gathered labels and the indices as rows), after the region (the result word
  in place) and after the last reshape —, the pipeline's proof data at the region's entry contents, and how the index
  array, the label table and the result array are dealt to the thirty-two tasks and gathered back.
-/
import proofs.«211976_g36739150250640_fold_wed_m_914_8_alg».proof.Proof.KB.TcBody
import proofs.«211976_g36739150250640_fold_wed_m_914_8_alg».proof.Proof.KB.ScTile
import proofs.«211976_g36739150250640_fold_wed_m_914_8_alg».proof.Proof.LibDeal

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Pipeline (Dat BodyObligation cellOf)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The ten arrays -/

abbrev x' : DevRef τ sig := Proc.devRef .tc (main_arg0 : Ref sig .tc)
abbrev i' : DevRef τ sig := Proc.devRef .tc (main_arg1 : Ref sig .tc)
abbrev l' : DevRef τ sig := Proc.devRef .tc (main_arg2 : Ref sig .tc)
abbrev y' : DevRef τ sig := Proc.devRef .tc (main_v0 : Ref sig .tc)
abbrev a1' : DevRef τ sig := Proc.devRef .tc (main_v1 : Ref sig .tc)
abbrev a2' : DevRef τ sig := Proc.devRef .tc (main_v2 : Ref sig .tc)
abbrev a3' : DevRef τ sig := Proc.devRef .tc (main_v3 : Ref sig .tc)
abbrev a4' : DevRef τ sig := Proc.devRef .tc (main_v4 : Ref sig .tc)
abbrev a5' : DevRef τ sig := Proc.devRef .tc (main_v5 : Ref sig .tc)
abbrev r' : DevRef τ sig := Proc.devRef .tc (main_v6 : Ref sig .tc)

abbrev S10 : Finset (DevRef τ sig) := {x', i', l', y', a1', a2', a3', a4', a5', r'}

/-- A buffer of device `d`'s TensorCore, whole, at the full share. -/
abbrev pl (d : Dev nD) (b : Ref sig .tc) (f : b.ty.Contents (Elt F)) : sProp 𝕄 := ((SparseCore.T d).loc b) ↦{fullShare} f

/-- The ten, one by one, at contents `W`. -/
def ten (d : Dev nD) (W : (b : Ref sig .tc) → b.ty.Contents (Elt F)) : sProp 𝕄 :=
  iprop(pl d main_arg0 (W main_arg0) ∗ pl d main_arg1 (W main_arg1) ∗ pl d main_arg2 (W main_arg2) ∗ pl d main_v0 (W main_v0)
    ∗ pl d main_v1 (W main_v1) ∗ pl d main_v2 (W main_v2) ∗ pl d main_v3 (W main_v3) ∗ pl d main_v4 (W main_v4)
    ∗ pl d main_v5 (W main_v5) ∗ pl d main_v6 (W main_v6))

omit [FloatOps F] in
theorem held_S10 (d : Dev nD) (W : Valuation τ sig (Elt F)) :
    (held (T d) S10 W : sProp 𝕄) = ten d (fun b => W (Proc.devRef .tc b)) := by
  unfold held S10 ten
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = ten d W := by
  unfold unscopedBufs ten
  rw [show (Finset.univ.filter fun b : Ref sig .tc => ¬ b.isScoped) = {main_arg0, main_arg1, main_arg2, main_v0, main_v1, main_v2, main_v3, main_v4, main_v5, main_v6} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-! ## The contents through @main -/

/-- At launch. -/
def V0 (d : Dev nD) : Valuation τ sig (Elt F) := fun b => m (d, b)
/-- After the SparseCore call: the gathered labels in place. -/
def V1 (d : Dev nD) : Valuation τ sig (Elt F) := Function.update (V0 m d) y' (gathered m d)

abbrev opT : HloOp τ sig (Elt F) :=
  StableHlo.unary main_arg0 main_v1 ((transpose S100000x1024 [1, 0] · transposes_S1024x100000_S100000x1024_1_0) : (⟨S1024x100000, .f32⟩ : BufTy).Contents (Elt F) → (⟨S100000x1024, .f32⟩ : BufTy).Contents (Elt F))
abbrev opR2 : HloOp τ sig (Elt F) := StableHlo.reshape main_arg2 main_v2 rfl shapeCasts_S100000_S100000x1
abbrev opR3 : HloOp τ sig (Elt F) := StableHlo.reshape main_v0 main_v3 rfl shapeCasts_S1024_S1x1024
abbrev opR4 : HloOp τ sig (Elt F) := StableHlo.reshape main_arg1 main_v4 rfl shapeCasts_S1024_S1x1024
abbrev opR6 : HloOp τ sig (Elt F) := StableHlo.reshape main_v5 main_v6 rfl shapeCasts_S1x1_S_

/-- At the region's entry: after the transpose and the three reshapes. -/
def VR (d : Dev nD) : Valuation τ sig (Elt F) :=
  (opR4 (F := F)).result ((opR3 (F := F)).result ((opR2 (F := F)).result ((opT (F := F)).result (V1 m d))))
/-- The same, as the pipeline's proof data takes it. -/
def Vc (d : Dev nD) : (b : Ref sig .tc) → Buf (Elt F) ((d : Thread nD τ).loc b) := fun b => VR m d (Proc.devRef .tc b)

/-- The proof data of the one pipeline, at the region's entry contents. -/
def pdats : (p : Fin 1) → (c : Dev nD) → Dat τ (Elt F) (HIx 1) ℕ UU ℕ (Pipeline.pin (pcfgs (F := F)) adm p) c
  | 0 => fun c => dat c (Vc m c)

/-- After the region: the result word written back. -/
def VX (d : Dev nD) : Valuation τ sig (Elt F) := Function.update (VR m d) a5' ((pdats m 0 d).arrAt 4 cfg1.N)
/-- At the end: the word as a scalar. -/
def VF (d : Dev nD) : Valuation τ sig (Elt F) := (opR6 (F := F)).result (VX m d)

/-! ## Dealing the arrays to the tasks -/

omit [FloatOps F] in
theorem chunkSet_eq (w : Fin 32) : chunkSet w = (chunk w).set := by
  show ((View.whole (main_v0_scv : Ref sig .scVector)).slice (chunk w)).set = _
  rw [View.set_slice]; exact Finset.map_refl
omit [FloatOps F] in
theorem chunks_disjoint : ∀ i ∈ (Finset.univ : Finset (Fin 32)), ∀ j ∈ (Finset.univ : Finset (Fin 32)), i ≠ j → Disjoint (chunkSet i) (chunkSet j) :=
  fun i _ j _ h => by rw [chunkSet_eq, chunkSet_eq]; exact Rect.part_disjoint hdiv32 h
omit [FloatOps F] in
theorem chunks_cover : (Finset.univ : Finset (Fin 32)).biUnion chunkSet = Finset.univ :=
  (Finset.biUnion_congr rfl fun i _ => chunkSet_eq i).trans (Rect.biUnion_part hdiv32)

omit [FloatOps F] in
theorem iPts_chunks (d : Dev nD) (f : Buf (Elt F) (iLoc d)) :
    (iLoc d ↦{fullShare} f : sProp 𝕄) = bigSep Finset.univ fun w : Fin 32 => iLoc d ↦[chunkSet w]{fullShare} f := by
  rw [← pointsTo_biUnion Finset.univ (ℓ := iLoc d) chunkSet chunks_disjoint, chunks_cover]; try rfl
omit [FloatOps F] in
theorem yPts_chunks (d : Dev nD) (f : Buf (Elt F) (yLoc d)) :
    (yLoc d ↦{fullShare} f : sProp 𝕄) = bigSep Finset.univ fun w : Fin 32 => yLoc d ↦[chunkSet w]{fullShare} f := by
  rw [← pointsTo_biUnion Finset.univ (ℓ := yLoc d) chunkSet chunks_disjoint, chunks_cover]; try rfl

omit [FloatOps F] in
/-- A family over the thirty-two chunks, SparseCore by SparseCore and task by task. -/
theorem bigSep_chunks (Φ : Fin 32 → sProp 𝕄) :
    bigSep (Finset.univ : Finset (Fin 32)) Φ = bigSep (Finset.univ : Finset (Fin 2)) fun c => bigSep (Finset.univ : Finset (Fin 16)) fun s => Φ (wOf c s) :=
  Cert.Deal.bigSep_tiles Φ

end Cert.Proof.KB

end
-- ==== Proof.KB.LaunchRegion.lean ====
/-
  The TensorCore region as a segment of @main: entered from the ten arrays at the region's entry contents and the
  TensorCore owing nothing, left with the result word written back; the two accumulators are the pipeline's invariant.
-/
import proofs.«211976_g36739150250640_fold_wed_m_914_8_alg».proof.Proof.KB.LaunchDefs

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Pipeline (Dat BodyObligation cellOf)

variable {F : FTy → Type} [FloatOps F]

local notation "𝕄" => MT nD τ sig (HIx 1) (Elt F) ℕ UU ℕ

variable (m : (ℓ : Loc nD τ sig) → Buf (Elt F) ℓ) (ρ : Dev nD → PrngReg)

/-- The TensorCore owing nothing, the pairs its waits have recorded at or below the first call's band of levels. -/
def OW (c : Dev nD) : sProp 𝕄 :=
  iprop(∃ W, ⌜(K (F := F)).WBelow (T c) W 8⌝ ∗ owes (T c) (0 : CellTallies nD τ sig (HIx 1)) W)

/-- The region's five arrays at contents `Fa`. -/
theorem arrays_eq (c : Dev nD) (Fa) :
    ((pdats (F := F) m 0 c).arrays Fa : sProp 𝕄)
      = iprop(pl c main_v1 (Fa 0) ∗ pl c main_v2 (Fa 1) ∗ pl c main_v3 (Fa 2) ∗ pl c main_v4 (Fa 3) ∗ pl c main_v5 (Fa 4)) := by
  rw [Pipeline.arrays_eq (Pipeline.pin (pcfgs (F := F)) adm) (pdats m) 0 c launch1.arr_whole ((pdats m 0 c).share_full fun _ => rfl) Fa, bigSep_W1]

/-- An input array reaches the region's exit as it entered. -/
theorem arrAt_in0 (c : Dev nD) : (pdats (F := F) m 0 c).arrAt 0 (Pipeline.pin (pcfgs (F := F)) adm 0).N = Vc m c main_v1 :=
  (dat (F := F) c (Vc m c)).arrAt_in 0 rfl _
theorem arrAt_in1 (c : Dev nD) : (pdats (F := F) m 0 c).arrAt 1 (Pipeline.pin (pcfgs (F := F)) adm 0).N = Vc m c main_v2 :=
  (dat (F := F) c (Vc m c)).arrAt_in 1 rfl _
theorem arrAt_in2 (c : Dev nD) : (pdats (F := F) m 0 c).arrAt 2 (Pipeline.pin (pcfgs (F := F)) adm 0).N = Vc m c main_v3 :=
  (dat (F := F) c (Vc m c)).arrAt_in 2 rfl _
theorem arrAt_in3 (c : Dev nD) : (pdats (F := F) m 0 c).arrAt 3 (Pipeline.pin (pcfgs (F := F)) adm 0).N = Vc m c main_v4 :=
  (dat (F := F) c (Vc m c)).arrAt_in 3 rfl _

theorem VX_a5 (c : Dev nD) : VX m c a5' = (pdats (F := F) m 0 c).arrAt 4 cfg1.N := Function.update_self ..
theorem VX_of_ne (c : Dev nD) (b : Ref sig .tc) (h : (Proc.devRef .tc b : DevRef τ sig) ≠ a5') : VX m c (Proc.devRef .tc b) = Vc m c b :=
  Function.update_of_ne h ..

/-- THE REGION: the five arrays into the pipeline, the five other unscoped buffers bypassing, the accumulators in the
    invariant, the core owing nothing throughout. -/
def reg : Pipeline.RegionSeg (pcfgs (F := F)) adm (pdats m) ι₀ defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation c (Vc m c)).loose
  hwaits c := (show _ ⊢ (iprop(emp) : sProp 𝕄) from by iintro -; iempintro).trans
    (Pipeline.cellsWaits_of_owed_zero (Pipeline.pin (pcfgs (F := F)) adm) (pdats m) ι₀ 0 c fun _ => rfl)
  pre c := iprop(unscopedBufs c (Vc m c) ∗ OW c)
  post c := iprop(held (T c) S10 (VX m c) ∗ OW c)
  X _ := iprop(emp)
  Y _ := iprop(emp)
  Z c := Pipeline.unscopedRest (Ix := HIx 1) (Name := ℕ) (U := UU) (Lvl := ℕ) spec1 c (Vc m c)
  hentry c := by
    rw [Pipeline.ownSems0_none]
    have hsplit := Pipeline.arrays_of_unscopedBufs (pcfgs (F := F)) adm (pdats m) launch1.win launch1.arr_whole c
      ((pdats m 0 c).share_full fun _ => rfl) (Vc m c) fun _ => rfl
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold OW
      icases HO with ⟨%W, %hW, HO⟩
      unfold Pipeline.Dat.owesAt Pipeline.owesWithin
      iexists W; isplitr; · ipureintro; exact fun p hp => Or.inl (hW p hp)
      iexact HO
    isplitr; · iempintro
    iexact Hr
  hin c := by
    rw [scopedRest1_eq]
    show _ ⊢ iprop((∃ X, owns (c : Thread nD τ) sP fullShare X) ∗ (∃ X, owns (c : Thread nD τ) sZ fullShare X))
    simp only [owns_whole]
    iintro ⟨-, -, H⟩
    iexact H
  hout c := by
    rw [Pipeline.ownSems0_none, scopedRest1_eq]
    show iprop(owns (c : Thread nD τ) sP fullShare (accP c (Vc m c) 49 h49) ∗ owns (c : Thread nD τ) sZ fullShare (accZ c (Vc m c) 49 h49)) ⊢ _
    rw [owns_whole, owns_whole]
    iintro ⟨HP, HZ⟩
    isplitr; · iempintro
    isplitr; · iempintro
    isplitl [HP]; · iexists _; iexact HP
    iexists _; iexact HZ
  hexit c := by
    rw [arrays_eq, unscopedRest1_eq, held_S10]; unfold ten; dsimp only
    rw [arrAt_in0, arrAt_in1, arrAt_in2, arrAt_in3, VX_a5,
      VX_of_ne m c main_arg0 (by decide), VX_of_ne m c main_arg1 (by decide), VX_of_ne m c main_arg2 (by decide), VX_of_ne m c main_v0 (by decide),
      VX_of_ne m c main_v1 (by decide), VX_of_ne m c main_v2 (by decide), VX_of_ne m c main_v3 (by decide), VX_of_ne m c main_v4 (by decide),
      VX_of_ne m c main_v6 (by decide)]
    iintro ⟨⟨H1, H2, H3, H4, H5⟩, HO, -, ⟨Hx, Hi, Hl, Hy, Hr⟩⟩
    imodintro
    isplitr [HO]
    · isplitl [Hx]; · iexact Hx
      isplitl [Hi]; · iexact Hi
      isplitl [Hl]; · iexact Hl
      isplitl [Hy]; · iexact Hy
      isplitl [H1]; · iexact H1
      isplitl [H2]; · iexact H2
      isplitl [H3]; · iexact H3
      isplitl [H4]; · iexact H4
      isplitl [H5]; · iexact H5
      iexact Hr
    · unfold Pipeline.Dat.owesAt Pipeline.owesWithin OW
      icases HO with ⟨%W, %hW, HO⟩
      iexists W; isplitr; swap; · iexact HO
      ipureintro
      intro p hp
      rcases hW hp with h | ⟨w, s, rfl⟩
      · exact h
      · show (K (F := F)).lev _ none ≤ 8
        rw [SparseCore.Cfg.lev_none]; omega

end Cert.Proof.KB

end
-- ==== Proof.KB.LaunchDeal.lean ====
/-
  How the SparseCore call's operands are made from the three arrays and its results give them back: the index array
  and the result array cut into their thirty-two chunks, the label table into thirty-two read shares and a remainder
  the TensorCore keeps; the result chunks, each at the one gathered array, join into that array whole.
-/
import proofs.«211976_g36739150250640_fold_wed_m_914_8_alg».proof.Proof.KB.LaunchDefs

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Pipeline (Dat BodyObligation cellOf)

variable {F : FTy → Type} [FloatOps F]

local notation "𝕄" => MT nD τ sig (HIx 1) (Elt F) ℕ UU ℕ

variable (m : (ℓ : Loc nD τ sig) → Buf (Elt F) ℓ) (ρ : Dev nD → PrngReg)

/-- The label table's share the TensorCore keeps during the call. -/
abbrev lRest : PosShare TreeShare := Transfers.shareDrop fullShare 32

theorem st_eq (d : Dev nD) :
    (bigSep Finset.univ fun c : Fin ((K (F := F)).nCore 0) => (P m).st 0 d c) = bigSep (Finset.univ : Finset (Fin 32)) (goRes m d) := by
  rw [bigSep_chunks]
  exact bigSep_congr fun c _ => rfl
theorem dn_eq (d : Dev nD) :
    (bigSep Finset.univ fun c : Fin ((K (F := F)).nCore 0) => (P m).dn 0 d c) = bigSep (Finset.univ : Finset (Fin 32)) (tdRes m d) := by
  rw [bigSep_chunks]
  exact bigSep_congr fun c _ => rfl

omit [FloatOps F] in
theorem goRes_all (d : Dev nD) :
    bigSep (Finset.univ : Finset (Fin 32)) (goRes m d)
      = iprop((iLoc d ↦{fullShare} m (iLoc d)) ∗ (bigSep Finset.univ fun w : Fin 32 => lLoc d ↦{lShare w} m (lLoc d)) ∗ (yLoc d ↦{fullShare} m (yLoc d))) := by
  unfold goRes
  rw [bigSep_sep', bigSep_sep', ← iPts_chunks, ← yPts_chunks]
omit [FloatOps F] in
theorem tdRes_all (d : Dev nD) :
    bigSep (Finset.univ : Finset (Fin 32)) (tdRes m d)
      = iprop((iLoc d ↦{fullShare} m (iLoc d)) ∗ (bigSep Finset.univ fun w : Fin 32 => lLoc d ↦{lShare w} m (lLoc d)) ∗ (yLoc d ↦{fullShare} gathered m d)) := by
  unfold tdRes
  rw [bigSep_sep', bigSep_sep', ← iPts_chunks, ← yPts_chunks]

/-- The three arrays whole make the call's operands, a share of the label table left over. -/
theorem deal_go (d : Dev nD) :
    iprop((iLoc d ↦{fullShare} m (iLoc d)) ∗ (lLoc d ↦{fullShare} m (lLoc d)) ∗ (yLoc d ↦{fullShare} m (yLoc d)))
      ⊢ iprop((bigSep Finset.univ fun c : Fin ((K (F := F)).nCore 0) => (P m).st 0 d c) ∗ (lLoc d ↦{lRest} m (lLoc d))) := by
  rw [st_eq, goRes_all]
  iintro ⟨Hi, Hl, Hy⟩
  ihave H := (Transfers.pointsTo_toks_split (ℓ := lLoc d) (S := Finset.univ) (f := m (lLoc d)) fullShare 32) $$ Hl
  icases H with ⟨Hr, Hs⟩
  isplitr [Hr]
  · isplitl [Hi]; · iexact Hi
    isplitl [Hs]; · iexact Hs
    iexact Hy
  · iexact Hr

/-- The call's results and the share left over give the three arrays back whole, the result array gathered. -/
theorem deal_td (d : Dev nD) :
    iprop((bigSep Finset.univ fun c : Fin ((K (F := F)).nCore 0) => (P m).dn 0 d c) ∗ (lLoc d ↦{lRest} m (lLoc d)))
      ⊢ iprop((iLoc d ↦{fullShare} m (iLoc d)) ∗ (lLoc d ↦{fullShare} m (lLoc d)) ∗ (yLoc d ↦{fullShare} gathered m d)) := by
  rw [dn_eq, tdRes_all]
  iintro ⟨⟨Hi, Hs, Hy⟩, Hr⟩
  isplitl [Hi]; · iexact Hi
  isplitr [Hy]
  · iapply (Transfers.pointsTo_toks_join (ℓ := lLoc d) (S := Finset.univ) (f := m (lLoc d)) fullShare 32)
    isplitl [Hr]; · iexact Hr
    iexact Hs
  · iexact Hy

end Cert.Proof.KB

end
-- ==== Proof.KB.Launch.lean ====
/-
  The launch: the ghost state's launch element, @main on the TensorCore (the SparseCore call, the four layout operations,
  the TensorCore region, the last reshape), and the program's run with every array it ends with named.
-/
import proofs.«211976_g36739150250640_fold_wed_m_914_8_alg».proof.Proof.KB.LaunchRegion
import proofs.«211976_g36739150250640_fold_wed_m_914_8_alg».proof.Proof.KB.LaunchDeal

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Pipeline (Dat BodyObligation cellOf)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch element -/

/-- The handshakes' rounds at the launch's cells, the pipeline's rounds at its staging cells, no counters yet. -/
def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), (1 : Counters)))

/-- What @main's proof starts from besides what the launch deals: the pipeline's ghost state on the device. -/
def G (d : Dev nD) : sProp 𝕄 :=
  iprop(Pipeline.cellsGhost (Pipeline.pin (pcfgs (F := F)) adm) EP 0 d ∗ Pipeline.toksInit (Pipeline.pin (pcfgs (F := F)) adm) EP 0 d)

omit [FloatOps F] in
theorem bigSep_emp' {I : Type} (s : Finset I) : (bigSep s fun _ => iprop(emp)) = (iprop(emp) : sProp 𝕄) := bigSep_emp_const s

theorem EP_eq : (EP : Emb UP 𝕄) = (Emb.inl : Emb UP (UP × Counters)).trans embR := rfl

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H2 := (own_pair_emb embR _ _) $$ HR
  icases H2 with ⟨HP, -⟩
  rw [← EP_eq]
  imod (Pipeline.fund_ghost (Pipeline.pin (pcfgs (F := F)) adm) EP cellOf_inj) $$ HP with ⟨Hg, Ht⟩
  imodintro
  isplitl [HH]; · iexact HH
  have e1 : (bigSep Finset.univ fun c : Dev nD => bigSep Finset.univ fun p : Fin 1 => (Pipeline.cellsGhost (Pipeline.pin (pcfgs (F := F)) adm) EP p c : sProp 𝕄))
      = bigSep Finset.univ fun c : Dev nD => Pipeline.cellsGhost (Pipeline.pin (pcfgs (F := F)) adm) EP 0 c :=
    bigSep_congr fun c _ => bigSep_univ_of_subsingleton (0 : Fin 1)
  have e2 : (bigSep Finset.univ fun c : Dev nD => bigSep Finset.univ fun p : Fin 1 => (Pipeline.toksInit (Pipeline.pin (pcfgs (F := F)) adm) EP p c : sProp 𝕄))
      = bigSep Finset.univ fun c : Dev nD => Pipeline.toksInit (Pipeline.pin (pcfgs (F := F)) adm) EP 0 c :=
    bigSep_congr fun c _ => bigSep_univ_of_subsingleton (0 : Fin 1)
  isplitl [Hg Ht]
  · unfold G
    rw [bigSep_sep', ← e1, ← e2]
    isplitl [Hg]
    · iexact Hg
    · iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

theorem V1_here (d : Dev nD) : V1 m d y' = gathered m d := Function.update_self ..
theorem V1_away (d : Dev nD) (b : DevRef τ sig) (h : b ≠ y') : V1 m d b = m (d, b) := Function.update_of_ne h ..

/-- The ten arrays after the SparseCore call. -/
theorem ten_V1 (d : Dev nD) : ten d (fun b => V1 m d (Proc.devRef .tc b))
    = iprop(pl d main_arg0 (m (xLoc d)) ∗ pl d main_arg1 (m (iLoc d)) ∗ pl d main_arg2 (m (lLoc d)) ∗ pl d main_v0 (gathered m d)
      ∗ pl d main_v1 (m ((SparseCore.T d).loc main_v1)) ∗ pl d main_v2 (m ((SparseCore.T d).loc main_v2)) ∗ pl d main_v3 (m ((SparseCore.T d).loc main_v3))
      ∗ pl d main_v4 (m ((SparseCore.T d).loc main_v4)) ∗ pl d main_v5 (m ((SparseCore.T d).loc main_v5)) ∗ pl d main_v6 (m ((SparseCore.T d).loc main_v6))) := by
  unfold ten; dsimp only
  rw [V1_here, V1_away m d x' (by decide), V1_away m d i' (by decide), V1_away m d l' (by decide), V1_away m d a1' (by decide), V1_away m d a2' (by decide),
    V1_away m d a3' (by decide), V1_away m d a4' (by decide), V1_away m d a5' (by decide), V1_away m d r' (by decide)]

/-- What @main leaves the claim: the ten arrays at their final contents. -/
abbrev FIN (d : Dev nD) : sProp 𝕄 := held (T d) S10 (VF m d)

/-- The ten arrays at the region's entry, as the region's record takes them. -/
theorem held_VR (d : Dev nD) : (held (T d) S10 (VR m d) : sProp 𝕄) = unscopedBufs d (Vc m d) := by
  rw [held_S10, unscopedBufs_eq]; rfl

theorem hT : (opT (F := F)).bufs ⊆ S10 := show ({x', a1'} : Finset (DevRef τ sig)) ⊆ S10 by decide
theorem hR2 : (opR2 (F := F)).bufs ⊆ S10 := show ({l', a2'} : Finset (DevRef τ sig)) ⊆ S10 by decide
theorem hR3 : (opR3 (F := F)).bufs ⊆ S10 := show ({y', a3'} : Finset (DevRef τ sig)) ⊆ S10 by decide
theorem hR4 : (opR4 (F := F)).bufs ⊆ S10 := show ({i', a4'} : Finset (DevRef τ sig)) ⊆ S10 by decide
theorem hR6 : (opR6 (F := F)).bufs ⊆ S10 := show ({a5', r'} : Finset (DevRef τ sig)) ⊆ S10 by decide

/-- After the one call the TensorCore owes nothing more. -/
theorem Otc_one (d : Dev nD) : (K (F := F)).Otc d 1 = 0 := (K (F := F)).Otc_end d (le_refl 1)

theorem reg_pre (d : Dev nD) : (reg (F := F) m).pre d = iprop(unscopedBufs d (Vc m d) ∗ OW d) := rfl
theorem reg_post (d : Dev nD) : (reg (F := F) m).post d = iprop(held (T d) S10 (VX m d) ∗ OW d) := rfl

set_option maxHeartbeats 1000000 in
/-- @main on device `d`'s TensorCore. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, Hten, -, -⟩, HG⟩
  unfold ten
  icases Hten with ⟨Hx, Hi, Hl, Hy, H1, H2, H3, H4, H5, Hr⟩
  -- the SparseCore call: the indices, the labels and the result array dealt to the tasks and gathered back
  ihave Hd := (deal_go m d) $$ [Hi Hl Hy]
  · isplitl [Hi]; · iexact Hi
    isplitl [Hl]; · iexact Hl
    iexact Hy
  icases Hd with ⟨Hst0, Hlr⟩
  iapply ((K (F := F)).wp_run (D (F := F)) 𝒱 (EH := EH) (P := P m) κ d 0) $$ [Hst Hst0 Hb Hx H1 H2 H3 H4 H5 Hr Hlr HG]
  isplitr; · iexact Hctx
  isplitl [Hst]; · iexact Hst
  isplitl [Hst0]; · iexact Hst0
  iintro ⟨Hst, Hdn⟩
  ihave Hd := (deal_td m d) $$ [Hdn Hlr]
  · isplitl [Hdn]; · iexact Hdn
    iexact Hlr
  icases Hd with ⟨Hi, Hl, Hy⟩
  ihave Hheld := (Entails.of_eq ((held_S10 (F := F) d (V1 m d)).trans (ten_V1 m d)).symm) $$ [Hx Hi Hl Hy H1 H2 H3 H4 H5 Hr]
  · isplitl [Hx]; · iexact Hx
    isplitl [Hi]; · iexact Hi
    isplitl [Hl]; · iexact Hl
    isplitl [Hy]; · iexact Hy
    isplitl [H1]; · iexact H1
    isplitl [H2]; · iexact H2
    isplitl [H3]; · iexact H3
    isplitl [H4]; · iexact H4
    isplitl [H5]; · iexact H5
    iexact Hr
  -- the transpose and the three reshapes
  iapply (wp_hlo_within 𝒱 (SparseCore.T d) none Set.univ (op := opT (F := F)) (S := S10) hT (V := V1 m d)) $$ [Hb Hheld]
  · isplitl [Hb]; · iexact Hb
    iexact Hheld
  iintro ⟨Hb, Hheld⟩
  rw [wp_ret]; imodintro
  iapply (wp_hlo_within 𝒱 (SparseCore.T d) none Set.univ (op := opR2 (F := F)) (S := S10) hR2 (V := (opT (F := F)).result (V1 m d))) $$ [Hb Hheld]
  · isplitl [Hb]; · iexact Hb
    iexact Hheld
  iintro ⟨Hb, Hheld⟩
  rw [wp_ret]; imodintro
  iapply (wp_hlo_within 𝒱 (SparseCore.T d) none Set.univ (op := opR3 (F := F)) (S := S10) hR3 (V := (opR2 (F := F)).result ((opT (F := F)).result (V1 m d)))) $$ [Hb Hheld]
  · isplitl [Hb]; · iexact Hb
    iexact Hheld
  iintro ⟨Hb, Hheld⟩
  rw [wp_ret]; imodintro
  iapply (wp_hlo_within 𝒱 (SparseCore.T d) none Set.univ (op := opR4 (F := F)) (S := S10) hR4 (V := (opR3 (F := F)).result ((opR2 (F := F)).result ((opT (F := F)).result (V1 m d))))) $$ [Hb Hheld]
  · isplitl [Hb]; · iexact Hb
    iexact Hheld
  iintro ⟨Hb, Hheld⟩
  rw [wp_ret]; imodintro
  have hE : (held (T d) S10 ((opR4 (F := F)).result ((opR3 (F := F)).result ((opR2 (F := F)).result ((opT (F := F)).result (V1 m d))))) : sProp 𝕄)
      = unscopedBufs d (Vc m d) := held_VR m d
  ihave Hub := (Entails.of_eq hE) $$ Hheld
  -- the core's owes out of its handshake state, for the region
  unfold SparseCore.Cfg.tcSt
  icases Hst with ⟨⟨%W, %hW, HO⟩, Hrest⟩
  rw [show ((0 : Fin 1).val + 1) = 1 from rfl, Otc_one]
  have hW8 : (K (F := F)).WBelow (SparseCore.T d) W 8 := hW
  ihave Hlev := (SparseCore.Cfg.ctx_levAts κ) $$ Hctx
  unfold G
  icases HG with ⟨Hcg, Hti⟩
  -- the region: its one custom call, lifted from the pipeline's own labels
  iapply ((K (F := F)).wp_liftProg (D (F := F)) 𝒱 (SparseCore.T d) Set.univ none (Prog.lift (.customCall (Pipeline.entry 0) ())) _)
  ihave Hpre := (Entails.of_eq (reg_pre m d).symm) $$ [Hub HO]
  · isplitl [Hub]; · iexact Hub
    unfold OW; iexists W; isplitr; · ipureintro; exact hW8
    iexact HO
  iapply ((reg m).wp (pcfgs (F := F)) adm (pdats m) ι₀ cellOf_inj EP defs₀ 𝒱₀ (K (F := F)).L (K (F := F)).lev d none (fun u h => nomatch h) (fun x => Prog.ret x) _) $$ [Hb Hpre Hlev Hcg Hti Hrest]
  isplitr [Hb Hpre Hlev Hcg Hti]
  swap
  · isplitl [Hb]; · iexact Hb
    isplitl [Hpre]; · iexact Hpre
    isplitl [Hlev]; · iexact Hlev
    isplitl [Hcg]; · iexact Hcg
    iexact Hti
  iintro ⟨Hb, Hpost⟩
  ihave Hp := (Entails.of_eq (reg_post m d)) $$ Hpost
  icases Hp with ⟨Hheld, HOW⟩
  rw [wp_ret]; imodintro
  -- the last reshape
  iapply (wp_hlo_within 𝒱 (SparseCore.T d) none Set.univ (op := opR6 (F := F)) (S := S10) hR6 (V := VX m d)) $$ [Hb Hheld]
  · isplitl [Hb]; · iexact Hb
    iexact Hheld
  iintro ⟨Hb, Hheld⟩
  rw [wp_ret]; imodintro; imodintro
  isplitl [HOW Hrest]
  · isplitl [HOW]
    · unfold OW; iexact HOW
    iexact Hrest
  iexact Hheld

/-! ## The split of a SparseCore's operands among its tasks -/

/-- A SparseCore's operands ARE its sixteen tasks' operands, its results their results. -/
theorem vecSplit : (K (F := F)).VecSplit' (P m) 0 := by
  intro d c
  show (bigSep Finset.univ fun s : Fin 16 => goRes m d (wOf (Fin.cast nCore_zero c) s))
    ⊢ |={Set.univ}=> iprop((bigSep Finset.univ fun s : Fin 16 => goRes m d (wOf (Fin.cast nCore_zero c) s))
      ∗ ((bigSep Finset.univ fun s : Fin 16 => tdRes m d (wOf (Fin.cast nCore_zero c) s))
          -∗ bigSep Finset.univ fun s : Fin 16 => tdRes m d (wOf (Fin.cast nCore_zero c) s)))
  iintro H; imodintro
  isplitl [H]; · iexact H
  iintro H; iexact H

/-! ## Reading the claim off the final state -/

/-- What a final state holds on device `d`: the result scalar and the three arguments at their final contents. -/
def fq (d : Dev nD) (s' : Phys nD τ sig (Elt F)) : Prop :=
  s'.mem.mem ((SparseCore.T d).loc main_v6) = VF m d r' ∧ s'.mem.mem (xLoc d) = VF m d x'
    ∧ s'.mem.mem (iLoc d) = VF m d i' ∧ s'.mem.mem (lLoc d) = VF m d l'

theorem hfin (d : Dev nD) (s' : Phys nD τ sig (Elt F)) : iprop(FIN m d ∗ SI s') ⊢ (⌜fq m d s'⌝ : sProp 𝕄) := by
  unfold FIN; rw [held_S10]; unfold ten; dsimp only
  iintro ⟨⟨Hx, Hi, Hl, -, -, -, -, -, -, Hr⟩, HSI⟩
  ihave H := (persistent_entails_right (SI_pointsTo_agree (st := s') (ℓ := xLoc d) (I := Finset.univ) (q := fullShare) (f := VF m d x'))) $$ [HSI Hx]
  · isplitl [HSI] <;> iassumption
  icases H with ⟨%h1, HSI, -⟩
  ihave H := (persistent_entails_right (SI_pointsTo_agree (st := s') (ℓ := iLoc d) (I := Finset.univ) (q := fullShare) (f := VF m d i'))) $$ [HSI Hi]
  · isplitl [HSI] <;> iassumption
  icases H with ⟨%h2, HSI, -⟩
  ihave H := (persistent_entails_right (SI_pointsTo_agree (st := s') (ℓ := lLoc d) (I := Finset.univ) (q := fullShare) (f := VF m d l'))) $$ [HSI Hl]
  · isplitl [HSI] <;> iassumption
  icases H with ⟨%h3, HSI, -⟩
  ihave H := (SI_pointsTo_agree (st := s') (ℓ := (SparseCore.T d).loc main_v6) (I := Finset.univ) (q := fullShare) (f := VF m d r')) $$ [HSI Hr]
  · isplitl [HSI] <;> iassumption
  icases H with %h4
  ipureintro
  exact ⟨funext fun i => h4 i (Finset.mem_univ i), funext fun i => h1 i (Finset.mem_univ i), funext fun i => h2 i (Finset.mem_univ i),
    funext fun i => h3 i (Finset.mem_univ i)⟩

/-! ## The program's run -/

/-- Every final state: the result scalar and the three arguments at the contents @main's proof computes. -/
def QC : PUnit × MemSt nD τ sig (Elt F) → Prop := fun r => ∀ c : Dev nD,
  r.2.mem ((SparseCore.T c).loc main_v6) = VF m c r' ∧ r.2.mem (xLoc c) = VF m c x' ∧ r.2.mem (iLoc c) = VF m c i' ∧ r.2.mem (lLoc c) = VF m c l'

/-- From any memory whose index words name columns, with every semaphore at zero: every weakly fair execution of the
    device's thirty-five threads terminates, nothing faulting, and every final state is as `QC` says. -/
theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hpre)
    (fun q _ => match q with | 0 => SparseCore.Cfg.VecSplit.of_plain (vecSplit m))
    m ρ main (fun d => G (F := F) d) (FIN m) (u₀ (F := F)) (sep_elim_left.trans (hu₀ m)) (hmain m ρ) (fq m) (hfin m) (QC m) (fun _ h => h)

end Cert.Proof.KB

end
-- ==== Proof.KB.LaunchValue.lean ====
/-
  The TensorCore's arrays through @main, read at an index.

  Before the region @main lays its arguments out for the pipeline: the scores transposed, so that entry (j, i) of
  the new array is the score of row i in column j; the labels as a column and the gathered labels and the indices
  as rows, each entry the vector's entry with the unit coordinate dropped. None of these operations, nor the
  region, nor the last reshape writes an argument. The region's one-word result array is written back once, at the
  last grid point, as a single block that is the whole array, so after the region it holds the word formed from
  the two accumulators; the last reshape reads that word as a scalar.
-/
import proofs.«211976_g36739150250640_fold_wed_m_914_8_alg».proof.Proof.KB.LaunchDefs
import Idealize.ShloMosaic.Lib.ValueLayout
import Idealize.ShloMosaic.Lib.Pipeline.Value

noncomputable section

namespace Cert.Proof.KB

open Cert.Kernel Cert.Kernel.Gen

open Idealize.ShloMosaic Idealize.ShloMosaic.TcCoe Idealize.ShloMosaic.Tactic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Pipeline (Dat BodyObligation cellOf)

variable {F : FTy → Type} [FloatOps F]

variable (m : (ℓ : Loc nD τ sig) → Buf (Elt F) ℓ)

/-- Reads a layout operation's result: at its own result buffer its function's value at the operand's contents, at
    any other buffer what was there (the two buffers told apart as references). -/
macro "hlo_results" : tactic =>
  `(tactic| repeat (first
      | rw [StableHlo.unary_result] | rw [StableHlo.reshape_result]
      | (rw [StableHlo.unary_result_ne]; rotate_left; decide)
      | (rw [StableHlo.reshape_result_ne]; rotate_left; decide)))

/-! ## The contents after the SparseCore call -/

/-- Every array but the gathered labels is as at launch. -/
theorem V1_of_ne (d : Dev nD) {b : Ref sig .tc} (h : b ≠ main_v0) : V1 m d (Proc.devRef .tc b) = m (d, Proc.devRef .tc b) := by
  unfold V1 V0
  exact Function.update_of_ne (StableHlo.devRef_ne_of_ne h) _ _

/-- The gathered labels are in place. -/
theorem V1_y (d : Dev nD) : V1 m d y' = gathered m d := by
  unfold V1
  exact Function.update_self _ _ _

/-- A vector recast as a column reads its entry, whatever the unit coordinate. -/
theorem col_cast_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-! ## The four arrays the region reads -/

/-- The scores transposed: entry (j, i) is the score of row i in column j. -/
theorem Vc_v1 (d : Dev nD) (j : Fin 100000) (i : Fin 1024) :
    Vc m d main_v1 (ValueIdx.ix2 j i) = m (xLoc d) (ValueIdx.ix2 i j) := by
  unfold Vc VR
  hlo_results
  rw [V1_of_ne m d (by decide)]
  exact transpose_ix2_apply (a := 1024) (b := 100000) _ _ j i

/-- The labels as a column. -/
theorem Vc_v2 (d : Dev nD) (j : Fin 100000) :
    Vc m d main_v2 (ValueIdx.ix2 j (0 : Fin 1)) = m (lLoc d) (ValueIdx.ix1 j) := by
  unfold Vc VR
  hlo_results
  rw [V1_of_ne m d (by decide)]
  exact col_cast_apply (a := 100000) _ _ j 0

/-- The gathered labels as a row. -/
theorem Vc_v3 (d : Dev nD) (i : Fin 1024) :
    Vc m d main_v3 (ValueIdx.ix2 (0 : Fin 1) i) = gathered m d (ValueIdx.ix1 i) := by
  unfold Vc VR
  hlo_results
  rw [V1_y]
  exact shapeCast_a_1a_apply (a := 1024) _ _ 0 i

/-- The indices as a row. -/
theorem Vc_v4 (d : Dev nD) (i : Fin 1024) :
    Vc m d main_v4 (ValueIdx.ix2 (0 : Fin 1) i) = m (iLoc d) (ValueIdx.ix1 i) := by
  unfold Vc VR
  hlo_results
  rw [V1_of_ne m d (by decide)]
  exact shapeCast_a_1a_apply (a := 1024) _ _ 0 i

/-! ## The arguments at the end -/

/-- An array that neither the layout operations, nor the region, nor the last reshape writes, and that is not the
    gathered labels, ends as at launch. -/
theorem VF_of_arg (d : Dev nD) {b : Ref sig .tc} (h1 : b ≠ main_v1) (h2 : b ≠ main_v2) (h3 : b ≠ main_v3) (h4 : b ≠ main_v4)
    (h5 : b ≠ main_v5) (h6 : b ≠ main_v6) (h0 : b ≠ main_v0) : VF m d (Proc.devRef .tc b) = m (d, Proc.devRef .tc b) := by
  unfold VF VX
  rw [StableHlo.reshape_result_ne _ _ _ _ _ _ _ h6]
  refine (Function.update_of_ne (StableHlo.devRef_ne_of_ne h5) _ _).trans ?_
  unfold VR
  rw [StableHlo.reshape_result_ne _ _ _ _ _ _ _ h4, StableHlo.reshape_result_ne _ _ _ _ _ _ _ h3,
    StableHlo.reshape_result_ne _ _ _ _ _ _ _ h2, StableHlo.unary_result_ne _ _ _ _ _ _ h1]
  exact V1_of_ne m d h0

theorem VF_x (d : Dev nD) : VF m d x' = m (xLoc d) :=
  VF_of_arg m d (by decide) (by decide) (by decide) (by decide) (by decide) (by decide) (by decide)
theorem VF_i (d : Dev nD) : VF m d i' = m (iLoc d) :=
  VF_of_arg m d (by decide) (by decide) (by decide) (by decide) (by decide) (by decide) (by decide)
theorem VF_l (d : Dev nD) : VF m d l' = m (lLoc d) :=
  VF_of_arg m d (by decide) (by decide) (by decide) (by decide) (by decide) (by decide) (by decide)

/-! ## The result word -/

/-- The last grid point, the one that writes the result back. -/
abbrev tLast : Fin cfg1.N := ⟨49, h49⟩

/-- The result window's block index is (0, 0) at every point: its offsets are zero. -/
theorem out_off (t : Fin cfg1.N) : (fun a => win1_4.index t a * main_v5.ty.shape.size a) = fun _ => 0 :=
  funext fun a => by fin_cases a <;> rfl

/-- A point that writes the result back is the last one. -/
theorem eq_tLast (t : Fin cfg1.N) (hf : (cfg1.win 4).flush t = true) : t = tLast := by
  have h := (flush1_4 t).mp hf
  have hlt : t.val < 50 := t.isLt
  exact Fin.ext (by show t.val = 49; omega)

/-- The one write-back writes the word formed from the accumulators: the window's one block, read through zero
    offsets, is the whole one-word array. -/
theorem flushed_out (d : Dev nD) (t : Fin cfg1.N) (hf : (cfg1.win 4).flush t = true) :
    (dat d (Vc m d)).flushed 4 t = ((cfg1.win 4).blk t).view.read (Elt F) (outWord d (Vc m d)) := by
  obtain rfl := eq_tLast t hf
  show (cfg1.win 4).cut (grid1.coords tLast) ((dat d (Vc m d)).after 4 tLast) = _
  rw [after1_4]
  exact (Memref.read_access_unit_zero (Elt F) main_v5 (out_off tLast) (fun a => by rw [congrFun (out_off tLast) a]; simp)
    (outWord d (Vc m d))).symm

/-- THE RESULT ARRAY AFTER THE REGION holds the word formed from the two accumulators after the last point. -/
theorem arrAt_out (d : Dev nD) : (pdats m 0 d).arrAt 4 cfg1.N = outWord d (Vc m d) :=
  (dat d (Vc m d)).arrAt_eq_of_cover 4 (outWord d (Vc m d)) (flushed_out m d) fun i =>
    ⟨tLast, (flush1_4 tLast).mpr rfl, by
      show i ∈ ((View.whole main_v5).slice (win1_4.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win1_4.index tLast 0 * win1_4.size 0 ≤ (i 0 : Nat) ∧ (i 0 : Nat) < win1_4.index tLast 0 * win1_4.size 0 + win1_4.xsize (grid1.coords tLast) 0
        rw [show win1_4.index tLast 0 * win1_4.size 0 = 0 from rfl, show win1_4.xsize (grid1.coords tLast) 0 = 1 from rfl]; omega
      | ⟨1, _⟩ =>
        show win1_4.index tLast 1 * win1_4.size 1 ≤ (i 1 : Nat) ∧ (i 1 : Nat) < win1_4.index tLast 1 * win1_4.size 1 + win1_4.xsize (grid1.coords tLast) 1
        rw [show win1_4.index tLast 1 * win1_4.size 1 = 0 from rfl, show win1_4.xsize (grid1.coords tLast) 1 = 1 from rfl]; omega⟩

/-- The scalar shape's row-major position is zero. -/
theorem rowMajor_scalar (u : S_.Idx) : (S_.rowMajor u).val = 0 := by
  have h := (S_.rowMajor u).isLt
  have hn : S_.numel = 1 := rfl
  omega

/-- THE RESULT AT THE END: the word of the one-word array, as a scalar. -/
theorem VF_r (d : Dev nD) : VF m d r' = fun _ => outWord d (Vc m d) (ValueIdx.ix2 (0 : Fin 1) (0 : Fin 1)) := by
  unfold VF
  rw [StableHlo.reshape_result]
  funext u
  have hX : VX m d a5' = outWord d (Vc m d) := by
    unfold VX
    exact (Function.update_self _ _ _).trans (arrAt_out m d)
  show shapeCast S_ (VX m d a5') shapeCasts_S1x1_S_ u = _
  rw [hX]
  exact shapeCast_apply (s := S1x1) (t := S_) _ _ u (ValueIdx.ix2 (0 : Fin 1) (0 : Fin 1)) (by
    rw [Shape.rowMajor_val_two, rowMajor_scalar]
    rfl)

end Cert.Proof.KB

end
-- ==== Proof.RefOut.lean ====
/-
  The reference's result as a pure term of its three arguments, in named stages.

  Each stage is the composed term of the host operations that produce one intermediate value, spelt over
  the same operations the program applies: the target column of every row with negative entries wrapped,
  the label of that column (a clamped gather, masked where the column is out of range), the mask of the
  columns that carry that label, the exponentials with the target column's entry overwritten by zero,
  the two row sums, their quotient, and the masked logarithm summed, negated and divided by the batch size.
  Nothing here is evaluated: the stages are definitions that later modules read at an index.
-/
import proofs.«211976_g36739150250640_fold_wed_m_914_8_alg».proof.Proof.Gen.ReferenceIdeal
import Idealize.ShloMosaic.PureOps.Ideal

noncomputable section

namespace Cert.ReferenceIdeal.RefValue

open Cert.ReferenceIdeal Cert.ReferenceIdeal.Gen Idealize.ShloMosaic

/-- The target columns with a negative entry moved up by the row length 100000 (the wrap of a negative index). -/
def wrapIdx (idx : IVec S1024 32) : IVec S1024 32 :=
  select (cmpi .slt idx (broadcastInDim S1024 ![] bcast_S_S1024 (constantI S_ 32 0#32)))
    (addi idx (broadcastInDim S1024 ![] bcast_S_S1024 (constantI S_ 32 100000#32))) idx

/-- The wrapped target columns as a column of start indices, one per row. -/
def startCol (idx : IVec S1024 32) : IVec S1024x1 32 :=
  broadcastInDim S1024x1 ![0] bcast_S1024_S1024x1_0 (wrapIdx idx)

/-- Per row: is the start index within 0 … 99999 (read signed)? -/
def inRange (idx : IVec S1024 32) : IVec S1024 1 :=
  Host.reduce IntOp.andi
    (andi (cmpi .sge (startCol idx) (broadcastInDim S1024x1 ![] bcast_S_S1024x1 (constantI S_ 32 0#32)))
      (cmpi .sle (startCol idx)
        (broadcastInDim S1024x1 ![0, 1] bcast_S1x1_S1024x1_0_1
          (broadcastInDim S1x1 ![1] bcast_S1_S1x1_1 (constantI S1 32 99999#32)))))
    (constantI S_ 1 1#1) reducesTo_S1024x1_S1024_d1 h_S_

/-- The label of every row's target column: the labels gathered at the start indices, the least 32-bit
    integer where the start index is out of range. -/
def rowLabel (idx : IVec S1024 32) (lab : IVec S100000 32) : IVec S1024 32 :=
  select (inRange idx) (Host.gather gather_S100000_S1024x1_S1024_n_0_n_n_0_1_1 lab (startCol idx))
    (broadcastInDim S1024 ![] bcast_S_S1024 (constantI S_ 32 2147483648#32))

/-- Entry (i, j): does column j carry row i's label? -/
def sameLabel (idx : IVec S1024 32) (lab : IVec S100000 32) : IVec S1024x100000 1 :=
  cmpi .eq
    (broadcastInDim S1024x100000 ![0, 1] bcast_S1024x1_S1024x100000_0_1
      (shapeCast S1024x1 (rowLabel idx lab) shapeCasts_S1024_S1024x1))
    (broadcastInDim S1024x100000 ![0, 1] bcast_S1x100000_S1024x100000_0_1
      (broadcastInDim S1x100000 ![1] bcast_S100000_S1x100000_1 lab))

/-- The row numbers 0 … 1023 with the same wrap of negatives (none is negative). -/
def rowIota : IVec S1024 32 :=
  select (cmpi .slt (iotaInDim S1024 32 0) (broadcastInDim S1024 ![] bcast_S_S1024 (constantI S_ 32 0#32)))
    (addi (iotaInDim S1024 32 0) (broadcastInDim S1024 ![] bcast_S_S1024 (constantI S_ 32 1024#32)))
    (iotaInDim S1024 32 0)

/-- The scatter's index pairs: row i holds (i, target column of i). -/
def pairIdx (idx : IVec S1024 32) : IVec S1024x2 32 :=
  concatenate S1024x2 1
    [⟨S1024x1, broadcastInDim S1024x1 ![0] bcast_S1024_S1024x1_0 rowIota⟩, ⟨S1024x1, startCol idx⟩]
    concatenates_S1024x1_S1024x1_S1024x2_d1

/-- The exponentials of the scores with every row's target entry overwritten by zero. -/
def expZeroed (x : FVec Ideal S1024x100000 .f32) (idx : IVec S1024 32) : FVec Ideal S1024x100000 .f32 :=
  Host.scatter scatter_S1024x100000_S1024x2_S1024_n_01_01_1 (fun _ b => b) (Host.exp x) (pairIdx idx)
    (broadcastInDim S1024 ![] bcast_S_S1024 (constant (F := Ideal) S_ .f32 0x00000000#32))

/-- Per row, the sum over the columns that carry the row's label. -/
def sumSame (x : FVec Ideal S1024x100000 .f32) (idx : IVec S1024 32) (lab : IVec S100000 32) : FVec Ideal S1024 .f32 :=
  Host.reduceAdd (mulf (expZeroed x idx) (uitofp .f32 (sameLabel idx lab)))
    (constant (F := Ideal) S_ .f32 0x00000000#32) reducesTo_S1024x100000_S1024_d1 h_S_

/-- Per row, the sum over all columns. -/
def sumAll (x : FVec Ideal S1024x100000 .f32) (idx : IVec S1024 32) : FVec Ideal S1024 .f32 :=
  Host.reduceAdd (expZeroed x idx) (constant (F := Ideal) S_ .f32 0x00000000#32) reducesTo_S1024x100000_S1024_d1 h_S_

/-- The same-label sum divided by one. -/
def sumSame1 (x : FVec Ideal S1024x100000 .f32) (idx : IVec S1024 32) (lab : IVec S100000 32) : FVec Ideal S1024 .f32 :=
  Host.divf (sumSame x idx lab)
    (broadcastInDim S1024 ![] bcast_S_S1024 (constant (F := Ideal) S_ .f32 0x3F800000#32))

/-- Per row, the quotient of the same-label sum by (all − same) + same. -/
def quotient (x : FVec Ideal S1024x100000 .f32) (idx : IVec S1024 32) (lab : IVec S100000 32) : FVec Ideal S1024 .f32 :=
  Host.divf (sumSame1 x idx lab) (addf (subf (sumAll x idx) (sumSame x idx lab)) (sumSame1 x idx lab))

/-- Per row: is the quotient different from zero? -/
def nonZero (x : FVec Ideal S1024x100000 .f32) (idx : IVec S1024 32) (lab : IVec S100000 32) : IVec S1024 1 :=
  cmpf .une (quotient x idx lab)
    (broadcastInDim S1024 ![] bcast_S_S1024 (constant (F := Ideal) S_ .f32 0x00000000#32))

/-- Per row: the logarithm of the quotient where it is not zero (of one elsewhere), and zero elsewhere. -/
def rowLog (x : FVec Ideal S1024x100000 .f32) (idx : IVec S1024 32) (lab : IVec S100000 32) : FVec Ideal S1024 .f32 :=
  select (nonZero x idx lab)
    (Host.log (select (nonZero x idx lab) (quotient x idx lab)
      (broadcastInDim S1024 ![] bcast_S_S1024 (constant (F := Ideal) S_ .f32 0x3F800000#32))))
    (broadcastInDim S1024 ![] bcast_S_S1024 (constant (F := Ideal) S_ .f32 0x00000000#32))

/-- The reference's result: minus the sum of the rows' logarithms, divided by the word of 1024.0. -/
def refOut (x : FVec Ideal S1024x100000 .f32) (idx : IVec S1024 32) (lab : IVec S100000 32) : FVec Ideal S_ .f32 :=
  Host.divf
    (Host.negf (Host.reduceAdd (rowLog x idx lab) (constant (F := Ideal) S_ .f32 0x00000000#32) reducesTo_S1024_S_d0 h_S_))
    (constant (F := Ideal) S_ .f32 0x44800000#32)

end Cert.ReferenceIdeal.RefValue

end
-- ==== Proof.RefRun.lean ====
/-
  The reference program's run, written out.

  @main is a straight line of host operations once its three module-local functions are unfolded at their
  calls: the gather of the labels at the target columns (twenty-two operations, one of them a nested
  select of its own), and the two masked selects around the logarithm (three operations each). The list
  below is that line, seventy-eight operations in program order; every weakly fair execution of it
  terminates with each buffer at the fold of the operations over the launch contents, and the fold read at
  the result buffer is the staged term `refOut` of the three arguments, which it leaves unchanged.
-/
import proofs.«211976_g36739150250640_fold_wed_m_914_8_alg».proof.Proof.RefOut
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem
  Idealize.ShloMosaic.StableHlo

variable {F : FTy → Type} [FloatOps F]

/-- The contents of a tensor value of shape `s` and element type `e`. -/
abbrev Cn (F : FTy → Type) (s : Shape) (e : EltTy) : Type := (⟨s, e⟩ : BufTy).Contents (Elt F)

/-- @main's seventy-eight operations in order, the calls unfolded: the exponential; the label gather's
    twenty-two (the wrap of negative columns with its nested select, the range mask, the gather, the
    masked select); the label comparison against every column; the row numbers and target columns paired
    and the setting scatter of zero; the masked product and the two row sums; the quotient and its test
    against zero; the first masked select (three), the logarithm, the second masked select (three); the
    sum over the rows, the negation and the division by the batch size. -/
abbrev ops : List (HloOp τ sig (Elt F)) :=
  [ unary main_arg0 main_v0 (Host.exp : Cn F S1024x100000 .f32 → Cn F S1024x100000 .f32),
    TRef.nullary main_call0.c (constantI S_ 32 0#32),
    TRef.unary main_call0.c main_call0.v0 (broadcastInDim S1024 ![] bcast_S_S1024),
    TRef.binary (.of main_arg1 : TRef sig ⟨S1024, .i32⟩) main_call0.v0 main_call0.v1 (cmpi .slt),
    TRef.nullary main_call0.c_0 (constantI S_ 32 100000#32),
    TRef.unary main_call0.c_0 main_call0.v2 (broadcastInDim S1024 ![] bcast_S_S1024),
    TRef.binary (.of main_arg1 : TRef sig ⟨S1024, .i32⟩) main_call0.v2 main_call0.v3 addi,
    TRef.ternary main_call0.v1 main_call0.v3 (.of main_arg1 : TRef sig ⟨S1024, .i32⟩) main_call0.call0.v0 select,
    TRef.unary main_call0.call0.v0 main_call0.v5 (broadcastInDim S1024x1 ![0] bcast_S1024_S1024x1_0),
    TRef.nullary main_call0.c_1 (constantI S1 32 99999#32),
    TRef.nullary main_call0.c_2 (constantI S_ 32 0#32),
    TRef.unary main_call0.c_2 main_call0.v6 (broadcastInDim S1024x1 ![] bcast_S_S1024x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S1024x1 ![0, 1] bcast_S1x1_S1024x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1024x1_S1024_d1 h_S_),
    TRef.binary (.of main_arg2 : TRef sig ⟨S100000, .i32⟩) main_call0.v5 main_call0.v13 (fun x i => Host.gather gather_S100000_S1024x1_S1024_n_0_n_n_0_1_1 x i),
    TRef.nullary main_call0.c_4 (constantI S_ 32 2147483648#32),
    TRef.unary main_call0.c_4 main_call0.v14 (broadcastInDim S1024 ![] bcast_S_S1024),
    TRef.ternary main_call0.v12 main_call0.v13 main_call0.v14 main_call0.v15 select,
    reshape main_v1 main_v2 rfl shapeCasts_S1024_S1024x1,
    unary main_arg2 main_v3 (broadcastInDim S1x100000 ![1] bcast_S100000_S1x100000_1 : Cn F S100000 .i32 → Cn F S1x100000 .i32),
    unary main_v2 main_v4 (broadcastInDim S1024x100000 ![0, 1] bcast_S1024x1_S1024x100000_0_1 : Cn F S1024x1 .i32 → Cn F S1024x100000 .i32),
    unary main_v3 main_v5 (broadcastInDim S1024x100000 ![0, 1] bcast_S1x100000_S1024x100000_0_1 : Cn F S1x100000 .i32 → Cn F S1024x100000 .i32),
    binary main_v4 main_v5 main_v6 (cmpi .eq : Cn F S1024x100000 .i32 → Cn F S1024x100000 .i32 → Cn F S1024x100000 .i1),
    nullary main_v7 (iotaInDim S1024 32 0),
    nullary main_c (constantI S_ 32 0#32),
    unary main_c main_v8 (broadcastInDim S1024 ![] bcast_S_S1024 : Cn F S_ .i32 → Cn F S1024 .i32),
    binary main_v7 main_v8 main_v9 (cmpi .slt : Cn F S1024 .i32 → Cn F S1024 .i32 → Cn F S1024 .i1),
    nullary main_c_0 (constantI S_ 32 1024#32),
    unary main_c_0 main_v10 (broadcastInDim S1024 ![] bcast_S_S1024 : Cn F S_ .i32 → Cn F S1024 .i32),
    binary main_v7 main_v10 main_v11 (addi : Cn F S1024 .i32 → Cn F S1024 .i32 → Cn F S1024 .i32),
    ternary main_v9 main_v11 main_v7 main_v12 (select : Cn F S1024 .i1 → Cn F S1024 .i32 → Cn F S1024 .i32 → Cn F S1024 .i32),
    nullary main_c_1 (constantI S_ 32 0#32),
    unary main_c_1 main_v13 (broadcastInDim S1024 ![] bcast_S_S1024 : Cn F S_ .i32 → Cn F S1024 .i32),
    binary main_arg1 main_v13 main_v14 (cmpi .slt : Cn F S1024 .i32 → Cn F S1024 .i32 → Cn F S1024 .i1),
    nullary main_c_2 (constantI S_ 32 100000#32),
    unary main_c_2 main_v15 (broadcastInDim S1024 ![] bcast_S_S1024 : Cn F S_ .i32 → Cn F S1024 .i32),
    binary main_arg1 main_v15 main_v16 (addi : Cn F S1024 .i32 → Cn F S1024 .i32 → Cn F S1024 .i32),
    ternary main_v14 main_v16 main_arg1 main_v17 (select : Cn F S1024 .i1 → Cn F S1024 .i32 → Cn F S1024 .i32 → Cn F S1024 .i32),
    unary main_v12 main_v18 (broadcastInDim S1024x1 ![0] bcast_S1024_S1024x1_0 : Cn F S1024 .i32 → Cn F S1024x1 .i32),
    unary main_v17 main_v19 (broadcastInDim S1024x1 ![0] bcast_S1024_S1024x1_0 : Cn F S1024 .i32 → Cn F S1024x1 .i32),
    binary main_v18 main_v19 main_v20 ((fun a b => concatenate S1024x2 1 [⟨S1024x1, a⟩, ⟨S1024x1, b⟩] concatenates_S1024x1_S1024x1_S1024x2_d1) : Cn F S1024x1 .i32 → Cn F S1024x1 .i32 → Cn F S1024x2 .i32),
    nullary main_cst (constant S_ .f32 0x00000000#32),
    unary main_cst main_v21 (broadcastInDim S1024 ![] bcast_S_S1024 : Cn F S_ .f32 → Cn F S1024 .f32),
    ternary main_v0 main_v20 main_v21 main_v22 ((fun x i u => Host.scatter scatter_S1024x100000_S1024x2_S1024_n_01_01_1 (fun _ b => b) x i u) : Cn F S1024x100000 .f32 → Cn F S1024x2 .i32 → Cn F S1024 .f32 → Cn F S1024x100000 .f32),
    unary main_v6 main_v23 (uitofp .f32 : Cn F S1024x100000 .i1 → Cn F S1024x100000 .f32),
    binary main_v22 main_v23 main_v24 (mulf : Cn F S1024x100000 .f32 → Cn F S1024x100000 .f32 → Cn F S1024x100000 .f32),
    nullary main_cst_3 (constant S_ .f32 0x00000000#32),
    binary main_v24 main_cst_3 main_v25 ((fun x v => Host.reduceAdd x v reducesTo_S1024x100000_S1024_d1 h_S_) : Cn F S1024x100000 .f32 → Cn F S_ .f32 → Cn F S1024 .f32),
    nullary main_cst_4 (constant S_ .f32 0x00000000#32),
    binary main_v22 main_cst_4 main_v26 ((fun x v => Host.reduceAdd x v reducesTo_S1024x100000_S1024_d1 h_S_) : Cn F S1024x100000 .f32 → Cn F S_ .f32 → Cn F S1024 .f32),
    binary main_v26 main_v25 main_v27 (subf : Cn F S1024 .f32 → Cn F S1024 .f32 → Cn F S1024 .f32),
    nullary main_cst_5 (constant S_ .f32 0x3F800000#32),
    unary main_cst_5 main_v28 (broadcastInDim S1024 ![] bcast_S_S1024 : Cn F S_ .f32 → Cn F S1024 .f32),
    binary main_v25 main_v28 main_v29 (Host.divf : Cn F S1024 .f32 → Cn F S1024 .f32 → Cn F S1024 .f32),
    binary main_v27 main_v29 main_v30 (addf : Cn F S1024 .f32 → Cn F S1024 .f32 → Cn F S1024 .f32),
    binary main_v29 main_v30 main_v31 (Host.divf : Cn F S1024 .f32 → Cn F S1024 .f32 → Cn F S1024 .f32),
    nullary main_cst_6 (constant S_ .f32 0x00000000#32),
    unary main_cst_6 main_v32 (broadcastInDim S1024 ![] bcast_S_S1024 : Cn F S_ .f32 → Cn F S1024 .f32),
    binary main_v31 main_v32 main_v33 (cmpf .une : Cn F S1024 .f32 → Cn F S1024 .f32 → Cn F S1024 .i1),
    nullary main_cst_7 (constant S_ .f32 0x3F800000#32),
    TRef.unary (.of main_cst_7 : TRef sig ⟨S_, .f32⟩) main_call1.v0 id,
    TRef.unary main_call1.v0 main_call1.v1 (broadcastInDim S1024 ![] bcast_S_S1024),
    TRef.ternary (.of main_v33 : TRef sig ⟨S1024, .i1⟩) (.of main_v31 : TRef sig ⟨S1024, .f32⟩) main_call1.v1 main_call1.v2 select,
    unary main_v34 main_v35 (Host.log : Cn F S1024 .f32 → Cn F S1024 .f32),
    nullary main_cst_8 (constant S_ .f32 0x00000000#32),
    TRef.unary (.of main_cst_8 : TRef sig ⟨S_, .f32⟩) main_call2.v0 id,
    TRef.unary main_call2.v0 main_call2.v1 (broadcastInDim S1024 ![] bcast_S_S1024),
    TRef.ternary (.of main_v33 : TRef sig ⟨S1024, .i1⟩) (.of main_v35 : TRef sig ⟨S1024, .f32⟩) main_call2.v1 main_call2.v2 select,
    nullary main_cst_9 (constant S_ .f32 0x00000000#32),
    binary main_v36 main_cst_9 main_v37 ((fun x v => Host.reduceAdd x v reducesTo_S1024_S_d0 h_S_) : Cn F S1024 .f32 → Cn F S_ .f32 → Cn F S_ .f32),
    unary main_v37 main_v38 (Host.negf : Cn F S_ .f32 → Cn F S_ .f32),
    nullary main_cst_10 (constant S_ .f32 0x44800000#32),
    binary main_v38 main_cst_10 main_v39 (Host.divf : Cn F S_ .f32 → Cn F S_ .f32 → Cn F S_ .f32) ]

-- seventy-eight binds re-associated: the rewrite under the chain recurses once per statement
set_option maxRecDepth 8192 in
set_option maxHeartbeats 4000000 in
/-- @main is that straight line: the three functions' definitions unfolded at their calls and the records at
    their fields, both sides are one chain of steps once sequencing is re-associated. -/
theorem main_eq (c : Dev nD) : main (F := F) c = seq ops := by
  simp only [main, fn_take.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches TensorCore references only. -/
theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., nullary_bufs_sub .., unary_bufs_sub .., ternary_bufs_sub ..,
    reshape_bufs_sub .., unary_bufs_sub .., unary_bufs_sub .., unary_bufs_sub .., binary_bufs_sub ..,
    nullary_bufs_sub .., nullary_bufs_sub .., unary_bufs_sub .., binary_bufs_sub .., nullary_bufs_sub .., unary_bufs_sub ..,
    binary_bufs_sub .., ternary_bufs_sub .., nullary_bufs_sub .., unary_bufs_sub .., binary_bufs_sub .., nullary_bufs_sub ..,
    unary_bufs_sub .., binary_bufs_sub .., ternary_bufs_sub .., unary_bufs_sub .., unary_bufs_sub .., binary_bufs_sub ..,
    nullary_bufs_sub .., unary_bufs_sub .., ternary_bufs_sub .., unary_bufs_sub .., binary_bufs_sub .., nullary_bufs_sub ..,
    binary_bufs_sub .., nullary_bufs_sub .., binary_bufs_sub .., binary_bufs_sub .., nullary_bufs_sub .., unary_bufs_sub ..,
    binary_bufs_sub .., binary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., unary_bufs_sub .., ternary_bufs_sub .., nullary_bufs_sub .., binary_bufs_sub .., unary_bufs_sub ..,
    nullary_bufs_sub .., binary_bufs_sub ..⟩

/-- The fold of the line over the launch contents, at every TensorCore buffer. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

-- the fold's reading never looks inside these: kept folded, the comparison of the two spellings stays syntactic
attribute [local irreducible] Host.reduce Host.reduceAdd Host.gather Host.scatter concatenate in
set_option maxRecDepth 16384 in
set_option maxHeartbeats 32000000 in
/-- The fold read at the result buffer is the staged term of the three arguments: each operation's result at its
    own buffer is its function's value at its operands' contents, at any other buffer what was there; the typed
    references' casts are the identity at these literal references, and the stages unfold to the same text. -/
theorem out_eq (V : Valuation τ sig (Elt Ideal)) :
    after (ops (F := Ideal)) V (main_v39 : DevRef τ sig)
      = refOut (V (main_arg0 : DevRef τ sig)) (V (main_arg1 : DevRef τ sig)) (V (main_arg2 : DevRef τ sig)) := by
  after_results_simp <;> rfl

set_option maxRecDepth 16384 in
set_option maxHeartbeats 32000000 in
/-- No operation writes the first argument. -/
theorem arg0_eq (V : Valuation τ sig (Elt Ideal)) :
    after (ops (F := Ideal)) V (main_arg0 : DevRef τ sig) = V (main_arg0 : DevRef τ sig) := by
  after_results_simp

set_option maxRecDepth 16384 in
set_option maxHeartbeats 32000000 in
/-- No operation writes the second argument. -/
theorem arg1_eq (V : Valuation τ sig (Elt Ideal)) :
    after (ops (F := Ideal)) V (main_arg1 : DevRef τ sig) = V (main_arg1 : DevRef τ sig) := by
  after_results_simp

set_option maxRecDepth 16384 in
set_option maxHeartbeats 32000000 in
/-- No operation writes the third argument. -/
theorem arg2_eq (V : Valuation τ sig (Elt Ideal)) :
    after (ops (F := Ideal)) V (main_arg2 : DevRef τ sig) = V (main_arg2 : DevRef τ sig) := by
  after_results_simp

/-- On every device, from any memory with zero counters: every weakly fair execution of the reference's @main
    terminates with its result at the staged term of the three arguments and the arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v39)
            = refOut (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
                (m ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
            = m ((c.tc : Thread Cert.ReferenceIdeal.nD Cert.ReferenceIdeal.τ).loc Cert.ReferenceIdeal.main_arg2)) :=
  (θ_run defs _ _).mono (fun _ h c =>
      ⟨(h c main_v39).trans (out_eq (launchContents m c)),
       (h c main_arg0).trans (arg0_eq (launchContents m c)),
       (h c main_arg1).trans (arg1_eq (launchContents m c)),
       (h c main_arg2).trans (arg2_eq (launchContents m c))⟩)
    (run_after m ρ)

end Cert.ReferenceIdeal.RefValue

end
-- ==== Proof.LibRowGather.lean ====
/-
  Row gather and row scatter read at an index.

  `x[src]` of a matrix `x : [N, D]` at an integer column `src : [E, 1]` is the matrix whose row `e` is row
  `src[e, 0]` of `x`, the start index read signed and clamped into `[0, N − 1]`; the same for a flat array `v : [N]`.
  A row scatter sends update element `(e, f)` to operand element `(idx[e, 0], f)` when that row exists.
-/
import Idealize.ShloMosaic.Lib.ValueIdx

noncomputable section

namespace Cert.Lib

open Idealize.ShloMosaic Idealize.ShloMosaic.ValueIdx

/-- A word read as a signed integer and clamped into `[0, N − 1]`: the row a gather reads. -/
def clampRow (N : Nat) (hN : 0 < N) {w : Nat} (b : BitVec w) : Fin N := ⟨min b.toInt.toNat (N - 1), by omega⟩

/-- The element `[e, 0]` of an index column `[E, 1]`. -/
abbrev edgeIdx {E : Nat} (e : Fin E) : (⟨2, ![E, 1]⟩ : Shape).Idx := ix2 e (⟨0, Nat.one_pos⟩ : Fin 1)

/-- A rank-1 index's coordinate is below the extent, written as `n` itself. -/
theorem idx1_lt0 {n : Nat} (j : (⟨1, ![n]⟩ : Shape).Idx) : (j 0).val < n := (j 0).isLt

section Gather
variable {α : Type}

/-- The dimension numbers of a row gather: operand `[N, D]`, start indices `[E, 1]`, result `[E, D]`. -/
abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- THE ROW GATHER READ AT `(e, f)`: the operand at row `idx[e, 0]` (signed, clamped) and column `f`. -/
theorem rowGather_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (j : (⟨2, ![E, D]⟩ : Shape).Idx) :
    Host.gather (rowGatherDims N E D wf) x idx j
      = x (ix2 (clampRow N hN (idx (edgeIdx ⟨(j 0).val, idx2_lt0 j⟩))) ⟨(j 1).val, idx2_lt1 j⟩) := by
  unfold Host.gather
  congr 1
  funext a
  refine Fin.ext ?_
  match a with
  | ⟨0, _⟩ =>
    show (rowGatherDims N E D wf).start j idx 0 + (rowGatherDims N E D wf).batchCoord j 0
      + (rowGatherDims N E D wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E D wf).startIndexMap from List.mem_singleton.mpr rfl)]
    have hsi : (rowGatherDims N E D wf).siIdx j ⟨List.idxOf (0 : Fin 2) (rowGatherDims N E D wf).startIndexMap,
        List.idxOf_lt_length_iff.2 (List.mem_singleton.mpr rfl)⟩ = edgeIdx ⟨(j 0).val, idx2_lt0 j⟩ := by
      funext b; refine Fin.ext ?_
      match b with
      | ⟨0, _⟩ => rfl
      | ⟨1, _⟩ => rfl
    rw [hsi]
    rfl
  | ⟨1, _⟩ =>
    show (rowGatherDims N E D wf).start j idx 1 + (rowGatherDims N E D wf).batchCoord j 1
      + (rowGatherDims N E D wf).offCoord j 1 = _
    rw [GatherDims.batchCoord_eq_zero _ _ _ List.not_mem_nil]
    have hs : (rowGatherDims N E D wf).start j idx 1 = 0 := by
      unfold GatherDims.start
      rw [dif_neg (show (1 : Fin 2) ∉ ([0] : List (Fin 2)) by decide)]
    rw [hs]
    simp only [Nat.add_zero, Nat.zero_add]
    unfold GatherDims.offCoord
    rw [dif_pos ((GatherDims.mem_sKept _ _).mpr ⟨(show (1 : Fin 2) ∉ ([0] : List (Fin 2)) by decide), List.not_mem_nil⟩)]
    rfl

/-- The same at an index given by its coordinates. -/
theorem rowGather_ix2 {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (f : Fin D) :
    Host.gather (rowGatherDims N E D wf) x idx (ix2 e f) = x (ix2 (clampRow N hN (idx (edgeIdx e))) f) :=
  rowGather_apply hN wf x idx (ix2 e f)

/-- The dimension numbers of an element gather: operand `[N]`, start indices `[E, 1]`, result `[E]`. -/
abbrev elemGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE ELEMENT GATHER READ AT `e`: the operand at `idx[e, 0]`, read signed and clamped. -/
theorem elemGather_apply {N E w : Nat} (hN : 0 < N)
    (wf : GatherDims.WF ⟨1, ![N]⟩ ⟨2, ![E, 1]⟩ ⟨1, ![E]⟩ [] [0] [] [0] [] 1 ![1])
    (v : (⟨1, ![N]⟩ : Shape).Idx → α) (idx : IVec ⟨2, ![E, 1]⟩ w) (e : (⟨1, ![E]⟩ : Shape).Idx) :
    Host.gather (elemGatherDims N E wf) v idx e
      = v (ix1 (clampRow N hN (idx (edgeIdx ⟨(e 0).val, idx1_lt0 e⟩)))) := by
  unfold Host.gather
  congr 1
  funext a
  obtain rfl : a = 0 := Subsingleton.elim _ _
  refine Fin.ext ?_
  show (elemGatherDims N E wf).start e idx 0 + (elemGatherDims N E wf).batchCoord e 0
    + (elemGatherDims N E wf).offCoord e 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (elemGatherDims N E wf).startIndexMap from List.mem_singleton.mpr rfl)]
  have hsi : (elemGatherDims N E wf).siIdx e ⟨List.idxOf (0 : Fin 1) (elemGatherDims N E wf).startIndexMap,
      List.idxOf_lt_length_iff.2 (List.mem_singleton.mpr rfl)⟩ = edgeIdx ⟨(e 0).val, idx1_lt0 e⟩ := by
    funext b; refine Fin.ext ?_
    match b with
    | ⟨0, _⟩ => rfl
    | ⟨1, _⟩ => rfl
  rw [hsi]
  rfl

/-- The same at an index given by its coordinate. -/
theorem elemGather_ix1 {N E w : Nat} (hN : 0 < N)
    (wf : GatherDims.WF ⟨1, ![N]⟩ ⟨2, ![E, 1]⟩ ⟨1, ![E]⟩ [] [0] [] [0] [] 1 ![1])
    (v : (⟨1, ![N]⟩ : Shape).Idx → α) (idx : IVec ⟨2, ![E, 1]⟩ w) (e : Fin E) :
    Host.gather (elemGatherDims N E wf) v idx (ix1 e) = v (ix1 (clampRow N hN (idx (edgeIdx e)))) :=
  elemGather_apply hN wf v idx (ix1 e)

end Gather

section Scatter

/-- The dimension numbers of a row scatter: operand `[N, D]`, scatter indices `[E, 1]`, updates `[E, D]`. -/
abbrev rowScatterDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable {N E D w : Nat} (wf : ScatterDims.WF ⟨2, ![N, D]⟩ ⟨2, ![E, 1]⟩ ⟨2, ![E, D]⟩ [1] [0] [0] 1)
  (idx : IVec ⟨2, ![E, 1]⟩ w) (j : (⟨2, ![E, D]⟩ : Shape).Idx)

/-- On the row axis the window starts at the scatter index `idx[e, 0]`, read signed … -/
theorem rowScatter_start0 :
    (rowScatterDims N E D wf).start j idx 0 = (idx (edgeIdx ⟨(j 0).val, idx2_lt0 j⟩)).toInt := by
  unfold ScatterDims.start
  rw [dif_pos (show (0 : Fin 2) ∈ (rowScatterDims N E D wf).scatterDimsToOperandDims from List.mem_singleton.mpr rfl)]
  have hsi : (rowScatterDims N E D wf).siIdx j ⟨List.idxOf (0 : Fin 2) (rowScatterDims N E D wf).scatterDimsToOperandDims,
      List.idxOf_lt_length_iff.2 (List.mem_singleton.mpr rfl)⟩ = edgeIdx ⟨(j 0).val, idx2_lt0 j⟩ := by
    funext b; refine Fin.ext ?_
    match b with
    | ⟨0, _⟩ => rfl
    | ⟨1, _⟩ => rfl
  rw [hsi]

/-- … and on the column axis at `0`. -/
theorem rowScatter_start1 : (rowScatterDims N E D wf).start j idx 1 = 0 := by
  unfold ScatterDims.start
  rw [dif_neg (show (1 : Fin 2) ∉ ([0] : List (Fin 2)) by decide)]

/-- The window has no extent on the row axis … -/
theorem rowScatter_window0 : (rowScatterDims N E D wf).window j 0 = 0 := by
  have h0 : (0 : Fin 2) ∉ (rowScatterDims N E D wf).sKept :=
    (show (0 : Fin 2) ∉ (List.finRange 2).filter (· ∉ ([0] : List (Fin 2))) by decide)
  unfold ScatterDims.window
  rw [dif_neg h0]

/-- … and on the column axis its coordinate is the update's column. -/
theorem rowScatter_window1 : (rowScatterDims N E D wf).window j 1 = (j 1).val := by
  have h1 : (1 : Fin 2) ∈ (rowScatterDims N E D wf).sKept :=
    (show (1 : Fin 2) ∈ (List.finRange 2).filter (· ∉ ([0] : List (Fin 2))) by decide)
  unfold ScatterDims.window
  rw [dif_pos h1]
  rfl

/-- WHERE A ROW SCATTER'S UPDATE LANDS: update element `(e, f)` lands at operand element `i` only if the scatter index
    `idx[e, 0]`, read signed, is `i`'s row, and `f` is `i`'s column. -/
theorem rowScatter_hit (i : (⟨2, ![N, D]⟩ : Shape).Idx)
    (h : (rowScatterDims N E D wf).resultIdx? j idx = some i) :
    (idx (edgeIdx ⟨(j 0).val, idx2_lt0 j⟩)).toInt = ((i 0).val : Int) ∧ (j 1).val = (i 1).val := by
  unfold ScatterDims.resultIdx? at h
  split at h
  · rename_i hb
    have hi := Option.some.inj h
    subst hi
    have h0 := hb 0
    rw [rowScatter_start0, rowScatter_window0] at h0
    constructor
    · show _ = ((((rowScatterDims N E D wf).start j idx 0 + (rowScatterDims N E D wf).window j 0).toNat : Nat) : Int)
      rw [rowScatter_start0, rowScatter_window0]
      omega
    · show (j 1).val = ((rowScatterDims N E D wf).start j idx 1 + (rowScatterDims N E D wf).window j 1).toNat
      rw [rowScatter_start1, rowScatter_window1]
      omega
  · exact absurd h (by simp)

end Scatter

section ScatterIff

variable {N E D w : Nat} (wf : ScatterDims.WF ⟨2, ![N, D]⟩ ⟨2, ![E, 1]⟩ ⟨2, ![E, D]⟩ [1] [0] [0] 1)
  (idx : IVec ⟨2, ![E, 1]⟩ w) (j : (⟨2, ![E, D]⟩ : Shape).Idx)

/-- … and exactly then: the updates that land at operand element `i` are the `(e, f)` with `idx[e, 0] = i`'s row
    (read signed) and `f = i`'s column. -/
theorem rowScatter_hit_iff (i : (⟨2, ![N, D]⟩ : Shape).Idx) :
    (rowScatterDims N E D wf).resultIdx? j idx = some i ↔
      (idx (edgeIdx ⟨(j 0).val, idx2_lt0 j⟩)).toInt = ((i 0).val : Int) ∧ (j 1).val = (i 1).val := by
  refine ⟨rowScatter_hit wf idx j i, fun ⟨h0, h1⟩ => ?_⟩
  have hi0 := idx2_lt0 i
  have hj1 := idx2_lt1 j
  have hb : ∀ a, 0 ≤ (rowScatterDims N E D wf).start j idx a + (rowScatterDims N E D wf).window j a ∧
      (rowScatterDims N E D wf).start j idx a + (rowScatterDims N E D wf).window j a
        < (⟨2, ![N, D]⟩ : Shape).size a := by
    intro a
    match a with
    | ⟨0, _⟩ =>
      show 0 ≤ (rowScatterDims N E D wf).start j idx 0 + (rowScatterDims N E D wf).window j 0 ∧
        (rowScatterDims N E D wf).start j idx 0 + (rowScatterDims N E D wf).window j 0 < (N : Int)
      rw [rowScatter_start0, rowScatter_window0, h0]
      omega
    | ⟨1, _⟩ =>
      show 0 ≤ (rowScatterDims N E D wf).start j idx 1 + (rowScatterDims N E D wf).window j 1 ∧
        (rowScatterDims N E D wf).start j idx 1 + (rowScatterDims N E D wf).window j 1 < (D : Int)
      rw [rowScatter_start1, rowScatter_window1]
      omega
  unfold ScatterDims.resultIdx?
  refine (dif_pos hb).trans ?_
  congr 1
  funext a
  refine Fin.ext ?_
  match a with
  | ⟨0, _⟩ =>
    show ((rowScatterDims N E D wf).start j idx 0 + (rowScatterDims N E D wf).window j 0).toNat = (i 0).val
    rw [rowScatter_start0, rowScatter_window0, h0]
    omega
  | ⟨1, _⟩ =>
    show ((rowScatterDims N E D wf).start j idx 1 + (rowScatterDims N E D wf).window j 1).toNat = (i 1).val
    rw [rowScatter_start1, rowScatter_window1, h1]
    omega

end ScatterIff

section ElemScatter

/-- The dimension numbers of an element scatter: operand `[N]`, scatter indices `[E, 1]`, updates `[E]`. -/
abbrev elemScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)
  (idx : IVec ⟨2, ![E, 1]⟩ w) (e : (⟨1, ![E]⟩ : Shape).Idx)

/-- The window starts at the scatter index `idx[e, 0]`, read signed … -/
theorem elemScatter_start0 :
    (elemScatterDims N E wf).start e idx 0 = (idx (edgeIdx ⟨(e 0).val, idx1_lt0 e⟩)).toInt := by
  unfold ScatterDims.start
  rw [dif_pos (show (0 : Fin 1) ∈ (elemScatterDims N E wf).scatterDimsToOperandDims from List.mem_singleton.mpr rfl)]
  have hsi : (elemScatterDims N E wf).siIdx e ⟨List.idxOf (0 : Fin 1) (elemScatterDims N E wf).scatterDimsToOperandDims,
      List.idxOf_lt_length_iff.2 (List.mem_singleton.mpr rfl)⟩ = edgeIdx ⟨(e 0).val, idx1_lt0 e⟩ := by
    funext b; refine Fin.ext ?_
    match b with
    | ⟨0, _⟩ => rfl
    | ⟨1, _⟩ => rfl
  rw [hsi]

/-- … and has no extent. -/
theorem elemScatter_window0 : (elemScatterDims N E wf).window e 0 = 0 := by
  have h0 : (0 : Fin 1) ∉ (elemScatterDims N E wf).sKept :=
    (show (0 : Fin 1) ∉ (List.finRange 1).filter (· ∉ ([0] : List (Fin 1))) by decide)
  unfold ScatterDims.window
  rw [dif_neg h0]

/-- WHERE AN ELEMENT SCATTER'S UPDATE LANDS: update `e` lands at operand element `i` exactly when the scatter index
    `idx[e, 0]`, read signed, is `i`. -/
theorem elemScatter_hit_iff (i : (⟨1, ![N]⟩ : Shape).Idx) :
    (elemScatterDims N E wf).resultIdx? e idx = some i ↔
      (idx (edgeIdx ⟨(e 0).val, idx1_lt0 e⟩)).toInt = ((i 0).val : Int) := by
  have hi0 := idx1_lt0 i
  constructor
  · intro h
    unfold ScatterDims.resultIdx? at h
    split at h
    · rename_i hb
      have hi := Option.some.inj h
      subst hi
      have h0 := hb 0
      rw [elemScatter_start0, elemScatter_window0] at h0
      show _ = ((((elemScatterDims N E wf).start e idx 0 + (elemScatterDims N E wf).window e 0).toNat : Nat) : Int)
      rw [elemScatter_start0, elemScatter_window0]
      omega
    · exact absurd h (by simp)
  · intro h0
    have hb : ∀ a, 0 ≤ (elemScatterDims N E wf).start e idx a + (elemScatterDims N E wf).window e a ∧
        (elemScatterDims N E wf).start e idx a + (elemScatterDims N E wf).window e a
          < (⟨1, ![N]⟩ : Shape).size a := by
      intro a
      obtain rfl : a = 0 := Subsingleton.elim _ _
      show 0 ≤ (elemScatterDims N E wf).start e idx 0 + (elemScatterDims N E wf).window e 0 ∧
        (elemScatterDims N E wf).start e idx 0 + (elemScatterDims N E wf).window e 0 < (N : Int)
      rw [elemScatter_start0, elemScatter_window0, h0]
      omega
    unfold ScatterDims.resultIdx?
    refine (dif_pos hb).trans ?_
    congr 1
    funext a
    obtain rfl : a = 0 := Subsingleton.elim _ _
    refine Fin.ext ?_
    show ((elemScatterDims N E wf).start e idx 0 + (elemScatterDims N E wf).window e 0).toNat = (i 0).val
    rw [elemScatter_start0, elemScatter_window0, h0]
    omega

end ElemScatter

section Words

/-- A word whose signed value is `k < N` clamps to row `k`. -/
theorem clampRow_of_toInt {N w : Nat} (hN : 0 < N) (b : BitVec w) (k : Nat) (hb : b.toInt = (k : Int)) (hk : k < N) :
    clampRow N hN b = ⟨k, hk⟩ := by
  refine Fin.ext ?_
  show min b.toInt.toNat (N - 1) = k
  rw [hb, Int.toNat_natCast]
  omega

/-- The index normalisation `if idx < 0 then idx + n else idx` on a word that is not negative: the word itself. -/
theorem normIdx_of_nonneg {w : Nat} (b n : BitVec w) (k : Nat) (hb : b.toInt = (k : Int)) :
    Scalar.select (IntOp.cmpi .slt b 0#w) (IntOp.addi b n) b = b := by
  have h : b.slt 0#w = false := by
    unfold BitVec.slt
    rw [hb, BitVec.toInt_zero]
    exact decide_eq_false (by omega)
  show Scalar.select (BitVec.ofBool (b.slt 0#w)) (IntOp.addi b n) b = b
  rw [h]
  exact select_zero _ _

/-- The same normalisation on a negative word: the word plus `n`. -/
theorem normIdx_of_neg {w : Nat} (b n : BitVec w) (hb : b.toInt < 0) :
    Scalar.select (IntOp.cmpi .slt b 0#w) (IntOp.addi b n) b = b + n := by
  have h : b.slt 0#w = true := by
    unfold BitVec.slt
    rw [BitVec.toInt_zero]
    exact decide_eq_true hb
  show Scalar.select (BitVec.ofBool (b.slt 0#w)) (b + n) b = b + n
  rw [h]
  exact select_one _ _

/-- The normalisation as the vector operations spell it, read at an index where the compared constant is `0` and the
    index word is not negative. -/
theorem normIdx_apply {s : Shape} {w : Nat} (idx zero n : IVec s w) (i : s.Idx) (k : Nat)
    (hz : zero i = 0#w) (hb : (idx i).toInt = (k : Int)) :
    select (cmpi .slt idx zero) (addi idx n) idx i = idx i := by
  show Scalar.select (IntOp.cmpi .slt (idx i) (zero i)) (IntOp.addi (idx i) (n i)) (idx i) = idx i
  rw [hz]
  exact normIdx_of_nonneg (idx i) (n i) k hb

end Words

section Column
variable {α : Type}

/-- A flat array `[E]` broadcast to a column `[E, 1]` and read at `[e, 0]`: the array at `e`. -/
theorem colBroadcast_apply {E : Nat}
    (h : (⟨1, ![E]⟩ : Shape).BroadcastsInDim ⟨2, ![E, 1]⟩ (![0] : Fin 1 → Fin 2))
    (x : (⟨1, ![E]⟩ : Shape).Idx → α) (e : Fin E) :
    broadcastInDim ⟨2, ![E, 1]⟩ ![0] h x (edgeIdx e) = x (ix1 e) := by
  unfold broadcastInDim
  beta_reduce
  congr 1
  funext a
  obtain rfl : a = 0 := Subsingleton.elim _ _
  refine Fin.ext ?_
  split
  · rename_i h1
    have hE : E = 1 := h1
    have := e.isLt
    show 0 = e.val
    omega
  · rfl

end Column

end Cert.Lib

end
-- ==== Proof.RefReadInt.lean ====
/-
  The reference's integer stages read at an index, when every target column is a column (0 ≤ idx < 100000).

  A target column below 100000 is not negative as a signed 32-bit word, so the wrap of negatives leaves it,
  the range test passes on every row, and the clamped gather reads the label at that very column: the row's
  label is the label of its target column. The label comparison at (i, j) then compares that label with
  column j's; the scatter's index pair of row i is (i, target column of i).
-/
import proofs.«211976_g36739150250640_fold_wed_m_914_8_alg».proof.Proof.RefOut
import proofs.«211976_g36739150250640_fold_wed_m_914_8_alg».proof.Proof.LibRowGather
import Idealize.ShloMosaic.Lib.Pipeline.Value
import Idealize.ShloMosaic.Lib.IdealHost

noncomputable section

namespace Cert.ReferenceIdeal.RefValue

open Cert.ReferenceIdeal Cert.ReferenceIdeal.Gen Idealize.ShloMosaic Idealize.ShloMosaic.ValueIdx

/-- A 32-bit word below 100000 reads the same signed as unsigned. -/
theorem toInt_of_small (b : BitVec 32) (h : b.toNat < 100000) : b.toInt = (b.toNat : Int) := by
  rw [BitVec.toInt_eq_toNat_cond]
  split
  · rfl
  · omega

/-- The word of a number below 100000 is that number. -/
theorem toNat_ofNat_small (n : Nat) (h : n < 100000) : (BitVec.ofNat 32 n).toNat = n := by
  rw [BitVec.toNat_ofNat]
  exact Nat.mod_eq_of_lt (by omega)

variable (idx : IVec S1024 32) (lab : IVec S100000 32)

/-- The wrap of negatives leaves a target column that is a column. -/
theorem wrapIdx_apply (i : Fin 1024) (h : (idx (ix1 i)).toNat < 100000) : wrapIdx idx (ix1 i) = idx (ix1 i) := by
  unfold wrapIdx
  exact Cert.Lib.normIdx_apply idx _ _ (ix1 i) (idx (ix1 i)).toNat rfl (toInt_of_small _ h)

/-- The start index of row i is its target column. -/
theorem startCol_apply (i : Fin 1024) (h : (idx (ix1 i)).toNat < 100000) :
    startCol idx (Cert.Lib.edgeIdx i) = idx (ix1 i) := by
  unfold startCol
  rw [Cert.Lib.colBroadcast_apply]
  exact wrapIdx_apply idx i h

/-- A fold of "and" from the bit one over bits that are all one is one. -/
theorem foldl_andi_one {ι : Type} (g : ι → BitVec 1) (hg : ∀ n, g n = 1#1) :
    ∀ L : List ι, L.foldl (fun r n => IntOp.andi r (g n)) 1#1 = 1#1
  | [] => rfl
  | n :: L => by
    rw [List.foldl_cons, hg n]
    have h1 : IntOp.andi (1#1 : BitVec 1) 1#1 = 1#1 := by decide
    rw [h1]
    exact foldl_andi_one g hg L

/-- A word below 100000 passes the two signed range tests. -/
theorem range_bits (b : BitVec 32) (h : b.toNat < 100000) :
    IntOp.andi (IntOp.cmpi .sge b 0#32) (IntOp.cmpi .sle b 99999#32) = 1#1 := by
  have hb := toInt_of_small b h
  have h1 : (0#32 : BitVec 32).sle b = true := by
    unfold BitVec.sle
    rw [hb, BitVec.toInt_zero]
    exact decide_eq_true (by omega)
  have h2 : b.sle 99999#32 = true := by
    unfold BitVec.sle
    rw [hb, toInt_of_small 99999#32 (by decide)]
    exact decide_eq_true (by
      have : (99999#32 : BitVec 32).toNat = 99999 := by decide
      omega)
  show IntOp.andi (BitVec.ofBool ((0#32 : BitVec 32).sle b)) (BitVec.ofBool (b.sle 99999#32)) = 1#1
  rw [h1, h2]
  decide

/-- Every row passes the range test. -/
theorem inRange_apply (hall : ∀ i : Fin 1024, (idx (ix1 i)).toNat < 100000) (i : Fin 1024) :
    inRange idx (ix1 i) = 1#1 := by
  unfold inRange Host.reduce
  refine foldl_andi_one _ (fun n => ?_) _
  generalize (S1024x1.rowMajor.symm n) = k
  obtain ⟨r, u, rfl⟩ : ∃ (r : Fin 1024) (u : Fin 1), k = ix2 r u := ⟨k 0, k 1, eq_ix2 k⟩
  obtain rfl : u = ⟨0, Nat.one_pos⟩ := Subsingleton.elim _ _
  show IntOp.andi (IntOp.cmpi .sge (startCol idx (Cert.Lib.edgeIdx r)) 0#32)
      (IntOp.cmpi .sle (startCol idx (Cert.Lib.edgeIdx r)) 99999#32) = 1#1
  rw [startCol_apply idx r (hall r)]
  exact range_bits _ (hall r)

/-- THE ROW'S LABEL is the label of its target column. -/
theorem rowLabel_apply (hall : ∀ i : Fin 1024, (idx (ix1 i)).toNat < 100000) (i : Fin 1024) :
    rowLabel idx lab (ix1 i) = lab (ix1 ⟨(idx (ix1 i)).toNat, hall i⟩) := by
  unfold rowLabel
  rw [select_apply, inRange_apply idx hall i, select_one]
  show Host.gather (Cert.Lib.elemGatherDims 100000 1024 gather_S100000_S1024x1_S1024_n_0_n_n_0_1_1_wf) lab (startCol idx) (ix1 i) = _
  rw [Cert.Lib.elemGather_ix1 (by decide), startCol_apply idx i (hall i),
    Cert.Lib.clampRow_of_toInt (by decide) _ _ (toInt_of_small _ (hall i)) (hall i)]

/-- A column [1024, 1] broadcast along the rows of [1024, 100000] reads its row's entry. -/
theorem bcastCol_apply {α : Type} (v : S1024x1.Idx → α) (i : Fin 1024) (j : Fin 100000) :
    broadcastInDim S1024x100000 ![0, 1] bcast_S1024x1_S1024x100000_0_1 v (ix2 i j) = v (Cert.Lib.edgeIdx i) := by
  refine broadcastInDim_apply _ _ v (ix2 i j) (Cert.Lib.edgeIdx i) fun a => ?_
  match a with
  | ⟨0, _⟩ => exact (if_neg (show ¬ ((1024 : Nat) = 1) by decide)).symm
  | ⟨1, _⟩ => exact (if_pos rfl).symm

/-- A row [1, 100000] broadcast along the columns of [1024, 100000] reads its column's entry. -/
theorem bcastRow_apply {α : Type} (v : S1x100000.Idx → α) (i : Fin 1024) (j : Fin 100000) :
    broadcastInDim S1024x100000 ![0, 1] bcast_S1x100000_S1024x100000_0_1 v (ix2 i j) = v (ix2 (0 : Fin 1) j) := by
  refine broadcastInDim_apply _ _ v (ix2 i j) (ix2 (0 : Fin 1) j) fun a => ?_
  match a with
  | ⟨0, _⟩ => exact (if_pos rfl).symm
  | ⟨1, _⟩ => exact (if_neg (show ¬ ((100000 : Nat) = 1) by decide)).symm

/-- A vector [100000] laid out as the row [1, 100000] reads its entry. -/
theorem rowOf_apply {α : Type} (v : S100000.Idx → α) (j : Fin 100000) :
    broadcastInDim S1x100000 ![1] bcast_S100000_S1x100000_1 v (ix2 (0 : Fin 1) j) = v (ix1 j) := by
  refine broadcastInDim_apply _ _ v (ix2 (0 : Fin 1) j) (ix1 j) fun a => ?_
  match a with
  | ⟨0, _⟩ => exact (if_neg (show ¬ ((100000 : Nat) = 1) by decide)).symm

/-- A vector [1024] recast as the column [1024, 1] reads its entry. -/
theorem colOf_apply {α : Type} (v : S1024.Idx → α) (i : Fin 1024) :
    shapeCast S1024x1 v shapeCasts_S1024_S1024x1 (Cert.Lib.edgeIdx i) = v (ix1 i) :=
  shapeCast_apply v _ _ _ (by
    rw [Shape.rowMajor_val_two, Shape.rowMajor_val_one]
    show i.val = i.val * 1 + 0
    omega)

/-- THE LABEL COMPARISON at (i, j): row i's label against column j's. -/
theorem sameLabel_apply (i : Fin 1024) (j : Fin 100000) :
    sameLabel idx lab (ix2 i j) = IntOp.cmpi .eq (rowLabel idx lab (ix1 i)) (lab (ix1 j)) := by
  unfold sameLabel
  show IntOp.cmpi .eq
      (broadcastInDim S1024x100000 ![0, 1] bcast_S1024x1_S1024x100000_0_1
        (shapeCast S1024x1 (rowLabel idx lab) shapeCasts_S1024_S1024x1) (ix2 i j))
      (broadcastInDim S1024x100000 ![0, 1] bcast_S1x100000_S1024x100000_0_1
        (broadcastInDim S1x100000 ![1] bcast_S100000_S1x100000_1 lab) (ix2 i j)) = _
  rw [bcastCol_apply, colOf_apply, bcastRow_apply, rowOf_apply]

/-- The row numbers read as themselves. -/
theorem rowIota_apply (i : Fin 1024) : rowIota (ix1 i) = BitVec.ofNat 32 i.val := by
  unfold rowIota
  have hi : (BitVec.ofNat 32 i.val).toNat = i.val := toNat_ofNat_small _ (by have := i.isLt; omega)
  exact Cert.Lib.normIdx_apply (iotaInDim S1024 32 0) _ _ (ix1 i) i.val rfl
    (show (BitVec.ofNat 32 i.val).toInt = (i.val : Int) by
      rw [toInt_of_small _ (by rw [hi]; have := i.isLt; omega), hi])

/-- The scatter's index pair of row i: first component the row number … -/
theorem pairIdx_apply0 (i : Fin 1024) : pairIdx idx (ix2 i (0 : Fin 2)) = BitVec.ofNat 32 i.val := by
  unfold pairIdx
  rw [concatenate_pair_apply_left (t := S1024x2) (s₁ := S1024x1) (s₂ := S1024x1) (1 : Fin 2) _ _
    concatenates_S1024x1_S1024x1_S1024x2_d1 (ix2 i (0 : Fin 2)) rfl
    (Cert.Lib.edgeIdx i) (fun b => by
      match b with
      | ⟨0, _⟩ => rfl
      | ⟨1, _⟩ => rfl)]
  rw [Cert.Lib.colBroadcast_apply]
  exact rowIota_apply i

/-- … second component the target column. -/
theorem pairIdx_apply1 (i : Fin 1024) (h : (idx (ix1 i)).toNat < 100000) :
    pairIdx idx (ix2 i (1 : Fin 2)) = idx (ix1 i) := by
  unfold pairIdx
  rw [concatenate_pair_apply_right (t := S1024x2) (s₁ := S1024x1) (s₂ := S1024x1) (1 : Fin 2) _ _
    concatenates_S1024x1_S1024x1_S1024x2_d1 (ix2 i (1 : Fin 2)) rfl rfl
    (Cert.Lib.edgeIdx i) (fun b hb => by
      match b with
      | ⟨0, _⟩ => rfl
      | ⟨1, _⟩ => exact absurd rfl hb) rfl]
  exact startCol_apply idx i h

end Cert.ReferenceIdeal.RefValue

end
-- ==== Proof.LibScatterSet.lean ====
/-
  `stablehlo.scatter` whose body returns the update (a "set"), read at an index.

  Part 1 (any dimension numbers): the fold that defines the scatter overwrites, at each update index in row-major
  order, the element of the result the update index lands on. Read at a result index `i`: if no update index lands on
  `i` the operand's element is still there (`scatter_set_miss`); if the landing map is injective and update index `j`
  lands on `i`, the element is the update's `j`-th (`scatter_set_hit`).

  Part 2 (two instances): a small array written into the top-left corner of a larger one, ONE scatter index equal to
  `0`: rows `[R, D]` into `[R', D]` (`padRows_apply`) and a vector `[R]` into `[R']` (`padVec_apply`), `R ≤ R'`.
-/
import Idealize.ShloMosaic.Lib.ValueIdx

noncomputable section

namespace Cert.Lib

open Idealize.ShloMosaic Idealize.ShloMosaic.ValueIdx

/-! ## A fold of overwriting steps, read at one place -/

section Fold
variable {ι κ β : Type}

/-- A left fold of steps each of which leaves place `i` alone leaves place `i` alone. -/
theorem foldl_step_miss (step : (κ → β) → ι → (κ → β)) (tgt : ι → Option κ) (i : κ)
    (hmiss : ∀ r n, tgt n ≠ some i → step r n i = r i) :
    ∀ (L : List ι) (x : κ → β), (∀ n ∈ L, tgt n ≠ some i) → (L.foldl step x) i = x i := by
  intro L
  induction L with
  | nil => intro x _; rfl
  | cons n L ih =>
    intro x h
    rw [List.foldl_cons, ih (step x n) (fun m hm => h m (List.mem_cons_of_mem _ hm))]
    exact hmiss x n (h n List.mem_cons_self)

/-- A left fold over a list without repeats of steps that overwrite place `tgt n` by `val n`, when at most one `n`
    has `tgt n = some i`: at place `i` the result is `val n₀` for the `n₀` of the list with `tgt n₀ = some i`. -/
theorem foldl_step_hit (step : (κ → β) → ι → (κ → β)) (tgt : ι → Option κ) (val : ι → β) (i : κ)
    (hhit : ∀ r n, tgt n = some i → step r n i = val n)
    (hmiss : ∀ r n, tgt n ≠ some i → step r n i = r i)
    (hinj : ∀ n n', tgt n = some i → tgt n' = some i → n = n') :
    ∀ (L : List ι) (x : κ → β) (n₀ : ι), L.Nodup → n₀ ∈ L → tgt n₀ = some i → (L.foldl step x) i = val n₀ := by
  intro L
  induction L with
  | nil => intro x n₀ _ hmem _; exact absurd hmem List.not_mem_nil
  | cons n L ih =>
    intro x n₀ hnd hmem h0
    rw [List.foldl_cons]
    rcases List.mem_cons.mp hmem with rfl | hmem'
    · rw [foldl_step_miss step tgt i hmiss L (step x n₀) (fun m hm hmi => by
        have : m = n₀ := hinj m n₀ hmi h0
        subst this
        exact (List.nodup_cons.mp hnd).1 hm)]
      exact hhit x n₀ h0
    · exact ih (step x n) n₀ (List.nodup_cons.mp hnd).2 hmem' h0

end Fold

/-! ## The scatter that sets, read at an index -/

section Generic
variable {s si u : Shape} {α : Type} {w : Nat}

/-- One step of the scatter's fold at an update index that lands on `i` writes the update's element at `i`. -/
theorem scatter_step_hit (d : ScatterDims s si u) (idx : IVec si w) (upd : u.Idx → α) (r : s.Idx → α)
    (n : Fin u.numel) (i : s.Idx) (h : d.resultIdx? (u.rowMajor.symm n) idx = some i) :
    (match d.resultIdx? (u.rowMajor.symm n) idx with
      | some i => fun i' => if i' = i then (fun (_ b : α) => b) (r i) (upd (u.rowMajor.symm n)) else r i'
      | none => r) i = upd (u.rowMajor.symm n) := by
  rw [h]
  exact if_pos rfl

/-- One step of the scatter's fold at an update index that does not land on `i` leaves the element at `i`. -/
theorem scatter_step_miss (d : ScatterDims s si u) (idx : IVec si w) (upd : u.Idx → α) (r : s.Idx → α)
    (n : Fin u.numel) (i : s.Idx) (h : d.resultIdx? (u.rowMajor.symm n) idx ≠ some i) :
    (match d.resultIdx? (u.rowMajor.symm n) idx with
      | some i => fun i' => if i' = i then (fun (_ b : α) => b) (r i) (upd (u.rowMajor.symm n)) else r i'
      | none => r) i = r i := by
  cases hc : d.resultIdx? (u.rowMajor.symm n) idx with
  | none => rfl
  | some i₁ =>
    have hne : i ≠ i₁ := fun e => h (by rw [hc, e])
    exact if_neg hne

/-- THE SETTING SCATTER AT AN INDEX NO UPDATE LANDS ON: the operand's element. -/
theorem scatter_set_miss (d : ScatterDims s si u) (x : s.Idx → α) (idx : IVec si w) (upd : u.Idx → α) (i : s.Idx)
    (h : ∀ j, d.resultIdx? j idx ≠ some i) :
    Host.scatter d (fun _ b => b) x idx upd i = x i := by
  unfold Host.scatter
  exact foldl_step_miss _ (fun n => d.resultIdx? (u.rowMajor.symm n) idx) i
    (fun r n hn => scatter_step_miss d idx upd r n i hn) _ x (fun n _ => h _)

/-- THE SETTING SCATTER AT THE INDEX UPDATE INDEX `j` LANDS ON, when no two update indices land on the same index:
    the update's element at `j`. -/
theorem scatter_set_hit (d : ScatterDims s si u) (x : s.Idx → α) (idx : IVec si w) (upd : u.Idx → α)
    (hinj : ∀ j j' i, d.resultIdx? j idx = some i → d.resultIdx? j' idx = some i → j = j')
    (j : u.Idx) (i : s.Idx) (h : d.resultIdx? j idx = some i) :
    Host.scatter d (fun _ b => b) x idx upd i = upd j := by
  unfold Host.scatter
  have hj : u.rowMajor.symm (u.rowMajor j) = j := u.rowMajor.symm_apply_apply j
  have key := foldl_step_hit
    (fun (r : s.Idx → α) (n : Fin u.numel) =>
      match d.resultIdx? (u.rowMajor.symm n) idx with
      | some i => fun i' => if i' = i then (fun (_ b : α) => b) (r i) (upd (u.rowMajor.symm n)) else r i'
      | none => r)
    (fun n => d.resultIdx? (u.rowMajor.symm n) idx) (fun n => upd (u.rowMajor.symm n)) i
    (fun r n hn => scatter_step_hit d idx upd r n i hn)
    (fun r n hn => scatter_step_miss d idx upd r n i hn)
    (fun n n' hn hn' => u.rowMajor.symm.injective (hinj _ _ i hn hn'))
    (List.finRange u.numel) x (u.rowMajor j) (List.nodup_finRange _) (List.mem_finRange _) (by rw [hj]; exact h)
  rw [hj] at key
  exact key

end Generic

/-! ## Rows written into the top-left corner: `[R, D]` into `[R', D]` at the one scatter index `0` -/

section PadRows
variable {α : Type} {w : Nat}

/-- The dimension numbers of `zeros([R', D]).at[:R, :].set(v)`: both update axes are window axes going to the operand's
    two axes, no inserted axis, the one-component index vector (axis `0` of the scatter indices `[1]`) starts axis
    `0`; their conditions `wf` are decided on a program's literal shapes. -/
abbrev padRowsDims (R R' D : Nat) (wf : ScatterDims.WF ⟨2, ![R', D]⟩ ⟨1, ![1]⟩ ⟨2, ![R, D]⟩ [0, 1] [] [0] 0) :
    ScatterDims ⟨2, ![R', D]⟩ ⟨1, ![1]⟩ ⟨2, ![R, D]⟩ where
  updateWindowDims := [0, 1]
  insertedWindowDims := []
  scatterDimsToOperandDims := [0]
  indexVectorDim := 0
  wf := wf

/-- With every scatter index `0` the window starts at `0` on every axis. -/
theorem padRows_start {R R' D : Nat} (wf : ScatterDims.WF ⟨2, ![R', D]⟩ ⟨1, ![1]⟩ ⟨2, ![R, D]⟩ [0, 1] [] [0] 0)
    (idx : IVec ⟨1, ![1]⟩ w) (h0 : ∀ k, (idx k).toInt = 0) (j : (⟨2, ![R, D]⟩ : Shape).Idx)
    (a : Fin 2) : (padRowsDims R R' D wf).start j idx a = 0 := by
  unfold ScatterDims.start
  split
  · exact h0 _
  · rfl

/-- The window coordinate on an operand axis is the update index's coordinate on the same axis. -/
theorem padRows_window {R R' D : Nat} (wf : ScatterDims.WF ⟨2, ![R', D]⟩ ⟨1, ![1]⟩ ⟨2, ![R, D]⟩ [0, 1] [] [0] 0)
    (j : (⟨2, ![R, D]⟩ : Shape).Idx) (a : Fin 2) : (padRowsDims R R' D wf).window j a = (j a).val := by
  have hm : a ∈ (padRowsDims R R' D wf).sKept := List.mem_filter.2 ⟨List.mem_finRange a, by simp⟩
  unfold ScatterDims.window
  rw [dif_pos hm]
  match a with
  | ⟨0, _⟩ => rfl
  | ⟨1, _⟩ => rfl

/-- Update index `(p, q)` lands on operand index `(p, q)`. -/
theorem padRows_resultIdx {R R' D : Nat} (wf : ScatterDims.WF ⟨2, ![R', D]⟩ ⟨1, ![1]⟩ ⟨2, ![R, D]⟩ [0, 1] [] [0] 0)
    (idx : IVec ⟨1, ![1]⟩ w) (h0 : ∀ k, (idx k).toInt = 0) (hR : R ≤ R') (j : (⟨2, ![R, D]⟩ : Shape).Idx) :
    (padRowsDims R R' D wf).resultIdx? j idx
      = some (ix2 ⟨(j 0).val, lt_of_lt_of_le (idx2_lt0 j) hR⟩ ⟨(j 1).val, idx2_lt1 j⟩) := by
  have hc : ∀ a : Fin 2, 0 ≤ (padRowsDims R R' D wf).start j idx a + (padRowsDims R R' D wf).window j a ∧
      (padRowsDims R R' D wf).start j idx a + (padRowsDims R R' D wf).window j a
        < ((⟨2, ![R', D]⟩ : Shape).size a : Nat) := by
    intro a
    rw [padRows_start wf idx h0 j a, padRows_window wf j a]
    match a with
    | ⟨0, _⟩ => have := idx2_lt0 j; exact ⟨by omega, by show (0 : Int) + ((j 0).val : Int) < (R' : Int); omega⟩
    | ⟨1, _⟩ => have := idx2_lt1 j; exact ⟨by omega, by show (0 : Int) + ((j 1).val : Int) < (D : Int); omega⟩
  unfold ScatterDims.resultIdx?
  rw [dif_pos hc]
  congr 1
  funext a
  refine Fin.ext ?_
  show ((padRowsDims R R' D wf).start j idx a + (padRowsDims R R' D wf).window j a).toNat = _
  rw [padRows_start wf idx h0 j a, padRows_window wf j a]
  match a with
  | ⟨0, _⟩ => show ((0 : Int) + ((j 0).val : Int)).toNat = (j 0).val; omega
  | ⟨1, _⟩ => show ((0 : Int) + ((j 1).val : Int)).toNat = (j 1).val; omega

/-- THE ROWS WRITTEN INTO THE CORNER, READ INSIDE THE CORNER: the written array's element. -/
theorem padRows_apply {R R' D : Nat} (wf : ScatterDims.WF ⟨2, ![R', D]⟩ ⟨1, ![1]⟩ ⟨2, ![R, D]⟩ [0, 1] [] [0] 0)
    (x : (⟨2, ![R', D]⟩ : Shape).Idx → α) (idx : IVec ⟨1, ![1]⟩ w) (upd : (⟨2, ![R, D]⟩ : Shape).Idx → α)
    (h0 : ∀ k, (idx k).toInt = 0) (hR : R ≤ R') (p : Fin R) (q : Fin D) :
    Host.scatter (padRowsDims R R' D wf) (fun _ b => b) x idx upd (ix2 ⟨p.val, lt_of_lt_of_le p.isLt hR⟩ q)
      = upd (ix2 p q) := by
  refine scatter_set_hit (padRowsDims R R' D wf) x idx upd ?_ (ix2 p q) _ ?_
  · intro j j' i hj hj'
    rw [padRows_resultIdx wf idx h0 hR j] at hj
    rw [padRows_resultIdx wf idx h0 hR j'] at hj'
    have e := (Option.some.inj hj).trans (Option.some.inj hj').symm
    have e0 : (j 0).val = (j' 0).val := by
      have := congrArg Fin.val (congrFun e ⟨0, Nat.zero_lt_two⟩); exact this
    have e1 : (j 1).val = (j' 1).val := by
      have := congrArg Fin.val (congrFun e ⟨1, Nat.one_lt_two⟩); exact this
    rw [eq_ix2 j, eq_ix2 j', Fin.ext e0, Fin.ext e1]
  · exact padRows_resultIdx wf idx h0 hR (ix2 p q)

end PadRows

/-! ## A vector written into the head of a longer one: `[R]` into `[R']` at the one scatter index `0` -/

section PadVec
variable {α : Type} {w : Nat}

/-- The dimension numbers of `zeros([R']).at[:R].set(v)`: the update's axis is a window axis going to the operand's
    axis, no inserted axis, the one-component index vector (axis `0` of the scatter indices `[1]`) starts axis `0`;
    their conditions `wf` are decided on a program's literal shapes. -/
abbrev padVecDims (R R' : Nat) (wf : ScatterDims.WF ⟨1, ![R']⟩ ⟨1, ![1]⟩ ⟨1, ![R]⟩ [0] [] [0] 0) :
    ScatterDims ⟨1, ![R']⟩ ⟨1, ![1]⟩ ⟨1, ![R]⟩ where
  updateWindowDims := [0]
  insertedWindowDims := []
  scatterDimsToOperandDims := [0]
  indexVectorDim := 0
  wf := wf

/-- With every scatter index `0` the window starts at `0`. -/
theorem padVec_start {R R' : Nat} (wf : ScatterDims.WF ⟨1, ![R']⟩ ⟨1, ![1]⟩ ⟨1, ![R]⟩ [0] [] [0] 0)
    (idx : IVec ⟨1, ![1]⟩ w) (h0 : ∀ k, (idx k).toInt = 0) (j : (⟨1, ![R]⟩ : Shape).Idx)
    (a : Fin 1) : (padVecDims R R' wf).start j idx a = 0 := by
  unfold ScatterDims.start
  split
  · exact h0 _
  · rfl

/-- The window coordinate on the operand's axis is the update index's coordinate. -/
theorem padVec_window {R R' : Nat} (wf : ScatterDims.WF ⟨1, ![R']⟩ ⟨1, ![1]⟩ ⟨1, ![R]⟩ [0] [] [0] 0)
    (j : (⟨1, ![R]⟩ : Shape).Idx) (a : Fin 1) : (padVecDims R R' wf).window j a = (j a).val := by
  have hm : a ∈ (padVecDims R R' wf).sKept := List.mem_filter.2 ⟨List.mem_finRange a, by simp⟩
  unfold ScatterDims.window
  rw [dif_pos hm]
  match a with
  | ⟨0, _⟩ => rfl

/-- Update index `p` lands on operand index `p`. -/
theorem padVec_resultIdx {R R' : Nat} (wf : ScatterDims.WF ⟨1, ![R']⟩ ⟨1, ![1]⟩ ⟨1, ![R]⟩ [0] [] [0] 0)
    (idx : IVec ⟨1, ![1]⟩ w) (h0 : ∀ k, (idx k).toInt = 0) (hR : R ≤ R') (j : (⟨1, ![R]⟩ : Shape).Idx) :
    (padVecDims R R' wf).resultIdx? j idx = some (ix1 ⟨(j 0).val, lt_of_lt_of_le (j 0).isLt hR⟩) := by
  have hj : (j 0).val < R := (j 0).isLt
  have hc : ∀ a : Fin 1, 0 ≤ (padVecDims R R' wf).start j idx a + (padVecDims R R' wf).window j a ∧
      (padVecDims R R' wf).start j idx a + (padVecDims R R' wf).window j a
        < ((⟨1, ![R']⟩ : Shape).size a : Nat) := by
    intro a
    rw [padVec_start wf idx h0 j a, padVec_window wf j a]
    match a with
    | ⟨0, _⟩ => exact ⟨by omega, by show (0 : Int) + ((j 0).val : Int) < (R' : Int); omega⟩
  unfold ScatterDims.resultIdx?
  rw [dif_pos hc]
  congr 1
  funext a
  refine Fin.ext ?_
  show ((padVecDims R R' wf).start j idx a + (padVecDims R R' wf).window j a).toNat = _
  rw [padVec_start wf idx h0 j a, padVec_window wf j a]
  match a with
  | ⟨0, _⟩ => show ((0 : Int) + ((j 0).val : Int)).toNat = (j 0).val; omega

/-- THE VECTOR WRITTEN INTO THE HEAD, READ INSIDE THE HEAD: the written vector's element. -/
theorem padVec_apply {R R' : Nat} (wf : ScatterDims.WF ⟨1, ![R']⟩ ⟨1, ![1]⟩ ⟨1, ![R]⟩ [0] [] [0] 0)
    (x : (⟨1, ![R']⟩ : Shape).Idx → α) (idx : IVec ⟨1, ![1]⟩ w) (upd : (⟨1, ![R]⟩ : Shape).Idx → α)
    (h0 : ∀ k, (idx k).toInt = 0) (hR : R ≤ R') (p : Fin R) :
    Host.scatter (padVecDims R R' wf) (fun _ b => b) x idx upd (ix1 ⟨p.val, lt_of_lt_of_le p.isLt hR⟩)
      = upd (ix1 p) := by
  refine scatter_set_hit (padVecDims R R' wf) x idx upd ?_ (ix1 p) _ ?_
  · intro j j' i hj hj'
    rw [padVec_resultIdx wf idx h0 hR j] at hj
    rw [padVec_resultIdx wf idx h0 hR j'] at hj'
    have e := (Option.some.inj hj).trans (Option.some.inj hj').symm
    have e0 : (j 0).val = (j' 0).val := by
      have := congrArg Fin.val (congrFun e ⟨0, Nat.zero_lt_one⟩); exact this
    rw [eq_ix1 j, eq_ix1 j', Fin.ext e0]
  · exact padVec_resultIdx wf idx h0 hR (ix1 p)

end PadVec

end Cert.Lib

end
-- ==== Proof.RefReadScatter.lean ====
/-
  The setting scatter of zero read at an index.

  The scatter takes one index pair (row, column) per update and writes the update's element there. Part 1, for
  any extents: update e lands exactly at the entry whose row and column are the two components of its index
  pair, read signed. Part 2, the program's: row i's pair is (i, target column of i), so no two updates land
  together, entry (i, j) is overwritten by zero exactly when j is row i's target column, and keeps the
  exponential of its score otherwise.
-/
import proofs.«211976_g36739150250640_fold_wed_m_914_8_alg».proof.Proof.RefReadInt
import proofs.«211976_g36739150250640_fold_wed_m_914_8_alg».proof.Proof.LibScatterSet

noncomputable section

namespace Cert.ReferenceIdeal.RefValue

open Cert.ReferenceIdeal Cert.ReferenceIdeal.Gen Idealize.ShloMosaic Idealize.ShloMosaic.ValueIdx

/-! ## One index pair per update: operand [R, C], indices [E, 2], updates [E] -/

section Pair
variable {α : Type} {w : Nat}

/-- The dimension numbers of `x.at[rows, cols].set(v)`: no window axis, both operand axes inserted and named by
    the two components of the index vector, which lies along axis 1 of the indices. -/
abbrev pairDims (R C E : Nat) (wf : ScatterDims.WF ⟨2, ![R, C]⟩ ⟨2, ![E, 2]⟩ ⟨1, ![E]⟩ [] [0, 1] [0, 1] 1) :
    ScatterDims ⟨2, ![R, C]⟩ ⟨2, ![E, 2]⟩ ⟨1, ![E]⟩ where
  updateWindowDims := []
  insertedWindowDims := [0, 1]
  scatterDimsToOperandDims := [0, 1]
  indexVectorDim := 1
  wf := wf

variable {R C E : Nat} (wf : ScatterDims.WF ⟨2, ![R, C]⟩ ⟨2, ![E, 2]⟩ ⟨1, ![E]⟩ [] [0, 1] [0, 1] 1)
  (pidx : IVec ⟨2, ![E, 2]⟩ w) (e : (⟨1, ![E]⟩ : Shape).Idx)

/-- On the row axis the window starts at the first component of update e's pair, read signed … -/
theorem pair_start0 : (pairDims R C E wf).start e pidx 0 = (pidx (ix2 (e 0) (0 : Fin 2))).toInt := by
  unfold ScatterDims.start
  have hm : (0 : Fin 2) ∈ (pairDims R C E wf).scatterDimsToOperandDims :=
    (show (0 : Fin 2) ∈ ([0, 1] : List (Fin 2)) by decide)
  rw [dif_pos hm]
  have hsi : (pairDims R C E wf).siIdx e ⟨List.idxOf (0 : Fin 2) (pairDims R C E wf).scatterDimsToOperandDims,
      List.idxOf_lt_length_iff.2 hm⟩ = ix2 (e 0) (0 : Fin 2) := by
    funext b; refine Fin.ext ?_
    match b with
    | ⟨0, _⟩ => rfl
    | ⟨1, _⟩ => rfl
  exact congrArg (fun k => (pidx k).toInt) hsi

/-- … and on the column axis at the second. -/
theorem pair_start1 : (pairDims R C E wf).start e pidx 1 = (pidx (ix2 (e 0) (1 : Fin 2))).toInt := by
  unfold ScatterDims.start
  have hm : (1 : Fin 2) ∈ (pairDims R C E wf).scatterDimsToOperandDims :=
    (show (1 : Fin 2) ∈ ([0, 1] : List (Fin 2)) by decide)
  rw [dif_pos hm]
  have hsi : (pairDims R C E wf).siIdx e ⟨List.idxOf (1 : Fin 2) (pairDims R C E wf).scatterDimsToOperandDims,
      List.idxOf_lt_length_iff.2 hm⟩ = ix2 (e 0) (1 : Fin 2) := by
    funext b; refine Fin.ext ?_
    match b with
    | ⟨0, _⟩ => rfl
    | ⟨1, _⟩ => rfl
  exact congrArg (fun k => (pidx k).toInt) hsi

/-- The window has no extent on either axis. -/
theorem pair_window (a : Fin 2) : (pairDims R C E wf).window e a = 0 := by
  have h0 : a ∉ (pairDims R C E wf).sKept := by
    match a with
    | ⟨0, _⟩ => exact (show (0 : Fin 2) ∉ (List.finRange 2).filter (· ∉ ([0, 1] : List (Fin 2))) by decide)
    | ⟨1, _⟩ => exact (show (1 : Fin 2) ∉ (List.finRange 2).filter (· ∉ ([0, 1] : List (Fin 2))) by decide)
  unfold ScatterDims.window
  rw [dif_neg h0]

/-- WHERE UPDATE e LANDS: at entry i exactly when its pair, read signed, is (row of i, column of i). -/
theorem pair_hit_iff (i : (⟨2, ![R, C]⟩ : Shape).Idx) :
    (pairDims R C E wf).resultIdx? e pidx = some i ↔
      (pidx (ix2 (e 0) (0 : Fin 2))).toInt = ((i 0).val : Int) ∧ (pidx (ix2 (e 0) (1 : Fin 2))).toInt = ((i 1).val : Int) := by
  have hi0 := idx2_lt0 i
  have hi1 := idx2_lt1 i
  constructor
  · intro h
    unfold ScatterDims.resultIdx? at h
    split at h
    · rename_i hb
      have hi := Option.some.inj h
      subst hi
      have h0 := hb 0
      have h1 := hb 1
      rw [pair_start0, pair_window] at h0
      rw [pair_start1, pair_window] at h1
      constructor
      · show _ = ((((pairDims R C E wf).start e pidx 0 + (pairDims R C E wf).window e 0).toNat : Nat) : Int)
        rw [pair_start0, pair_window]
        omega
      · show _ = ((((pairDims R C E wf).start e pidx 1 + (pairDims R C E wf).window e 1).toNat : Nat) : Int)
        rw [pair_start1, pair_window]
        omega
    · exact absurd h (by simp)
  · intro ⟨h0, h1⟩
    have hb : ∀ a, 0 ≤ (pairDims R C E wf).start e pidx a + (pairDims R C E wf).window e a ∧
        (pairDims R C E wf).start e pidx a + (pairDims R C E wf).window e a < (⟨2, ![R, C]⟩ : Shape).size a := by
      intro a
      match a with
      | ⟨0, _⟩ =>
        show 0 ≤ (pairDims R C E wf).start e pidx 0 + (pairDims R C E wf).window e 0 ∧
          (pairDims R C E wf).start e pidx 0 + (pairDims R C E wf).window e 0 < (R : Int)
        rw [pair_start0, pair_window, h0]
        omega
      | ⟨1, _⟩ =>
        show 0 ≤ (pairDims R C E wf).start e pidx 1 + (pairDims R C E wf).window e 1 ∧
          (pairDims R C E wf).start e pidx 1 + (pairDims R C E wf).window e 1 < (C : Int)
        rw [pair_start1, pair_window, h1]
        omega
    unfold ScatterDims.resultIdx?
    refine (dif_pos hb).trans ?_
    congr 1
    funext a
    refine Fin.ext ?_
    match a with
    | ⟨0, _⟩ =>
      show ((pairDims R C E wf).start e pidx 0 + (pairDims R C E wf).window e 0).toNat = (i 0).val
      rw [pair_start0, pair_window, h0]
      omega
    | ⟨1, _⟩ =>
      show ((pairDims R C E wf).start e pidx 1 + (pairDims R C E wf).window e 1).toNat = (i 1).val
      rw [pair_start1, pair_window, h1]
      omega

end Pair

/-! ## The program's scatter -/

variable (x : FVec Ideal S1024x100000 .f32) (idx : IVec S1024 32)

/-- Update e of the program's scatter lands at entry (i, j) exactly when e is row i and j is row i's target
    column. -/
theorem lands_iff (hall : ∀ i : Fin 1024, (idx (ix1 i)).toNat < 100000) (e i : Fin 1024) (j : Fin 100000) :
    (pairDims 1024 100000 1024 scatter_S1024x100000_S1024x2_S1024_n_01_01_1_wf).resultIdx? (ix1 e) (pairIdx idx) = some (ix2 i j)
      ↔ e.val = i.val ∧ (idx (ix1 e)).toNat = j.val := by
  rw [pair_hit_iff]
  show (pairIdx idx (ix2 e (0 : Fin 2))).toInt = ((i.val : Nat) : Int) ∧ (pairIdx idx (ix2 e (1 : Fin 2))).toInt = ((j.val : Nat) : Int) ↔ _
  have he : (BitVec.ofNat 32 e.val).toNat = e.val := toNat_ofNat_small _ (by have := e.isLt; omega)
  rw [pairIdx_apply0, pairIdx_apply1 idx e (hall e), toInt_of_small _ (hall e),
    toInt_of_small _ (by rw [he]; have := e.isLt; omega), he]
  omega

/-- THE ZEROED EXPONENTIALS at (i, j): zero in the row's target column, the exponential of the score elsewhere. -/
theorem expZeroed_apply (hall : ∀ i : Fin 1024, (idx (ix1 i)).toNat < 100000) (i : Fin 1024) (j : Fin 100000) :
    expZeroed x idx (ix2 i j) = if j.val = (idx (ix1 i)).toNat then 0 else Ideal.exp (x (ix2 i j)) := by
  unfold expZeroed
  show Host.scatter (pairDims 1024 100000 1024 scatter_S1024x100000_S1024x2_S1024_n_01_01_1_wf) (fun _ b => b)
      (Host.exp x) (pairIdx idx)
      (broadcastInDim S1024 ![] bcast_S_S1024 (constant (F := Ideal) S_ .f32 0x00000000#32)) (ix2 i j) = _
  by_cases hj : j.val = (idx (ix1 i)).toNat
  · rw [if_pos hj]
    refine (Cert.Lib.scatter_set_hit _ _ _ _ (fun e e' t he he' => ?_) (ix1 i) (ix2 i j)
      ((lands_iff idx hall i i j).mpr ⟨rfl, hj.symm⟩)).trans ?_
    · obtain ⟨e0, rfl⟩ : ∃ a : Fin 1024, e = ix1 a := ⟨e 0, eq_ix1 e⟩
      obtain ⟨e1, rfl⟩ : ∃ a : Fin 1024, e' = ix1 a := ⟨e' 0, eq_ix1 e'⟩
      obtain ⟨t0, t1, rfl⟩ : ∃ (a : Fin 1024) (b : Fin 100000), t = ix2 a b := ⟨t 0, t 1, eq_ix2 t⟩
      have h1 := ((lands_iff idx hall e0 t0 t1).mp he).1
      have h2 := ((lands_iff idx hall e1 t0 t1).mp he').1
      rw [show e0 = e1 from Fin.ext (h1.trans h2.symm)]
    · show Ideal.ofBits .f32 0x00000000#32 = 0
      exact Ideal.ofBits_zero_f32
  · rw [if_neg hj]
    refine (Cert.Lib.scatter_set_miss _ _ _ _ (ix2 i j) (fun e he => ?_)).trans rfl
    obtain ⟨e0, rfl⟩ : ∃ a : Fin 1024, e = ix1 a := ⟨e 0, eq_ix1 e⟩
    obtain ⟨h1, h2⟩ := (lands_iff idx hall e0 i j).mp he
    rw [show e0 = i from Fin.ext h1] at h2
    exact hj h2.symm

end Cert.ReferenceIdeal.RefValue

end
-- ==== Proof.RefReadSums.lean ====
/-
  The two row sums read at a row, and matched with the specification.

  Each host sum along the columns is, at row i, the initial value zero plus the sum over j of the operand at
  (i, j). For the plain sum the operand is the zeroed exponential, which is the specification's entry, so the
  sum is its z. For the masked sum the operand is the zeroed exponential times the label comparison's bit read
  as a number: the entry itself where column j carries row i's label and zero elsewhere, and row i's label is
  the label of its target column, so the sum is the specification's p.
-/
import proofs.«211976_g36739150250640_fold_wed_m_914_8_alg».proof.Proof.RefReadScatter
import proofs.«211976_g36739150250640_fold_wed_m_914_8_alg».proof.Proof.Spec
import Idealize.ShloMosaic.PureOps.Ideal.Laws

noncomputable section

namespace Cert.ReferenceIdeal.RefValue

open Cert.ReferenceIdeal Cert.ReferenceIdeal.Gen Idealize.ShloMosaic Idealize.ShloMosaic.ValueIdx

variable (x : FVec Ideal S1024x100000 .f32) (idx : IVec S1024 32) (lab : IVec S100000 32)

/-- The columns are summed out of [1024, 100000] into [1024]. -/
theorem red_rows : Shape.Reduces S1024x100000 [1] S1024 := by decide

/-- Column k inserted at row i is the entry (i, k). -/
theorem lift_rows (h : Shape.Reduces S1024x100000 [1] S1024) (i : Fin 1024) (k : Fin 100000) :
    h.lift (ix1 i) k = ix2 i k := by
  funext a
  apply Fin.ext
  match a with
  | ⟨0, _⟩ => rfl
  | ⟨1, _⟩ => rfl

/-- The splat of the zero word read at the scalar's index is zero. -/
theorem zero_init : (constant (F := Ideal) S_ .f32 0x00000000#32) (Shape.Idx.first h_S_) = (0 : EReal) :=
  Ideal.ofBits_zero_f32

/-- THE PLAIN ROW SUM at row i. -/
theorem sumAll_apply (i : Fin 1024) : sumAll x idx (ix1 i) = ∑ j : Fin 100000, expZeroed x idx (ix2 i j) := by
  unfold sumAll
  rw [hostReduceAdd_apply, Ideal.hostReduceAdd_single reducesTo_S1024x100000_S1024_d1 red_rows, zero_init, zero_add]
  exact Finset.sum_congr rfl fun k _ => congrArg _ (lift_rows red_rows i k)

/-- THE MASKED ROW SUM at row i: each entry times the comparison's bit read as a number. -/
theorem sumSame_apply (i : Fin 1024) :
    sumSame x idx lab (ix1 i)
      = ∑ j : Fin 100000, expZeroed x idx (ix2 i j) * (((sameLabel idx lab (ix2 i j)).toNat : ℝ) : EReal) := by
  unfold sumSame
  rw [hostReduceAdd_apply, Ideal.hostReduceAdd_single reducesTo_S1024x100000_S1024_d1 red_rows, zero_init, zero_add]
  refine Finset.sum_congr rfl fun k _ => ?_
  rw [lift_rows red_rows i k]
  rfl

/-- An extended real times an equality bit read as a number: itself where the words agree, zero where not. -/
theorem mul_eqBit (v : EReal) (a b : BitVec 32) :
    v * (((IntOp.cmpi .eq a b).toNat : ℝ) : EReal) = if b = a then v else 0 := by
  by_cases h : b = a
  · subst h
    have hb : IntOp.cmpi .eq b b = 1#1 := by
      show BitVec.ofBool (b == b) = 1#1
      rw [beq_self_eq_true]; rfl
    rw [hb, if_pos rfl]
    simp
  · have hb : IntOp.cmpi .eq a b = 0#1 := by
      show BitVec.ofBool (a == b) = 0#1
      rw [beq_eq_false_iff_ne.mpr (fun e => h e.symm)]; rfl
    rw [hb, if_neg h]
    simp

variable (hall : ∀ i : Fin 1024, (idx (ix1 i)).toNat < 100000)
include hall

/-- The specification's entry is the zeroed exponential. -/
theorem spec_e_eq (i : Fin 1024) (j : Fin 100000) :
    Cert.Spec.e (fun i j => x (ix2 i j)) (fun i => (idx (ix1 i)).toNat) i j = expZeroed x idx (ix2 i j) :=
  (expZeroed_apply x idx hall i j).symm

/-- The specification's label of the target column is the row's label. -/
theorem spec_yOf_eq (i : Fin 1024) :
    Cert.Spec.yOf (fun j => lab (ix1 j)) (fun i => (idx (ix1 i)).toNat) i = rowLabel idx lab (ix1 i) := by
  rw [rowLabel_apply idx lab hall i]
  unfold Cert.Spec.yOf
  exact dif_pos (hall i)

/-- The plain row sum is the specification's z. -/
theorem sumAll_eq_z (i : Fin 1024) :
    sumAll x idx (ix1 i) = Cert.Spec.z (fun i j => x (ix2 i j)) (fun i => (idx (ix1 i)).toNat) i := by
  rw [sumAll_apply]
  unfold Cert.Spec.z
  exact Finset.sum_congr rfl fun j _ => (spec_e_eq x idx hall i j).symm

/-- The masked row sum is the specification's p. -/
theorem sumSame_eq_p (i : Fin 1024) :
    sumSame x idx lab (ix1 i)
      = Cert.Spec.p (fun i j => x (ix2 i j)) (fun i => (idx (ix1 i)).toNat) (fun j => lab (ix1 j))
          (Cert.Spec.yOf (fun j => lab (ix1 j)) (fun i => (idx (ix1 i)).toNat)) i := by
  rw [sumSame_apply]
  unfold Cert.Spec.p
  refine Finset.sum_congr rfl fun j _ => ?_
  show _ = if lab (ix1 j) = Cert.Spec.yOf (fun j => lab (ix1 j)) (fun i => (idx (ix1 i)).toNat) i
      then Cert.Spec.e (fun i j => x (ix2 i j)) (fun i => (idx (ix1 i)).toNat) i j else 0
  rw [spec_yOf_eq idx lab hall i, spec_e_eq x idx hall i j, sameLabel_apply, mul_eqBit]

end Cert.ReferenceIdeal.RefValue

end
-- ==== Proof.RefValue.lean ====
/-
  The reference's result is the specification's.

  With real scores every zeroed exponential is a real, so both row sums are reals. On reals the division by
  one is the identity and (z − p) + p = z, so the quotient the program forms is p / z. Its test against zero
  is the specification's; where it passes the inner select keeps the quotient and the outer one its
  logarithm, where it fails the outer select gives zero: the row's contribution. The sum over the rows from
  the initial value zero, its negation (−s = 0 − s) and the division by the word of 1024.0 are the
  specification's loss.
-/
import proofs.«211976_g36739150250640_fold_wed_m_914_8_alg».proof.Proof.RefReadSums

noncomputable section

namespace Cert.ReferenceIdeal.RefValue

open Cert.ReferenceIdeal Cert.ReferenceIdeal.Gen Idealize.ShloMosaic Idealize.ShloMosaic.ValueIdx

variable (x : FVec Ideal S1024x100000 .f32) (idx : IVec S1024 32) (lab : IVec S100000 32)

/-! ## The host's float operations at an index, the words kept as variables -/

/-- A splat of the word b over the rows reads the extended real b encodes. -/
theorem splat_apply (b : BitVec FTy.f32.bits) (i : S1024.Idx) :
    broadcastInDim S1024 ![] bcast_S_S1024 (constant (F := Ideal) S_ .f32 b) i = Ideal.ofBits .f32 b := rfl

/-- The host's logarithm at an index. -/
theorem hostLog_apply {s : Shape} (a : FVec Ideal s .f32) (i : s.Idx) : Host.log a i = Ideal.log (a i) := rfl

/-- The host's negation at an index. -/
theorem hostNeg_apply {s : Shape} (a : FVec Ideal s .f32) (i : s.Idx) : Host.negf a i = -(a i) := rfl

/-- The comparison "not equal" of two extended reals, as a bit. -/
theorem cmp_une (a b : EReal) : Ideal.cmp .une a b = BitVec.ofBool (decide (a ≠ b)) := rfl

/-- A finite sum of reals among the extended reals is a real. -/
theorem isReal_sum {ι : Type} (s : Finset ι) (f : ι → EReal) (hf : ∀ j ∈ s, ∃ r : ℝ, f j = (r : EReal)) :
    ∃ r : ℝ, ∑ j ∈ s, f j = (r : EReal) := by
  classical
  induction s using Finset.induction_on with
  | empty => exact ⟨0, by simp⟩
  | insert a s ha ih =>
    obtain ⟨r₁, h₁⟩ := hf a (Finset.mem_insert_self a s)
    obtain ⟨r₂, h₂⟩ := ih (fun j hj => hf j (Finset.mem_insert_of_mem hj))
    exact ⟨r₁ + r₂, by rw [Finset.sum_insert ha, h₁, h₂, EReal.coe_add]⟩

/-- Division by one is the identity. -/
theorem div_one' (v : EReal) : Ideal.div v 1 = v := by
  have h := Ideal.div_coe (y := 1) one_ne_zero v
  simpa using h

/-- A rank-1 index set is its coordinate's range … -/
def idxEquiv1 {n : Nat} : (⟨1, ![n]⟩ : Shape).Idx ≃ Fin n where
  toFun i := i 0
  invFun k := ix1 k
  left_inv i := (eq_ix1 i).symm
  right_inv _ := rfl

/-- … so a sum over it is the sum over the coordinate. -/
theorem sum_idx1 {M : Type} [AddCommMonoid M] {n : Nat} (f : (⟨1, ![n]⟩ : Shape).Idx → M) :
    ∑ i, f i = ∑ k : Fin n, f (ix1 k) := by
  rw [← Equiv.sum_comp (idxEquiv1 (n := n)).symm f]
  rfl

section Rows
variable (hx : ∀ i, ∃ r : ℝ, x i = (r : EReal)) (hall : ∀ i : Fin 1024, (idx (ix1 i)).toNat < 100000)
include hx hall

/-- Every zeroed exponential is a real. -/
theorem expZeroed_real (i : Fin 1024) (j : Fin 100000) : ∃ r : ℝ, expZeroed x idx (ix2 i j) = (r : EReal) := by
  rw [expZeroed_apply x idx hall i j]
  split
  · exact ⟨0, EReal.coe_zero.symm⟩
  · obtain ⟨r, hr⟩ := hx (ix2 i j)
    exact ⟨Real.exp r, by rw [hr]; rfl⟩

/-- The plain row sum is a real. -/
theorem sumAll_real (i : Fin 1024) : ∃ r : ℝ, sumAll x idx (ix1 i) = (r : EReal) := by
  rw [sumAll_apply]
  exact isReal_sum _ _ fun j _ => expZeroed_real x idx hx hall i j

/-- The masked row sum is a real. -/
theorem sumSame_real (i : Fin 1024) : ∃ r : ℝ, sumSame x idx lab (ix1 i) = (r : EReal) := by
  rw [sumSame_apply]
  refine isReal_sum _ _ fun j _ => ?_
  rw [sameLabel_apply, mul_eqBit]
  split
  · exact expZeroed_real x idx hx hall i j
  · exact ⟨0, EReal.coe_zero.symm⟩

/-- THE QUOTIENT at row i is the masked sum over the plain sum. -/
theorem quotient_apply (i : Fin 1024) :
    quotient x idx lab (ix1 i) = Ideal.div (sumSame x idx lab (ix1 i)) (sumAll x idx (ix1 i)) := by
  obtain ⟨a, ha⟩ := sumSame_real x idx lab hx hall i
  obtain ⟨b, hb⟩ := sumAll_real x idx hx hall i
  unfold quotient sumSame1
  simp only [hostDivf_apply, addf_apply, subf_apply]
  rw [splat_apply, Ideal.ofBits_one_f32, div_one', ha, hb, ← EReal.coe_sub, ← EReal.coe_add, sub_add_cancel]

/-- The test against zero at row i, as a bit. -/
theorem nonZero_apply (i : Fin 1024) :
    nonZero x idx lab (ix1 i) = BitVec.ofBool (decide (quotient x idx lab (ix1 i) ≠ 0)) := by
  unfold nonZero
  rw [cmpf_apply, splat_apply, Ideal.cmpf_def, Ideal.ofBits_zero_f32, cmp_une]

/-- THE ROW'S CONTRIBUTION: the logarithm of the quotient where it is not zero, zero elsewhere. -/
theorem rowLog_apply (i : Fin 1024) :
    rowLog x idx lab (ix1 i) = Cert.Spec.rowTerm (sumSame x idx lab (ix1 i)) (sumAll x idx (ix1 i)) := by
  have hq := quotient_apply x idx lab hx hall i
  have hbit := nonZero_apply x idx lab hx hall i
  unfold rowLog Cert.Spec.rowTerm
  simp only [select_apply, hostLog_apply]
  rw [splat_apply, splat_apply, hbit, ← hq]
  by_cases h0 : quotient x idx lab (ix1 i) = 0
  · rw [show decide (quotient x idx lab (ix1 i) ≠ 0) = false from decide_eq_false (fun hne => hne h0),
      if_neg (fun hne => hne h0)]
    exact (select_zero _ _).trans Ideal.ofBits_zero_f32
  · rw [show decide (quotient x idx lab (ix1 i) ≠ 0) = true from decide_eq_true h0, if_pos h0]
    exact (select_one _ _).trans (congrArg Ideal.log (select_one _ _))

end Rows

/-- THE REFERENCE'S RESULT IS THE SPECIFICATION'S, for real scores and target columns that are columns. -/
theorem refOut_eq (x : FVec Ideal Cert.ReferenceIdeal.S1024x100000 .f32) (idx : IVec Cert.ReferenceIdeal.S1024 32)
    (lab : IVec Cert.ReferenceIdeal.S100000 32)
    (hx : ∀ i, ∃ r : ℝ, x i = (r : EReal)) (hidx : ∀ i, (idx i).toNat < 100000) :
    refOut x idx lab = fun _ => Cert.Spec.result (fun i j => x (ValueIdx.ix2 i j)) (fun i => (idx (ValueIdx.ix1 i)).toNat)
      (fun j => lab (ValueIdx.ix1 j)) := by
  have hall : ∀ i : Fin 1024, (idx (ix1 i)).toNat < 100000 := fun i => hidx (ix1 i)
  funext u
  unfold refOut Cert.Spec.result Cert.Spec.loss
  rw [hostDivf_apply, hostNeg_apply, constant_apply, hostReduceAdd_apply,
    Ideal.hostReduceAdd_total reducesTo_S1024_S_d0 (fun b => b.elim0), constant_apply,
    Ideal.ofBits_zero_f32, zero_add, zero_sub, sum_idx1]
  refine congrArg (fun s => Ideal.div (-s) (Ideal.ofBits .f32 0x44800000#32)) ?_
  refine Finset.sum_congr rfl fun k _ => ?_
  rw [rowLog_apply x idx lab hx hall k, sumSame_eq_p x idx lab hall k, sumAll_eq_z x idx hall k]

end Cert.ReferenceIdeal.RefValue

end
-- ==== Proof.PreFacts.lean ====
/-
  What the precondition says of the arguments.

  The predicate is the conjunction of three "all" tests, each a reduction by "and" from the bit one: every
  score's absolute value is below the word of +infinity, every target column is between 0 and 99999 read
  signed, every label between 0 and 999. That its result is one says each reduction is one, and a reduction by
  "and" over all axes that is one met a one at every index. For a target column the two signed comparisons say
  it is not negative and at most 99999, so read unsigned it is below 100000. For a score, at the extended
  reals the word of +infinity is the top element, and the absolute value max(x, −x) of either infinity is the
  top element, which is not below itself: the score is a real.
-/
import proofs.«211976_g36739150250640_fold_wed_m_914_8_alg».proof.Pre_input_domain
import Idealize.ShloMosaic.Lib.ReduceAll
import Idealize.ShloMosaic.Lib.ValueIdx
import Idealize.ShloMosaic.PureOps.Ideal.Laws

noncomputable section

namespace Cert.Proof.Pre

open Idealize.ShloMosaic Cert.Pre_input_domain

/-- The scalar shape has one index. -/
instance : Subsingleton S_.Idx := ⟨fun a b => funext fun d => d.elim0⟩

/-- A 32-bit word between 0 and 99999 read signed is below 100000 read unsigned. -/
theorem toNat_lt_of_range (v : BitVec 32) (h0 : IntOp.cmpi .sge v 0#32 = 1#1) (h1 : IntOp.cmpi .sle v 99999#32 = 1#1) :
    v.toNat < 100000 := by
  rw [IntOp.cmpi_sge] at h0
  rw [IntOp.cmpi_sle] at h1
  have hz : (0#32 : BitVec 32).toInt = 0 := by decide
  have hk : (99999#32 : BitVec 32).toInt = 99999 := by decide
  rw [hz] at h0
  rw [hk] at h1
  have hv := BitVec.toInt_eq_toNat_cond v
  have hlt := v.isLt
  split at hv <;> omega

/-- EVERY TARGET COLUMN IS A COLUMN: below 100000, for any float values (the float test is not opened). -/
theorem idx_lt_of_pre {F : FTy → Type} [FloatOps F] [Cert.Pre_input_domain.Facts]
    (x : FVec F Cert.Pre_input_domain.S1024x100000 .f32) (idx : IVec Cert.Pre_input_domain.S1024 32)
    (lab : IVec Cert.Pre_input_domain.S100000 32)
    (h : Cert.Pre_input_domain.fn (F := F) x idx lab = fun _ => 1#1) : ∀ j, (idx j).toNat < 100000 := by
  intro j
  have h0 := congrFun h ValueIdx.ix0
  dsimp only [fn, fn_part1] at h0
  have h1 := (IntOp.andi_eq_one.1 h0).1
  have h2 := (IntOp.andi_eq_one.1 h1).2
  have h3 := Host.reduce_andi_all _ _ _ _ _ h2 j
  obtain ⟨ha, hb⟩ := IntOp.andi_eq_one.1 h3
  exact toNat_lt_of_range (idx j) ha hb

/-- The float test at an index, at the extended reals, the compared word kept a variable: the absolute value
    max(x, −x) against the extended real the word encodes. -/
theorem finite_bit (b : BitVec FTy.f32.bits) (hb : S_.BroadcastsInDim S1024x100000 (![] : Fin 0 → Fin S1024x100000.rank))
    (x : FVec Ideal S1024x100000 .f32) (i : S1024x100000.Idx) :
    cmpf .olt (Host.absf x) (broadcastInDim S1024x100000 ![] hb (constant (F := Ideal) S_ .f32 b)) i
      = BitVec.ofBool (decide (max (x i) (-(x i)) < Ideal.ofBits .f32 b)) := rfl

/-- The word of +infinity is the top element of the extended reals. -/
theorem ofBits_inf : Ideal.ofBits .f32 0x7F800000#32 = ⊤ := by simp [Ideal.ofBits, Ideal.ieee]

/-- An extended real whose absolute value is below the top element is a real. -/
theorem real_of_abs_lt_top (v : EReal) (hv : max v (-v) < ⊤) : ∃ r : ℝ, v = (r : EReal) := by
  induction v using EReal.rec with
  | bot => simp at hv
  | coe r => exact ⟨r, rfl⟩
  | top => simp at hv

/-- EVERY SCORE IS A REAL. -/
theorem real_of_pre [Cert.Pre_input_domain.Facts] (x : FVec Ideal Cert.Pre_input_domain.S1024x100000 .f32)
    (idx : IVec Cert.Pre_input_domain.S1024 32) (lab : IVec Cert.Pre_input_domain.S100000 32)
    (h : Cert.Pre_input_domain.fn (F := Ideal) x idx lab = fun _ => 1#1) : ∀ i, ∃ r : ℝ, x i = (r : EReal) := by
  intro i
  have h0 := congrFun h ValueIdx.ix0
  dsimp only [fn, fn_part1] at h0
  have h1 := (IntOp.andi_eq_one.1 h0).1
  have h2 := (IntOp.andi_eq_one.1 h1).1
  have h3 := Host.reduce_andi_all _ _ _ _ _ h2 i
  rw [finite_bit, ofBits_inf] at h3
  refine real_of_abs_lt_top (x i) ?_
  by_contra hn
  rw [decide_eq_false hn] at h3
  exact absurd h3 (by decide)

end Cert.Proof.Pre

end
-- ==== Proof.lean ====
/-
  The certificate's proof.

  Both programs compute, from 1024 rows of 100000 scores, a target column per row and a label per column, minus the
  mean over the rows of log (p / z), where z is the row's sum of exponentials with the target column left out and p the
  part of that sum over the columns labelled as the target column (a row whose quotient is zero contributes nothing).
  The kernel first gathers the target columns' labels on the SparseCores (thirty-two tasks of thirty-two indices each),
  then accumulates p and z over fifty blocks of 2000 columns on the TensorCore and forms the result at the last block;
  the reference masks, sums and divides whole arrays. At the ideal instance the two results are one extended real:
  sums regroup freely, and the reference's detour (z − p) + p / 1 returns z because p and z are real when the scores are.
  The frames: under the precondition every index names a column, so the gather's copies all land; each program runs to
  its end and leaves its three arguments as they were. Nothing was rewritten by the ideal pass.
-/
import proofs.«211976_g36739150250640_fold_wed_m_914_8_alg».proof.Defs
import proofs.«211976_g36739150250640_fold_wed_m_914_8_alg».proof.Proof.Gen.Kernel
import proofs.«211976_g36739150250640_fold_wed_m_914_8_alg».proof.Proof.Gen.KernelIdeal
import proofs.«211976_g36739150250640_fold_wed_m_914_8_alg».proof.Proof.Gen.ReferenceIdeal
import proofs.«211976_g36739150250640_fold_wed_m_914_8_alg».proof.Proof.Gen.Pre_input_domain
import proofs.«211976_g36739150250640_fold_wed_m_914_8_alg».proof.Proof.KI.Launch
import proofs.«211976_g36739150250640_fold_wed_m_914_8_alg».proof.Proof.KI.LaunchValue
import proofs.«211976_g36739150250640_fold_wed_m_914_8_alg».proof.Proof.KI.KernelValue
import proofs.«211976_g36739150250640_fold_wed_m_914_8_alg».proof.Proof.KB.Launch
import proofs.«211976_g36739150250640_fold_wed_m_914_8_alg».proof.Proof.KB.LaunchValue
import proofs.«211976_g36739150250640_fold_wed_m_914_8_alg».proof.Proof.RefRun
import proofs.«211976_g36739150250640_fold_wed_m_914_8_alg».proof.Proof.RefValue
import proofs.«211976_g36739150250640_fold_wed_m_914_8_alg».proof.Proof.PreFacts
import Idealize.ShloMosaic.Adequacy
import Idealize.ShloMosaic.Init

noncomputable section

namespace Cert.Proof

open Idealize.ShloMosaic Idealize.SL.Sem

/-- The kernel at the word-level instance: it runs to its end and leaves its arguments unchanged. -/
theorem frame_p : Cert.frame_Kernel := fun m ρ hpre =>
  (θ_run (Cert.Kernel.defs (F := Bits)) _ _).mono
    (fun _ h c => ⟨(h c).2.1.trans (KB.VF_x m c), (h c).2.2.1.trans (KB.VF_i m c), (h c).2.2.2.trans (KB.VF_l m c)⟩)
    (KB.run_main (F := Bits) m ρ fun d j => Pre.idx_lt_of_pre _ _ _ (hpre d) j)

/-- The same at the ideal instance. -/
theorem frame_pi : Cert.frame_KernelIdeal := fun m ρ hpre =>
  (θ_run (Cert.KernelIdeal.defs (F := Ideal)) _ _).mono
    (fun _ h c => ⟨(h c).2.1.trans (KI.VF_x m c), (h c).2.2.1.trans (KI.VF_i m c), (h c).2.2.2.trans (KI.VF_l m c)⟩)
    (KI.run_main (F := Ideal) m ρ fun d j => Pre.idx_lt_of_pre _ _ _ (hpre d) j)

/-- The reference: its run with the result dropped. -/
theorem frame_ri : Cert.frame_ReferenceIdeal := fun m ρ _ =>
  (θ_run (Cert.ReferenceIdeal.defs (F := Ideal)) _ _).mono (fun _ h c => (h c).2) (Cert.ReferenceIdeal.RefValue.run m ρ)

/-- The ideal pass rewrote nothing. -/
theorem preserves : Cert.preserves_Kernel_KernelIdeal := trivial

/-- Both runs end with the one extended real the specification names. -/
theorem algebraic : Cert.algebraic_KernelIdeal_ReferenceIdeal := by
  intro m ρ m' ρ' hpre hagree
  have hidx : ∀ d j, (m (KI.iLoc d) j).toNat < 100000 := fun d j => Pre.idx_lt_of_pre _ _ _ (hpre d) j
  have hx : ∀ d i, ∃ r : ℝ, m (KI.xLoc d) i = (r : EReal) := fun d => Pre.real_of_pre _ _ _ (hpre d)
  refine ⟨fun c => KI.VF (F := Ideal) m c KI.r', ?_, ?_⟩
  · exact (θ_run (Cert.KernelIdeal.defs (F := Ideal)) _ _).mono
      (fun _ h c => ⟨(h c).1, (h c).2.1.trans (KI.VF_x m c), (h c).2.2.1.trans (KI.VF_i m c), (h c).2.2.2.trans (KI.VF_l m c)⟩)
      (KI.run_main (F := Ideal) m ρ hidx)
  · refine (θ_run (Cert.ReferenceIdeal.defs (F := Ideal)) _ _).mono (fun _ h c => ⟨(h c).1.trans ?_, (h c).2⟩)
      (Cert.ReferenceIdeal.RefValue.run m' ρ')
    rw [(hagree c).1, (hagree c).2.1, (hagree c).2.2]
    exact (Cert.ReferenceIdeal.RefValue.refOut_eq _ _ _ (hx c) (hidx c)).trans (KI.kernel_result m c (hx c) (hidx c)).symm

theorem claim : Cert.Claim :=
  ⟨Cert.Kernel.Gen.facts, Cert.KernelIdeal.Gen.facts, Cert.ReferenceIdeal.Gen.facts, Cert.Pre_input_domain.Gen.facts,
    frame_p, frame_pi, frame_ri, preserves, algebraic⟩

end Cert.Proof

end
